-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v219)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v219) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S200000 : Shape := ⟨1, ![200000]⟩
abbrev S2x100000 : Shape := ⟨2, ![2, 100000]⟩
abbrev S50000x512 : Shape := ⟨2, ![50000, 512]⟩
abbrev S16x512 : Shape := ⟨2, ![16, 512]⟩
abbrev S512x512 : Shape := ⟨2, ![512, 512]⟩
abbrev S3x512x512 : Shape := ⟨3, ![3, 512, 512]⟩
abbrev S512 : Shape := ⟨1, ![512]⟩
abbrev S512x256 : Shape := ⟨2, ![512, 256]⟩
abbrev S3x512x256 : Shape := ⟨3, ![3, 512, 256]⟩
abbrev S768x256 : Shape := ⟨2, ![768, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S512x512 : S_.BroadcastsInDim S512x512 (![] : Fin 0 → Fin S512x512.rank)
  reducesTo_S512x512_S_d0_1 : S512x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S3x512x256 : S_.BroadcastsInDim S3x512x256 (![] : Fin 0 → Fin S3x512x256.rank)
  reducesTo_S3x512x256_S_d0_1_2 : S3x512x256.ReducesTo [0, 1, 2] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part5 {F : FTy → Type} [FloatOps F] (main_arg24 : FVec F S256 .f32) (main_arg27 : FVec F S_ .f32) (main_arg28 : FVec F S_ .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S_ .f32 := Host.absf main_arg27
  let main_cst_34 : FVec F S_ .f32 := constant S_ .f32 0x7F800000#32
  let main_v90 : IVec S_ 1 := cmpf .olt main_v89 main_cst_34
  let main_c_35 : IVec S_ 1 := constantI S_ 1 1#1
  let main_v91 : IVec S_ 1 := (fun x v => Host.reduce IntOp.andi x v reducesTo_S_S_d h_S_) main_v90 main_c_35
  let main_v92 : IVec S_ 1 := andi main_v88 main_v91
  let main_v93 : FVec F S_ .f32 := Host.absf main_arg28
  let main_cst_36 : FVec F S_ .f32 := constant S_ .f32 0x7F800000#32
  let main_v94 : IVec S_ 1 := cmpf .olt main_v93 main_cst_36
  let main_c_37 : IVec S_ 1 := constantI S_ 1 1#1
  let main_v95 : IVec S_ 1 := (fun x v => Host.reduce IntOp.andi x v reducesTo_S_S_d h_S_) main_v94 main_c_37
  let main_v96 : IVec S_ 1 := andi main_v92 main_v95
  let main_cst_38 : FVec F S_ .f32 := constant S_ .f32 0x00000000#32
  let main_v97 : FVec F S256 .f32 := broadcastInDim S256 ![] bcast_S_S256 main_cst_38
  let main_v98 : IVec S256 1 := cmpf .oge main_arg24 main_v97
  let main_c_39 : IVec S_ 1 := constantI S_ 1 1#1
  let main_v99 : IVec S_ 1 := (fun x v => Host.reduce IntOp.andi x v reducesTo_S256_S_d0 h_S_) main_v98 main_c_39
  let main_v100 : IVec S_ 1 := andi main_v96 main_v99
  main_v100

def fn_part4 {F : FTy → Type} [FloatOps F] (main_arg23 : FVec F S256 .f32) (main_arg24 : FVec F S256 .f32) (main_arg25 : FVec F S256x1 .f32) (main_arg26 : FVec F S1 .f32) (main_arg27 : FVec F S_ .f32) (main_arg28 : FVec F S_ .f32) (main_v63 : IVec S_ 1) (main_v67 : IVec S_ 1) : IVec S_ 1 :=
  let main_v68 : IVec S_ 1 := andi main_v63 main_v67
  let main_v69 : FVec F S256 .f32 := Host.absf main_arg23
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg24
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x1 .f32 := Host.absf main_arg25
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg26
  let main_cst_32 : FVec F S_ .f32 := constant S_ .f32 0x7F800000#32
  fn_part5 (F := F) main_arg24 main_arg27 main_arg28 main_v83 main_v84 main_cst_32

def fn_part3 {F : FTy → Type} [FloatOps F] (main_arg20 : FVec F S256 .f32) (main_arg21 : FVec F S256 .f32) (main_arg22 : FVec F S256 .f32) (main_arg23 : FVec F S256 .f32) (main_arg24 : FVec F S256 .f32) (main_arg25 : FVec F S256x1 .f32) (main_arg26 : FVec F S1 .f32) (main_arg27 : FVec F S_ .f32) (main_arg28 : FVec F S_ .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S256 .f32 := Host.absf main_arg20
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg21
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg22
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg23 main_arg24 main_arg25 main_arg26 main_arg27 main_arg28 main_v63 main_v67

def fn_part2 {F : FTy → Type} [FloatOps F] (main_arg16 : FVec F S512 .f32) (main_arg17 : FVec F S512x256 .f32) (main_arg18 : FVec F S3x512x256 .f32) (main_arg19 : FVec F S768x256 .f32) (main_arg20 : FVec F S256 .f32) (main_arg21 : FVec F S256 .f32) (main_arg22 : FVec F S256 .f32) (main_arg23 : FVec F S256 .f32) (main_arg24 : FVec F S256 .f32) (main_arg25 : FVec F S256x1 .f32) (main_arg26 : FVec F S1 .f32) (main_arg27 : FVec F S_ .f32) (main_arg28 : FVec F S_ .f32) (main_v33 : IVec S_ 1) : IVec S_ 1 :=
  let main_v34 : FVec F S512 .f32 := Host.absf main_arg16
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg17
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S3x512x256 .f32 := Host.absf main_arg18
  let main_cst_16 : FVec F S_ .f32 := constant S_ .f32 0x7F800000#32
  let main_v45 : FVec F S3x512x256 .f32 := broadcastInDim S3x512x256 ![] bcast_S_S3x512x256 main_cst_16
  let main_v46 : IVec S3x512x256 1 := cmpf .olt main_v44 main_v45
  let main_c_17 : IVec S_ 1 := constantI S_ 1 1#1
  let main_v47 : IVec S_ 1 := (fun x v => Host.reduce IntOp.andi x v reducesTo_S3x512x256_S_d0_1_2 h_S_) main_v46 main_c_17
  let main_v48 : IVec S_ 1 := andi main_v43 main_v47
  let main_v49 : FVec F S768x256 .f32 := Host.absf main_arg19
  let main_cst_18 : FVec F S_ .f32 := constant S_ .f32 0x7F800000#32
  let main_v50 : FVec F S768x256 .f32 := broadcastInDim S768x256 ![] bcast_S_S768x256 main_cst_18
  fn_part3 (F := F) main_arg20 main_arg21 main_arg22 main_arg23 main_arg24 main_arg25 main_arg26 main_arg27 main_arg28 main_v48 main_v49 main_v50

def fn_part1 {F : FTy → Type} [FloatOps F] (main_arg13 : FVec F S512x512 .f32) (main_arg14 : FVec F S3x512x512 .f32) (main_arg15 : FVec F S512 .f32) (main_arg16 : FVec F S512 .f32) (main_arg17 : FVec F S512x256 .f32) (main_arg18 : FVec F S3x512x256 .f32) (main_arg19 : FVec F S768x256 .f32) (main_arg20 : FVec F S256 .f32) (main_arg21 : FVec F S256 .f32) (main_arg22 : FVec F S256 .f32) (main_arg23 : FVec F S256 .f32) (main_arg24 : FVec F S256 .f32) (main_arg25 : FVec F S256x1 .f32) (main_arg26 : FVec F S1 .f32) (main_arg27 : FVec F S_ .f32) (main_arg28 : FVec F S_ .f32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S512x512 .f32 := Host.absf main_arg13
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S3x512x512 .f32 := Host.absf main_arg14
  let main_cst_8 : FVec F S_ .f32 := constant S_ .f32 0x7F800000#32
  let main_v25 : FVec F S3x512x512 .f32 := broadcastInDim S3x512x512 ![] bcast_S_S3x512x512 main_cst_8
  let main_v26 : IVec S3x512x512 1 := cmpf .olt main_v24 main_v25
  let main_c_9 : IVec S_ 1 := constantI S_ 1 1#1
  let main_v27 : IVec S_ 1 := (fun x v => Host.reduce IntOp.andi x v reducesTo_S3x512x512_S_d0_1_2 h_S_) main_v26 main_c_9
  let main_v28 : IVec S_ 1 := andi main_v23 main_v27
  let main_v29 : FVec F S512 .f32 := Host.absf main_arg15
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg16 main_arg17 main_arg18 main_arg19 main_arg20 main_arg21 main_arg22 main_arg23 main_arg24 main_arg25 main_arg26 main_arg27 main_arg28 main_v33

def fn {F : FTy → Type} [FloatOps F] (main_arg0 : IVec S50000 32) (main_arg1 : IVec S200000 32) (main_arg2 : IVec S200000 32) (main_arg3 : IVec S200000 32) (main_arg4 : IVec S200000 32) (main_arg5 : IVec S200000 32) (main_arg6 : IVec S200000 32) (main_arg7 : IVec S2x100000 32) (main_arg8 : IVec S50000 32) (main_arg9 : FVec F S50000x512 .f32) (main_arg10 : FVec F S16x512 .f32) (main_arg11 : FVec F S512x512 .f32) (main_arg12 : FVec F S3x512x512 .f32) (main_arg13 : FVec F S512x512 .f32) (main_arg14 : FVec F S3x512x512 .f32) (main_arg15 : FVec F S512 .f32) (main_arg16 : FVec F S512 .f32) (main_arg17 : FVec F S512x256 .f32) (main_arg18 : FVec F S3x512x256 .f32) (main_arg19 : FVec F S768x256 .f32) (main_arg20 : FVec F S256 .f32) (main_arg21 : FVec F S256 .f32) (main_arg22 : FVec F S256 .f32) (main_arg23 : FVec F S256 .f32) (main_arg24 : FVec F S256 .f32) (main_arg25 : FVec F S256x1 .f32) (main_arg26 : FVec F S1 .f32) (main_arg27 : FVec F S_ .f32) (main_arg28 : FVec F S_ .f32) : IVec S_ 1 :=
  let main_v0 : FVec F S50000x512 .f32 := Host.absf main_arg9
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S16x512 .f32 := Host.absf main_arg10
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S512x512 .f32 := Host.absf main_arg11
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S3x512x512 .f32 := Host.absf main_arg12
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000 : Shape := ⟨1, ![50000]⟩
abbrev S200000 : Shape := ⟨1, ![200000]⟩
abbrev S2x100000 : Shape := ⟨2, ![2, 100000]⟩
abbrev S50000x512 : Shape := ⟨2, ![50000, 512]⟩
abbrev S16x512 : Shape := ⟨2, ![16, 512]⟩
abbrev S512x512 : Shape := ⟨2, ![512, 512]⟩
abbrev S3x512x512 : Shape := ⟨3, ![3, 512, 512]⟩
abbrev S512 : Shape := ⟨1, ![512]⟩
abbrev S512x256 : Shape := ⟨2, ![512, 256]⟩
abbrev S3x512x256 : Shape := ⟨3, ![3, 512, 256]⟩
abbrev S768x256 : Shape := ⟨2, ![768, 256]⟩
abbrev S256 : Shape := ⟨1, ![256]⟩
abbrev S256x1 : Shape := ⟨2, ![256, 1]⟩
abbrev S1 : Shape := ⟨1, ![1]⟩
abbrev S_ : Shape := ⟨0, ![]⟩
abbrev S50000x1 : Shape := ⟨2, ![50000, 1]⟩
abbrev S200000x1 : Shape := ⟨2, ![200000, 1]⟩
abbrev S200000x512 : Shape := ⟨2, ![200000, 512]⟩
abbrev S50000x2048 : Shape := ⟨2, ![50000, 2048]⟩
abbrev S1x512x512 : Shape := ⟨3, ![1, 512, 512]⟩
abbrev S2048x512 : Shape := ⟨2, ![2048, 512]⟩
abbrev S1x512 : Shape := ⟨2, ![1, 512]⟩
abbrev S2000x512 : Shape := ⟨2, ![2000, 512]⟩
abbrev S1x512x256 : Shape := ⟨3, ![1, 512, 256]⟩
abbrev S2048x256 : Shape := ⟨2, ![2048, 256]⟩
abbrev S1x256 : Shape := ⟨2, ![1, 256]⟩
abbrev S50000x256 : Shape := ⟨2, ![50000, 256]⟩
abbrev S2000x256 : Shape := ⟨2, ![2000, 256]⟩
abbrev S1x100000 : Shape := ⟨2, ![1, 100000]⟩
abbrev S100000 : Shape := ⟨1, ![100000]⟩
abbrev S100000x1 : Shape := ⟨2, ![100000, 1]⟩
abbrev S100000x256 : Shape := ⟨2, ![100000, 256]⟩
abbrev S100000x768 : Shape := ⟨2, ![100000, 768]⟩
abbrev S256x256 : Shape := ⟨2, ![256, 256]⟩
abbrev S1x1 : Shape := ⟨2, ![1, 1]⟩

abbrev nBuf : Space → Nat
  | .hbm => 330
  | .vmem => 40
  | .smem => 0
  | _ => 0

abbrev hbmTy0_0 (i : Nat) : BufTy := match i % 128 with
  | 0 => ⟨S50000, .i32⟩
  | 1 => ⟨S200000, .i32⟩
  | 2 => ⟨S200000, .i32⟩
  | 3 => ⟨S200000, .i32⟩
  | 4 => ⟨S200000, .i32⟩
  | 5 => ⟨S200000, .i32⟩
  | 6 => ⟨S200000, .i32⟩
  | 7 => ⟨S2x100000, .i32⟩
  | 8 => ⟨S50000, .i32⟩
  | 9 => ⟨S50000x512, .f32⟩
  | 10 => ⟨S16x512, .f32⟩
  | 11 => ⟨S512x512, .f32⟩
  | 12 => ⟨S3x512x512, .f32⟩
  | 13 => ⟨S512x512, .f32⟩
  | 14 => ⟨S3x512x512, .f32⟩
  | 15 => ⟨S512, .f32⟩
  | 16 => ⟨S512, .f32⟩
  | 17 => ⟨S512x256, .f32⟩
  | 18 => ⟨S3x512x256, .f32⟩
  | 19 => ⟨S768x256, .f32⟩
  | 20 => ⟨S256, .f32⟩
  | 21 => ⟨S256, .f32⟩
  | 22 => ⟨S256, .f32⟩
  | 23 => ⟨S256, .f32⟩
  | 24 => ⟨S256, .f32⟩
  | 25 => ⟨S256x1, .f32⟩
  | 26 => ⟨S1, .f32⟩
  | 27 => ⟨S_, .f32⟩
  | 28 => ⟨S_, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S50000x512, .f32⟩
  | 38 => ⟨S50000x512, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000x512, .f32⟩
  | 48 => ⟨S_, .f32⟩
  | 49 => ⟨S50000x512, .f32⟩
  | 50 => ⟨S200000x1, .i32⟩
  | 51 => ⟨S50000x512, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x512, .f32⟩
  | 61 => ⟨S_, .f32⟩
  | 62 => ⟨S50000x512, .f32⟩
  | 63 => ⟨S200000x1, .i32⟩
  | 64 => ⟨S50000x512, .f32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000x512, .f32⟩
  | 74 => ⟨S_, .f32⟩
  | 75 => ⟨S50000x512, .f32⟩
  | 76 => ⟨S200000x1, .i32⟩
  | 77 => ⟨S50000x512, .f32⟩
  | 78 => ⟨S50000x2048, .f32⟩
  | 79 => ⟨S1x512x512, .f32⟩
  | 80 => ⟨S512x512, .f32⟩
  | 81 => ⟨S1x512x512, .f32⟩
  | 82 => ⟨S512x512, .f32⟩
  | 83 => ⟨S1x512x512, .f32⟩
  | 84 => ⟨S512x512, .f32⟩
  | 85 => ⟨S2048x512, .f32⟩
  | 86 => ⟨S_, .f32⟩
  | 87 => ⟨S1x512, .f32⟩
  | 88 => ⟨S_, .f32⟩
  | 89 => ⟨S1x512, .f32⟩
  | 90 => ⟨S50000x512, .f32⟩
  | 91 => ⟨S_, .i32⟩
  | 92 => ⟨S200000, .i32⟩
  | 93 => ⟨S200000, .i1⟩
  | 94 => ⟨S_, .i32⟩
  | 95 => ⟨S200000, .i32⟩
  | 96 => ⟨S200000, .i32⟩
  | 97 => ⟨S200000, .i32⟩
  | 98 => ⟨S200000x1, .i32⟩
  | 99 => ⟨S200000x512, .f32⟩
  | 100 => ⟨S_, .f32⟩
  | 101 => ⟨S50000x512, .f32⟩
  | 102 => ⟨S200000x1, .i32⟩
  | 103 => ⟨S50000x512, .f32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000x512, .f32⟩
  | 113 => ⟨S_, .f32⟩
  | 114 => ⟨S50000x512, .f32⟩
  | 115 => ⟨S200000x1, .i32⟩
  | 116 => ⟨S50000x512, .f32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000x512, .f32⟩
  | 126 => ⟨S_, .f32⟩
  | 127 => ⟨S50000x512, .f32⟩
  | _ => ⟨S50000, .i32⟩

abbrev hbmTy0_1 (i : Nat) : BufTy := match i % 128 with
  | 0 => ⟨S200000x1, .i32⟩
  | 1 => ⟨S50000x512, .f32⟩
  | 2 => ⟨S50000x2048, .f32⟩
  | 3 => ⟨S1x512x512, .f32⟩
  | 4 => ⟨S512x512, .f32⟩
  | 5 => ⟨S1x512x512, .f32⟩
  | 6 => ⟨S512x512, .f32⟩
  | 7 => ⟨S1x512x512, .f32⟩
  | 8 => ⟨S512x512, .f32⟩
  | 9 => ⟨S2048x512, .f32⟩
  | 10 => ⟨S_, .f32⟩
  | 11 => ⟨S1x512, .f32⟩
  | 12 => ⟨S_, .f32⟩
  | 13 => ⟨S1x512, .f32⟩
  | 14 => ⟨S50000x512, .f32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S_, .i32⟩
  | 22 => ⟨S_, .f32⟩
  | 23 => ⟨S50000, .f32⟩
  | 24 => ⟨S50000x1, .f32⟩
  | 25 => ⟨S_, .f32⟩
  | 26 => ⟨S50000x1, .f32⟩
  | 27 => ⟨S50000x1, .f32⟩
  | 28 => ⟨S50000x512, .f32⟩
  | 29 => ⟨S50000x512, .f32⟩
  | 30 => ⟨S50000x512, .f32⟩
  | 31 => ⟨S_, .f32⟩
  | 32 => ⟨S_, .f32⟩
  | 33 => ⟨S_, .f32⟩
  | 34 => ⟨S_, .f32⟩
  | 35 => ⟨S50000, .f32⟩
  | 36 => ⟨S50000x1, .f32⟩
  | 37 => ⟨S50000x1, .f32⟩
  | 38 => ⟨S50000x1, .f32⟩
  | 39 => ⟨S_, .f32⟩
  | 40 => ⟨S_, .i1⟩
  | 41 => ⟨S_, .f32⟩
  | 42 => ⟨S_, .f32⟩
  | 43 => ⟨S50000x1, .f32⟩
  | 44 => ⟨S50000x1, .f32⟩
  | 45 => ⟨S50000x512, .f32⟩
  | 46 => ⟨S50000x512, .f32⟩
  | 47 => ⟨S_, .f32⟩
  | 48 => ⟨S50000x1, .f32⟩
  | 49 => ⟨S50000x1, .f32⟩
  | 50 => ⟨S50000x1, .f32⟩
  | 51 => ⟨S50000x512, .f32⟩
  | 52 => ⟨S50000x512, .f32⟩
  | 53 => ⟨S1x512, .f32⟩
  | 54 => ⟨S50000x512, .f32⟩
  | 55 => ⟨S50000x512, .f32⟩
  | 56 => ⟨S1x512, .f32⟩
  | 57 => ⟨S50000x512, .f32⟩
  | 58 => ⟨S50000x512, .f32⟩
  | 59 => ⟨S_, .f32⟩
  | 60 => ⟨S50000x512, .f32⟩
  | 61 => ⟨S50000x512, .f32⟩
  | 62 => ⟨S50000x512, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x512, .f32⟩
  | 72 => ⟨S_, .f32⟩
  | 73 => ⟨S50000x512, .f32⟩
  | 74 => ⟨S200000x1, .i32⟩
  | 75 => ⟨S50000x512, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x512, .f32⟩
  | 85 => ⟨S_, .f32⟩
  | 86 => ⟨S50000x512, .f32⟩
  | 87 => ⟨S200000x1, .i32⟩
  | 88 => ⟨S50000x512, .f32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x512, .f32⟩
  | 98 => ⟨S_, .f32⟩
  | 99 => ⟨S50000x512, .f32⟩
  | 100 => ⟨S200000x1, .i32⟩
  | 101 => ⟨S50000x512, .f32⟩
  | 102 => ⟨S50000x2048, .f32⟩
  | 103 => ⟨S1x512x256, .f32⟩
  | 104 => ⟨S512x256, .f32⟩
  | 105 => ⟨S1x512x256, .f32⟩
  | 106 => ⟨S512x256, .f32⟩
  | 107 => ⟨S1x512x256, .f32⟩
  | 108 => ⟨S512x256, .f32⟩
  | 109 => ⟨S2048x256, .f32⟩
  | 110 => ⟨S_, .f32⟩
  | 111 => ⟨S1x256, .f32⟩
  | 112 => ⟨S_, .f32⟩
  | 113 => ⟨S1x256, .f32⟩
  | 114 => ⟨S50000x256, .f32⟩
  | 115 => ⟨S1x100000, .i32⟩
  | 116 => ⟨S100000, .i32⟩
  | 117 => ⟨S1x100000, .i32⟩
  | 118 => ⟨S100000, .i32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000x256, .f32⟩
  | _ => ⟨S50000, .i32⟩

abbrev hbmTy0_2 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S100000x256, .f32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000, .i32⟩
  | 18 => ⟨S_, .i32⟩
  | 19 => ⟨S_, .i32⟩
  | 20 => ⟨S100000, .i32⟩
  | 21 => ⟨S100000, .i32⟩
  | 22 => ⟨S100000, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000, .i32⟩
  | 32 => ⟨S_, .i32⟩
  | 33 => ⟨S_, .i32⟩
  | 34 => ⟨S100000, .i32⟩
  | 35 => ⟨S100000, .i32⟩
  | 36 => ⟨S100000, .f32⟩
  | 37 => ⟨S100000x256, .f32⟩
  | 38 => ⟨S100000x768, .f32⟩
  | 39 => ⟨S_, .f32⟩
  | 40 => ⟨S256, .f32⟩
  | 41 => ⟨S256, .f32⟩
  | 42 => ⟨S256, .f32⟩
  | 43 => ⟨S256, .f32⟩
  | 44 => ⟨S256, .f32⟩
  | 45 => ⟨S256, .f32⟩
  | 46 => ⟨S1x256, .f32⟩
  | 47 => ⟨S1x256, .f32⟩
  | 48 => ⟨S1x256, .f32⟩
  | 49 => ⟨S100000x256, .f32⟩
  | 50 => ⟨S100000x1, .f32⟩
  | 51 => ⟨S1x1, .f32⟩
  | 52 => ⟨S100000x1, .f32⟩
  | 53 => ⟨S100000x1, .f32⟩
  | 54 => ⟨S100000, .f32⟩
  | 55 => ⟨S_, .f32⟩
  | 56 => ⟨S_, .f32⟩
  | 57 => ⟨S100000, .f32⟩
  | 58 => ⟨S100000, .f32⟩
  | 59 => ⟨S100000, .f32⟩
  | 60 => ⟨S100000, .f32⟩
  | 61 => ⟨S_, .f32⟩
  | 62 => ⟨S_, .f32⟩
  | 63 => ⟨S100000, .f32⟩
  | 64 => ⟨S100000, .f32⟩
  | 65 => ⟨S100000, .f32⟩
  | 66 => ⟨S100000, .f32⟩
  | 67 => ⟨S100000, .f32⟩
  | 68 => ⟨S100000, .f32⟩
  | 69 => ⟨S100000, .f32⟩
  | 70 => ⟨S_, .f32⟩
  | 71 => ⟨S100000, .f32⟩
  | 72 => ⟨S100000, .f32⟩
  | 73 => ⟨S100000, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S2000x512, .f32⟩
  | .local _ .vmem, ⟨21, _⟩ => ⟨S2000x512, .f32⟩
  | .local _ .vmem, ⟨22, _⟩ => ⟨S512x256, .f32⟩
  | .local _ .vmem, ⟨23, _⟩ => ⟨S512x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S256x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_c_1 : Ref sig .tc := ⟨.hbm, 39, rfl⟩
abbrev main_v8 : Ref sig .tc := ⟨.hbm, 40, rfl⟩
abbrev main_v9 : Ref sig .tc := ⟨.hbm, 41, rfl⟩
abbrev main_c_2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_c_3 : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_c_7 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_9 : Ref sig .tc := ⟨.hbm, 86, rfl⟩
abbrev main_v46 : Ref sig .tc := ⟨.hbm, 87, rfl⟩
abbrev main_cst_10 : Ref sig .tc := ⟨.hbm, 88, rfl⟩
abbrev main_v47 : Ref sig .tc := ⟨.hbm, 89, rfl⟩
abbrev main_v48 : Ref sig .tc := ⟨.hbm, 90, rfl⟩
abbrev main_c_11 : Ref sig .tc := ⟨.hbm, 91, rfl⟩
abbrev main_v49 : Ref sig .tc := ⟨.hbm, 92, rfl⟩
abbrev main_v50 : Ref sig .tc := ⟨.hbm, 93, rfl⟩
abbrev main_c_12 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_13 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_14 : Ref sig .tc := ⟨.hbm, 104, rfl⟩
abbrev main_v59 : Ref sig .tc := ⟨.hbm, 105, rfl⟩
abbrev main_v60 : Ref sig .tc := ⟨.hbm, 106, rfl⟩
abbrev main_c_15 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_16 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_17 : Ref sig .tc := ⟨.hbm, 117, rfl⟩
abbrev main_v69 : Ref sig .tc := ⟨.hbm, 118, rfl⟩
abbrev main_v70 : Ref sig .tc := ⟨.hbm, 119, rfl⟩
abbrev main_c_18 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_19 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_20 : Ref sig .tc := ⟨.hbm, 138, rfl⟩
abbrev main_v87 : Ref sig .tc := ⟨.hbm, 139, rfl⟩
abbrev main_cst_21 : Ref sig .tc := ⟨.hbm, 140, rfl⟩
abbrev main_v88 : Ref sig .tc := ⟨.hbm, 141, rfl⟩
abbrev main_v89 : Ref sig .tc := ⟨.hbm, 142, rfl⟩
abbrev main_cst_22 : Ref sig .tc := ⟨.hbm, 143, rfl⟩
abbrev main_v90 : Ref sig .tc := ⟨.hbm, 144, rfl⟩
abbrev main_v91 : Ref sig .tc := ⟨.hbm, 145, rfl⟩
abbrev main_cst_23 : Ref sig .tc := ⟨.hbm, 146, rfl⟩
abbrev main_v92 : Ref sig .tc := ⟨.hbm, 147, rfl⟩
abbrev main_v93 : Ref sig .tc := ⟨.hbm, 148, rfl⟩
abbrev main_c_24 : Ref sig .tc := ⟨.hbm, 149, rfl⟩
abbrev main_call0_cst : Ref sig .tc := ⟨.hbm, 150, rfl⟩
abbrev main_call0_v0 : Ref sig .tc := ⟨.hbm, 151, rfl⟩
abbrev main_call0_v1 : Ref sig .tc := ⟨.hbm, 152, rfl⟩
abbrev main_call0_cst_0 : Ref sig .tc := ⟨.hbm, 153, rfl⟩
abbrev main_call0_v2 : Ref sig .tc := ⟨.hbm, 154, rfl⟩
abbrev main_call0_v3 : Ref sig .tc := ⟨.hbm, 155, rfl⟩
abbrev main_call0_v4 : Ref sig .tc := ⟨.hbm, 156, rfl⟩
abbrev main_call0_v5 : Ref sig .tc := ⟨.hbm, 157, rfl⟩
abbrev main_call0_v6 : Ref sig .tc := ⟨.hbm, 158, rfl⟩
abbrev main_call0_v7 : Ref sig .tc := ⟨.hbm, 159, rfl⟩
abbrev main_call0_cst_1 : Ref sig .tc := ⟨.hbm, 160, rfl⟩
abbrev main_call0_v8 : Ref sig .tc := ⟨.hbm, 161, rfl⟩
abbrev main_call0_cst_2 : Ref sig .tc := ⟨.hbm, 162, rfl⟩
abbrev main_call0_v9 : Ref sig .tc := ⟨.hbm, 163, rfl⟩
abbrev main_call0_v10 : Ref sig .tc := ⟨.hbm, 164, rfl⟩
abbrev main_call0_v11 : Ref sig .tc := ⟨.hbm, 165, rfl⟩
abbrev main_call0_v12 : Ref sig .tc := ⟨.hbm, 166, rfl⟩
abbrev main_call0_cst_3 : Ref sig .tc := ⟨.hbm, 167, rfl⟩
abbrev main_call0_v13 : Ref sig .tc := ⟨.hbm, 168, rfl⟩
abbrev main_call0_cst_4 : Ref sig .tc := ⟨.hbm, 169, rfl⟩
abbrev main_call0_call0_v0 : Ref sig .tc := ⟨.hbm, 170, rfl⟩
abbrev main_call0_call0_v1 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_cst_25 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_call1_cst : Ref sig .tc := ⟨.hbm, 187, rfl⟩
abbrev main_call1_v0 : Ref sig .tc := ⟨.hbm, 188, rfl⟩
abbrev main_v108 : Ref sig .tc := ⟨.hbm, 189, rfl⟩
abbrev main_v109 : Ref sig .tc := ⟨.hbm, 190, rfl⟩
abbrev main_c_26 : Ref sig .tc := ⟨.hbm, 191, rfl⟩
abbrev main_v110 : Ref sig .tc := ⟨.hbm, 192, rfl⟩
abbrev main_v111 : Ref sig .tc := ⟨.hbm, 193, rfl⟩
abbrev main_c_27 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_cst_28 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_c_29 : Ref sig .tc := ⟨.hbm, 204, rfl⟩
abbrev main_v120 : Ref sig .tc := ⟨.hbm, 205, rfl⟩
abbrev main_v121 : Ref sig .tc := ⟨.hbm, 206, rfl⟩
abbrev main_c_30 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_cst_31 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_c_32 : Ref sig .tc := ⟨.hbm, 217, rfl⟩
abbrev main_v130 : Ref sig .tc := ⟨.hbm, 218, rfl⟩
abbrev main_v131 : Ref sig .tc := ⟨.hbm, 219, rfl⟩
abbrev main_c_33 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_cst_34 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_cst_35 : Ref sig .tc := ⟨.hbm, 238, rfl⟩
abbrev main_v148 : Ref sig .tc := ⟨.hbm, 239, rfl⟩
abbrev main_cst_36 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_c_37 : Ref sig .tc := ⟨.hbm, 247, rfl⟩
abbrev main_v155 : Ref sig .tc := ⟨.hbm, 248, rfl⟩
abbrev main_v156 : Ref sig .tc := ⟨.hbm, 249, rfl⟩
abbrev main_c_38 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_c_39 : Ref sig .tc := ⟨.hbm, 256, rfl⟩
abbrev main_v162 : Ref sig .tc := ⟨.hbm, 257, rfl⟩
abbrev main_v163 : Ref sig .tc := ⟨.hbm, 258, rfl⟩
abbrev main_c_40 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_c_41 : Ref sig .tc := ⟨.hbm, 265, rfl⟩
abbrev main_v169 : Ref sig .tc := ⟨.hbm, 266, rfl⟩
abbrev main_v170 : Ref sig .tc := ⟨.hbm, 267, rfl⟩
abbrev main_c_42 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_c_43 : Ref sig .tc := ⟨.hbm, 274, rfl⟩
abbrev main_call2_v0 : Ref sig .tc := ⟨.hbm, 275, rfl⟩
abbrev main_call2_v1 : Ref sig .tc := ⟨.hbm, 276, rfl⟩
abbrev main_v176 : Ref sig .tc := ⟨.hbm, 277, rfl⟩
abbrev main_v177 : Ref sig .tc := ⟨.hbm, 278, rfl⟩
abbrev main_c_44 : Ref sig .tc := ⟨.hbm, 279, rfl⟩
abbrev main_v178 : Ref sig .tc := ⟨.hbm, 280, rfl⟩
abbrev main_v179 : Ref sig .tc := ⟨.hbm, 281, rfl⟩
abbrev main_c_45 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_c_46 : Ref sig .tc := ⟨.hbm, 288, rfl⟩
abbrev main_call3_v0 : Ref sig .tc := ⟨.hbm, 289, rfl⟩
abbrev main_call3_v1 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_cst_47 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_call4_cst : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_call5_cst : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_cst_48 : Ref sig .tc := ⟨.hbm, 326, rfl⟩
abbrev main_v217 : Ref sig .tc := ⟨.hbm, 327, rfl⟩
abbrev main_v218 : Ref sig .tc := ⟨.hbm, 328, rfl⟩
abbrev main_v219 : Ref sig .tc := ⟨.hbm, 329, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨2, ![25, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![25, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![25, 4], ![false, false]⟩

def k2_cond2 (i : grid2.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![50, 3], ![false, false]⟩

def k3_cond2 (i : grid3.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S50000x512 : S_.BroadcastsInDim S50000x512 (![] : Fin 0 → Fin S50000x512.rank)
  concatenates_S50000x512_S50000x512_S50000x512_S50000x512_S50000x2048_d1 : Shape.Concatenates [S50000x512, S50000x512, S50000x512, S50000x512] S50000x2048 1
  slices_S3x512x512_S1x512x512_0_0_0 : S3x512x512.Slices ![0, 0, 0] S1x512x512
  shapeCasts_S1x512x512_S512x512 : S1x512x512.ShapeCasts S512x512
  slices_S3x512x512_S1x512x512_1_0_0 : S3x512x512.Slices ![1, 0, 0] S1x512x512
  slices_S3x512x512_S1x512x512_2_0_0 : S3x512x512.Slices ![2, 0, 0] S1x512x512
  concatenates_S512x512_S512x512_S512x512_S512x512_S2048x512_d0 : Shape.Concatenates [S512x512, S512x512, S512x512, S512x512] S2048x512 0
  bcast_S_S1x512 : S_.BroadcastsInDim S1x512 (![] : Fin 0 → Fin S1x512.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reducesTo_S50000x512_S50000_d1 : S50000x512.ReducesTo [1] S50000
  h_S_ : 0 < S_.numel
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S3x512x256_S1x512x256_0_0_0 : S3x512x256.Slices ![0, 0, 0] S1x512x256
  shapeCasts_S1x512x256_S512x256 : S1x512x256.ShapeCasts S512x256
  slices_S3x512x256_S1x512x256_1_0_0 : S3x512x256.Slices ![1, 0, 0] S1x512x256
  slices_S3x512x256_S1x512x256_2_0_0 : S3x512x256.Slices ![2, 0, 0] S1x512x256
  concatenates_S512x256_S512x256_S512x256_S512x256_S2048x256_d0 : Shape.Concatenates [S512x256, S512x256, S512x256, S512x256] S2048x256 0
  bcast_S_S1x256 : S_.BroadcastsInDim S1x256 (![] : Fin 0 → Fin S1x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  concatenates_S100000x256_S100000x256_S100000x256_S100000x768_d1 : Shape.Concatenates [S100000x256, S100000x256, S100000x256] S100000x768 1
  bcast_S_S256 : S_.BroadcastsInDim S256 (![] : Fin 0 → Fin S256.rank)
  shapeCasts_S256_S1x256 : S256.ShapeCasts S1x256
  inb_S256x256_S256x256_0_0 : ∀ a, (![0, 0] : Fin 2 → Nat) a + S256x256.size a ≤ S256x256.size a
  h_S256x256 : 0 < S256x256.numel
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S16x512_S50000x1_S50000x512_1_0_n_n_0_1_1512_wf : GatherDims.WF S16x512 S50000x1 S50000x512 [1] [0] [] [0] [] 1 ![1, 512]
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  gather_S50000x256_S100000x1_S100000x256_1_0_n_n_0_1_1256_wf : GatherDims.WF S50000x256 S100000x1 S100000x256 [1] [0] [] [0] [] 1 ![1, 256]
  gather_S50000_S100000x1_S100000_n_0_n_n_0_1_1_wf : GatherDims.WF S50000 S100000x1 S100000 [] [0] [] [0] [] 1 ![1]
  dot_S2000x256_S256x256_S2000x256_1_0_0_1_n_n_wf : DotDims.WF S2000x256 S256x256 S2000x256 [1] [0] [0] [1] [] []
  dot_S100000x256_S256x1_S100000x1_1_0_0_1_n_n_wf : DotDims.WF S100000x256 S256x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x2048.size a
  hwx0_0 : ∀ i : grid0.Coords, EltTy.bits .f32 = 32 ∨ (Rect.block (s := S50000x2048) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x512.size a
  hwx0_1 : ∀ i : grid0.Coords, EltTy.bits .f32 = 32 ∨ (Rect.block (s := S2048x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x2048.size a
  hwx1_0 : ∀ i : grid1.Coords, EltTy.bits .f32 = 32 ∨ (Rect.block (s := S50000x2048) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S2048x512.size a
  hwx1_1 : ∀ i : grid1.Coords, EltTy.bits .f32 = 32 ∨ (Rect.block (s := S2048x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x2048.size a
  hwx2_0 : ∀ i : grid2.Coords, EltTy.bits .f32 = 32 ∨ (Rect.block (s := S50000x2048) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S2048x256.size a
  hwx2_1 : ∀ i : grid2.Coords, EltTy.bits .f32 = 32 ∨ (Rect.block (s := S2048x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x768.size a
  hwx3_0 : ∀ i : grid3.Coords, EltTy.bits .f32 = 32 ∨ (Rect.block (s := S100000x768) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S768x256.size a
  hwx3_1 : ∀ i : grid3.Coords, EltTy.bits .f32 = 32 ∨ (Rect.block (s := S768x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)

variable [Facts₀]

def gather_S16x512_S50000x1_S50000x512_1_0_n_n_0_1_1512 : GatherDims S16x512 S50000x1 S50000x512 where
  offsetDims := [1]
  collapsedSliceDims := [0]
  operandBatchingDims := []
  startIndicesBatchingDims := []
  startIndexMap := [0]
  indexVectorDim := 1
  sliceSizes := ![1, 512]
  wf := gather_S16x512_S50000x1_S50000x512_1_0_n_n_0_1_1512_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

abbrev win0_0 : Pipeline.Window sig grid0 :=
  Pipeline.Window.ofSpec (Memref.whole main_v38) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v79) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v87) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v88) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v140) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v147) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v148) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v149) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v148) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v150) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v188) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg19) S256x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v195) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v196) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v197) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v198) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S50000 : Shape := ⟨1, ![50000]⟩
abbrev S200000 : Shape := ⟨1, ![200000]⟩
abbrev S2x100000 : Shape := ⟨2, ![2, 100000]⟩
abbrev S50000x512 : Shape := ⟨2, ![50000, 512]⟩
abbrev S16x512 : Shape := ⟨2, ![16, 512]⟩
abbrev S512x512 : Shape := ⟨2, ![512, 512]⟩
abbrev S3x512x512 : Shape := ⟨3, ![3, 512, 512]⟩
abbrev S512 : Shape := ⟨1, ![512]⟩
abbrev S512x256 : Shape := ⟨2, ![512, 256]⟩
abbrev S3x512x256 : Shape := ⟨3, ![3, 512, 256]⟩
abbrev S768x256 : Shape := ⟨2, ![768, 256]⟩
abbrev S256 : Shape := ⟨1, ![256]⟩
abbrev S256x1 : Shape := ⟨2, ![256, 1]⟩
abbrev S1 : Shape := ⟨1, ![1]⟩
abbrev S_ : Shape := ⟨0, ![]⟩
abbrev S50000x1 : Shape := ⟨2, ![50000, 1]⟩
abbrev S200000x1 : Shape := ⟨2, ![200000, 1]⟩
abbrev S200000x512 : Shape := ⟨2, ![200000, 512]⟩
abbrev S1x512x512 : Shape := ⟨3, ![1, 512, 512]⟩
abbrev S1x512 : Shape := ⟨2, ![1, 512]⟩
abbrev S50000x256 : Shape := ⟨2, ![50000, 256]⟩
abbrev S1x512x256 : Shape := ⟨3, ![1, 512, 256]⟩
abbrev S1x100000 : Shape := ⟨2, ![1, 100000]⟩
abbrev S100000 : Shape := ⟨1, ![100000]⟩
abbrev S100000x1 : Shape := ⟨2, ![100000, 1]⟩
abbrev S100000x256 : Shape := ⟨2, ![100000, 256]⟩
abbrev S100000x768 : Shape := ⟨2, ![100000, 768]⟩
abbrev S1x256 : Shape := ⟨2, ![1, 256]⟩
abbrev S1x1 : Shape := ⟨2, ![1, 1]⟩

abbrev nBuf : Space → Nat
  | .hbm => 349
  | .vmem => 0
  | .smem => 0
  | _ => 0

abbrev hbmTy0_0 (i : Nat) : BufTy := match i % 128 with
  | 0 => ⟨S50000, .i32⟩
  | 1 => ⟨S200000, .i32⟩
  | 2 => ⟨S200000, .i32⟩
  | 3 => ⟨S200000, .i32⟩
  | 4 => ⟨S200000, .i32⟩
  | 5 => ⟨S200000, .i32⟩
  | 6 => ⟨S200000, .i32⟩
  | 7 => ⟨S2x100000, .i32⟩
  | 8 => ⟨S50000, .i32⟩
  | 9 => ⟨S50000x512, .f32⟩
  | 10 => ⟨S16x512, .f32⟩
  | 11 => ⟨S512x512, .f32⟩
  | 12 => ⟨S3x512x512, .f32⟩
  | 13 => ⟨S512x512, .f32⟩
  | 14 => ⟨S3x512x512, .f32⟩
  | 15 => ⟨S512, .f32⟩
  | 16 => ⟨S512, .f32⟩
  | 17 => ⟨S512x256, .f32⟩
  | 18 => ⟨S3x512x256, .f32⟩
  | 19 => ⟨S768x256, .f32⟩
  | 20 => ⟨S256, .f32⟩
  | 21 => ⟨S256, .f32⟩
  | 22 => ⟨S256, .f32⟩
  | 23 => ⟨S256, .f32⟩
  | 24 => ⟨S256, .f32⟩
  | 25 => ⟨S256x1, .f32⟩
  | 26 => ⟨S1, .f32⟩
  | 27 => ⟨S_, .f32⟩
  | 28 => ⟨S_, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S50000x512, .f32⟩
  | 38 => ⟨S50000x512, .f32⟩
  | 39 => ⟨S50000x512, .f32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S200000x512, .f32⟩
  | 49 => ⟨S_, .f32⟩
  | 50 => ⟨S50000x512, .f32⟩
  | 51 => ⟨S200000x1, .i32⟩
  | 52 => ⟨S50000x512, .f32⟩
  | 53 => ⟨S1x512x512, .f32⟩
  | 54 => ⟨S512x512, .f32⟩
  | 55 => ⟨S50000x512, .f32⟩
  | 56 => ⟨S50000x512, .f32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000x512, .f32⟩
  | 66 => ⟨S_, .f32⟩
  | 67 => ⟨S50000x512, .f32⟩
  | 68 => ⟨S200000x1, .i32⟩
  | 69 => ⟨S50000x512, .f32⟩
  | 70 => ⟨S1x512x512, .f32⟩
  | 71 => ⟨S512x512, .f32⟩
  | 72 => ⟨S50000x512, .f32⟩
  | 73 => ⟨S50000x512, .f32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S200000x512, .f32⟩
  | 83 => ⟨S_, .f32⟩
  | 84 => ⟨S50000x512, .f32⟩
  | 85 => ⟨S200000x1, .i32⟩
  | 86 => ⟨S50000x512, .f32⟩
  | 87 => ⟨S1x512x512, .f32⟩
  | 88 => ⟨S512x512, .f32⟩
  | 89 => ⟨S50000x512, .f32⟩
  | 90 => ⟨S50000x512, .f32⟩
  | 91 => ⟨S_, .f32⟩
  | 92 => ⟨S50000x512, .f32⟩
  | 93 => ⟨S50000x512, .f32⟩
  | 94 => ⟨S50000x512, .f32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S200000x512, .f32⟩
  | 104 => ⟨S_, .f32⟩
  | 105 => ⟨S50000x512, .f32⟩
  | 106 => ⟨S200000x1, .i32⟩
  | 107 => ⟨S50000x512, .f32⟩
  | 108 => ⟨S1x512x512, .f32⟩
  | 109 => ⟨S512x512, .f32⟩
  | 110 => ⟨S50000x512, .f32⟩
  | 111 => ⟨S50000x512, .f32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x512, .f32⟩
  | 121 => ⟨S_, .f32⟩
  | 122 => ⟨S50000x512, .f32⟩
  | 123 => ⟨S200000x1, .i32⟩
  | 124 => ⟨S50000x512, .f32⟩
  | 125 => ⟨S1x512x512, .f32⟩
  | 126 => ⟨S512x512, .f32⟩
  | 127 => ⟨S50000x512, .f32⟩
  | _ => ⟨S50000, .i32⟩

abbrev hbmTy0_1 (i : Nat) : BufTy := match i % 128 with
  | 0 => ⟨S50000x512, .f32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x512, .f32⟩
  | 10 => ⟨S_, .f32⟩
  | 11 => ⟨S50000x512, .f32⟩
  | 12 => ⟨S200000x1, .i32⟩
  | 13 => ⟨S50000x512, .f32⟩
  | 14 => ⟨S1x512x512, .f32⟩
  | 15 => ⟨S512x512, .f32⟩
  | 16 => ⟨S50000x512, .f32⟩
  | 17 => ⟨S50000x512, .f32⟩
  | 18 => ⟨S_, .f32⟩
  | 19 => ⟨S50000, .f32⟩
  | 20 => ⟨S50000x1, .f32⟩
  | 21 => ⟨S_, .f32⟩
  | 22 => ⟨S50000x1, .f32⟩
  | 23 => ⟨S50000x1, .f32⟩
  | 24 => ⟨S_, .i32⟩
  | 25 => ⟨S_, .f32⟩
  | 26 => ⟨S50000, .f32⟩
  | 27 => ⟨S50000x1, .f32⟩
  | 28 => ⟨S_, .f32⟩
  | 29 => ⟨S50000x1, .f32⟩
  | 30 => ⟨S50000x1, .f32⟩
  | 31 => ⟨S50000x512, .f32⟩
  | 32 => ⟨S50000x512, .f32⟩
  | 33 => ⟨S50000x512, .f32⟩
  | 34 => ⟨S_, .f32⟩
  | 35 => ⟨S_, .f32⟩
  | 36 => ⟨S_, .f32⟩
  | 37 => ⟨S_, .f32⟩
  | 38 => ⟨S50000, .f32⟩
  | 39 => ⟨S50000x1, .f32⟩
  | 40 => ⟨S50000x1, .f32⟩
  | 41 => ⟨S50000x1, .f32⟩
  | 42 => ⟨S_, .f32⟩
  | 43 => ⟨S_, .i1⟩
  | 44 => ⟨S_, .f32⟩
  | 45 => ⟨S_, .f32⟩
  | 46 => ⟨S50000x1, .f32⟩
  | 47 => ⟨S50000x1, .f32⟩
  | 48 => ⟨S50000x512, .f32⟩
  | 49 => ⟨S50000x512, .f32⟩
  | 50 => ⟨S_, .f32⟩
  | 51 => ⟨S50000x1, .f32⟩
  | 52 => ⟨S50000x1, .f32⟩
  | 53 => ⟨S50000x1, .f32⟩
  | 54 => ⟨S50000x512, .f32⟩
  | 55 => ⟨S50000x512, .f32⟩
  | 56 => ⟨S1x512, .f32⟩
  | 57 => ⟨S50000x512, .f32⟩
  | 58 => ⟨S50000x512, .f32⟩
  | 59 => ⟨S1x512, .f32⟩
  | 60 => ⟨S50000x512, .f32⟩
  | 61 => ⟨S50000x512, .f32⟩
  | 62 => ⟨S_, .f32⟩
  | 63 => ⟨S50000x512, .f32⟩
  | 64 => ⟨S50000x512, .f32⟩
  | 65 => ⟨S50000x512, .f32⟩
  | 66 => ⟨S50000x256, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x512, .f32⟩
  | 76 => ⟨S_, .f32⟩
  | 77 => ⟨S50000x512, .f32⟩
  | 78 => ⟨S200000x1, .i32⟩
  | 79 => ⟨S50000x512, .f32⟩
  | 80 => ⟨S1x512x256, .f32⟩
  | 81 => ⟨S512x256, .f32⟩
  | 82 => ⟨S50000x256, .f32⟩
  | 83 => ⟨S50000x256, .f32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S200000x512, .f32⟩
  | 93 => ⟨S_, .f32⟩
  | 94 => ⟨S50000x512, .f32⟩
  | 95 => ⟨S200000x1, .i32⟩
  | 96 => ⟨S50000x512, .f32⟩
  | 97 => ⟨S1x512x256, .f32⟩
  | 98 => ⟨S512x256, .f32⟩
  | 99 => ⟨S50000x256, .f32⟩
  | 100 => ⟨S50000x256, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x512, .f32⟩
  | 110 => ⟨S_, .f32⟩
  | 111 => ⟨S50000x512, .f32⟩
  | 112 => ⟨S200000x1, .i32⟩
  | 113 => ⟨S50000x512, .f32⟩
  | 114 => ⟨S1x512x256, .f32⟩
  | 115 => ⟨S512x256, .f32⟩
  | 116 => ⟨S50000x256, .f32⟩
  | 117 => ⟨S50000x256, .f32⟩
  | 118 => ⟨S1x100000, .i32⟩
  | 119 => ⟨S100000, .i32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S50000, .i32⟩

abbrev hbmTy0_2 (i : Nat) : BufTy := match i % 128 with
  | 0 => ⟨S100000x256, .f32⟩
  | 1 => ⟨S1x100000, .i32⟩
  | 2 => ⟨S100000, .i32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S100000x256, .f32⟩
  | 12 => ⟨S1x100000, .i32⟩
  | 13 => ⟨S100000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000, .i32⟩
  | 23 => ⟨S_, .i32⟩
  | 24 => ⟨S_, .i32⟩
  | 25 => ⟨S100000, .i32⟩
  | 26 => ⟨S100000, .i32⟩
  | 27 => ⟨S100000, .f32⟩
  | 28 => ⟨S1x100000, .i32⟩
  | 29 => ⟨S100000, .i32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000, .i32⟩
  | 39 => ⟨S_, .i32⟩
  | 40 => ⟨S_, .i32⟩
  | 41 => ⟨S100000, .i32⟩
  | 42 => ⟨S100000, .i32⟩
  | 43 => ⟨S100000, .f32⟩
  | 44 => ⟨S100000x256, .f32⟩
  | 45 => ⟨S100000x768, .f32⟩
  | 46 => ⟨S100000x256, .f32⟩
  | 47 => ⟨S1x256, .f32⟩
  | 48 => ⟨S100000x256, .f32⟩
  | 49 => ⟨S100000x256, .f32⟩
  | 50 => ⟨S_, .f32⟩
  | 51 => ⟨S100000x256, .f32⟩
  | 52 => ⟨S100000x256, .f32⟩
  | 53 => ⟨S1x256, .f32⟩
  | 54 => ⟨S100000x256, .f32⟩
  | 55 => ⟨S100000x256, .f32⟩
  | 56 => ⟨S_, .f32⟩
  | 57 => ⟨S256, .f32⟩
  | 58 => ⟨S256, .f32⟩
  | 59 => ⟨S256, .f32⟩
  | 60 => ⟨S1x256, .f32⟩
  | 61 => ⟨S100000x256, .f32⟩
  | 62 => ⟨S100000x256, .f32⟩
  | 63 => ⟨S1x256, .f32⟩
  | 64 => ⟨S100000x256, .f32⟩
  | 65 => ⟨S100000x256, .f32⟩
  | 66 => ⟨S1x256, .f32⟩
  | 67 => ⟨S100000x256, .f32⟩
  | 68 => ⟨S100000x256, .f32⟩
  | 69 => ⟨S100000x1, .f32⟩
  | 70 => ⟨S1x1, .f32⟩
  | 71 => ⟨S100000x1, .f32⟩
  | 72 => ⟨S100000x1, .f32⟩
  | 73 => ⟨S100000, .f32⟩
  | 74 => ⟨S_, .f32⟩
  | 75 => ⟨S_, .f32⟩
  | 76 => ⟨S100000, .f32⟩
  | 77 => ⟨S100000, .f32⟩
  | 78 => ⟨S100000, .f32⟩
  | 79 => ⟨S100000, .f32⟩
  | 80 => ⟨S_, .f32⟩
  | 81 => ⟨S_, .f32⟩
  | 82 => ⟨S100000, .f32⟩
  | 83 => ⟨S100000, .f32⟩
  | 84 => ⟨S100000, .f32⟩
  | 85 => ⟨S100000, .f32⟩
  | 86 => ⟨S100000, .f32⟩
  | 87 => ⟨S100000, .f32⟩
  | 88 => ⟨S100000, .f32⟩
  | 89 => ⟨S_, .f32⟩
  | 90 => ⟨S100000, .f32⟩
  | 91 => ⟨S100000, .f32⟩
  | 92 => ⟨S100000, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_c_1 : Ref sig .tc := ⟨.hbm, 40, rfl⟩
abbrev main_v9 : Ref sig .tc := ⟨.hbm, 41, rfl⟩
abbrev main_v10 : Ref sig .tc := ⟨.hbm, 42, rfl⟩
abbrev main_c_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_3 : Ref sig .tc := ⟨.hbm, 57, rfl⟩
abbrev main_v23 : Ref sig .tc := ⟨.hbm, 58, rfl⟩
abbrev main_v24 : Ref sig .tc := ⟨.hbm, 59, rfl⟩
abbrev main_c_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_6 : Ref sig .tc := ⟨.hbm, 74, rfl⟩
abbrev main_v37 : Ref sig .tc := ⟨.hbm, 75, rfl⟩
abbrev main_v38 : Ref sig .tc := ⟨.hbm, 76, rfl⟩
abbrev main_c_7 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_8 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call0_cst : Ref sig .tc := ⟨.hbm, 91, rfl⟩
abbrev main_call0_v0 : Ref sig .tc := ⟨.hbm, 92, rfl⟩
abbrev main_v51 : Ref sig .tc := ⟨.hbm, 93, rfl⟩
abbrev main_v52 : Ref sig .tc := ⟨.hbm, 94, rfl⟩
abbrev main_c_9 : Ref sig .tc := ⟨.hbm, 95, rfl⟩
abbrev main_v53 : Ref sig .tc := ⟨.hbm, 96, rfl⟩
abbrev main_v54 : Ref sig .tc := ⟨.hbm, 97, rfl⟩
abbrev main_c_10 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_11 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_12 : Ref sig .tc := ⟨.hbm, 112, rfl⟩
abbrev main_v67 : Ref sig .tc := ⟨.hbm, 113, rfl⟩
abbrev main_v68 : Ref sig .tc := ⟨.hbm, 114, rfl⟩
abbrev main_c_13 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_14 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_15 : Ref sig .tc := ⟨.hbm, 129, rfl⟩
abbrev main_v81 : Ref sig .tc := ⟨.hbm, 130, rfl⟩
abbrev main_v82 : Ref sig .tc := ⟨.hbm, 131, rfl⟩
abbrev main_c_16 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_17 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_18 : Ref sig .tc := ⟨.hbm, 146, rfl⟩
abbrev main_v95 : Ref sig .tc := ⟨.hbm, 147, rfl⟩
abbrev main_v96 : Ref sig .tc := ⟨.hbm, 148, rfl⟩
abbrev main_cst_19 : Ref sig .tc := ⟨.hbm, 149, rfl⟩
abbrev main_v97 : Ref sig .tc := ⟨.hbm, 150, rfl⟩
abbrev main_v98 : Ref sig .tc := ⟨.hbm, 151, rfl⟩
abbrev main_c_20 : Ref sig .tc := ⟨.hbm, 152, rfl⟩
abbrev main_call1_cst : Ref sig .tc := ⟨.hbm, 153, rfl⟩
abbrev main_call1_v0 : Ref sig .tc := ⟨.hbm, 154, rfl⟩
abbrev main_call1_v1 : Ref sig .tc := ⟨.hbm, 155, rfl⟩
abbrev main_call1_cst_0 : Ref sig .tc := ⟨.hbm, 156, rfl⟩
abbrev main_call1_v2 : Ref sig .tc := ⟨.hbm, 157, rfl⟩
abbrev main_call1_v3 : Ref sig .tc := ⟨.hbm, 158, rfl⟩
abbrev main_call1_v4 : Ref sig .tc := ⟨.hbm, 159, rfl⟩
abbrev main_call1_v5 : Ref sig .tc := ⟨.hbm, 160, rfl⟩
abbrev main_call1_v6 : Ref sig .tc := ⟨.hbm, 161, rfl⟩
abbrev main_call1_v7 : Ref sig .tc := ⟨.hbm, 162, rfl⟩
abbrev main_call1_cst_1 : Ref sig .tc := ⟨.hbm, 163, rfl⟩
abbrev main_call1_v8 : Ref sig .tc := ⟨.hbm, 164, rfl⟩
abbrev main_call1_cst_2 : Ref sig .tc := ⟨.hbm, 165, rfl⟩
abbrev main_call1_v9 : Ref sig .tc := ⟨.hbm, 166, rfl⟩
abbrev main_call1_v10 : Ref sig .tc := ⟨.hbm, 167, rfl⟩
abbrev main_call1_v11 : Ref sig .tc := ⟨.hbm, 168, rfl⟩
abbrev main_call1_v12 : Ref sig .tc := ⟨.hbm, 169, rfl⟩
abbrev main_call1_cst_3 : Ref sig .tc := ⟨.hbm, 170, rfl⟩
abbrev main_call1_v13 : Ref sig .tc := ⟨.hbm, 171, rfl⟩
abbrev main_call1_cst_4 : Ref sig .tc := ⟨.hbm, 172, rfl⟩
abbrev main_call1_call0_v0 : Ref sig .tc := ⟨.hbm, 173, rfl⟩
abbrev main_call1_call0_v1 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_cst_21 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_call2_cst : Ref sig .tc := ⟨.hbm, 190, rfl⟩
abbrev main_call2_v0 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_c_22 : Ref sig .tc := ⟨.hbm, 195, rfl⟩
abbrev main_v116 : Ref sig .tc := ⟨.hbm, 196, rfl⟩
abbrev main_v117 : Ref sig .tc := ⟨.hbm, 197, rfl⟩
abbrev main_c_23 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_cst_24 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_c_25 : Ref sig .tc := ⟨.hbm, 212, rfl⟩
abbrev main_v130 : Ref sig .tc := ⟨.hbm, 213, rfl⟩
abbrev main_v131 : Ref sig .tc := ⟨.hbm, 214, rfl⟩
abbrev main_c_26 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_cst_27 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_c_28 : Ref sig .tc := ⟨.hbm, 229, rfl⟩
abbrev main_v144 : Ref sig .tc := ⟨.hbm, 230, rfl⟩
abbrev main_v145 : Ref sig .tc := ⟨.hbm, 231, rfl⟩
abbrev main_c_29 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_cst_30 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_c_31 : Ref sig .tc := ⟨.hbm, 248, rfl⟩
abbrev main_v160 : Ref sig .tc := ⟨.hbm, 249, rfl⟩
abbrev main_v161 : Ref sig .tc := ⟨.hbm, 250, rfl⟩
abbrev main_c_32 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_c_33 : Ref sig .tc := ⟨.hbm, 259, rfl⟩
abbrev main_v169 : Ref sig .tc := ⟨.hbm, 260, rfl⟩
abbrev main_v170 : Ref sig .tc := ⟨.hbm, 261, rfl⟩
abbrev main_c_34 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_c_35 : Ref sig .tc := ⟨.hbm, 270, rfl⟩
abbrev main_v178 : Ref sig .tc := ⟨.hbm, 271, rfl⟩
abbrev main_v179 : Ref sig .tc := ⟨.hbm, 272, rfl⟩
abbrev main_c_36 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_c_37 : Ref sig .tc := ⟨.hbm, 279, rfl⟩
abbrev main_call3_v0 : Ref sig .tc := ⟨.hbm, 280, rfl⟩
abbrev main_call3_v1 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_c_38 : Ref sig .tc := ⟨.hbm, 286, rfl⟩
abbrev main_v189 : Ref sig .tc := ⟨.hbm, 287, rfl⟩
abbrev main_v190 : Ref sig .tc := ⟨.hbm, 288, rfl⟩
abbrev main_c_39 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_c_40 : Ref sig .tc := ⟨.hbm, 295, rfl⟩
abbrev main_call4_v0 : Ref sig .tc := ⟨.hbm, 296, rfl⟩
abbrev main_call4_v1 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_call5_cst : Ref sig .tc := ⟨.hbm, 306, rfl⟩
abbrev main_call5_v0 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_cst_41 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_call6_cst : Ref sig .tc := ⟨.hbm, 330, rfl⟩
abbrev main_v225 : Ref sig .tc := ⟨.hbm, 331, rfl⟩
abbrev main_v226 : Ref sig .tc := ⟨.hbm, 332, rfl⟩
abbrev main_v227 : Ref sig .tc := ⟨.hbm, 333, rfl⟩
abbrev main_v228 : Ref sig .tc := ⟨.hbm, 334, rfl⟩
abbrev main_v229 : Ref sig .tc := ⟨.hbm, 335, rfl⟩
abbrev main_call7_cst : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_cst_42 : Ref sig .tc := ⟨.hbm, 345, rfl⟩
abbrev main_v238 : Ref sig .tc := ⟨.hbm, 346, rfl⟩
abbrev main_v239 : Ref sig .tc := ⟨.hbm, 347, rfl⟩
abbrev main_v240 : Ref sig .tc := ⟨.hbm, 348, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S50000x512 : S_.BroadcastsInDim S50000x512 (![] : Fin 0 → Fin S50000x512.rank)
  slices_S3x512x512_S1x512x512_0_0_0 : S3x512x512.Slices ![0, 0, 0] S1x512x512
  shapeCasts_S1x512x512_S512x512 : S1x512x512.ShapeCasts S512x512
  slices_S3x512x512_S1x512x512_1_0_0 : S3x512x512.Slices ![1, 0, 0] S1x512x512
  slices_S3x512x512_S1x512x512_2_0_0 : S3x512x512.Slices ![2, 0, 0] S1x512x512
  reducesTo_S50000x512_S50000_d1 : S50000x512.ReducesTo [1] S50000
  h_S_ : 0 < S_.numel
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S3x512x256_S1x512x256_0_0_0 : S3x512x256.Slices ![0, 0, 0] S1x512x256
  shapeCasts_S1x512x256_S512x256 : S1x512x256.ShapeCasts S512x256
  slices_S3x512x256_S1x512x256_1_0_0 : S3x512x256.Slices ![1, 0, 0] S1x512x256
  slices_S3x512x256_S1x512x256_2_0_0 : S3x512x256.Slices ![2, 0, 0] S1x512x256
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  concatenates_S100000x256_S100000x256_S100000x256_S100000x768_d1 : Shape.Concatenates [S100000x256, S100000x256, S100000x256] S100000x768 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S256 : S_.BroadcastsInDim S256 (![] : Fin 0 → Fin S256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S16x512_S50000x1_S50000x512_1_0_n_n_0_1_1512_wf : GatherDims.WF S16x512 S50000x1 S50000x512 [1] [0] [] [0] [] 1 ![1, 512]
  dot_S50000x512_S512x512_S50000x512_1_0_0_1_n_n_wf : DotDims.WF S50000x512 S512x512 S50000x512 [1] [0] [0] [1] [] []
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  dot_S50000x512_S512x256_S50000x256_1_0_0_1_n_n_wf : DotDims.WF S50000x512 S512x256 S50000x256 [1] [0] [0] [1] [] []
  gather_S50000x256_S100000x1_S100000x256_1_0_n_n_0_1_1256_wf : GatherDims.WF S50000x256 S100000x1 S100000x256 [1] [0] [] [0] [] 1 ![1, 256]
  gather_S50000_S100000x1_S100000_n_0_n_n_0_1_1_wf : GatherDims.WF S50000 S100000x1 S100000 [] [0] [] [0] [] 1 ![1]
  dot_S100000x768_S768x256_S100000x256_1_0_0_1_n_n_wf : DotDims.WF S100000x768 S768x256 S100000x256 [1] [0] [0] [1] [] []
  dot_S100000x256_S256x1_S100000x1_1_0_0_1_n_n_wf : DotDims.WF S100000x256 S256x1 S100000x1 [1] [0] [0] [1] [] []

variable [Facts₀]

def gather_S16x512_S50000x1_S50000x512_1_0_n_n_0_1_1512 : GatherDims S16x512 S50000x1 S50000x512 where
  offsetDims := [1]
  collapsedSliceDims := [0]
  operandBatchingDims := []
  startIndicesBatchingDims := []
  startIndexMap := [0]
  indexVectorDim := 1
  sliceSizes := ![1, 512]
  wf := gather_S16x512_S50000x1_S50000x512_1_0_n_n_0_1_1512_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf
def dot_S100000x768_S768x256_S100000x256_1_0_0_1_n_n : DotDims S100000x768 S768x256 S100000x256 where
  lhsContracting := [1]
  rhsContracting := [0]
  lhsNonContracting := [0]
  rhsNonContracting := [1]
  lhsBatch := []
  rhsBatch := []
  wf := dot_S100000x768_S768x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.K.Dat0.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The first tiled matmul (a 50000 × 2048 array times a 2048 × 512 array, tiled 25 × 4): blocks, the running sum over the contraction axis, the proof data

Point `t` of the grid is the pair (row tile `t / 4`, contraction tile `t % 4`). At every point the body adds
the product of the point's left tile and right tile to a running sum kept in a scratch buffer; the sum restarts from
zero where the contraction tile is the first, and where it is the last the output tile receives `max (sum + bias) 0`. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum after the first `n` points: zero before any point; each point adds its tiles' product to the
    sum the point before left — or to zero, where the contraction tile is the first (`n % 4 = 0`). -/
def accN0 (c : Dev nD) : ℕ → Vec F S2000x512 .f32
  | 0 => k0_pay1
  | n + 1 =>
    if h : n < cfg0.N then
      k0_pay2 (iblk0 V c 0 ⟨n, h⟩) (iblk0 V c 1 ⟨n, h⟩) (if n % 4 = 0 then k0_pay1 else accN0 c n)
    else accN0 c n

/-- The running sum the scratch buffer holds before point `t` (after point `t - 1`). -/
def acc0 (c : Dev nD) (t : Fin (cfg0.N + 1)) : Vec F S2000x512 .f32 := accN0 V c t.val

/-- One step of the running sum: the point's product added to what was there, or to zero at a first contraction tile. -/
theorem acc0_succ (c : Dev nD) (t : Fin cfg0.N) :
    acc0 V c t.succ = k0_pay2 (iblk0 V c 0 t) (iblk0 V c 1 t) (if t.val % 4 = 0 then k0_pay1 else acc0 V c t.castSucc) := by
  obtain ⟨n, hn⟩ := t
  show accN0 V c (n + 1) = _
  rw [accN0, dif_pos hn]; rfl

/-- The scratch operand: a whole scoped buffer of the kernel's own. -/
abbrev scM0 : Memref sig .tc .vmem S2000x512 .f32 := Memref.whole cc0_scratch0

/-- The region invariant before point `t`: the scratch buffer at the running sum — at anything where the sum is about
    to restart (`t % 4 = 0`), so that the invariant holds of a scratch buffer nothing has written yet —, the other
    scoped buffers unopened, and the generator register at some state. -/
def Phi0 (c : Dev nD) (t : Fin (cfg0.N + 1)) : sProp 𝕄 :=
  iprop((∃ a, ⌜t.val % 4 ≠ 0 → a = acc0 V c t⌝ ∗ owns (c : Thread nD τ) scM0 fullShare a)
    ∗ Pipeline.scopedRestBut (Ix := Unit) (Name := ℕ) (U := UR sig nD τ) (Lvl := ℕ) (Val := Elt F) spec0 c [cc0_scratch0]
    ∗ ∃ r, prngReg c r)

/-- The proof data of the first matmul's pipeline on core `c`: the arrays as the region finds them (`V`); after the
    body at point `t` each input's buffer at its block, and the output's at `max (sum + bias) 0` of the running sum after the
    point (consulted only where the contraction tile is the last: elsewhere the output window is idle); the invariant
    `Phi0`; nothing owed. The bias row and the shift row are one array read through two windows: each holds half of
    it; every other array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (acc0 V c t.succ) (iblk0 V c 2 t)
  Φ t := Phi0 V c t
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

end Cert.Kernel.Hand

end
-- ==== Proof.K.Dat1.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The second tiled matmul (a 50000 × 2048 array times a 2048 × 512 array, tiled 25 × 4): blocks, the running sum over the contraction axis, the proof data

Point `t` of the grid is the pair (row tile `t / 4`, contraction tile `t % 4`). At every point the body adds
the product of the point's left tile and right tile to a running sum kept in a scratch buffer; the sum restarts from
zero where the contraction tile is the first, and where it is the last the output tile receives `sum + bias`. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum after the first `n` points: zero before any point; each point adds its tiles' product to the
    sum the point before left — or to zero, where the contraction tile is the first (`n % 4 = 0`). -/
def accN1 (c : Dev nD) : ℕ → Vec F S2000x512 .f32
  | 0 => k1_pay1
  | n + 1 =>
    if h : n < cfg1.N then
      k1_pay2 (iblk1 V c 0 ⟨n, h⟩) (iblk1 V c 1 ⟨n, h⟩) (if n % 4 = 0 then k1_pay1 else accN1 c n)
    else accN1 c n

/-- The running sum the scratch buffer holds before point `t` (after point `t - 1`). -/
def acc1 (c : Dev nD) (t : Fin (cfg1.N + 1)) : Vec F S2000x512 .f32 := accN1 V c t.val

/-- One step of the running sum: the point's product added to what was there, or to zero at a first contraction tile. -/
theorem acc1_succ (c : Dev nD) (t : Fin cfg1.N) :
    acc1 V c t.succ = k1_pay2 (iblk1 V c 0 t) (iblk1 V c 1 t) (if t.val % 4 = 0 then k1_pay1 else acc1 V c t.castSucc) := by
  obtain ⟨n, hn⟩ := t
  show accN1 V c (n + 1) = _
  rw [accN1, dif_pos hn]; rfl

/-- The scratch operand: a whole scoped buffer of the kernel's own. -/
abbrev scM1 : Memref sig .tc .vmem S2000x512 .f32 := Memref.whole cc1_scratch0

/-- The region invariant before point `t`: the scratch buffer at the running sum — at anything where the sum is about
    to restart (`t % 4 = 0`), so that the invariant holds of a scratch buffer nothing has written yet —, the other
    scoped buffers unopened, and the generator register at some state. -/
def Phi1 (c : Dev nD) (t : Fin (cfg1.N + 1)) : sProp 𝕄 :=
  iprop((∃ a, ⌜t.val % 4 ≠ 0 → a = acc1 V c t⌝ ∗ owns (c : Thread nD τ) scM1 fullShare a)
    ∗ Pipeline.scopedRestBut (Ix := Unit) (Name := ℕ) (U := UR sig nD τ) (Lvl := ℕ) (Val := Elt F) spec1 c [cc1_scratch0]
    ∗ ∃ r, prngReg c r)

/-- The proof data of the second matmul's pipeline on core `c`: the arrays as the region finds them (`V`); after the
    body at point `t` each input's buffer at its block, and the output's at `sum + bias` of the running sum after the
    point (consulted only where the contraction tile is the last: elsewhere the output window is idle); the invariant
    `Phi1`; nothing owed. The bias row and the shift row are one array read through two windows: each holds half of
    it; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.succ) (iblk1 V c 2 t)
  Φ t := Phi1 V c t
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

end Cert.Kernel.Hand

end
-- ==== Proof.K.Dat2.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The third tiled matmul (a 50000 × 2048 array times a 2048 × 256 array, tiled 25 × 4): blocks, the running sum over the contraction axis, the proof data

Point `t` of the grid is the pair (row tile `t / 4`, contraction tile `t % 4`). At every point the body adds
the product of the point's left tile and right tile to a running sum kept in a scratch buffer; the sum restarts from
zero where the contraction tile is the first, and where it is the last the output tile receives `sum + bias`. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running sum after the first `n` points: zero before any point; each point adds its tiles' product to the
    sum the point before left — or to zero, where the contraction tile is the first (`n % 4 = 0`). -/
def accN2 (c : Dev nD) : ℕ → Vec F S2000x256 .f32
  | 0 => k2_pay1
  | n + 1 =>
    if h : n < cfg2.N then
      k2_pay2 (iblk2 V c 0 ⟨n, h⟩) (iblk2 V c 1 ⟨n, h⟩) (if n % 4 = 0 then k2_pay1 else accN2 c n)
    else accN2 c n

/-- The running sum the scratch buffer holds before point `t` (after point `t - 1`). -/
def acc2 (c : Dev nD) (t : Fin (cfg2.N + 1)) : Vec F S2000x256 .f32 := accN2 V c t.val

/-- One step of the running sum: the point's product added to what was there, or to zero at a first contraction tile. -/
theorem acc2_succ (c : Dev nD) (t : Fin cfg2.N) :
    acc2 V c t.succ = k2_pay2 (iblk2 V c 0 t) (iblk2 V c 1 t) (if t.val % 4 = 0 then k2_pay1 else acc2 V c t.castSucc) := by
  obtain ⟨n, hn⟩ := t
  show accN2 V c (n + 1) = _
  rw [accN2, dif_pos hn]; rfl

/-- The scratch operand: a whole scoped buffer of the kernel's own. -/
abbrev scM2 : Memref sig .tc .vmem S2000x256 .f32 := Memref.whole cc2_scratch0

/-- The region invariant before point `t`: the scratch buffer at the running sum — at anything where the sum is about
    to restart (`t % 4 = 0`), so that the invariant holds of a scratch buffer nothing has written yet —, the other
    scoped buffers unopened, and the generator register at some state. -/
def Phi2 (c : Dev nD) (t : Fin (cfg2.N + 1)) : sProp 𝕄 :=
  iprop((∃ a, ⌜t.val % 4 ≠ 0 → a = acc2 V c t⌝ ∗ owns (c : Thread nD τ) scM2 fullShare a)
    ∗ Pipeline.scopedRestBut (Ix := Unit) (Name := ℕ) (U := UR sig nD τ) (Lvl := ℕ) (Val := Elt F) spec2 c [cc2_scratch0]
    ∗ ∃ r, prngReg c r)

/-- The proof data of the third matmul's pipeline on core `c`: the arrays as the region finds them (`V`); after the
    body at point `t` each input's buffer at its block, and the output's at `sum + bias` of the running sum after the
    point (consulted only where the contraction tile is the last: elsewhere the output window is idle); the invariant
    `Phi2`; nothing owed. The bias row and the shift row are one array read through two windows: each holds half of
    it; every other array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.succ) (iblk2 V c 2 t)
  Φ t := Phi2 V c t
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

end Cert.Kernel.Hand

end
-- ==== Proof.K.Dat3.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the fourth matmul region is entered
variable (V : (c : Dev nD) → (b : Ref sig .tc) → Buf (Elt F) ((c : Thread nD τ).loc b))

/-! # The fourth tiled matmul (grid 50 × 3): blocks, the running sum over the contraction axis, the proof data

Point `t` of the grid is the pair (row tile `t / 3`, contraction tile `t % 3`). At every point the body adds
the product of the point's `x` tile (2000 × 256) and `w` tile (256 × 256) to a 2000 × 256 running sum kept in a
scratch buffer; the sum restarts from zero where the contraction tile is the first, and where it is the last the
output tile receives `relu (sum + bias) * scale + shift`. -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum after the first `n` points: zero before any point; each point adds its tiles' product to the
    sum the point before left — or to zero, where the contraction tile is the first (`n % 3 = 0`). -/
def accN (c : Dev nD) : ℕ → Vec F S2000x256 .f32
  | 0 => k3_pay1
  | n + 1 =>
    if h : n < cfg3.N then
      k3_pay2 (iblk3 V c 0 ⟨n, h⟩) (iblk3 V c 1 ⟨n, h⟩) (if n % 3 = 0 then k3_pay1 else accN c n)
    else accN c n

/-- The running sum the scratch buffer holds before point `t` (after point `t - 1`). -/
def acc3 (c : Dev nD) (t : Fin (cfg3.N + 1)) : Vec F S2000x256 .f32 := accN V c t.val

/-- One step of the running sum: the point's product added to what was there, or to zero at a first contraction tile. -/
theorem acc3_succ (c : Dev nD) (t : Fin cfg3.N) :
    acc3 V c t.succ = k3_pay2 (iblk3 V c 0 t) (iblk3 V c 1 t) (if t.val % 3 = 0 then k3_pay1 else acc3 V c t.castSucc) := by
  obtain ⟨n, hn⟩ := t
  show accN V c (n + 1) = _
  rw [accN, dif_pos hn]; rfl

/-- The scratch operand: a whole scoped buffer of the kernel's own. -/
abbrev scM3 : Memref sig .tc .vmem S2000x256 .f32 := Memref.whole cc3_scratch0

/-- The region invariant before point `t`: the scratch buffer at the running sum — at anything where the sum is about
    to restart (`t % 3 = 0`), so that the invariant holds of a scratch buffer nothing has written yet —, the other
    scoped buffers unopened, and the generator register at some state. -/
def Phi3 (c : Dev nD) (t : Fin (cfg3.N + 1)) : sProp 𝕄 :=
  iprop((∃ a, ⌜t.val % 3 ≠ 0 → a = acc3 V c t⌝ ∗ owns (c : Thread nD τ) scM3 fullShare a)
    ∗ Pipeline.scopedRestBut (Ix := Unit) (Name := ℕ) (U := UR sig nD τ) (Lvl := ℕ) (Val := Elt F) spec3 c [cc3_scratch0]
    ∗ ∃ r, prngReg c r)

/-- The proof data of the fourth matmul's pipeline on core `c`: the arrays as the region finds them (`V`); after the
    body at point `t` each input's buffer at its block, and the output's at the epilogue of the running sum after the
    point and the bias, scale and shift rows (consulted only where the contraction tile is the last: elsewhere the
    output window is idle); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay3 (acc3 V c t.succ) (iblk3 V c 2 t) (iblk3 V c 3 t) (iblk3 V c 4 t)
  Φ t := Phi3 V c t
  q _ := fullShare
  owed _ := 0

end Cert.Kernel.Hand

end
-- ==== Proof.K.Data.lean ====
/- The buffers' contents at every boundary of the kernel program's @main, from the launch memory: each host stretch
   folds its operations over the contents before it; each of the four tiled matrix products replaces its output array
   by what its write-backs leave (the proof data's final array) and touches nothing else. These valuations are the
   generated family's at a particular choice of the regions' outputs, and the four pipelines' proof data are each taken
   at the contents its region is entered from. -/
import proofs.«148293_j56684978372941_1_alg».proof.Proof.Gen.Kernel.Regions
import proofs.«148293_j56684978372941_1_alg».proof.Proof.K.Dat0
import proofs.«148293_j56684978372941_1_alg».proof.Proof.K.Dat1
import proofs.«148293_j56684978372941_1_alg».proof.Proof.K.Dat2
import proofs.«148293_j56684978372941_1_alg».proof.Proof.K.Dat3
import Idealize.ShloMosaic.Lib.Pipeline.Kit
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev W0 (c : Dev nD) : Valuation τ sig (Elt F) := Gen.V0 m c
/-- After the host stretch `hostOps0`. -/
abbrev W1 (c : Dev nD) : Valuation τ sig (Elt F) := StableHlo.after hostOps0 (W0 m c)
/-- Region 0's entry contents read at the TensorCore's references (what its proof data take). -/
abbrev E0 : (c : Dev nD) → (b : Ref sig .tc) → Buf (Elt F) ((c : Thread nD τ).loc b) := fun c b => W1 m c b
/-- What region 0 leaves in its output array: the write-backs of its output window folded over the grid. -/
def out0 (c : Dev nD) : Buf (Elt F) ((c : Thread nD τ).loc main_v48) := (dat0 (E0 m) c).arrAt 5 cfg0.N
/-- After region 0: its output array at what the pipeline leaves, every other buffer as entered. -/
def W2 (c : Dev nD) : Valuation τ sig (Elt F) := Function.update (W1 m c) main_v48 (out0 m c)
/-- After the host stretch `hostOps1`. -/
abbrev W3 (c : Dev nD) : Valuation τ sig (Elt F) := StableHlo.after hostOps1 (W2 m c)
/-- Region 1's entry contents read at the TensorCore's references (what its proof data take). -/
abbrev E1 : (c : Dev nD) → (b : Ref sig .tc) → Buf (Elt F) ((c : Thread nD τ).loc b) := fun c b => W3 m c b
/-- What region 1 leaves in its output array: the write-backs of its output window folded over the grid. -/
def out1 (c : Dev nD) : Buf (Elt F) ((c : Thread nD τ).loc main_v89) := (dat1 (E1 m) c).arrAt 5 cfg1.N
/-- After region 1: its output array at what the pipeline leaves, every other buffer as entered. -/
def W4 (c : Dev nD) : Valuation τ sig (Elt F) := Function.update (W3 m c) main_v89 (out1 m c)
/-- After the host stretch `hostOps2`. -/
abbrev W5 (c : Dev nD) : Valuation τ sig (Elt F) := StableHlo.after hostOps2 (W4 m c)
/-- After the host stretch `hostOps2_1`. -/
abbrev W6 (c : Dev nD) : Valuation τ sig (Elt F) := StableHlo.after hostOps2_1 (W5 m c)
/-- After the host stretch `hostOps2_2`. -/
abbrev W7 (c : Dev nD) : Valuation τ sig (Elt F) := StableHlo.after hostOps2_2 (W6 m c)
/-- After the host stretch `hostOps2_3`. -/
abbrev W8 (c : Dev nD) : Valuation τ sig (Elt F) := StableHlo.after hostOps2_3 (W7 m c)
/-- After the host stretch `hostOps2_4`. -/
abbrev W9 (c : Dev nD) : Valuation τ sig (Elt F) := StableHlo.after hostOps2_4 (W8 m c)
/-- Region 2's entry contents read at the TensorCore's references (what its proof data take). -/
abbrev E2 : (c : Dev nD) → (b : Ref sig .tc) → Buf (Elt F) ((c : Thread nD τ).loc b) := fun c b => W9 m c b
/-- What region 2 leaves in its output array: the write-backs of its output window folded over the grid. -/
def out2 (c : Dev nD) : Buf (Elt F) ((c : Thread nD τ).loc main_v150) := (dat2 (E2 m) c).arrAt 5 cfg2.N
/-- After region 2: its output array at what the pipeline leaves, every other buffer as entered. -/
def W10 (c : Dev nD) : Valuation τ sig (Elt F) := Function.update (W9 m c) main_v150 (out2 m c)
/-- After the host stretch `hostOps3`. -/
abbrev W11 (c : Dev nD) : Valuation τ sig (Elt F) := StableHlo.after hostOps3 (W10 m c)
/-- After the host stretch `hostOps3_1`. -/
abbrev W12 (c : Dev nD) : Valuation τ sig (Elt F) := StableHlo.after hostOps3_1 (W11 m c)
/-- After the host stretch `hostOps3_2`. -/
abbrev W13 (c : Dev nD) : Valuation τ sig (Elt F) := StableHlo.after hostOps3_2 (W12 m c)
/-- After the host stretch `hostOps3_3`. -/
abbrev W14 (c : Dev nD) : Valuation τ sig (Elt F) := StableHlo.after hostOps3_3 (W13 m c)
/-- After the host stretch `hostOps3_4`. -/
abbrev W15 (c : Dev nD) : Valuation τ sig (Elt F) := StableHlo.after hostOps3_4 (W14 m c)
/-- Region 3's entry contents read at the TensorCore's references (what its proof data take). -/
abbrev E3 : (c : Dev nD) → (b : Ref sig .tc) → Buf (Elt F) ((c : Thread nD τ).loc b) := fun c b => W15 m c b
/-- What region 3 leaves in its output array: the write-backs of its output window folded over the grid. -/
def out3 (c : Dev nD) : Buf (Elt F) ((c : Thread nD τ).loc main_v198) := (dat3 (E3 m) c).arrAt 5 cfg3.N
/-- After region 3: its output array at what the pipeline leaves, every other buffer as entered. -/
def W16 (c : Dev nD) : Valuation τ sig (Elt F) := Function.update (W15 m c) main_v198 (out3 m c)
/-- After the host stretch `hostOps4`. -/
abbrev W17 (c : Dev nD) : Valuation τ sig (Elt F) := StableHlo.after hostOps4 (W16 m c)
/-- After the host stretch `hostOps4_1`. -/
abbrev W18 (c : Dev nD) : Valuation τ sig (Elt F) := StableHlo.after hostOps4_1 (W17 m c)
/-- After the host stretch `hostOps4_2`. -/
abbrev W19 (c : Dev nD) : Valuation τ sig (Elt F) := StableHlo.after hostOps4_2 (W18 m c)
/-- After the host stretch `hostOps4_3`. -/
abbrev W20 (c : Dev nD) : Valuation τ sig (Elt F) := StableHlo.after hostOps4_3 (W19 m c)
/-- After the host stretch `hostOps4_4`. -/
abbrev W21 (c : Dev nD) : Valuation τ sig (Elt F) := StableHlo.after hostOps4_4 (W20 m c)

/-! ## The regions' outputs as the generated family's unknowns -/

/-- The contents the regions leave, indexed as the generated valuations read them: after item J − 1 every buffer
    holds what boundary J's valuation says. -/
def outs : Gen.Outs (F := F) := fun J r c =>
  match J with
  | 2 => W2 m c r
  | 4 => W4 m c r
  | 10 => W10 m c r
  | 16 => W16 m c r
  | _ => W0 m c r

theorem outs_at0 (c : Dev nD) : outs m 2 main_v48 c = out0 m c := by
  show W2 m c main_v48 = out0 m c
  unfold W2; exact Function.update_self ..
theorem outs_at1 (c : Dev nD) : outs m 4 main_v89 c = out1 m c := by
  show W4 m c main_v89 = out1 m c
  unfold W4; exact Function.update_self ..
theorem outs_at2 (c : Dev nD) : outs m 10 main_v150 c = out2 m c := by
  show W10 m c main_v150 = out2 m c
  unfold W10; exact Function.update_self ..
theorem outs_at3 (c : Dev nD) : outs m 16 main_v198 c = out3 m c := by
  show W16 m c main_v198 = out3 m c
  unfold W16; exact Function.update_self ..

/-! ## The generated valuations at these outputs are the ones above -/

theorem V0_eq (c : Dev nD) : Gen.V0 m c = W0 m c := rfl
theorem V1_eq (c : Dev nD) : Gen.V1 m c = W1 m c := by
  show StableHlo.after hostOps0 (Gen.V0 m c) = StableHlo.after hostOps0 (W0 m c)
  rw [V0_eq m c]
theorem V2_eq (c : Dev nD) : Gen.V2 m (outs m) c = W2 m c := by
  show Function.update (Gen.V1 m c) main_v48 (outs m 2 main_v48 c) = Function.update (W1 m c) main_v48 (out0 m c)
  rw [V1_eq m c]; exact congrArg _ (outs_at0 m c)
theorem V3_eq (c : Dev nD) : Gen.V3 m (outs m) c = W3 m c := by
  show StableHlo.after hostOps1 (Gen.V2 m (outs m) c) = StableHlo.after hostOps1 (W2 m c)
  rw [V2_eq m c]
theorem V4_eq (c : Dev nD) : Gen.V4 m (outs m) c = W4 m c := by
  show Function.update (Gen.V3 m (outs m) c) main_v89 (outs m 4 main_v89 c) = Function.update (W3 m c) main_v89 (out1 m c)
  rw [V3_eq m c]; exact congrArg _ (outs_at1 m c)
theorem V5_eq (c : Dev nD) : Gen.V5 m (outs m) c = W5 m c := by
  show StableHlo.after hostOps2 (Gen.V4 m (outs m) c) = StableHlo.after hostOps2 (W4 m c)
  rw [V4_eq m c]
theorem V6_eq (c : Dev nD) : Gen.V6 m (outs m) c = W6 m c := by
  show StableHlo.after hostOps2_1 (Gen.V5 m (outs m) c) = StableHlo.after hostOps2_1 (W5 m c)
  rw [V5_eq m c]
theorem V7_eq (c : Dev nD) : Gen.V7 m (outs m) c = W7 m c := by
  show StableHlo.after hostOps2_2 (Gen.V6 m (outs m) c) = StableHlo.after hostOps2_2 (W6 m c)
  rw [V6_eq m c]
theorem V8_eq (c : Dev nD) : Gen.V8 m (outs m) c = W8 m c := by
  show StableHlo.after hostOps2_3 (Gen.V7 m (outs m) c) = StableHlo.after hostOps2_3 (W7 m c)
  rw [V7_eq m c]
theorem V9_eq (c : Dev nD) : Gen.V9 m (outs m) c = W9 m c := by
  show StableHlo.after hostOps2_4 (Gen.V8 m (outs m) c) = StableHlo.after hostOps2_4 (W8 m c)
  rw [V8_eq m c]
theorem V10_eq (c : Dev nD) : Gen.V10 m (outs m) c = W10 m c := by
  show Function.update (Gen.V9 m (outs m) c) main_v150 (outs m 10 main_v150 c) = Function.update (W9 m c) main_v150 (out2 m c)
  rw [V9_eq m c]; exact congrArg _ (outs_at2 m c)
theorem V11_eq (c : Dev nD) : Gen.V11 m (outs m) c = W11 m c := by
  show StableHlo.after hostOps3 (Gen.V10 m (outs m) c) = StableHlo.after hostOps3 (W10 m c)
  rw [V10_eq m c]
theorem V12_eq (c : Dev nD) : Gen.V12 m (outs m) c = W12 m c := by
  show StableHlo.after hostOps3_1 (Gen.V11 m (outs m) c) = StableHlo.after hostOps3_1 (W11 m c)
  rw [V11_eq m c]
theorem V13_eq (c : Dev nD) : Gen.V13 m (outs m) c = W13 m c := by
  show StableHlo.after hostOps3_2 (Gen.V12 m (outs m) c) = StableHlo.after hostOps3_2 (W12 m c)
  rw [V12_eq m c]
theorem V14_eq (c : Dev nD) : Gen.V14 m (outs m) c = W14 m c := by
  show StableHlo.after hostOps3_3 (Gen.V13 m (outs m) c) = StableHlo.after hostOps3_3 (W13 m c)
  rw [V13_eq m c]
theorem V15_eq (c : Dev nD) : Gen.V15 m (outs m) c = W15 m c := by
  show StableHlo.after hostOps3_4 (Gen.V14 m (outs m) c) = StableHlo.after hostOps3_4 (W14 m c)
  rw [V14_eq m c]
theorem V16_eq (c : Dev nD) : Gen.V16 m (outs m) c = W16 m c := by
  show Function.update (Gen.V15 m (outs m) c) main_v198 (outs m 16 main_v198 c) = Function.update (W15 m c) main_v198 (out3 m c)
  rw [V15_eq m c]; exact congrArg _ (outs_at3 m c)
theorem V17_eq (c : Dev nD) : Gen.V17 m (outs m) c = W17 m c := by
  show StableHlo.after hostOps4 (Gen.V16 m (outs m) c) = StableHlo.after hostOps4 (W16 m c)
  rw [V16_eq m c]
theorem V18_eq (c : Dev nD) : Gen.V18 m (outs m) c = W18 m c := by
  show StableHlo.after hostOps4_1 (Gen.V17 m (outs m) c) = StableHlo.after hostOps4_1 (W17 m c)
  rw [V17_eq m c]
theorem V19_eq (c : Dev nD) : Gen.V19 m (outs m) c = W19 m c := by
  show StableHlo.after hostOps4_2 (Gen.V18 m (outs m) c) = StableHlo.after hostOps4_2 (W18 m c)
  rw [V18_eq m c]
theorem V20_eq (c : Dev nD) : Gen.V20 m (outs m) c = W20 m c := by
  show StableHlo.after hostOps4_3 (Gen.V19 m (outs m) c) = StableHlo.after hostOps4_3 (W19 m c)
  rw [V19_eq m c]
theorem V21_eq (c : Dev nD) : Gen.V21 m (outs m) c = W21 m c := by
  show StableHlo.after hostOps4_4 (Gen.V20 m (outs m) c) = StableHlo.after hostOps4_4 (W20 m c)
  rw [V20_eq m c]

/-! ## The proof data family -/

/-- Every pipeline's proof data, each at its region's entry contents — a literal match on the pipeline's index. -/
def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

end Cert.Kernel.Hand

end
-- ==== Proof.K.Run.lean ====
/- The kernel program's run: @main as the generated list of segments (seventeen host stretches and the four tiled matrix
   products), launched from any memory with zero counters. Every weakly fair execution terminates, and in every final
   memory each unscoped buffer holds what the last boundary's valuation says — the arguments their launch contents, the
   result buffer the score tail of what the fourth product left. The regions' records are parameters here. -/
import proofs.«148293_j56684978372941_1_alg».proof.Proof.K.Data

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What rides beside the buffers at each of the five boundaries next to a region: the same rest everywhere. -/
abbrev Erest : Fin 5 → Dev nD → sProp 𝕄 := fun _ c => R c

/-- The rest ends owing nothing. -/
theorem rest_owes (c : Dev nD) : (R (F := F) c) ⊢ (iprop(∃ W, owes (c : Thread nD τ) (0 : CellTallies nD τ sig Unit) W) : sProp 𝕄) := by
  iintro ⟨-, HO⟩; iexact HO

/-- Region 0's entry and exit entailments restated over the generated valuations (equal to ours). -/
theorem hpre0' (R0 : Pipeline.RegionSeg (pcfgs (F := F)) Gen.adm (pdats m) () defs₀ 𝒱₀ L lv 0)
    (h : ∀ c : Dev nD, iprop(StableHlo.held (c : Thread nD τ) (Pipeline.ucRefs τ sig) (W1 m c) ∗ R c) ⊢ R0.pre c) (c : Dev nD) :
    iprop(StableHlo.held (c : Thread nD τ) (Pipeline.ucRefs τ sig) (Gen.V1 m c) ∗ Erest (F := F) 0 c) ⊢ R0.pre c := by
  rw [V1_eq m c]; exact h c
theorem hpost0' (R0 : Pipeline.RegionSeg (pcfgs (F := F)) Gen.adm (pdats m) () defs₀ 𝒱₀ L lv 0)
    (h : ∀ c : Dev nD, R0.post c ⊢ iprop(StableHlo.held (c : Thread nD τ) (Pipeline.ucRefs τ sig) (W2 m c) ∗ R c)) (c : Dev nD) :
    R0.post c ⊢ iprop(StableHlo.held (c : Thread nD τ) (Pipeline.ucRefs τ sig) (Gen.V2 m (outs m) c) ∗ Erest (F := F) 1 c) := by
  rw [V2_eq m c]; exact h c
/-- Region 1's entry and exit entailments restated over the generated valuations (equal to ours). -/
theorem hpre1' (R1 : Pipeline.RegionSeg (pcfgs (F := F)) Gen.adm (pdats m) () defs₀ 𝒱₀ L lv 1)
    (h : ∀ c : Dev nD, iprop(StableHlo.held (c : Thread nD τ) (Pipeline.ucRefs τ sig) (W3 m c) ∗ R c) ⊢ R1.pre c) (c : Dev nD) :
    iprop(StableHlo.held (c : Thread nD τ) (Pipeline.ucRefs τ sig) (Gen.V3 m (outs m) c) ∗ Erest (F := F) 1 c) ⊢ R1.pre c := by
  rw [V3_eq m c]; exact h c
theorem hpost1' (R1 : Pipeline.RegionSeg (pcfgs (F := F)) Gen.adm (pdats m) () defs₀ 𝒱₀ L lv 1)
    (h : ∀ c : Dev nD, R1.post c ⊢ iprop(StableHlo.held (c : Thread nD τ) (Pipeline.ucRefs τ sig) (W4 m c) ∗ R c)) (c : Dev nD) :
    R1.post c ⊢ iprop(StableHlo.held (c : Thread nD τ) (Pipeline.ucRefs τ sig) (Gen.V4 m (outs m) c) ∗ Erest (F := F) 2 c) := by
  rw [V4_eq m c]; exact h c
/-- Region 2's entry and exit entailments restated over the generated valuations (equal to ours). -/
theorem hpre2' (R2 : Pipeline.RegionSeg (pcfgs (F := F)) Gen.adm (pdats m) () defs₀ 𝒱₀ L lv 2)
    (h : ∀ c : Dev nD, iprop(StableHlo.held (c : Thread nD τ) (Pipeline.ucRefs τ sig) (W9 m c) ∗ R c) ⊢ R2.pre c) (c : Dev nD) :
    iprop(StableHlo.held (c : Thread nD τ) (Pipeline.ucRefs τ sig) (Gen.V9 m (outs m) c) ∗ Erest (F := F) 2 c) ⊢ R2.pre c := by
  rw [V9_eq m c]; exact h c
theorem hpost2' (R2 : Pipeline.RegionSeg (pcfgs (F := F)) Gen.adm (pdats m) () defs₀ 𝒱₀ L lv 2)
    (h : ∀ c : Dev nD, R2.post c ⊢ iprop(StableHlo.held (c : Thread nD τ) (Pipeline.ucRefs τ sig) (W10 m c) ∗ R c)) (c : Dev nD) :
    R2.post c ⊢ iprop(StableHlo.held (c : Thread nD τ) (Pipeline.ucRefs τ sig) (Gen.V10 m (outs m) c) ∗ Erest (F := F) 3 c) := by
  rw [V10_eq m c]; exact h c
/-- Region 3's entry and exit entailments restated over the generated valuations (equal to ours). -/
theorem hpre3' (R3 : Pipeline.RegionSeg (pcfgs (F := F)) Gen.adm (pdats m) () defs₀ 𝒱₀ L lv 3)
    (h : ∀ c : Dev nD, iprop(StableHlo.held (c : Thread nD τ) (Pipeline.ucRefs τ sig) (W15 m c) ∗ R c) ⊢ R3.pre c) (c : Dev nD) :
    iprop(StableHlo.held (c : Thread nD τ) (Pipeline.ucRefs τ sig) (Gen.V15 m (outs m) c) ∗ Erest (F := F) 3 c) ⊢ R3.pre c := by
  rw [V15_eq m c]; exact h c
theorem hpost3' (R3 : Pipeline.RegionSeg (pcfgs (F := F)) Gen.adm (pdats m) () defs₀ 𝒱₀ L lv 3)
    (h : ∀ c : Dev nD, R3.post c ⊢ iprop(StableHlo.held (c : Thread nD τ) (Pipeline.ucRefs τ sig) (W16 m c) ∗ R c)) (c : Dev nD) :
    R3.post c ⊢ iprop(StableHlo.held (c : Thread nD τ) (Pipeline.ucRefs τ sig) (Gen.V16 m (outs m) c) ∗ Erest (F := F) 4 c) := by
  rw [V16_eq m c]; exact h c

section Run

set_option backward.isDefEq.respectTransparency.types false in
/-- THE RUN. Given the four regions' records, entered from and left at our valuations beside the rest. -/
theorem run_all (ρ : Dev nD → PrngReg)
    (R0 : Pipeline.RegionSeg (pcfgs (F := F)) Gen.adm (pdats m) () defs₀ 𝒱₀ L lv 0)
    (hpre0 : ∀ c : Dev nD, iprop(StableHlo.held (c : Thread nD τ) (Pipeline.ucRefs τ sig) (W1 m c) ∗ R c) ⊢ R0.pre c)
    (hpost0 : ∀ c : Dev nD, R0.post c ⊢ iprop(StableHlo.held (c : Thread nD τ) (Pipeline.ucRefs τ sig) (W2 m c) ∗ R c))
    (R1 : Pipeline.RegionSeg (pcfgs (F := F)) Gen.adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c))
    (R2 : Pipeline.RegionSeg (pcfgs (F := F)) Gen.adm (pdats m) () defs₀ 𝒱₀ L lv 2)
    (hpre2 : ∀ c : Dev nD, iprop(StableHlo.held (c : Thread nD τ) (Pipeline.ucRefs τ sig) (W9 m c) ∗ R c) ⊢ R2.pre c)
    (hpost2 : ∀ c : Dev nD, R2.post c ⊢ iprop(StableHlo.held (c : Thread nD τ) (Pipeline.ucRefs τ sig) (W10 m c) ∗ R c))
    (R3 : Pipeline.RegionSeg (pcfgs (F := F)) Gen.adm (pdats m) () defs₀ 𝒱₀ L lv 3)
    (hpre3 : ∀ c : Dev nD, iprop(StableHlo.held (c : Thread nD τ) (Pipeline.ucRefs τ sig) (W15 m c) ∗ R c) ⊢ R3.pre c)
    (hpost3 : ∀ c : Dev nD, R3.post c ⊢ iprop(StableHlo.held (c : Thread nD τ) (Pipeline.ucRefs τ sig) (W16 m c) ∗ R c)) :
    θ_run defs (onTc (τ := τ) (main (F := F))) ⟨m, fun _ => 0, ρ⟩ (fun r => ∀ c : Dev nD,
    ∀ b ∈ Pipeline.ucRefs τ sig, r.2.mem (((c : Thread nD τ)).1, b) = W21 m c b) := by
  refine Pipeline.θ_run_regions_kit_dev (pcfgs (F := F)) Gen.adm (pdats m) () cellOf_inj emb₁ defs₀ 𝒱₀ L lv m ρ main
    (Gen.segs m (outs m) 𝒱₀ L lv (Erest (F := F)) () (pdats m) R0 R1 R2 R3)
    (fun c Q => by
      rewrite [main_chain c, Pipeline.Seg.run_eq_chain,
        show (Gen.segs m (outs m) 𝒱₀ L lv (Erest (F := F)) () (pdats m) R0 R1 R2 R3 c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1,
          StableHlo.seq hostOps4_2,
          StableHlo.seq hostOps4_3,
          StableHlo.seq hostOps4_4 ] from rfl]
      exact .rfl)
    (fun c => by simp only [Gen.segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj)) ?hu
    (T₀ := fun c => iprop(StableHlo.held (c : Thread nD τ) (Pipeline.ucRefs τ sig) (Gen.V0 m c) ∗ Erest (F := F) 0 c))
    (Tₙ := fun c => StableHlo.held (c : Thread nD τ) (Pipeline.ucRefs τ sig) (Gen.V21 m (outs m) c))
    (hch := fun c => ⟨.rfl, hpre0' m R0 hpre0 c, hpost0' m R0 hpost0 c, hpre1' m R1 hpre1 c, hpost1' m R1 hpost1 c, .rfl, .rfl, .rfl, .rfl, hpre2' m R2 hpre2 c, hpost2' m R2 hpost2 c, .rfl, .rfl, .rfl, .rfl, hpre3' m R3 hpre3 c, hpost3' m R3 hpost3 c, .rfl, .rfl, .rfl, .rfl, sep_mono .rfl (rest_owes c)⟩)
    (hinit := ?hinit)
    (QY := fun c s => ∀ b ∈ Pipeline.ucRefs τ sig, s.mem (((c : Thread nD τ)).1, b) = Gen.V21 m (outs m) c b)
    (hfin := fun c s' => ?hfin) (hQ := fun s h c b hb => (h c b hb).trans (congrFun (V21_eq m c) b))
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    iintro ⟨Hh, HSI⟩
    unfold StableHlo.held
    imodintro
    iapply (pointsTo_read_all (Pipeline.ucRefs τ sig) (fun b => (((c : Thread nD τ)).1, b)) (Gen.V21 m (outs m) c) s')
    isplitl [Hh] <;> iassumption

end Run

end Cert.Kernel.Hand

end
-- ==== Proof.K.Claims.lean ====
/- What the kernel program's run gives: its argument arrays end as launched (no host operation and no region writes
   an argument), and its result buffer ends at the last boundary's contents. Both are read off the run, which leaves every
   unscoped buffer at that valuation. -/
import proofs.«148293_j56684978372941_1_alg».proof.Proof.K.Run

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each argument's buffer at the last boundary is its launch contents -/

theorem W21_arg0 (c : Dev nD) : W21 m c main_arg0 = m ((c : Thread nD τ).loc main_arg0) :=
  (congrFun (V21_eq m c) _).symm.trans (Gen.V21_main_arg0 m (outs m) c)
theorem W21_arg1 (c : Dev nD) : W21 m c main_arg1 = m ((c : Thread nD τ).loc main_arg1) :=
  (congrFun (V21_eq m c) _).symm.trans (Gen.V21_main_arg1 m (outs m) c)
theorem W21_arg2 (c : Dev nD) : W21 m c main_arg2 = m ((c : Thread nD τ).loc main_arg2) :=
  (congrFun (V21_eq m c) _).symm.trans (Gen.V21_main_arg2 m (outs m) c)
theorem W21_arg3 (c : Dev nD) : W21 m c main_arg3 = m ((c : Thread nD τ).loc main_arg3) :=
  (congrFun (V21_eq m c) _).symm.trans (Gen.V21_main_arg3 m (outs m) c)
theorem W21_arg4 (c : Dev nD) : W21 m c main_arg4 = m ((c : Thread nD τ).loc main_arg4) :=
  (congrFun (V21_eq m c) _).symm.trans (Gen.V21_main_arg4 m (outs m) c)
theorem W21_arg5 (c : Dev nD) : W21 m c main_arg5 = m ((c : Thread nD τ).loc main_arg5) :=
  (congrFun (V21_eq m c) _).symm.trans (Gen.V21_main_arg5 m (outs m) c)
theorem W21_arg6 (c : Dev nD) : W21 m c main_arg6 = m ((c : Thread nD τ).loc main_arg6) :=
  (congrFun (V21_eq m c) _).symm.trans (Gen.V21_main_arg6 m (outs m) c)
theorem W21_arg7 (c : Dev nD) : W21 m c main_arg7 = m ((c : Thread nD τ).loc main_arg7) :=
  (congrFun (V21_eq m c) _).symm.trans (Gen.V21_main_arg7 m (outs m) c)
theorem W21_arg8 (c : Dev nD) : W21 m c main_arg8 = m ((c : Thread nD τ).loc main_arg8) :=
  (congrFun (V21_eq m c) _).symm.trans (Gen.V21_main_arg8 m (outs m) c)
theorem W21_arg9 (c : Dev nD) : W21 m c main_arg9 = m ((c : Thread nD τ).loc main_arg9) :=
  (congrFun (V21_eq m c) _).symm.trans (Gen.V21_main_arg9 m (outs m) c)
theorem W21_arg10 (c : Dev nD) : W21 m c main_arg10 = m ((c : Thread nD τ).loc main_arg10) :=
  (congrFun (V21_eq m c) _).symm.trans (Gen.V21_main_arg10 m (outs m) c)
theorem W21_arg11 (c : Dev nD) : W21 m c main_arg11 = m ((c : Thread nD τ).loc main_arg11) :=
  (congrFun (V21_eq m c) _).symm.trans (Gen.V21_main_arg11 m (outs m) c)
theorem W21_arg12 (c : Dev nD) : W21 m c main_arg12 = m ((c : Thread nD τ).loc main_arg12) :=
  (congrFun (V21_eq m c) _).symm.trans (Gen.V21_main_arg12 m (outs m) c)
theorem W21_arg13 (c : Dev nD) : W21 m c main_arg13 = m ((c : Thread nD τ).loc main_arg13) :=
  (congrFun (V21_eq m c) _).symm.trans (Gen.V21_main_arg13 m (outs m) c)
theorem W21_arg14 (c : Dev nD) : W21 m c main_arg14 = m ((c : Thread nD τ).loc main_arg14) :=
  (congrFun (V21_eq m c) _).symm.trans (Gen.V21_main_arg14 m (outs m) c)
theorem W21_arg15 (c : Dev nD) : W21 m c main_arg15 = m ((c : Thread nD τ).loc main_arg15) :=
  (congrFun (V21_eq m c) _).symm.trans (Gen.V21_main_arg15 m (outs m) c)
theorem W21_arg16 (c : Dev nD) : W21 m c main_arg16 = m ((c : Thread nD τ).loc main_arg16) :=
  (congrFun (V21_eq m c) _).symm.trans (Gen.V21_main_arg16 m (outs m) c)
theorem W21_arg17 (c : Dev nD) : W21 m c main_arg17 = m ((c : Thread nD τ).loc main_arg17) :=
  (congrFun (V21_eq m c) _).symm.trans (Gen.V21_main_arg17 m (outs m) c)
theorem W21_arg18 (c : Dev nD) : W21 m c main_arg18 = m ((c : Thread nD τ).loc main_arg18) :=
  (congrFun (V21_eq m c) _).symm.trans (Gen.V21_main_arg18 m (outs m) c)
theorem W21_arg19 (c : Dev nD) : W21 m c main_arg19 = m ((c : Thread nD τ).loc main_arg19) :=
  (congrFun (V21_eq m c) _).symm.trans (Gen.V21_main_arg19 m (outs m) c)
theorem W21_arg20 (c : Dev nD) : W21 m c main_arg20 = m ((c : Thread nD τ).loc main_arg20) :=
  (congrFun (V21_eq m c) _).symm.trans (Gen.V21_main_arg20 m (outs m) c)
theorem W21_arg21 (c : Dev nD) : W21 m c main_arg21 = m ((c : Thread nD τ).loc main_arg21) :=
  (congrFun (V21_eq m c) _).symm.trans (Gen.V21_main_arg21 m (outs m) c)
theorem W21_arg22 (c : Dev nD) : W21 m c main_arg22 = m ((c : Thread nD τ).loc main_arg22) :=
  (congrFun (V21_eq m c) _).symm.trans (Gen.V21_main_arg22 m (outs m) c)
theorem W21_arg23 (c : Dev nD) : W21 m c main_arg23 = m ((c : Thread nD τ).loc main_arg23) :=
  (congrFun (V21_eq m c) _).symm.trans (Gen.V21_main_arg23 m (outs m) c)
theorem W21_arg24 (c : Dev nD) : W21 m c main_arg24 = m ((c : Thread nD τ).loc main_arg24) :=
  (congrFun (V21_eq m c) _).symm.trans (Gen.V21_main_arg24 m (outs m) c)
theorem W21_arg25 (c : Dev nD) : W21 m c main_arg25 = m ((c : Thread nD τ).loc main_arg25) :=
  (congrFun (V21_eq m c) _).symm.trans (Gen.V21_main_arg25 m (outs m) c)
theorem W21_arg26 (c : Dev nD) : W21 m c main_arg26 = m ((c : Thread nD τ).loc main_arg26) :=
  (congrFun (V21_eq m c) _).symm.trans (Gen.V21_main_arg26 m (outs m) c)
theorem W21_arg27 (c : Dev nD) : W21 m c main_arg27 = m ((c : Thread nD τ).loc main_arg27) :=
  (congrFun (V21_eq m c) _).symm.trans (Gen.V21_main_arg27 m (outs m) c)
theorem W21_arg28 (c : Dev nD) : W21 m c main_arg28 = m ((c : Thread nD τ).loc main_arg28) :=
  (congrFun (V21_eq m c) _).symm.trans (Gen.V21_main_arg28 m (outs m) c)

/-! ## The frame and the result -/

set_option backward.isDefEq.respectTransparency.types false in
/-- The argument arrays end unchanged. -/
theorem frame_of (ρ : Dev nD → PrngReg)
    (R0 : Pipeline.RegionSeg (pcfgs (F := F)) Gen.adm (pdats m) () defs₀ 𝒱₀ L lv 0)
    (hpre0 : ∀ c : Dev nD, iprop(StableHlo.held (c : Thread nD τ) (Pipeline.ucRefs τ sig) (W1 m c) ∗ R c) ⊢ R0.pre c)
    (hpost0 : ∀ c : Dev nD, R0.post c ⊢ iprop(StableHlo.held (c : Thread nD τ) (Pipeline.ucRefs τ sig) (W2 m c) ∗ R c))
    (R1 : Pipeline.RegionSeg (pcfgs (F := F)) Gen.adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c))
    (R2 : Pipeline.RegionSeg (pcfgs (F := F)) Gen.adm (pdats m) () defs₀ 𝒱₀ L lv 2)
    (hpre2 : ∀ c : Dev nD, iprop(StableHlo.held (c : Thread nD τ) (Pipeline.ucRefs τ sig) (W9 m c) ∗ R c) ⊢ R2.pre c)
    (hpost2 : ∀ c : Dev nD, R2.post c ⊢ iprop(StableHlo.held (c : Thread nD τ) (Pipeline.ucRefs τ sig) (W10 m c) ∗ R c))
    (R3 : Pipeline.RegionSeg (pcfgs (F := F)) Gen.adm (pdats m) () defs₀ 𝒱₀ L lv 3)
    (hpre3 : ∀ c : Dev nD, iprop(StableHlo.held (c : Thread nD τ) (Pipeline.ucRefs τ sig) (W15 m c) ∗ R c) ⊢ R3.pre c)
    (hpost3 : ∀ c : Dev nD, R3.post c ⊢ iprop(StableHlo.held (c : Thread nD τ) (Pipeline.ucRefs τ sig) (W16 m c) ∗ R c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_arg0 (by decide))).trans (W21_arg0 m c),
      (h c _ (mem_uc main_arg1 (by decide))).trans (W21_arg1 m c),
      (h c _ (mem_uc main_arg2 (by decide))).trans (W21_arg2 m c),
      (h c _ (mem_uc main_arg3 (by decide))).trans (W21_arg3 m c),
      (h c _ (mem_uc main_arg4 (by decide))).trans (W21_arg4 m c),
      (h c _ (mem_uc main_arg5 (by decide))).trans (W21_arg5 m c),
      (h c _ (mem_uc main_arg6 (by decide))).trans (W21_arg6 m c),
      (h c _ (mem_uc main_arg7 (by decide))).trans (W21_arg7 m c),
      (h c _ (mem_uc main_arg8 (by decide))).trans (W21_arg8 m c),
      (h c _ (mem_uc main_arg9 (by decide))).trans (W21_arg9 m c),
      (h c _ (mem_uc main_arg10 (by decide))).trans (W21_arg10 m c),
      (h c _ (mem_uc main_arg11 (by decide))).trans (W21_arg11 m c),
      (h c _ (mem_uc main_arg12 (by decide))).trans (W21_arg12 m c),
      (h c _ (mem_uc main_arg13 (by decide))).trans (W21_arg13 m c),
      (h c _ (mem_uc main_arg14 (by decide))).trans (W21_arg14 m c),
      (h c _ (mem_uc main_arg15 (by decide))).trans (W21_arg15 m c),
      (h c _ (mem_uc main_arg16 (by decide))).trans (W21_arg16 m c),
      (h c _ (mem_uc main_arg17 (by decide))).trans (W21_arg17 m c),
      (h c _ (mem_uc main_arg18 (by decide))).trans (W21_arg18 m c),
      (h c _ (mem_uc main_arg19 (by decide))).trans (W21_arg19 m c),
      (h c _ (mem_uc main_arg20 (by decide))).trans (W21_arg20 m c),
      (h c _ (mem_uc main_arg21 (by decide))).trans (W21_arg21 m c),
      (h c _ (mem_uc main_arg22 (by decide))).trans (W21_arg22 m c),
      (h c _ (mem_uc main_arg23 (by decide))).trans (W21_arg23 m c),
      (h c _ (mem_uc main_arg24 (by decide))).trans (W21_arg24 m c),
      (h c _ (mem_uc main_arg25 (by decide))).trans (W21_arg25 m c),
      (h c _ (mem_uc main_arg26 (by decide))).trans (W21_arg26 m c),
      (h c _ (mem_uc main_arg27 (by decide))).trans (W21_arg27 m c),
      (h c _ (mem_uc main_arg28 (by decide))).trans (W21_arg28 m c)⟩)
    (run_all m ρ R0 hpre0 hpost0 R1 hpre1 hpost1 R2 hpre2 hpost2 R3 hpre3 hpost3)

set_option backward.isDefEq.respectTransparency.types false in
/-- The result buffer ends at the last boundary's contents. -/
theorem result_of (ρ : Dev nD → PrngReg)
    (R0 : Pipeline.RegionSeg (pcfgs (F := F)) Gen.adm (pdats m) () defs₀ 𝒱₀ L lv 0)
    (hpre0 : ∀ c : Dev nD, iprop(StableHlo.held (c : Thread nD τ) (Pipeline.ucRefs τ sig) (W1 m c) ∗ R c) ⊢ R0.pre c)
    (hpost0 : ∀ c : Dev nD, R0.post c ⊢ iprop(StableHlo.held (c : Thread nD τ) (Pipeline.ucRefs τ sig) (W2 m c) ∗ R c))
    (R1 : Pipeline.RegionSeg (pcfgs (F := F)) Gen.adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c))
    (R2 : Pipeline.RegionSeg (pcfgs (F := F)) Gen.adm (pdats m) () defs₀ 𝒱₀ L lv 2)
    (hpre2 : ∀ c : Dev nD, iprop(StableHlo.held (c : Thread nD τ) (Pipeline.ucRefs τ sig) (W9 m c) ∗ R c) ⊢ R2.pre c)
    (hpost2 : ∀ c : Dev nD, R2.post c ⊢ iprop(StableHlo.held (c : Thread nD τ) (Pipeline.ucRefs τ sig) (W10 m c) ∗ R c))
    (R3 : Pipeline.RegionSeg (pcfgs (F := F)) Gen.adm (pdats m) () defs₀ 𝒱₀ L lv 3)
    (hpre3 : ∀ c : Dev nD, iprop(StableHlo.held (c : Thread nD τ) (Pipeline.ucRefs τ sig) (W15 m c) ∗ R c) ⊢ R3.pre c)
    (hpost3 : ∀ c : Dev nD, R3.post c ⊢ iprop(StableHlo.held (c : Thread nD τ) (Pipeline.ucRefs τ sig) (W16 m c) ∗ R c)) :
    θ_run defs (onTc (τ := τ) (main (F := F))) ⟨m, fun _ => 0, ρ⟩ (fun r => ∀ c : Dev nD,
      r.2.mem ((c.tc : Thread nD τ).loc main_v219) = W21 m c main_v219) :=
  (θ_run defs _ _).mono (fun r h c => h c _ (mem_uc main_v219 (by decide)))
    (run_all m ρ R0 hpre0 hpost0 R1 hpre1 hpost1 R2 hpre2 hpost2 R3 hpre3 hpost3)

set_option backward.isDefEq.respectTransparency.types false in
/-- Both at once: the result buffer at the last boundary's contents and the arguments unchanged. -/
theorem full_of (ρ : Dev nD → PrngReg)
    (R0 : Pipeline.RegionSeg (pcfgs (F := F)) Gen.adm (pdats m) () defs₀ 𝒱₀ L lv 0)
    (hpre0 : ∀ c : Dev nD, iprop(StableHlo.held (c : Thread nD τ) (Pipeline.ucRefs τ sig) (W1 m c) ∗ R c) ⊢ R0.pre c)
    (hpost0 : ∀ c : Dev nD, R0.post c ⊢ iprop(StableHlo.held (c : Thread nD τ) (Pipeline.ucRefs τ sig) (W2 m c) ∗ R c))
    (R1 : Pipeline.RegionSeg (pcfgs (F := F)) Gen.adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c))
    (R2 : Pipeline.RegionSeg (pcfgs (F := F)) Gen.adm (pdats m) () defs₀ 𝒱₀ L lv 2)
    (hpre2 : ∀ c : Dev nD, iprop(StableHlo.held (c : Thread nD τ) (Pipeline.ucRefs τ sig) (W9 m c) ∗ R c) ⊢ R2.pre c)
    (hpost2 : ∀ c : Dev nD, R2.post c ⊢ iprop(StableHlo.held (c : Thread nD τ) (Pipeline.ucRefs τ sig) (W10 m c) ∗ R c))
    (R3 : Pipeline.RegionSeg (pcfgs (F := F)) Gen.adm (pdats m) () defs₀ 𝒱₀ L lv 3)
    (hpre3 : ∀ c : Dev nD, iprop(StableHlo.held (c : Thread nD τ) (Pipeline.ucRefs τ sig) (W15 m c) ∗ R c) ⊢ R3.pre c)
    (hpost3 : ∀ c : Dev nD, R3.post c ⊢ iprop(StableHlo.held (c : Thread nD τ) (Pipeline.ucRefs τ sig) (W16 m c) ∗ R c)) :
    θ_run defs (onTc (τ := τ) (main (F := F))) ⟨m, fun _ => 0, ρ⟩ (fun r => ∀ c : Dev nD,
      r.2.mem ((c.tc : Thread nD τ).loc main_v219) = W21 m c main_v219
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨h c _ (mem_uc main_v219 (by decide)),
      (h c _ (mem_uc main_arg0 (by decide))).trans (W21_arg0 m c),
      (h c _ (mem_uc main_arg1 (by decide))).trans (W21_arg1 m c),
      (h c _ (mem_uc main_arg2 (by decide))).trans (W21_arg2 m c),
      (h c _ (mem_uc main_arg3 (by decide))).trans (W21_arg3 m c),
      (h c _ (mem_uc main_arg4 (by decide))).trans (W21_arg4 m c),
      (h c _ (mem_uc main_arg5 (by decide))).trans (W21_arg5 m c),
      (h c _ (mem_uc main_arg6 (by decide))).trans (W21_arg6 m c),
      (h c _ (mem_uc main_arg7 (by decide))).trans (W21_arg7 m c),
      (h c _ (mem_uc main_arg8 (by decide))).trans (W21_arg8 m c),
      (h c _ (mem_uc main_arg9 (by decide))).trans (W21_arg9 m c),
      (h c _ (mem_uc main_arg10 (by decide))).trans (W21_arg10 m c),
      (h c _ (mem_uc main_arg11 (by decide))).trans (W21_arg11 m c),
      (h c _ (mem_uc main_arg12 (by decide))).trans (W21_arg12 m c),
      (h c _ (mem_uc main_arg13 (by decide))).trans (W21_arg13 m c),
      (h c _ (mem_uc main_arg14 (by decide))).trans (W21_arg14 m c),
      (h c _ (mem_uc main_arg15 (by decide))).trans (W21_arg15 m c),
      (h c _ (mem_uc main_arg16 (by decide))).trans (W21_arg16 m c),
      (h c _ (mem_uc main_arg17 (by decide))).trans (W21_arg17 m c),
      (h c _ (mem_uc main_arg18 (by decide))).trans (W21_arg18 m c),
      (h c _ (mem_uc main_arg19 (by decide))).trans (W21_arg19 m c),
      (h c _ (mem_uc main_arg20 (by decide))).trans (W21_arg20 m c),
      (h c _ (mem_uc main_arg21 (by decide))).trans (W21_arg21 m c),
      (h c _ (mem_uc main_arg22 (by decide))).trans (W21_arg22 m c),
      (h c _ (mem_uc main_arg23 (by decide))).trans (W21_arg23 m c),
      (h c _ (mem_uc main_arg24 (by decide))).trans (W21_arg24 m c),
      (h c _ (mem_uc main_arg25 (by decide))).trans (W21_arg25 m c),
      (h c _ (mem_uc main_arg26 (by decide))).trans (W21_arg26 m c),
      (h c _ (mem_uc main_arg27 (by decide))).trans (W21_arg27 m c),
      (h c _ (mem_uc main_arg28 (by decide))).trans (W21_arg28 m c)⟩)
    (run_all m ρ R0 hpre0 hpost0 R1 hpre1 hpost1 R2 hpre2 hpost2 R3 hpre3 hpost3)

end Cert.Kernel.Hand

end
-- ==== Proof.K.Run3.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the fourth tiled matmul, run in each of its three control cases

The body branches twice on the contraction coordinate `k = i 1` of the grid point: where `k = 0` it first zeroes
the running sum; it always adds the product of the `x` and `w` tiles to the running sum; where `k` is the last
contraction tile (`k = 2`) it writes `relu (sum + bias) * scale + shift` into the output tile. On a grid of 3
contraction tiles the two conditions never hold together, so there are three cases. Every load and store is of a
whole buffer, so each buffer ends at the payload of the last store into it. -/

/-- The first branch's condition, from the grid coordinates: the contraction tile is the first. -/
abbrev cond3_1 (i : grid3.Coords) : Prop := (Scalar.cmpi .ne (Scalar.extui (Scalar.cmpi .eq (BitVec.ofNat 32 (i 1).val) 0#32)) 0#32) = 1#1
/-- It holds at the points ≡ 0 (mod 3): the contraction coordinate is the fast axis of the 50 × 3 grid. -/
theorem hcond3_1 : ∀ t : Fin cfg3.N, cond3_1 (grid3.coords t) ↔ t.val % 3 = 0 :=
  (by decide +kernel : ∀ t : Fin grid3.N, cond3_1 (grid3.coords t) ↔ t.val % 3 = 0)
/-- The second branch's condition (the contraction tile is the last) holds at the points ≡ 2 (mod 3). -/
theorem hcond3_2 : ∀ t : Fin cfg3.N, k3_cond2 (grid3.coords t) = 1#1 ↔ t.val % 3 = 2 :=
  (by decide +kernel : ∀ t : Fin grid3.N, k3_cond2 (grid3.coords t) = 1#1 ↔ t.val % 3 = 2)

/-- The output window is idle exactly where the contraction tile is not the last, -/
theorem idleAt3_5 : ∀ t : Fin cfg3.N, ¬ t.val % 3 = 2 → cfg3.idle 5 (grid3.coords t) = true :=
  (by decide +kernel : ∀ t : Fin grid3.N, ¬ t.val % 3 = 2 → cfg3.idle 5 (grid3.coords t) = true)
theorem liveAt3_5 : ∀ t : Fin cfg3.N, t.val % 3 = 2 → cfg3.idle 5 (grid3.coords t) = false :=
  (by decide +kernel : ∀ t : Fin grid3.N, t.val % 3 = 2 → cfg3.idle 5 (grid3.coords t) = false)

/-- The zero offsets of every access of the body, as a function. -/
theorem hz2 : (![0, 0] : Fin 2 → Nat) = fun _ => 0 := by
  funext a; match a with
  | ⟨0, _⟩ => rfl
  | ⟨1, _⟩ => rfl

/-- A store through the whole-shape rectangle, LAST, leaves its payload as the buffer's contents, whatever the
    earlier stores and the prior contents were. -/
theorem read_store_last {κ : Kind} {sp : Space} {S : Shape} {e : EltTy} (v : View sig κ sp S e) (f : v.ty.Contents (Elt F))
    {off : Fin S.rank → Nat} (hz : off = fun _ => 0) (inb : ∀ a, off a + S.size a ≤ S.size a) (p : S.Idx → Elt F e)
    (L : List (View.Piece (Elt F) S e)) :
    v.read (Elt F) (v.writes (Elt F) f (⟨Rect.unit off S.size inb, p⟩ :: L)) = p :=
  (View.read_writes_eq_canon v f _ fun y => ⟨_, List.mem_cons.mpr (Or.inl rfl), View.mem_set_unit_zero hz inb y⟩).trans
    (View.canon_cons_unit_zero hz inb p L)

set_option maxHeartbeats 1000000 in
/-- FIRST contraction tile: the running sum, whatever it held, ends at the tiles' product added to zero; the `x` and
    `w` tiles are read only; the bias, scale, shift and output buffers are not touched. -/
theorem sound_kernel3_first (c : Dev nD) (E : Set ℕ) (i : grid3.Coords) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : cond3_1 i) (hc2 : ¬ k3_cond2 i = 1#1)
    (x : Vec F S2000x256 .f32) (w : Vec F S256x256 .f32) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k3_pay2 x w k3_pay1)) -∗ K ⟨⟩))
      ⊢ wp frame (wpE (defs₀ (F := F)) Variants.none c none) E (cc3__matmul_kernel i arg2 harg2 arg3 harg3 arg4 harg4 arg5 harg5 arg6 harg6 arg7 harg7 arg8 harg8) K := by
  simp only [cc3__matmul_kernel_eq_skeleton]; unfold cc3__matmul_kernel_skel
  unfold owns
  iintro ⟨⟨%f2, %hf2, H2⟩, ⟨%f3, %hf3, H3⟩, ⟨%a, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x256) hz2, View.ld_unit_zero (S := S256x256) hz2, View.ld_unit_zero (S := S1x256) hz2, View.readCov_unit_zero (S := S2000x256) _ hz2]

set_option maxHeartbeats 1000000 in
/-- A MIDDLE contraction tile: the running sum `a` ends at the tiles' product added to it. -/
theorem sound_kernel3_mid (c : Dev nD) (E : Set ℕ) (i : grid3.Coords) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : ¬ cond3_1 i) (hc2 : ¬ k3_cond2 i = 1#1)
    (x : Vec F S2000x256 .f32) (w : Vec F S256x256 .f32) (a : Vec F S2000x256 .f32) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k3_pay2 x w a)) -∗ K ⟨⟩))
      ⊢ wp frame (wpE (defs₀ (F := F)) Variants.none c none) E (cc3__matmul_kernel i arg2 harg2 arg3 harg3 arg4 harg4 arg5 harg5 arg6 harg6 arg7 harg7 arg8 harg8) K := by
  simp only [cc3__matmul_kernel_eq_skeleton]; unfold cc3__matmul_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x256) hz2, View.ld_unit_zero (S := S256x256) hz2, View.ld_unit_zero (S := S1x256) hz2, View.readCov_unit_zero (S := S2000x256) _ hz2]

set_option maxHeartbeats 1000000 in
/-- The LAST contraction tile: the running sum `a` ends at the tiles' product added to it, and the output tile,
    whatever it held, at the epilogue of that sum and the bias, scale and shift rows. -/
theorem sound_kernel3_last (c : Dev nD) (E : Set ℕ) (i : grid3.Coords) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : ¬ cond3_1 i) (hc2 : k3_cond2 i = 1#1)
    (x : Vec F S2000x256 .f32) (w : Vec F S256x256 .f32) (a : Vec F S2000x256 .f32)
    (b s h : Vec F S1x256 .f32) (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare s ∗ owns (c : Thread nD τ) arg6 fullShare h
        ∗ (∃ d, owns (c : Thread nD τ) arg7 fullShare d) ∗ owns (c : Thread nD τ) arg8 fullShare a
        ∗ (iprop(owns (c : Thread nD τ) arg2 fullShare x ∗ owns (c : Thread nD τ) arg3 fullShare w
            ∗ owns (c : Thread nD τ) arg4 fullShare b ∗ owns (c : Thread nD τ) arg5 fullShare s ∗ owns (c : Thread nD τ) arg6 fullShare h
            ∗ owns (c : Thread nD τ) arg7 fullShare (k3_pay3 (k3_pay2 x w a) b s h) ∗ owns (c : Thread nD τ) arg8 fullShare (k3_pay2 x w a)) -∗ K ⟨⟩))
      ⊢ wp frame (wpE (defs₀ (F := F)) Variants.none c none) E (cc3__matmul_kernel i arg2 harg2 arg3 harg3 arg4 harg4 arg5 harg5 arg6 harg6 arg7 harg7 arg8 harg8) K := by
  simp only [cc3__matmul_kernel_eq_skeleton]; unfold cc3__matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf2; subst hf3; subst hf4; subst hf5; subst hf6; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; sl_unfold_run_names
    refine (read_store_last _ _ hz2 _ _ _).trans ?_
    simp only [View.readAt_eq_ld, View.ld_unit_zero (S := S2000x256) hz2, View.ld_unit_zero (S := S256x256) hz2, View.ld_unit_zero (S := S1x256) hz2, View.readCov_unit_zero (S := S2000x256) _ hz2]
  iexists _; isplitr
  swap; · iexact H8
  ipureintro; sl_unfold_run_names
  refine (read_store_last _ _ hz2 _ _ _).trans ?_
  simp only [View.readAt_eq_ld, View.ld_unit_zero (S := S2000x256) hz2, View.ld_unit_zero (S := S256x256) hz2, View.ld_unit_zero (S := S1x256) hz2, View.readCov_unit_zero (S := S2000x256) _ hz2]

end Cert.Kernel.Hand

end
-- ==== Proof.K.Run0.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.K.Run3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the first tiled matmul, run in each of its three control cases

The body branches twice on the contraction coordinate `k = i 1` of the grid point: where `k = 0` it first zeroes
the running sum; it always adds the product of the left and right tiles to the running sum; where `k` is the last
contraction tile (`k = 3`) it writes `max (sum + bias) 0` into the output tile. On a grid of 4 contraction tiles the two
conditions never hold together, so there are three cases. Every load and store is of a whole buffer, so each buffer
ends at the payload of the last store into it. -/

/-- The first branch's condition, from the grid coordinates: the contraction tile is the first. -/
abbrev cond0_1 (i : grid0.Coords) : Prop := (Scalar.cmpi .ne (Scalar.extui (Scalar.cmpi .eq (BitVec.ofNat 32 (i 1).val) 0#32)) 0#32) = 1#1
/-- It holds at the points ≡ 0 (mod 4): the contraction coordinate is the fast axis of the grid. -/
theorem hcond0_1 : ∀ t : Fin cfg0.N, cond0_1 (grid0.coords t) ↔ t.val % 4 = 0 :=
  (by decide +kernel : ∀ t : Fin grid0.N, cond0_1 (grid0.coords t) ↔ t.val % 4 = 0)
/-- The second branch's condition (the contraction tile is the last) holds at the points ≡ 3 (mod 4). -/
theorem hcond0_2 : ∀ t : Fin cfg0.N, k0_cond2 (grid0.coords t) = 1#1 ↔ t.val % 4 = 3 :=
  (by decide +kernel : ∀ t : Fin grid0.N, k0_cond2 (grid0.coords t) = 1#1 ↔ t.val % 4 = 3)

/-- The output window is idle exactly where the contraction tile is not the last. -/
theorem idleAt0_5 : ∀ t : Fin cfg0.N, ¬ t.val % 4 = 3 → cfg0.idle 5 (grid0.coords t) = true :=
  (by decide +kernel : ∀ t : Fin grid0.N, ¬ t.val % 4 = 3 → cfg0.idle 5 (grid0.coords t) = true)
theorem liveAt0_5 : ∀ t : Fin cfg0.N, t.val % 4 = 3 → cfg0.idle 5 (grid0.coords t) = false :=
  (by decide +kernel : ∀ t : Fin grid0.N, t.val % 4 = 3 → cfg0.idle 5 (grid0.coords t) = false)

set_option maxHeartbeats 1000000 in
/-- FIRST contraction tile: the running sum, whatever it held, ends at the tiles' product added to zero; the left and
    right tiles are read only; the bias, scale, shift and output buffers are not touched. -/
theorem sound_kernel0_first (c : Dev nD) (E : Set ℕ) (i : grid0.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : cond0_1 i) (hc2 : ¬ k0_cond2 i = 1#1)
    (x : Vec F S2000x512 .f32) (w : Vec F S512x512 .f32) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k0_pay2 x w k0_pay1)) -∗ K ⟨⟩))
      ⊢ wp frame (wpE (defs₀ (F := F)) Variants.none c none) E (cc0__matmul_kernel i arg2 harg2 arg3 harg3 arg4 harg4 arg5 harg5 arg6 harg6 arg7 harg7 arg8 harg8) K := by
  simp only [cc0__matmul_kernel_eq_skeleton]; unfold cc0__matmul_kernel_skel
  unfold owns
  iintro ⟨⟨%f2, %hf2, H2⟩, ⟨%f3, %hf3, H3⟩, ⟨%a, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

set_option maxHeartbeats 1000000 in
/-- A MIDDLE contraction tile: the running sum `a` ends at the tiles' product added to it. -/
theorem sound_kernel0_mid (c : Dev nD) (E : Set ℕ) (i : grid0.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : ¬ cond0_1 i) (hc2 : ¬ k0_cond2 i = 1#1)
    (x : Vec F S2000x512 .f32) (w : Vec F S512x512 .f32) (a : Vec F S2000x512 .f32) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k0_pay2 x w a)) -∗ K ⟨⟩))
      ⊢ wp frame (wpE (defs₀ (F := F)) Variants.none c none) E (cc0__matmul_kernel i arg2 harg2 arg3 harg3 arg4 harg4 arg5 harg5 arg6 harg6 arg7 harg7 arg8 harg8) K := by
  simp only [cc0__matmul_kernel_eq_skeleton]; unfold cc0__matmul_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

set_option maxHeartbeats 1000000 in
/-- The LAST contraction tile: the running sum `a` ends at the tiles' product added to it, and the output tile,
    whatever it held, at that sum plus the bias row, clamped below at zero. -/
theorem sound_kernel0_last (c : Dev nD) (E : Set ℕ) (i : grid0.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : ¬ cond0_1 i) (hc2 : k0_cond2 i = 1#1)
    (x : Vec F S2000x512 .f32) (w : Vec F S512x512 .f32) (a : Vec F S2000x512 .f32) (b : Vec F S1x512 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg7 fullShare d) ∗ owns (c : Thread nD τ) arg8 fullShare a
        ∗ (iprop(owns (c : Thread nD τ) arg2 fullShare x ∗ owns (c : Thread nD τ) arg3 fullShare w ∗ owns (c : Thread nD τ) arg4 fullShare b
            ∗ owns (c : Thread nD τ) arg7 fullShare (k0_pay3 (k0_pay2 x w a) b) ∗ owns (c : Thread nD τ) arg8 fullShare (k0_pay2 x w a)) -∗ K ⟨⟩))
      ⊢ wp frame (wpE (defs₀ (F := F)) Variants.none c none) E (cc0__matmul_kernel i arg2 harg2 arg3 harg3 arg4 harg4 arg5 harg5 arg6 harg6 arg7 harg7 arg8 harg8) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%d7, %f7, -, H7⟩, ⟨%f8, %hf8, H8⟩, Hk⟩
  subst hf2; subst hf3; subst hf4; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro; sl_unfold_run_names
    refine (read_store_last _ _ hz2 _ _ _).trans ?_
    simp only [View.readAt_eq_ld, View.ld_unit_zero (S := S2000x512) hz2, View.ld_unit_zero (S := S512x512) hz2, View.ld_unit_zero (S := S1x512) hz2, View.readCov_unit_zero (S := S2000x512) _ hz2]
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

end Cert.Kernel.Hand

end
-- ==== Proof.K.Body0.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.K.Dat0
import proofs.«148293_j56684978372941_1_alg».proof.Proof.K.Run0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The body obligation of the first tiled matmul

At every grid point the body is handed the left, right, bias, scale and shift windows at their blocks and the scratch
buffer at the running sum, and hands the scratch buffer back at the running sum one step on; the output window is
written — with the completed sum plus the bias, clamped below at zero, — only where the contraction tile is the last, and is handed back as
found elsewhere. -/

/-- The proof data's arrays are the region-entry contents. -/
theorem A_eq0 (c : Dev nD) (w : Fin cfg0.W) : (dat0 V c).A w = V c (Pipeline.arrRef spec0 w) := by
  dsimp only [dat0]

/-- What the body leaves, window by window: each input's block in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- and in the output window the running sum after the point plus the bias row, clamped below at zero (what a last contraction tile writes
    back). -/
theorem after0_out (c : Dev nD) (t : Fin cfg0.N) :
    (dat0 V c).after 5 t = k0_pay3 (acc0 V c t.succ) (iblk0 V c 2 t) := by dsimp only [dat0]

/-- The invariant and the tallies of the proof data, projected. -/
theorem Phi0_eq (c : Dev nD) (t : Fin (cfg0.N + 1)) : (dat0 V c).Φ t = Phi0 V c t := by dsimp only [dat0]
theorem owed0_eq (c : Dev nD) (t : Fin (cfg0.N + 1)) : (dat0 V c).owed t = 0 := by dsimp only [dat0]
theorem recorded0_eq (c : Dev nD) (t : Fin (cfg0.N + 1)) : (dat0 V c).recorded t = Set.univ := by dsimp only [dat0]

/-- Each input's current staging buffer holds its block at every point, fetched there or not: an input not fetched at
    a point has the block index it had at the point before, and the body leaves every input's block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- The output window is not written back where the contraction tile is not the last. -/
theorem noFlush0_5 (t : Fin cfg0.N) (h2 : ¬ t.val % 4 = 3) : (cfg0.win 5).flush t = false :=
  Bool.eq_false_iff.mpr fun hf => h2 ((flush0_5 t).mp hf)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the output window as the configuration's idle table has it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (dat0 V c).leavesExact 5 t)

set_option maxHeartbeats 2000000 in
/-- The body at any point, by the residue of the point modulo 4 (the contraction tile): the inputs' memrefs hold their
    blocks; the invariant hands over the scratch buffer — at the running sum unless the sum restarts here — and takes it
    back at the sum one step on (`acc0_succ`); the other scoped buffers, the generator register and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    Phi0_eq, Phi0_eq, after0_0, after0_1, after0_2, after0_3, after0_4]
  unfold Phi0
  by_cases h0 : t.val % 4 = 0
  · have h2 : ¬ t.val % 4 = 3 := by omega
    rw [Dat.leavesExact_idle (dat0 V c) 5 t (idleAt0_5 t h2) (noFlush0_5 t h2)]
    iintro ⟨⟨⟨%a, -, HS⟩, Hrest, Hg⟩, Ho, ⟨%d0, H0⟩, ⟨%d1, H1⟩, ⟨%d2, H2⟩, ⟨%d3, H3⟩, ⟨%d4, H4⟩, H5⟩
    iapply (sound_kernel0_first c Set.univ (grid0.coords t) _ _ _ _ _ _ _ _ _ _ _ _ _ _ ((hcond0_1 t).mpr h0) (fun h => h2 ((hcond0_2 t).mp h)) (iblk0 V c 0 t) (iblk0 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _; rw [acc0_succ, if_pos h0]
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h2 : t.val % 4 = 3
    · rw [show (dat0 V c).leavesExact 5 t = owns (c : Thread nD τ) (st0_5 t) fullShare ((dat0 V c).after 5 t) from by
        unfold Dat.leavesExact; rw [liveAt0_5 t h2], after0_out]
      iintro ⟨⟨⟨%a, %ha, HS⟩, Hrest, Hg⟩, Ho, ⟨%d0, H0⟩, ⟨%d1, H1⟩, ⟨%d2, H2⟩, ⟨%d3, H3⟩, ⟨%d4, H4⟩, ⟨%d5, H5⟩⟩
      obtain rfl := ha (by simpa using h0)
      iapply (sound_kernel0_last c Set.univ (grid0.coords t) _ _ _ _ _ _ _ _ _ _ _ _ _ _ (fun h => h0 ((hcond0_1 t).mp h)) ((hcond0_2 t).mpr h2)
        (iblk0 V c 0 t) (iblk0 V c 1 t) (acc0 V c t.castSucc) (iblk0 V c 2 t) _)
      isplitl [H0]; · iexact H0
      isplitl [H1]; · iexact H1
      isplitl [H2]; · iexact H2
      isplitl [H5]; · iexists _; iexact H5
      isplitl [HS]; · iexact HS
      iintro ⟨H0, H1, H2, H5, HS⟩
      rw [acc0_succ, if_neg h0]
      isplitl [HS Hrest Hg]
      · isplitl [HS]
        · iexists _; isplitr
          swap; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idleAt0_5 t h2) (noFlush0_5 t h2)]
      iintro ⟨⟨⟨%a, %ha, HS⟩, Hrest, Hg⟩, Ho, ⟨%d0, H0⟩, ⟨%d1, H1⟩, ⟨%d2, H2⟩, ⟨%d3, H3⟩, ⟨%d4, H4⟩, H5⟩
      obtain rfl := ha (by simpa using h0)
      iapply (sound_kernel0_mid c Set.univ (grid0.coords t) _ _ _ _ _ _ _ _ _ _ _ _ _ _ (fun h => h0 ((hcond0_1 t).mp h)) (fun h => h2 ((hcond0_2 t).mp h))
        (iblk0 V c 0 t) (iblk0 V c 1 t) (acc0 V c t.castSucc) _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _; rw [acc0_succ, if_neg h0]
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.SharedRow.lean ====
/- One array read through two windows. The bias row and the shift row of the tiled matrix products are the same
   array, so two of a pipeline's windows stage one buffer. The pipeline rule then wants that buffer dealt between the
   two windows: each holds half of it (reading needs no more), and the halves are put together again when the region
   is left. This file states and proves that bookkeeping once, for any pipeline of the program with exactly one such
   pair of windows. -/
import proofs.«148293_j56684978372941_1_alg».proof.Proof.Gen.Kernel
import Idealize.ShloMosaic.Lib.Pipeline.Frame
import Idealize.ShloMosaic.Lib.Pipeline.RegionsLoop

noncomputable section

namespace Cert.Kernel.Hand

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (UR sig nD τ) ℕ

/-- A buffer of the core held at a share, at the contents a valuation gives it. -/
def bufAt (c : Dev nD) (V : (b : Ref sig .tc) → Buf (Elt F) ((c : Thread nD τ).loc b)) (b : Ref sig .tc) (q : PosShare TreeShare) : sProp 𝕄 :=
  ((c : Thread nD τ).loc b) ↦{q} V b

/-- Windows `i` and `j` of the pipeline read ONE array and no other two windows share one; every array is a whole
    unscoped buffer; the proof data give window `i` the left half of the shared array and window `j` the right half,
    and hold every other array whole. -/
structure SharedRow {cfg : Pipeline.Cfg sig Λ₀} {c : Dev nD} (dat : Dat τ (Elt F) Unit ℕ (UR sig nD τ) ℕ cfg c) (i j : Fin cfg.W) : Prop where
  ne : i ≠ j
  same : Pipeline.arrRef cfg.spec i = Pipeline.arrRef cfg.spec j
  inj : ∀ w w', Pipeline.arrRef cfg.spec w = Pipeline.arrRef cfg.spec w' → w = w' ∨ (w = i ∧ w' = j) ∨ (w = j ∧ w' = i)
  unscoped : ∀ w, (Pipeline.arrRef cfg.spec w).isScoped = false
  whole : ∀ w, (cfg.spec w).arr.IsWhole
  share_i : dat.share i = fullShare.left
  share_j : dat.share j = fullShare.right
  share_rest : ∀ w, w ≠ i → w ≠ j → dat.share w = fullShare

namespace SharedRow

variable {cfg : Pipeline.Cfg sig Λ₀} {c : Dev nD} {dat : Dat τ (Elt F) Unit ℕ (UR sig nD τ) ℕ cfg c} {i j : Fin cfg.W}

/-- The windows' arrays, each at its window's share, at contents read off one valuation `V` of the buffers, ARE the
    distinct buffers behind them held whole at `V`: the two halves of the shared buffer make the whole of it, and
    every other window's array is its buffer. -/
theorem arrays_eq (h : SharedRow dat i j) (V : (b : Ref sig .tc) → Buf (Elt F) ((c : Thread nD τ).loc b))
    (G : (w : Fin cfg.W) → Buf (Elt F) ((cfg.spec w).arr.view.loc (c : Thread nD τ))) (hG : ∀ w, G w = V (Pipeline.arrRef cfg.spec w)) :
    (dat.arrays G : sProp 𝕄) = Pipeline.arrBufs cfg.spec c V := by
  classical
  have e1 : (dat.arrays G : sProp 𝕄) = bigSep Finset.univ fun w => bufAt c V (Pipeline.arrRef cfg.spec w) (dat.share w) := by
    unfold Dat.arrays
    exact bigSep_congr fun w _ => by rw [(h.whole w).set_eq_univ, hG]; rfl
  -- the windows other than the pair
  have hjmem : j ∈ (Finset.univ : Finset (Fin cfg.W)).erase i := Finset.mem_erase.mpr ⟨h.ne.symm, Finset.mem_univ _⟩
  have himem : i ∈ (Finset.univ : Finset (Fin cfg.W)).erase j := Finset.mem_erase.mpr ⟨h.ne, Finset.mem_univ _⟩
  have hR : ∀ w ∈ ((Finset.univ : Finset (Fin cfg.W)).erase i).erase j, bufAt c V (Pipeline.arrRef cfg.spec w) (dat.share w) = bufAt c V (Pipeline.arrRef cfg.spec w) fullShare := fun w hw => by
    have hwj : w ≠ j := (Finset.mem_erase.mp hw).1
    have hwi : w ≠ i := (Finset.mem_erase.mp (Finset.mem_erase.mp hw).2).1
    rw [h.share_rest w hwi hwj]
  have e2 : (bigSep Finset.univ fun w => bufAt c V (Pipeline.arrRef cfg.spec w) (dat.share w))
      = iprop(bufAt c V (Pipeline.arrRef cfg.spec i) fullShare.left ∗ bufAt c V (Pipeline.arrRef cfg.spec i) fullShare.right
          ∗ bigSep (((Finset.univ : Finset (Fin cfg.W)).erase i).erase j) fun w => bufAt c V (Pipeline.arrRef cfg.spec w) fullShare) := by
    rw [bigSep_erase (Finset.mem_univ i), bigSep_erase hjmem, h.share_i, h.share_j, ← h.same, bigSep_congr hR]
    rfl
  -- the buffers behind the arrays: one per window but `j`
  have hinj : Set.InjOn (Pipeline.arrRef cfg.spec) ((Finset.univ : Finset (Fin cfg.W)).erase j) := fun w hw w' hw' e => by
    have hwj : w ≠ j := (Finset.mem_erase.mp hw).1
    have hw'j : w' ≠ j := (Finset.mem_erase.mp hw').1
    rcases h.inj w w' e with h0 | ⟨-, h1⟩ | ⟨h1, -⟩
    · exact h0
    · exact absurd h1 hw'j
    · exact absurd h1 hwj
  have himg : (Finset.univ : Finset (Fin cfg.W)).image (Pipeline.arrRef cfg.spec) = ((Finset.univ : Finset (Fin cfg.W)).erase j).image (Pipeline.arrRef cfg.spec) := by
    ext b; constructor
    · intro hb
      obtain ⟨w, -, rfl⟩ := Finset.mem_image.mp hb
      by_cases hwj : w = j
      · subst hwj; exact Finset.mem_image.mpr ⟨i, himem, h.same⟩
      · exact Finset.mem_image.mpr ⟨w, Finset.mem_erase.mpr ⟨hwj, Finset.mem_univ _⟩, rfl⟩
    · intro hb
      obtain ⟨w, -, rfl⟩ := Finset.mem_image.mp hb
      exact Finset.mem_image.mpr ⟨w, Finset.mem_univ _, rfl⟩
  have e3 : (Pipeline.arrBufs cfg.spec c V : sProp 𝕄)
      = iprop(bufAt c V (Pipeline.arrRef cfg.spec i) fullShare
          ∗ bigSep (((Finset.univ : Finset (Fin cfg.W)).erase i).erase j) fun w => bufAt c V (Pipeline.arrRef cfg.spec w) fullShare) := by
    unfold Pipeline.arrBufs
    rw [himg, bigSep_image_of_injOn hinj, bigSep_erase himem, Finset.erase_right_comm]
    rfl
  have hsh : (bufAt c V (Pipeline.arrRef cfg.spec i) fullShare : sProp 𝕄)
      ⊣⊢ iprop(bufAt c V (Pipeline.arrRef cfg.spec i) fullShare.left ∗ bufAt c V (Pipeline.arrRef cfg.spec i) fullShare.right) := by
    unfold bufAt; exact pointsTo_share (PosShare.mem_left_op_right fullShare)
  have h₁ : iprop(bufAt c V (Pipeline.arrRef cfg.spec i) fullShare.left ∗ bufAt c V (Pipeline.arrRef cfg.spec i) fullShare.right
        ∗ bigSep (((Finset.univ : Finset (Fin cfg.W)).erase i).erase j) fun w => bufAt c V (Pipeline.arrRef cfg.spec w) fullShare)
      ⊢ (iprop(bufAt c V (Pipeline.arrRef cfg.spec i) fullShare
        ∗ bigSep (((Finset.univ : Finset (Fin cfg.W)).erase i).erase j) fun w => bufAt c V (Pipeline.arrRef cfg.spec w) fullShare) : sProp 𝕄) := by
    iintro ⟨Hl, Hr, HR⟩
    isplitl [Hl Hr]
    · iapply hsh.2
      isplitl [Hl] <;> iassumption
    iexact HR
  have h₂ : iprop(bufAt c V (Pipeline.arrRef cfg.spec i) fullShare
        ∗ bigSep (((Finset.univ : Finset (Fin cfg.W)).erase i).erase j) fun w => bufAt c V (Pipeline.arrRef cfg.spec w) fullShare)
      ⊢ (iprop(bufAt c V (Pipeline.arrRef cfg.spec i) fullShare.left ∗ bufAt c V (Pipeline.arrRef cfg.spec i) fullShare.right
        ∗ bigSep (((Finset.univ : Finset (Fin cfg.W)).erase i).erase j) fun w => bufAt c V (Pipeline.arrRef cfg.spec w) fullShare) : sProp 𝕄) := by
    iintro ⟨Hf, HR⟩
    ihave H := hsh.1 $$ Hf
    icases H with ⟨Hl, Hr⟩
    isplitl [Hl]; · iexact Hl
    isplitl [Hr]; · iexact Hr
    iexact HR
  rw [e1, e2, e3]
  exact BI.equiv_iff.mp ⟨h₁, h₂⟩

/-- The core's unscoped buffers at contents `V` are the buffers behind the windows' arrays and the rest. -/
theorem unscopedBufs_eq (h : SharedRow dat i j) (V : (b : Ref sig .tc) → Buf (Elt F) ((c : Thread nD τ).loc b)) :
    (unscopedBufs c V : sProp 𝕄) = iprop(Pipeline.arrBufs cfg.spec c V ∗ Pipeline.unscopedRest cfg.spec c V) := by
  classical
  have hA : Finset.univ.image (Pipeline.arrRef cfg.spec) ⊆ Finset.univ.filter fun b : Ref sig .tc => ¬ b.isScoped := fun b hb => by
    obtain ⟨w, -, rfl⟩ := Finset.mem_image.mp hb
    exact Finset.mem_filter.mpr ⟨Finset.mem_univ _, by simp [h.unscoped w]⟩
  unfold unscopedBufs Pipeline.unscopedRest Pipeline.arrBufs
  rw [bigSep_sdiff_split hA]
  rfl

/-- ENTRY: the core's unscoped buffers at the contents `V` the region is entered at are the pipeline's arrays at the
    proof data's entry contents — read off `V` (`hA`) — and the unscoped buffers that are no window's array. -/
theorem entry (h : SharedRow dat i j) (V : (b : Ref sig .tc) → Buf (Elt F) ((c : Thread nD τ).loc b))
    (hA : ∀ w, dat.A w = V (Pipeline.arrRef cfg.spec w)) :
    (unscopedBufs c V : sProp 𝕄) ⊢ iprop(dat.arrays (dat.arrAt · 0) ∗ Pipeline.unscopedRest cfg.spec c V) := by
  rw [h.unscopedBufs_eq V, h.arrays_eq V (dat.arrAt · 0) (fun w => (show dat.arrAt w 0 = dat.A w from rfl).trans (hA w))]

/-- EXIT: the pipeline's arrays at contents `G` and the other unscoped buffers at `V` are the core's unscoped buffers
    at any valuation `V'` that has the arrays at `G` and agrees with `V` off them. -/
theorem exit (h : SharedRow dat i j) (V V' : (b : Ref sig .tc) → Buf (Elt F) ((c : Thread nD τ).loc b))
    (G : (w : Fin cfg.W) → Buf (Elt F) ((cfg.spec w).arr.view.loc (c : Thread nD τ))) (hG : ∀ w, G w = V' (Pipeline.arrRef cfg.spec w))
    (hrest : ∀ b, b ∉ Finset.univ.image (Pipeline.arrRef cfg.spec) → V' b = V b) :
    iprop(dat.arrays G ∗ Pipeline.unscopedRest cfg.spec c V) ⊢ (unscopedBufs c V' : sProp 𝕄) := by
  rw [h.unscopedBufs_eq V', h.arrays_eq V' G hG]
  refine sep_mono .rfl (Entails.of_eq ?_)
  unfold Pipeline.unscopedRest
  exact bigSep_congr fun b hb => by rw [hrest b (Finset.mem_sdiff.mp hb).2]

end SharedRow

end Cert.Kernel.Hand

end
-- ==== Proof.K.Reg0.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«148293_j56684978372941_1_alg».proof.Proof.K.Data
import proofs.«148293_j56684978372941_1_alg».proof.Proof.K.Body0
import proofs.«148293_j56684978372941_1_alg».proof.Proof.K.SharedRow
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The first tiled matmul as a segment of the program's run

The region is entered with every unscoped buffer at the contents the host operations before it left, and left with
its output array at what the write-backs of the last contraction tiles leave and every other buffer as entered. Its
scratch buffer is one of the scoped buffers no window stages: it enters the invariant at anything (the running sum
restarts at the first point) and is given back at whatever the last point left. -/

/-- The contents at the region's exit, read at the TensorCore's references. -/
abbrev X0 : (c : Dev nD) → (b : Ref sig .tc) → Buf (Elt F) ((c : Thread nD τ).loc b) := fun c b => W2 m c b

/-- An input window's array ends as it was entered: no write-back touches it, and it is not the output array. -/
theorem hF0_in (c : Dev nD) (w : Fin cfg0.W) (hin : (cfg0.win w).isOut = false)
    (hne : (Proc.devRef .tc (Pipeline.arrRef spec0 w) : DevRef τ sig) ≠ Proc.devRef .tc main_v48) :
    (dat0 (E0 m) c).arrAt w cfg0.N = X0 m c (Pipeline.arrRef spec0 w) := by
  rw [Dat.arrAt_in _ w hin, A_eq0]
  show W1 m c (Proc.devRef .tc (Pipeline.arrRef spec0 w)) = W2 m c (Proc.devRef .tc (Pipeline.arrRef spec0 w))
  unfold W2; exact (Function.update_of_ne hne _ _).symm

/-- At the region's exit each of its arrays holds what the pipeline leaves: the inputs their entry contents, the output
    the write-backs folded over the grid. -/
theorem hF0 (c : Dev nD) : ∀ w : Fin cfg0.W, (dat0 (E0 m) c).arrAt w cfg0.N = X0 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => by
    refine Eq.symm ?_
    show W2 m c (Proc.devRef .tc main_v48) = out0 m c
    unfold W2; exact Function.update_self ..

/-- Every buffer that is no array of the region holds at its exit what it held at its entry. -/
theorem hrest0 (c : Dev nD) : ∀ b, b ∉ Finset.univ.image (Pipeline.arrRef spec0) → X0 m c b = E0 m c b := fun b hb => by
  show W2 m c (Proc.devRef .tc b) = W1 m c (Proc.devRef .tc b)
  unfold W2
  exact Function.update_of_ne (fun e => hb (Finset.mem_image.mpr ⟨5, Finset.mem_univ _,
    (show Pipeline.arrRef spec0 5 = b from (Proc.devRef_injective _ e).symm)⟩)) _ _

/-- The bias window (2) and the shift window (4) read one array, a row of zeros the host wrote; no other two windows
    share an array. The proof data give the two windows the two halves of that row. -/
theorem shared0 (c : Dev nD) : SharedRow (cfg := cfg0) (pdats m 0 c) 2 4 where
  ne := by decide
  same := rfl
  inj := by decide
  unscoped := winFacts₀0.arr_unscoped
  whole := arr_whole0
  share_i := rfl
  share_j := rfl
  share_rest := fun w => by
    match w with
    | ⟨0, _⟩ => exact fun _ _ => rfl
    | ⟨1, _⟩ => exact fun _ _ => rfl
    | ⟨2, _⟩ => exact fun h _ => absurd rfl h
    | ⟨3, _⟩ => exact fun _ _ => rfl
    | ⟨4, _⟩ => exact fun _ h => absurd rfl h
    | ⟨5, _⟩ => exact fun _ _ => rfl

-- the library's entry and exit lemmas speak of the pipeline's configuration through a definition that must be unfolded to meet cfg0
set_option backward.isDefEq.respectTransparency.types false in
/-- The first matmul's region over the thread state: entered from every unscoped buffer at the contents before it,
    left at those contents with the output array replaced. Its arrays are split out of the unscoped buffers and put back
    at the exit contents; the generator register and the scratch buffer go into the invariant and come back out; nothing
    is owed; the kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := (shared0 m c).entry (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Phi0 (E0 m) c 0 from rfl]; unfold Phi0
    rw [show (Pipeline.scopedRest (Pipeline.pin (pcfgs (F := F)) Gen.adm 0).spec c : sProp 𝕄) = _ from scopedRest0_split c]
    iintro ⟨Hp, -, ⟨%f, Hs⟩, Hrest⟩
    isplitl [Hs]
    · iexists f; isplitr
      · ipureintro; intro h; exact absurd rfl h
      rw [owns_whole]; iexact Hs
    isplitl [Hrest]; · iexact Hrest
    iexact Hp
  hout c := by
    rw [Pipeline.ownSems0_none, show (pdats m 0 c).Φ (Fin.last _) = Phi0 (E0 m) c (Fin.last _) from rfl]; unfold Phi0
    rw [show (Pipeline.scopedRest (Pipeline.pin (pcfgs (F := F)) Gen.adm 0).spec c : sProp 𝕄) = _ from scopedRest0_split c]
    iintro ⟨⟨%a, -, Hs⟩, Hrest, Hr⟩
    isplitl [Hr]; · iexact Hr
    isplitr; · iempintro
    isplitl [Hs]
    · iexists a; rw [← owns_whole]; iexact Hs
    iexact Hrest
  hexit c := by
    have hjoin := (shared0 m c).exit (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from and left at the boundary contents beside the rest, as stated. -/
theorem hpre0 (c : Dev nD) : iprop(StableHlo.held (c : Thread nD τ) (Pipeline.ucRefs τ sig) (W1 m c) ∗ R c) ⊢ (reg0 m).pre c := .rfl
theorem hpost0 (c : Dev nD) : (reg0 m).post c ⊢ iprop(StableHlo.held (c : Thread nD τ) (Pipeline.ucRefs τ sig) (W2 m c) ∗ R c) := .rfl

end Cert.Kernel.Hand

end
-- ==== Proof.K.Run1.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.K.Run3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the second tiled matmul, run in each of its three control cases

The body branches twice on the contraction coordinate `k = i 1` of the grid point: where `k = 0` it first zeroes
the running sum; it always adds the product of the left and right tiles to the running sum; where `k` is the last
contraction tile (`k = 3`) it writes `sum + bias` into the output tile. On a grid of 4 contraction tiles the two
conditions never hold together, so there are three cases. Every load and store is of a whole buffer, so each buffer
ends at the payload of the last store into it. -/

/-- The first branch's condition, from the grid coordinates: the contraction tile is the first. -/
abbrev cond1_1 (i : grid1.Coords) : Prop := (Scalar.cmpi .ne (Scalar.extui (Scalar.cmpi .eq (BitVec.ofNat 32 (i 1).val) 0#32)) 0#32) = 1#1
/-- It holds at the points ≡ 0 (mod 4): the contraction coordinate is the fast axis of the grid. -/
theorem hcond1_1 : ∀ t : Fin cfg1.N, cond1_1 (grid1.coords t) ↔ t.val % 4 = 0 :=
  (by decide +kernel : ∀ t : Fin grid1.N, cond1_1 (grid1.coords t) ↔ t.val % 4 = 0)
/-- The second branch's condition (the contraction tile is the last) holds at the points ≡ 3 (mod 4). -/
theorem hcond1_2 : ∀ t : Fin cfg1.N, k1_cond2 (grid1.coords t) = 1#1 ↔ t.val % 4 = 3 :=
  (by decide +kernel : ∀ t : Fin grid1.N, k1_cond2 (grid1.coords t) = 1#1 ↔ t.val % 4 = 3)

/-- The output window is idle exactly where the contraction tile is not the last. -/
theorem idleAt1_5 : ∀ t : Fin cfg1.N, ¬ t.val % 4 = 3 → cfg1.idle 5 (grid1.coords t) = true :=
  (by decide +kernel : ∀ t : Fin grid1.N, ¬ t.val % 4 = 3 → cfg1.idle 5 (grid1.coords t) = true)
theorem liveAt1_5 : ∀ t : Fin cfg1.N, t.val % 4 = 3 → cfg1.idle 5 (grid1.coords t) = false :=
  (by decide +kernel : ∀ t : Fin grid1.N, t.val % 4 = 3 → cfg1.idle 5 (grid1.coords t) = false)

set_option maxHeartbeats 1000000 in
/-- FIRST contraction tile: the running sum, whatever it held, ends at the tiles' product added to zero; the left and
    right tiles are read only; the bias, scale, shift and output buffers are not touched. -/
theorem sound_kernel1_first (c : Dev nD) (E : Set ℕ) (i : grid1.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : cond1_1 i) (hc2 : ¬ k1_cond2 i = 1#1)
    (x : Vec F S2000x512 .f32) (w : Vec F S512x512 .f32) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k1_pay2 x w k1_pay1)) -∗ K ⟨⟩))
      ⊢ wp frame (wpE (defs₀ (F := F)) Variants.none c none) E (cc1__matmul_kernel i arg2 harg2 arg3 harg3 arg4 harg4 arg5 harg5 arg6 harg6 arg7 harg7 arg8 harg8) K := by
  simp only [cc1__matmul_kernel_eq_skeleton]; unfold cc1__matmul_kernel_skel
  unfold owns
  iintro ⟨⟨%f2, %hf2, H2⟩, ⟨%f3, %hf3, H3⟩, ⟨%a, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

set_option maxHeartbeats 1000000 in
/-- A MIDDLE contraction tile: the running sum `a` ends at the tiles' product added to it. -/
theorem sound_kernel1_mid (c : Dev nD) (E : Set ℕ) (i : grid1.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : ¬ cond1_1 i) (hc2 : ¬ k1_cond2 i = 1#1)
    (x : Vec F S2000x512 .f32) (w : Vec F S512x512 .f32) (a : Vec F S2000x512 .f32) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k1_pay2 x w a)) -∗ K ⟨⟩))
      ⊢ wp frame (wpE (defs₀ (F := F)) Variants.none c none) E (cc1__matmul_kernel i arg2 harg2 arg3 harg3 arg4 harg4 arg5 harg5 arg6 harg6 arg7 harg7 arg8 harg8) K := by
  simp only [cc1__matmul_kernel_eq_skeleton]; unfold cc1__matmul_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

set_option maxHeartbeats 1000000 in
/-- The LAST contraction tile: the running sum `a` ends at the tiles' product added to it, and the output tile,
    whatever it held, at that sum plus the bias row. -/
theorem sound_kernel1_last (c : Dev nD) (E : Set ℕ) (i : grid1.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : ¬ cond1_1 i) (hc2 : k1_cond2 i = 1#1)
    (x : Vec F S2000x512 .f32) (w : Vec F S512x512 .f32) (a : Vec F S2000x512 .f32) (b : Vec F S1x512 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg7 fullShare d) ∗ owns (c : Thread nD τ) arg8 fullShare a
        ∗ (iprop(owns (c : Thread nD τ) arg2 fullShare x ∗ owns (c : Thread nD τ) arg3 fullShare w ∗ owns (c : Thread nD τ) arg4 fullShare b
            ∗ owns (c : Thread nD τ) arg7 fullShare (k1_pay3 (k1_pay2 x w a) b) ∗ owns (c : Thread nD τ) arg8 fullShare (k1_pay2 x w a)) -∗ K ⟨⟩))
      ⊢ wp frame (wpE (defs₀ (F := F)) Variants.none c none) E (cc1__matmul_kernel i arg2 harg2 arg3 harg3 arg4 harg4 arg5 harg5 arg6 harg6 arg7 harg7 arg8 harg8) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%d7, %f7, -, H7⟩, ⟨%f8, %hf8, H8⟩, Hk⟩
  subst hf2; subst hf3; subst hf4; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro; sl_unfold_run_names
    refine (read_store_last _ _ hz2 _ _ _).trans ?_
    simp only [View.readAt_eq_ld, View.ld_unit_zero (S := S2000x512) hz2, View.ld_unit_zero (S := S512x512) hz2, View.ld_unit_zero (S := S1x512) hz2, View.readCov_unit_zero (S := S2000x512) _ hz2]
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

end Cert.Kernel.Hand

end
-- ==== Proof.K.Body1.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.K.Dat1
import proofs.«148293_j56684978372941_1_alg».proof.Proof.K.Run1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The body obligation of the second tiled matmul

At every grid point the body is handed the left, right, bias, scale and shift windows at their blocks and the scratch
buffer at the running sum, and hands the scratch buffer back at the running sum one step on; the output window is
written — with the completed sum plus the bias — only where the contraction tile is the last, and is handed back as
found elsewhere. -/

/-- The proof data's arrays are the region-entry contents. -/
theorem A_eq1 (c : Dev nD) (w : Fin cfg1.W) : (dat1 V c).A w = V c (Pipeline.arrRef spec1 w) := by
  dsimp only [dat1]

/-- What the body leaves, window by window: each input's block in place, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- and in the output window the running sum after the point plus the bias row (what a last contraction tile writes
    back). -/
theorem after1_out (c : Dev nD) (t : Fin cfg1.N) :
    (dat1 V c).after 5 t = k1_pay3 (acc1 V c t.succ) (iblk1 V c 2 t) := by dsimp only [dat1]

/-- The invariant and the tallies of the proof data, projected. -/
theorem Phi1_eq (c : Dev nD) (t : Fin (cfg1.N + 1)) : (dat1 V c).Φ t = Phi1 V c t := by dsimp only [dat1]
theorem owed1_eq (c : Dev nD) (t : Fin (cfg1.N + 1)) : (dat1 V c).owed t = 0 := by dsimp only [dat1]
theorem recorded1_eq (c : Dev nD) (t : Fin (cfg1.N + 1)) : (dat1 V c).recorded t = Set.univ := by dsimp only [dat1]

/-- Each input's current staging buffer holds its block at every point, fetched there or not: an input not fetched at
    a point has the block index it had at the point before, and the body leaves every input's block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- The output window is not written back where the contraction tile is not the last. -/
theorem noFlush1_5 (t : Fin cfg1.N) (h2 : ¬ t.val % 4 = 3) : (cfg1.win 5).flush t = false :=
  Bool.eq_false_iff.mpr fun hf => h2 ((flush1_5 t).mp hf)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the output window as the configuration's idle table has it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (dat1 V c).leavesExact 5 t)

set_option maxHeartbeats 2000000 in
/-- The body at any point, by the residue of the point modulo 4 (the contraction tile): the inputs' memrefs hold their
    blocks; the invariant hands over the scratch buffer — at the running sum unless the sum restarts here — and takes it
    back at the sum one step on (`acc1_succ`); the other scoped buffers, the generator register and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    Phi1_eq, Phi1_eq, after1_0, after1_1, after1_2, after1_3, after1_4]
  unfold Phi1
  by_cases h0 : t.val % 4 = 0
  · have h2 : ¬ t.val % 4 = 3 := by omega
    rw [Dat.leavesExact_idle (dat1 V c) 5 t (idleAt1_5 t h2) (noFlush1_5 t h2)]
    iintro ⟨⟨⟨%a, -, HS⟩, Hrest, Hg⟩, Ho, ⟨%d0, H0⟩, ⟨%d1, H1⟩, ⟨%d2, H2⟩, ⟨%d3, H3⟩, ⟨%d4, H4⟩, H5⟩
    iapply (sound_kernel1_first c Set.univ (grid1.coords t) _ _ _ _ _ _ _ _ _ _ _ _ _ _ ((hcond1_1 t).mpr h0) (fun h => h2 ((hcond1_2 t).mp h)) (iblk1 V c 0 t) (iblk1 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _; rw [acc1_succ, if_pos h0]
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h2 : t.val % 4 = 3
    · rw [show (dat1 V c).leavesExact 5 t = owns (c : Thread nD τ) (st1_5 t) fullShare ((dat1 V c).after 5 t) from by
        unfold Dat.leavesExact; rw [liveAt1_5 t h2], after1_out]
      iintro ⟨⟨⟨%a, %ha, HS⟩, Hrest, Hg⟩, Ho, ⟨%d0, H0⟩, ⟨%d1, H1⟩, ⟨%d2, H2⟩, ⟨%d3, H3⟩, ⟨%d4, H4⟩, ⟨%d5, H5⟩⟩
      obtain rfl := ha (by simpa using h0)
      iapply (sound_kernel1_last c Set.univ (grid1.coords t) _ _ _ _ _ _ _ _ _ _ _ _ _ _ (fun h => h0 ((hcond1_1 t).mp h)) ((hcond1_2 t).mpr h2)
        (iblk1 V c 0 t) (iblk1 V c 1 t) (acc1 V c t.castSucc) (iblk1 V c 2 t) _)
      isplitl [H0]; · iexact H0
      isplitl [H1]; · iexact H1
      isplitl [H2]; · iexact H2
      isplitl [H5]; · iexists _; iexact H5
      isplitl [HS]; · iexact HS
      iintro ⟨H0, H1, H2, H5, HS⟩
      rw [acc1_succ, if_neg h0]
      isplitl [HS Hrest Hg]
      · isplitl [HS]
        · iexists _; isplitr
          swap; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t h2) (noFlush1_5 t h2)]
      iintro ⟨⟨⟨%a, %ha, HS⟩, Hrest, Hg⟩, Ho, ⟨%d0, H0⟩, ⟨%d1, H1⟩, ⟨%d2, H2⟩, ⟨%d3, H3⟩, ⟨%d4, H4⟩, H5⟩
      obtain rfl := ha (by simpa using h0)
      iapply (sound_kernel1_mid c Set.univ (grid1.coords t) _ _ _ _ _ _ _ _ _ _ _ _ _ _ (fun h => h0 ((hcond1_1 t).mp h)) (fun h => h2 ((hcond1_2 t).mp h))
        (iblk1 V c 0 t) (iblk1 V c 1 t) (acc1 V c t.castSucc) _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _; rw [acc1_succ, if_neg h0]
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg1.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«148293_j56684978372941_1_alg».proof.Proof.K.Data
import proofs.«148293_j56684978372941_1_alg».proof.Proof.K.Body1
import proofs.«148293_j56684978372941_1_alg».proof.Proof.K.SharedRow
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second tiled matmul as a segment of the program's run

The region is entered with every unscoped buffer at the contents the host operations before it left, and left with
its output array at what the write-backs of the last contraction tiles leave and every other buffer as entered. The
bias row and the shift row are one array, read through two windows: at the entry its points-to is dealt to them in
halves, and at the exit the halves are joined again. The scratch buffer is one of the scoped buffers no window stages:
it enters the invariant at anything (the running sum restarts at the first point) and is given back at whatever the
last point left. -/

variable (m : (ℓ : Loc nD τ sig) → Buf (Elt F) ℓ)

/-- The bias and shift windows read one array, each holding half of it; the other windows' arrays are distinct whole
    unscoped buffers held outright. -/
theorem shared1 (c : Dev nD) : SharedRow (cfg := cfg1) (pdats m 1 c) 2 4 where
  ne := by decide
  same := rfl
  inj := by decide
  unscoped := winFacts₀1.arr_unscoped
  whole := arr_whole1
  share_i := rfl
  share_j := rfl
  share_rest := fun w => match w with
    | ⟨0, _⟩ => fun _ _ => rfl
    | ⟨1, _⟩ => fun _ _ => rfl
    | ⟨2, _⟩ => fun h _ => absurd rfl h
    | ⟨3, _⟩ => fun _ _ => rfl
    | ⟨4, _⟩ => fun _ h => absurd rfl h
    | ⟨5, _⟩ => fun _ _ => rfl

/-- The contents at the region's exit, read at the TensorCore's references. -/
abbrev X1 : (c : Dev nD) → (b : Ref sig .tc) → Buf (Elt F) ((c : Thread nD τ).loc b) := fun c b => W4 m c b

/-- An input window's array ends as it was entered: no write-back touches it, and it is not the output array. -/
theorem hF1_in (c : Dev nD) (w : Fin cfg1.W) (hin : (cfg1.win w).isOut = false)
    (hne : (Proc.devRef .tc (Pipeline.arrRef spec1 w) : DevRef τ sig) ≠ Proc.devRef .tc main_v89) :
    (dat1 (E1 m) c).arrAt w cfg1.N = X1 m c (Pipeline.arrRef spec1 w) := by
  rw [Dat.arrAt_in _ w hin, A_eq1]
  show W3 m c (Proc.devRef .tc (Pipeline.arrRef spec1 w)) = W4 m c (Proc.devRef .tc (Pipeline.arrRef spec1 w))
  unfold W4; exact (Function.update_of_ne hne _ _).symm

/-- At the region's exit each of its arrays holds what the pipeline leaves: the inputs their entry contents, the output
    the write-backs folded over the grid. -/
theorem hF1 (c : Dev nD) : ∀ w : Fin cfg1.W, (dat1 (E1 m) c).arrAt w cfg1.N = X1 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => by
    refine Eq.symm ?_
    show W4 m c (Proc.devRef .tc main_v89) = out1 m c
    unfold W4; exact Function.update_self ..

/-- Every buffer that is no array of the region holds at its exit what it held at its entry. -/
theorem hrest1 (c : Dev nD) : ∀ b, b ∉ Finset.univ.image (Pipeline.arrRef spec1) → X1 m c b = E1 m c b := fun b hb => by
  show W4 m c (Proc.devRef .tc b) = W3 m c (Proc.devRef .tc b)
  unfold W4
  exact Function.update_of_ne (fun e => hb (Finset.mem_image.mpr ⟨5, Finset.mem_univ _,
    (show Pipeline.arrRef spec1 5 = b from (Proc.devRef_injective _ e).symm)⟩)) _ _

-- the entry and exit lemmas speak of the pipeline's configuration through a definition that must be unfolded to meet cfg1
set_option backward.isDefEq.respectTransparency.types false in
/-- The second matmul's region over the thread state: entered from every unscoped buffer at the contents before it,
    left at those contents with the output array replaced. Its arrays are split out of the unscoped buffers — the shared
    row in halves — and put back at the exit contents; the generator register and the scratch buffer go into the invariant
    and come back out; nothing is owed; the kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := (shared1 m c).entry (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (E1 m) c 0 from rfl]; unfold Phi1
    rw [show (Pipeline.scopedRest (Pipeline.pin (pcfgs (F := F)) Gen.adm 1).spec c : sProp 𝕄) = _ from scopedRest1_split c]
    iintro ⟨Hp, -, ⟨%f, Hs⟩, Hrest⟩
    isplitl [Hs]
    · iexists f; isplitr
      · ipureintro; intro h; exact absurd rfl h
      rw [owns_whole]; iexact Hs
    isplitl [Hrest]; · iexact Hrest
    iexact Hp
  hout c := by
    rw [Pipeline.ownSems0_none, show (pdats m 1 c).Φ (Fin.last _) = Phi1 (E1 m) c (Fin.last _) from rfl]; unfold Phi1
    rw [show (Pipeline.scopedRest (Pipeline.pin (pcfgs (F := F)) Gen.adm 1).spec c : sProp 𝕄) = _ from scopedRest1_split c]
    iintro ⟨⟨%a, -, Hs⟩, Hrest, Hr⟩
    isplitl [Hr]; · iexact Hr
    isplitr; · iempintro
    isplitl [Hs]
    · iexists a; rw [← owns_whole]; iexact Hs
    iexact Hrest
  hexit c := by
    have hjoin := (shared1 m c).exit (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from and left at the boundary contents beside the rest, as stated. -/
theorem hpre1 (c : Dev nD) : iprop(StableHlo.held (c : Thread nD τ) (Pipeline.ucRefs τ sig) (W3 m c) ∗ R c) ⊢ (reg1 m).pre c := .rfl
theorem hpost1 (c : Dev nD) : (reg1 m).post c ⊢ iprop(StableHlo.held (c : Thread nD τ) (Pipeline.ucRefs τ sig) (W4 m c) ∗ R c) := .rfl

end Cert.Kernel.Hand

end
-- ==== Proof.K.Run2.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.K.Run3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the third tiled matmul, run in each of its three control cases

The body branches twice on the contraction coordinate `k = i 1` of the grid point: where `k = 0` it first zeroes
the running sum; it always adds the product of the left and right tiles to the running sum; where `k` is the last
contraction tile (`k = 3`) it writes `sum + bias` into the output tile. On a grid of 4 contraction tiles the two
conditions never hold together, so there are three cases. Every load and store is of a whole buffer, so each buffer
ends at the payload of the last store into it. -/

/-- The first branch's condition, from the grid coordinates: the contraction tile is the first. -/
abbrev cond2_1 (i : grid2.Coords) : Prop := (Scalar.cmpi .ne (Scalar.extui (Scalar.cmpi .eq (BitVec.ofNat 32 (i 1).val) 0#32)) 0#32) = 1#1
/-- It holds at the points ≡ 0 (mod 4): the contraction coordinate is the fast axis of the grid. -/
theorem hcond2_1 : ∀ t : Fin cfg2.N, cond2_1 (grid2.coords t) ↔ t.val % 4 = 0 :=
  (by decide +kernel : ∀ t : Fin grid2.N, cond2_1 (grid2.coords t) ↔ t.val % 4 = 0)
/-- The second branch's condition (the contraction tile is the last) holds at the points ≡ 3 (mod 4). -/
theorem hcond2_2 : ∀ t : Fin cfg2.N, k2_cond2 (grid2.coords t) = 1#1 ↔ t.val % 4 = 3 :=
  (by decide +kernel : ∀ t : Fin grid2.N, k2_cond2 (grid2.coords t) = 1#1 ↔ t.val % 4 = 3)

/-- The output window is idle exactly where the contraction tile is not the last. -/
theorem idleAt2_5 : ∀ t : Fin cfg2.N, ¬ t.val % 4 = 3 → cfg2.idle 5 (grid2.coords t) = true :=
  (by decide +kernel : ∀ t : Fin grid2.N, ¬ t.val % 4 = 3 → cfg2.idle 5 (grid2.coords t) = true)
theorem liveAt2_5 : ∀ t : Fin cfg2.N, t.val % 4 = 3 → cfg2.idle 5 (grid2.coords t) = false :=
  (by decide +kernel : ∀ t : Fin grid2.N, t.val % 4 = 3 → cfg2.idle 5 (grid2.coords t) = false)

set_option maxHeartbeats 1000000 in
/-- FIRST contraction tile: the running sum, whatever it held, ends at the tiles' product added to zero; the left and
    right tiles are read only; the bias, scale, shift and output buffers are not touched. -/
theorem sound_kernel2_first (c : Dev nD) (E : Set ℕ) (i : grid2.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : cond2_1 i) (hc2 : ¬ k2_cond2 i = 1#1)
    (x : Vec F S2000x512 .f32) (w : Vec F S512x256 .f32) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k2_pay2 x w k2_pay1)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  unfold owns
  iintro ⟨⟨%f2, %hf2, H2⟩, ⟨%f3, %hf3, H3⟩, ⟨%a, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x256) hz2, View.ld_unit_zero (S := S1x256) hz2, View.ld_unit_zero (S := S2000x256) hz2, View.readCov_unit_zero (S := S2000x256) _ hz2]

set_option maxHeartbeats 1000000 in
/-- A MIDDLE contraction tile: the running sum `a` ends at the tiles' product added to it. -/
theorem sound_kernel2_mid (c : Dev nD) (E : Set ℕ) (i : grid2.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : ¬ cond2_1 i) (hc2 : ¬ k2_cond2 i = 1#1)
    (x : Vec F S2000x512 .f32) (w : Vec F S512x256 .f32) (a : Vec F S2000x256 .f32) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k2_pay2 x w a)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x256) hz2, View.ld_unit_zero (S := S1x256) hz2, View.ld_unit_zero (S := S2000x256) hz2, View.readCov_unit_zero (S := S2000x256) _ hz2]

set_option maxHeartbeats 1000000 in
/-- The LAST contraction tile: the running sum `a` ends at the tiles' product added to it, and the output tile,
    whatever it held, at that sum plus the bias row. -/
theorem sound_kernel2_last (c : Dev nD) (E : Set ℕ) (i : grid2.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : ¬ cond2_1 i) (hc2 : k2_cond2 i = 1#1)
    (x : Vec F S2000x512 .f32) (w : Vec F S512x256 .f32) (a : Vec F S2000x256 .f32) (b : Vec F S1x256 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg7 fullShare d) ∗ owns (c : Thread nD τ) arg8 fullShare a
        ∗ (iprop(owns (c : Thread nD τ) arg2 fullShare x ∗ owns (c : Thread nD τ) arg3 fullShare w ∗ owns (c : Thread nD τ) arg4 fullShare b
            ∗ owns (c : Thread nD τ) arg7 fullShare (k2_pay3 (k2_pay2 x w a) b) ∗ owns (c : Thread nD τ) arg8 fullShare (k2_pay2 x w a)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  unfold owns
  iintro ⟨⟨%f2, %hf2, H2⟩, ⟨%f3, %hf3, H3⟩, ⟨%f4, %hf4, H4⟩, ⟨%d7, %f7, -, H7⟩, ⟨%f8, %hf8, H8⟩, Hk⟩
  subst hf2; subst hf3; subst hf4; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro; sl_unfold_run_names
    refine (read_store_last _ _ hz2 _ _ _).trans ?_
    simp only [View.readAt_eq_ld, View.ld_unit_zero (S := S2000x512) hz2, View.ld_unit_zero (S := S512x256) hz2, View.ld_unit_zero (S := S1x256) hz2, View.ld_unit_zero (S := S2000x256) hz2, View.readCov_unit_zero (S := S2000x256) _ hz2]
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x256) hz2, View.ld_unit_zero (S := S1x256) hz2, View.ld_unit_zero (S := S2000x256) hz2, View.readCov_unit_zero (S := S2000x256) _ hz2]

end Cert.Kernel.Hand

end
-- ==== Proof.K.Body2.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.K.Dat2
import proofs.«148293_j56684978372941_1_alg».proof.Proof.K.Run2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The body obligation of the third tiled matmul

At every grid point the body is handed the left, right, bias, scale and shift windows at their blocks and the scratch
buffer at the running sum, and hands the scratch buffer back at the running sum one step on; the output window is
written — with the completed sum plus the bias — only where the contraction tile is the last, and is handed back as
found elsewhere. -/

/-- The proof data's arrays are the region-entry contents. -/
theorem A_eq2 (c : Dev nD) (w : Fin cfg2.W) : (dat2 V c).A w = V c (Pipeline.arrRef spec2 w) := by
  dsimp only [dat2]

/-- What the body leaves, window by window: each input's block in place, -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
/-- and in the output window the running sum after the point plus the bias row (what a last contraction tile writes
    back). -/
theorem after2_out (c : Dev nD) (t : Fin cfg2.N) :
    (dat2 V c).after 5 t = k2_pay3 (acc2 V c t.succ) (iblk2 V c 2 t) := by dsimp only [dat2]

/-- The invariant and the tallies of the proof data, projected. -/
theorem Phi2_eq (c : Dev nD) (t : Fin (cfg2.N + 1)) : (dat2 V c).Φ t = Phi2 V c t := by dsimp only [dat2]
theorem owed2_eq (c : Dev nD) (t : Fin (cfg2.N + 1)) : (dat2 V c).owed t = 0 := by dsimp only [dat2]
theorem recorded2_eq (c : Dev nD) (t : Fin (cfg2.N + 1)) : (dat2 V c).recorded t = Set.univ := by dsimp only [dat2]

/-- Each input's current staging buffer holds its block at every point, fetched there or not: an input not fetched at
    a point has the block index it had at the point before, and the body leaves every input's block in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- The output window is not written back where the contraction tile is not the last. -/
theorem noFlush2_5 (t : Fin cfg2.N) (h2 : ¬ t.val % 4 = 3) : (cfg2.win 5).flush t = false :=
  Bool.eq_false_iff.mpr fun hf => h2 ((flush2_5 t).mp hf)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: the output window as the configuration's idle table has it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ (dat2 V c).leavesExact 5 t)

set_option maxHeartbeats 2000000 in
/-- The body at any point, by the residue of the point modulo 4 (the contraction tile): the inputs' memrefs hold their
    blocks; the invariant hands over the scratch buffer — at the running sum unless the sum restarts here — and takes it
    back at the sum one step on (`acc2_succ`); the other scoped buffers, the generator register and the core's dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    Phi2_eq, Phi2_eq, after2_0, after2_1, after2_2, after2_3, after2_4]
  unfold Phi2
  by_cases h0 : t.val % 4 = 0
  · have h2 : ¬ t.val % 4 = 3 := by omega
    rw [Dat.leavesExact_idle (dat2 V c) 5 t (idleAt2_5 t h2) (noFlush2_5 t h2)]
    iintro ⟨⟨⟨%a, -, HS⟩, Hrest, Hg⟩, Ho, ⟨%d0, H0⟩, ⟨%d1, H1⟩, ⟨%d2, H2⟩, ⟨%d3, H3⟩, ⟨%d4, H4⟩, H5⟩
    iapply (sound_kernel2_first c Set.univ (grid2.coords t) _ _ _ _ _ _ _ _ _ _ _ _ _ _ ((hcond2_1 t).mpr h0) (fun h => h2 ((hcond2_2 t).mp h)) (iblk2 V c 0 t) (iblk2 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _; rw [acc2_succ, if_pos h0]
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h2 : t.val % 4 = 3
    · rw [show (dat2 V c).leavesExact 5 t = owns (c : Thread nD τ) (st2_5 t) fullShare ((dat2 V c).after 5 t) from by
        unfold Dat.leavesExact; rw [liveAt2_5 t h2], after2_out]
      iintro ⟨⟨⟨%a, %ha, HS⟩, Hrest, Hg⟩, Ho, ⟨%d0, H0⟩, ⟨%d1, H1⟩, ⟨%d2, H2⟩, ⟨%d3, H3⟩, ⟨%d4, H4⟩, ⟨%d5, H5⟩⟩
      obtain rfl := ha (by simpa using h0)
      iapply (sound_kernel2_last c Set.univ (grid2.coords t) _ _ _ _ _ _ _ _ _ _ _ _ _ _ (fun h => h0 ((hcond2_1 t).mp h)) ((hcond2_2 t).mpr h2)
        (iblk2 V c 0 t) (iblk2 V c 1 t) (acc2 V c t.castSucc) (iblk2 V c 2 t) _)
      isplitl [H0]; · iexact H0
      isplitl [H1]; · iexact H1
      isplitl [H2]; · iexact H2
      isplitl [H5]; · iexists _; iexact H5
      isplitl [HS]; · iexact HS
      iintro ⟨H0, H1, H2, H5, HS⟩
      rw [acc2_succ, if_neg h0]
      isplitl [HS Hrest Hg]
      · isplitl [HS]
        · iexists _; isplitr
          swap; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat2 V c) 5 t (idleAt2_5 t h2) (noFlush2_5 t h2)]
      iintro ⟨⟨⟨%a, %ha, HS⟩, Hrest, Hg⟩, Ho, ⟨%d0, H0⟩, ⟨%d1, H1⟩, ⟨%d2, H2⟩, ⟨%d3, H3⟩, ⟨%d4, H4⟩, H5⟩
      obtain rfl := ha (by simpa using h0)
      iapply (sound_kernel2_mid c Set.univ (grid2.coords t) _ _ _ _ _ _ _ _ _ _ _ _ _ _ (fun h => h0 ((hcond2_1 t).mp h)) (fun h => h2 ((hcond2_2 t).mp h))
        (iblk2 V c 0 t) (iblk2 V c 1 t) (acc2 V c t.castSucc) _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _; rw [acc2_succ, if_neg h0]
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg2.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«148293_j56684978372941_1_alg».proof.Proof.K.Data
import proofs.«148293_j56684978372941_1_alg».proof.Proof.K.Body2
import proofs.«148293_j56684978372941_1_alg».proof.Proof.K.SharedRow
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third tiled matmul as a segment of the program's run

The region is entered with every unscoped buffer at the contents the host operations before it left, and left with
its output array at what the write-backs of the last contraction tiles leave and every other buffer as entered. The
bias row and the shift row are one array, read through two windows: at the entry its points-to is dealt to them in
halves, and at the exit the halves are joined again. The scratch buffer is one of the scoped buffers no window stages:
it enters the invariant at anything (the running sum restarts at the first point) and is given back at whatever the
last point left. -/

variable (m : (ℓ : Loc nD τ sig) → Buf (Elt F) ℓ)

/-- The bias and shift windows read one array, each holding half of it; the other windows' arrays are distinct whole
    unscoped buffers held outright. -/
theorem shared2 (c : Dev nD) : SharedRow (cfg := cfg2) (pdats m 2 c) 2 4 where
  ne := by decide
  same := rfl
  inj := by decide
  unscoped := winFacts₀2.arr_unscoped
  whole := arr_whole2
  share_i := rfl
  share_j := rfl
  share_rest := fun w => match w with
    | ⟨0, _⟩ => fun _ _ => rfl
    | ⟨1, _⟩ => fun _ _ => rfl
    | ⟨2, _⟩ => fun h _ => absurd rfl h
    | ⟨3, _⟩ => fun _ _ => rfl
    | ⟨4, _⟩ => fun _ h => absurd rfl h
    | ⟨5, _⟩ => fun _ _ => rfl

/-- The contents at the region's exit, read at the TensorCore's references. -/
abbrev X2 : (c : Dev nD) → (b : Ref sig .tc) → Buf (Elt F) ((c : Thread nD τ).loc b) := fun c b => W10 m c b

/-- An input window's array ends as it was entered: no write-back touches it, and it is not the output array. -/
theorem hF2_in (c : Dev nD) (w : Fin cfg2.W) (hin : (cfg2.win w).isOut = false)
    (hne : (Proc.devRef .tc (Pipeline.arrRef spec2 w) : DevRef τ sig) ≠ Proc.devRef .tc main_v150) :
    (dat2 (E2 m) c).arrAt w cfg2.N = X2 m c (Pipeline.arrRef spec2 w) := by
  rw [Dat.arrAt_in _ w hin, A_eq2]
  show W9 m c (Proc.devRef .tc (Pipeline.arrRef spec2 w)) = W10 m c (Proc.devRef .tc (Pipeline.arrRef spec2 w))
  unfold W10; exact (Function.update_of_ne hne _ _).symm

/-- At the region's exit each of its arrays holds what the pipeline leaves: the inputs their entry contents, the output
    the write-backs folded over the grid. -/
theorem hF2 (c : Dev nD) : ∀ w : Fin cfg2.W, (dat2 (E2 m) c).arrAt w cfg2.N = X2 m c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => by
    refine Eq.symm ?_
    show W10 m c (Proc.devRef .tc main_v150) = out2 m c
    unfold W10; exact Function.update_self ..

/-- Every buffer that is no array of the region holds at its exit what it held at its entry. -/
theorem hrest2 (c : Dev nD) : ∀ b, b ∉ Finset.univ.image (Pipeline.arrRef spec2) → X2 m c b = E2 m c b := fun b hb => by
  show W10 m c (Proc.devRef .tc b) = W9 m c (Proc.devRef .tc b)
  unfold W10
  exact Function.update_of_ne (fun e => hb (Finset.mem_image.mpr ⟨5, Finset.mem_univ _,
    (show Pipeline.arrRef spec2 5 = b from (Proc.devRef_injective _ e).symm)⟩)) _ _

-- the entry and exit lemmas speak of the pipeline's configuration through a definition that must be unfolded to meet cfg2
set_option backward.isDefEq.respectTransparency.types false in
/-- The third matmul's region over the thread state: entered from every unscoped buffer at the contents before it,
    left at those contents with the output array replaced. Its arrays are split out of the unscoped buffers — the shared
    row in halves — and put back at the exit contents; the generator register and the scratch buffer go into the invariant
    and come back out; nothing is owed; the kernel has no semaphore of its own. -/
def reg2 : Pipeline.RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := (shared2 m c).entry (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Phi2 (E2 m) c 0 from rfl]; unfold Phi2
    rw [show (Pipeline.scopedRest (Pipeline.pin (pcfgs (F := F)) Gen.adm 2).spec c : sProp 𝕄) = _ from scopedRest2_split c]
    iintro ⟨Hp, -, ⟨%f, Hs⟩, Hrest⟩
    isplitl [Hs]
    · iexists f; isplitr
      · ipureintro; intro h; exact absurd rfl h
      rw [owns_whole]; iexact Hs
    isplitl [Hrest]; · iexact Hrest
    iexact Hp
  hout c := by
    rw [Pipeline.ownSems0_none, show (pdats m 2 c).Φ (Fin.last _) = Phi2 (E2 m) c (Fin.last _) from rfl]; unfold Phi2
    rw [show (Pipeline.scopedRest (Pipeline.pin (pcfgs (F := F)) Gen.adm 2).spec c : sProp 𝕄) = _ from scopedRest2_split c]
    iintro ⟨⟨%a, -, Hs⟩, Hrest, Hr⟩
    isplitl [Hr]; · iexact Hr
    isplitr; · iempintro
    isplitl [Hs]
    · iexists a; rw [← owns_whole]; iexact Hs
    iexact Hrest
  hexit c := by
    have hjoin := (shared2 m c).exit (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from and left at the boundary contents beside the rest, as stated. -/
theorem hpre2 (c : Dev nD) : iprop(StableHlo.held (c : Thread nD τ) (Pipeline.ucRefs τ sig) (W9 m c) ∗ R c) ⊢ (reg2 m).pre c := .rfl
theorem hpost2 (c : Dev nD) : (reg2 m).post c ⊢ iprop(StableHlo.held (c : Thread nD τ) (Pipeline.ucRefs τ sig) (W10 m c) ∗ R c) := .rfl

end Cert.Kernel.Hand

end
-- ==== Proof.K.Body3.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.K.Dat3
import proofs.«148293_j56684978372941_1_alg».proof.Proof.K.Run3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the fourth matmul region is entered
variable (V : (c : Dev nD) → (b : Ref sig .tc) → Buf (Elt F) ((c : Thread nD τ).loc b))

/-! # The body obligation of the fourth tiled matmul

At every grid point the body is handed the `x`, `w`, bias, scale and shift windows at their blocks and the scratch
buffer at the running sum, and hands the scratch buffer back at the running sum one step on; the output window is
written — with the epilogue of the completed sum — only where the contraction tile is the last, and is handed back
as found elsewhere. -/

/-- The proof data's arrays are the region-entry contents. -/
theorem A_eq3 (c : Dev nD) (w : Fin cfg3.W) : (dat3 V c).A w = V c (Pipeline.arrRef spec3 w) := by
  dsimp only [dat3]

/-- What the body leaves, window by window: each input's block in place, -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
/-- and in the output window the epilogue `relu (sum + bias) * scale + shift` of the running sum after the point and
    the bias, scale and shift rows (what a last contraction tile writes back). -/
theorem after3_out (c : Dev nD) (t : Fin cfg3.N) :
    (dat3 V c).after 5 t = k3_pay3 (acc3 V c t.succ) (iblk3 V c 2 t) (iblk3 V c 3 t) (iblk3 V c 4 t) := by dsimp only [dat3]

/-- The invariant, the tallies and the shares of the proof data, projected. -/
theorem Phi3_eq (c : Dev nD) (t : Fin (cfg3.N + 1)) : (dat3 V c).Φ t = Phi3 V c t := by dsimp only [dat3]
theorem owed3_eq (c : Dev nD) (t : Fin (cfg3.N + 1)) : (dat3 V c).owed t = 0 := by dsimp only [dat3]
theorem q3_eq (c : Dev nD) (w : Fin cfg3.W) : (dat3 V c).q w = fullShare := by dsimp only [dat3]
theorem recorded3_eq (c : Dev nD) (t : Fin (cfg3.N + 1)) : (dat3 V c).recorded t = Set.univ := by dsimp only [dat3]

/-- Each input's current staging buffer holds its block at every point, fetched there or not: an input not fetched at
    a point has the block index it had at the point before, and the body leaves every input's block in place. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

/-- The output window is not written back where the contraction tile is not the last. -/
theorem noFlush3_5 (t : Fin cfg3.N) (h2 : ¬ t.val % 3 = 2) : (cfg3.win 5).flush t = false :=
  Bool.eq_false_iff.mpr fun hf => h2 ((flush3_5 t).mp hf)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: the output window as the configuration's idle table has it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ (dat3 V c).leavesExact 5 t)

set_option maxHeartbeats 2000000 in
/-- The body at any point, by the residue of the point modulo 3 (the contraction tile): the inputs' memrefs hold their
    blocks; the invariant hands over the scratch buffer — at the running sum unless the sum restarts here — and takes it
    back at the sum one step on (`acc3_succ`); the other scoped buffers, the generator register and the core's `owes`
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    Phi3_eq, Phi3_eq, after3_0, after3_1, after3_2, after3_3, after3_4]
  unfold Phi3
  by_cases h0 : t.val % 3 = 0
  · have h2 : ¬ t.val % 3 = 2 := by omega
    rw [Dat.leavesExact_idle (dat3 V c) 5 t (idleAt3_5 t h2) (noFlush3_5 t h2)]
    iintro ⟨⟨⟨%a, -, HS⟩, Hrest, Hg⟩, Ho, ⟨%d0, H0⟩, ⟨%d1, H1⟩, ⟨%d2, H2⟩, ⟨%d3, H3⟩, ⟨%d4, H4⟩, H5⟩
    iapply (sound_kernel3_first c Set.univ (grid3.coords t) _ _ _ _ _ _ _ _ _ _ _ _ _ _ ((hcond3_1 t).mpr h0) (fun h => h2 ((hcond3_2 t).mp h)) (iblk3 V c 0 t) (iblk3 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _; rw [acc3_succ, if_pos h0]
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h2 : t.val % 3 = 2
    · rw [show (dat3 V c).leavesExact 5 t = owns (c : Thread nD τ) (st3_5 t) fullShare ((dat3 V c).after 5 t) from by
        unfold Dat.leavesExact; rw [liveAt3_5 t h2], after3_out]
      iintro ⟨⟨⟨%a, %ha, HS⟩, Hrest, Hg⟩, Ho, ⟨%d0, H0⟩, ⟨%d1, H1⟩, ⟨%d2, H2⟩, ⟨%d3, H3⟩, ⟨%d4, H4⟩, ⟨%d5, H5⟩⟩
      obtain rfl := ha (by simpa using h0)
      iapply (sound_kernel3_last c Set.univ (grid3.coords t) _ _ _ _ _ _ _ _ _ _ _ _ _ _ (fun h => h0 ((hcond3_1 t).mp h)) ((hcond3_2 t).mpr h2)
        (iblk3 V c 0 t) (iblk3 V c 1 t) (acc3 V c t.castSucc) (iblk3 V c 2 t) (iblk3 V c 3 t) (iblk3 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      rw [acc3_succ, if_neg h0]
      isplitl [HS Hrest Hg]
      · isplitl [HS]
        · iexists _; isplitr
          swap; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat3 V c) 5 t (idleAt3_5 t h2) (noFlush3_5 t h2)]
      iintro ⟨⟨⟨%a, %ha, HS⟩, Hrest, Hg⟩, Ho, ⟨%d0, H0⟩, ⟨%d1, H1⟩, ⟨%d2, H2⟩, ⟨%d3, H3⟩, ⟨%d4, H4⟩, H5⟩
      obtain rfl := ha (by simpa using h0)
      iapply (sound_kernel3_mid c Set.univ (grid3.coords t) _ _ _ _ _ _ _ _ _ _ _ _ _ _ (fun h => h0 ((hcond3_1 t).mp h)) (fun h => h2 ((hcond3_2 t).mp h))
        (iblk3 V c 0 t) (iblk3 V c 1 t) (acc3 V c t.castSucc) _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _; rw [acc3_succ, if_neg h0]
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg3.lean ====
import proofs.«148293_j56684978372941_1_alg».proof.Proof.Gen.Kernel.Launch
import proofs.«148293_j56684978372941_1_alg».proof.Proof.Gen.Kernel.Skeleton
import proofs.«148293_j56684978372941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«148293_j56684978372941_1_alg».proof.Proof.K.Data
import proofs.«148293_j56684978372941_1_alg».proof.Proof.K.Body3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The fourth tiled matmul as a segment of the program's run

The region is entered with every unscoped buffer at the contents the host operations before it left, and left with
its output array at what the write-backs of the last contraction tiles leave and every other buffer as entered. Its
scratch buffer is one of the scoped buffers no window stages: it enters the invariant at anything (the running sum
restarts at the first point) and is given back at whatever the last point left. -/

/-- The contents at the region's exit, read at the TensorCore's references. -/
abbrev X3 : (c : Dev nD) → (b : Ref sig .tc) → Buf (Elt F) ((c : Thread nD τ).loc b) := fun c b => W16 m c b

/-- An input window's array ends as it was entered: no write-back touches it, and it is not the output array. -/
theorem hF3_in (c : Dev nD) (w : Fin cfg3.W) (hin : (cfg3.win w).isOut = false)
    (hne : (Proc.devRef .tc (Pipeline.arrRef spec3 w) : DevRef τ sig) ≠ Proc.devRef .tc main_v198) :
    (dat3 (E3 m) c).arrAt w cfg3.N = X3 m c (Pipeline.arrRef spec3 w) := by
  rw [Dat.arrAt_in _ w hin, A_eq3]
  show W15 m c (Proc.devRef .tc (Pipeline.arrRef spec3 w)) = W16 m c (Proc.devRef .tc (Pipeline.arrRef spec3 w))
  unfold W16; exact (Function.update_of_ne hne _ _).symm

/-- At the region's exit each of its arrays holds what the pipeline leaves: the inputs their entry contents, the output
    the write-backs folded over the grid. -/
theorem hF3 (c : Dev nD) : ∀ w : Fin cfg3.W, (dat3 (E3 m) c).arrAt w cfg3.N = X3 m c (Pipeline.arrRef spec3 w)
  | ⟨0, _⟩ => hF3_in m c 0 rfl (by decide)
  | ⟨1, _⟩ => hF3_in m c 1 rfl (by decide)
  | ⟨2, _⟩ => hF3_in m c 2 rfl (by decide)
  | ⟨3, _⟩ => hF3_in m c 3 rfl (by decide)
  | ⟨4, _⟩ => hF3_in m c 4 rfl (by decide)
  | ⟨5, _⟩ => by
    refine Eq.symm ?_
    show W16 m c (Proc.devRef .tc main_v198) = out3 m c
    unfold W16; exact Function.update_self ..

/-- Every buffer that is no array of the region holds at its exit what it held at its entry. -/
theorem hrest3 (c : Dev nD) : ∀ b, b ∉ Finset.univ.image (Pipeline.arrRef spec3) → X3 m c b = E3 m c b := fun b hb => by
  show W16 m c (Proc.devRef .tc b) = W15 m c (Proc.devRef .tc b)
  unfold W16
  exact Function.update_of_ne (fun e => hb (Finset.mem_image.mpr ⟨5, Finset.mem_univ _,
    (show Pipeline.arrRef spec3 5 = b from (Proc.devRef_injective _ e).symm)⟩)) _ _

-- the library's entry and exit lemmas speak of the pipeline's configuration through a definition that must be unfolded to meet cfg3
set_option backward.isDefEq.respectTransparency.types false in
/-- The fourth matmul's region over the thread state: entered from every unscoped buffer at the contents before it,
    left at those contents with the output array replaced. Its arrays are split out of the unscoped buffers and put back
    at the exit contents; the generator register and the scratch buffer go into the invariant and come back out; nothing
    is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Phi3 (E3 m) c 0 from rfl]; unfold Phi3
    rw [show (Pipeline.scopedRest (Pipeline.pin (pcfgs (F := F)) Gen.adm 3).spec c : sProp 𝕄) = _ from scopedRest3_split c]
    iintro ⟨Hp, -, ⟨%f, Hs⟩, Hrest⟩
    isplitl [Hs]
    · iexists f; isplitr
      · ipureintro; intro h; exact absurd rfl h
      rw [owns_whole]; iexact Hs
    isplitl [Hrest]; · iexact Hrest
    iexact Hp
  hout c := by
    rw [Pipeline.ownSems0_none, show (pdats m 3 c).Φ (Fin.last _) = Phi3 (E3 m) c (Fin.last _) from rfl]; unfold Phi3
    rw [show (Pipeline.scopedRest (Pipeline.pin (pcfgs (F := F)) Gen.adm 3).spec c : sProp 𝕄) = _ from scopedRest3_split c]
    iintro ⟨⟨%a, -, Hs⟩, Hrest, Hr⟩
    isplitl [Hr]; · iexact Hr
    isplitr; · iempintro
    isplitl [Hs]
    · iexists a; rw [← owns_whole]; iexact Hs
    iexact Hrest
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from and left at the boundary contents beside the rest, as stated. -/
theorem hpre3 (c : Dev nD) : iprop(StableHlo.held (c : Thread nD τ) (Pipeline.ucRefs τ sig) (W15 m c) ∗ R c) ⊢ (reg3 m).pre c := .rfl
theorem hpost3 (c : Dev nD) : (reg3 m).post c ⊢ iprop(StableHlo.held (c : Thread nD τ) (Pipeline.ucRefs τ sig) (W16 m c) ∗ R c) := .rfl

end Cert.Kernel.Hand

end
-- ==== Proof.KI.Dat0.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The first tiled matmul (a 50000 × 2048 array times a 2048 × 512 array, tiled 25 × 4): blocks, the running sum over the contraction axis, the proof data

Point `t` of the grid is the pair (row tile `t / 4`, contraction tile `t % 4`). At every point the body adds
the product of the point's left tile and right tile to a running sum kept in a scratch buffer; the sum restarts from
zero where the contraction tile is the first, and where it is the last the output tile receives `max (sum + bias) 0`. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum after the first `n` points: zero before any point; each point adds its tiles' product to the
    sum the point before left — or to zero, where the contraction tile is the first (`n % 4 = 0`). -/
def accN0 (c : Dev nD) : ℕ → Vec F S2000x512 .f32
  | 0 => k0_pay1
  | n + 1 =>
    if h : n < cfg0.N then
      k0_pay2 (iblk0 V c 0 ⟨n, h⟩) (iblk0 V c 1 ⟨n, h⟩) (if n % 4 = 0 then k0_pay1 else accN0 c n)
    else accN0 c n

/-- The running sum the scratch buffer holds before point `t` (after point `t - 1`). -/
def acc0 (c : Dev nD) (t : Fin (cfg0.N + 1)) : Vec F S2000x512 .f32 := accN0 V c t.val

/-- One step of the running sum: the point's product added to what was there, or to zero at a first contraction tile. -/
theorem acc0_succ (c : Dev nD) (t : Fin cfg0.N) :
    acc0 V c t.succ = k0_pay2 (iblk0 V c 0 t) (iblk0 V c 1 t) (if t.val % 4 = 0 then k0_pay1 else acc0 V c t.castSucc) := by
  obtain ⟨n, hn⟩ := t
  show accN0 V c (n + 1) = _
  rw [accN0, dif_pos hn]; rfl

/-- The scratch operand: a whole scoped buffer of the kernel's own. -/
abbrev scM0 : Memref sig .tc .vmem S2000x512 .f32 := Memref.whole cc0_scratch0

/-- The region invariant before point `t`: the scratch buffer at the running sum — at anything where the sum is about
    to restart (`t % 4 = 0`), so that the invariant holds of a scratch buffer nothing has written yet —, the other
    scoped buffers unopened, and the generator register at some state. -/
def Phi0 (c : Dev nD) (t : Fin (cfg0.N + 1)) : sProp 𝕄 :=
  iprop((∃ a, ⌜t.val % 4 ≠ 0 → a = acc0 V c t⌝ ∗ owns (c : Thread nD τ) scM0 fullShare a)
    ∗ Pipeline.scopedRestBut (Ix := Unit) (Name := ℕ) (U := UR sig nD τ) (Lvl := ℕ) (Val := Elt F) spec0 c [cc0_scratch0]
    ∗ ∃ r, prngReg c r)

/-- The proof data of the first matmul's pipeline on core `c`: the arrays as the region finds them (`V`); after the
    body at point `t` each input's buffer at its block, and the output's at `max (sum + bias) 0` of the running sum after the
    point (consulted only where the contraction tile is the last: elsewhere the output window is idle); the invariant
    `Phi0`; nothing owed. The bias row and the shift row are one array read through two windows: each holds half of
    it; every other array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (acc0 V c t.succ) (iblk0 V c 2 t)
  Φ t := Phi0 V c t
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

end Cert.KernelIdeal.Hand

end
-- ==== Proof.KI.Dat1.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The second tiled matmul (a 50000 × 2048 array times a 2048 × 512 array, tiled 25 × 4): blocks, the running sum over the contraction axis, the proof data

Point `t` of the grid is the pair (row tile `t / 4`, contraction tile `t % 4`). At every point the body adds
the product of the point's left tile and right tile to a running sum kept in a scratch buffer; the sum restarts from
zero where the contraction tile is the first, and where it is the last the output tile receives `sum + bias`. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum after the first `n` points: zero before any point; each point adds its tiles' product to the
    sum the point before left — or to zero, where the contraction tile is the first (`n % 4 = 0`). -/
def accN1 (c : Dev nD) : ℕ → Vec F S2000x512 .f32
  | 0 => k1_pay1
  | n + 1 =>
    if h : n < cfg1.N then
      k1_pay2 (iblk1 V c 0 ⟨n, h⟩) (iblk1 V c 1 ⟨n, h⟩) (if n % 4 = 0 then k1_pay1 else accN1 c n)
    else accN1 c n

/-- The running sum the scratch buffer holds before point `t` (after point `t - 1`). -/
def acc1 (c : Dev nD) (t : Fin (cfg1.N + 1)) : Vec F S2000x512 .f32 := accN1 V c t.val

/-- One step of the running sum: the point's product added to what was there, or to zero at a first contraction tile. -/
theorem acc1_succ (c : Dev nD) (t : Fin cfg1.N) :
    acc1 V c t.succ = k1_pay2 (iblk1 V c 0 t) (iblk1 V c 1 t) (if t.val % 4 = 0 then k1_pay1 else acc1 V c t.castSucc) := by
  obtain ⟨n, hn⟩ := t
  show accN1 V c (n + 1) = _
  rw [accN1, dif_pos hn]; rfl

/-- The scratch operand: a whole scoped buffer of the kernel's own. -/
abbrev scM1 : Memref sig .tc .vmem S2000x512 .f32 := Memref.whole cc1_scratch0

/-- The region invariant before point `t`: the scratch buffer at the running sum — at anything where the sum is about
    to restart (`t % 4 = 0`), so that the invariant holds of a scratch buffer nothing has written yet —, the other
    scoped buffers unopened, and the generator register at some state. -/
def Phi1 (c : Dev nD) (t : Fin (cfg1.N + 1)) : sProp 𝕄 :=
  iprop((∃ a, ⌜t.val % 4 ≠ 0 → a = acc1 V c t⌝ ∗ owns (c : Thread nD τ) scM1 fullShare a)
    ∗ Pipeline.scopedRestBut (Ix := Unit) (Name := ℕ) (U := UR sig nD τ) (Lvl := ℕ) (Val := Elt F) spec1 c [cc1_scratch0]
    ∗ ∃ r, prngReg c r)

/-- The proof data of the second matmul's pipeline on core `c`: the arrays as the region finds them (`V`); after the
    body at point `t` each input's buffer at its block, and the output's at `sum + bias` of the running sum after the
    point (consulted only where the contraction tile is the last: elsewhere the output window is idle); the invariant
    `Phi1`; nothing owed. The bias row and the shift row are one array read through two windows: each holds half of
    it; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.succ) (iblk1 V c 2 t)
  Φ t := Phi1 V c t
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

end Cert.KernelIdeal.Hand

end
-- ==== Proof.KI.Dat2.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The third tiled matmul (a 50000 × 2048 array times a 2048 × 256 array, tiled 25 × 4): blocks, the running sum over the contraction axis, the proof data

Point `t` of the grid is the pair (row tile `t / 4`, contraction tile `t % 4`). At every point the body adds
the product of the point's left tile and right tile to a running sum kept in a scratch buffer; the sum restarts from
zero where the contraction tile is the first, and where it is the last the output tile receives `sum + bias`. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running sum after the first `n` points: zero before any point; each point adds its tiles' product to the
    sum the point before left — or to zero, where the contraction tile is the first (`n % 4 = 0`). -/
def accN2 (c : Dev nD) : ℕ → Vec F S2000x256 .f32
  | 0 => k2_pay1
  | n + 1 =>
    if h : n < cfg2.N then
      k2_pay2 (iblk2 V c 0 ⟨n, h⟩) (iblk2 V c 1 ⟨n, h⟩) (if n % 4 = 0 then k2_pay1 else accN2 c n)
    else accN2 c n

/-- The running sum the scratch buffer holds before point `t` (after point `t - 1`). -/
def acc2 (c : Dev nD) (t : Fin (cfg2.N + 1)) : Vec F S2000x256 .f32 := accN2 V c t.val

/-- One step of the running sum: the point's product added to what was there, or to zero at a first contraction tile. -/
theorem acc2_succ (c : Dev nD) (t : Fin cfg2.N) :
    acc2 V c t.succ = k2_pay2 (iblk2 V c 0 t) (iblk2 V c 1 t) (if t.val % 4 = 0 then k2_pay1 else acc2 V c t.castSucc) := by
  obtain ⟨n, hn⟩ := t
  show accN2 V c (n + 1) = _
  rw [accN2, dif_pos hn]; rfl

/-- The scratch operand: a whole scoped buffer of the kernel's own. -/
abbrev scM2 : Memref sig .tc .vmem S2000x256 .f32 := Memref.whole cc2_scratch0

/-- The region invariant before point `t`: the scratch buffer at the running sum — at anything where the sum is about
    to restart (`t % 4 = 0`), so that the invariant holds of a scratch buffer nothing has written yet —, the other
    scoped buffers unopened, and the generator register at some state. -/
def Phi2 (c : Dev nD) (t : Fin (cfg2.N + 1)) : sProp 𝕄 :=
  iprop((∃ a, ⌜t.val % 4 ≠ 0 → a = acc2 V c t⌝ ∗ owns (c : Thread nD τ) scM2 fullShare a)
    ∗ Pipeline.scopedRestBut (Ix := Unit) (Name := ℕ) (U := UR sig nD τ) (Lvl := ℕ) (Val := Elt F) spec2 c [cc2_scratch0]
    ∗ ∃ r, prngReg c r)

/-- The proof data of the third matmul's pipeline on core `c`: the arrays as the region finds them (`V`); after the
    body at point `t` each input's buffer at its block, and the output's at `sum + bias` of the running sum after the
    point (consulted only where the contraction tile is the last: elsewhere the output window is idle); the invariant
    `Phi2`; nothing owed. The bias row and the shift row are one array read through two windows: each holds half of
    it; every other array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.succ) (iblk2 V c 2 t)
  Φ t := Phi2 V c t
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

end Cert.KernelIdeal.Hand

end
-- ==== Proof.KI.Dat3.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the fourth matmul region is entered
variable (V : (c : Dev nD) → (b : Ref sig .tc) → Buf (Elt F) ((c : Thread nD τ).loc b))

/-! # The fourth tiled matmul (grid 50 × 3): blocks, the running sum over the contraction axis, the proof data

Point `t` of the grid is the pair (row tile `t / 3`, contraction tile `t % 3`). At every point the body adds
the product of the point's `x` tile (2000 × 256) and `w` tile (256 × 256) to a 2000 × 256 running sum kept in a
scratch buffer; the sum restarts from zero where the contraction tile is the first, and where it is the last the
output tile receives `relu (sum + bias) * scale + shift`. -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum after the first `n` points: zero before any point; each point adds its tiles' product to the
    sum the point before left — or to zero, where the contraction tile is the first (`n % 3 = 0`). -/
def accN (c : Dev nD) : ℕ → Vec F S2000x256 .f32
  | 0 => k3_pay1
  | n + 1 =>
    if h : n < cfg3.N then
      k3_pay2 (iblk3 V c 0 ⟨n, h⟩) (iblk3 V c 1 ⟨n, h⟩) (if n % 3 = 0 then k3_pay1 else accN c n)
    else accN c n

/-- The running sum the scratch buffer holds before point `t` (after point `t - 1`). -/
def acc3 (c : Dev nD) (t : Fin (cfg3.N + 1)) : Vec F S2000x256 .f32 := accN V c t.val

/-- One step of the running sum: the point's product added to what was there, or to zero at a first contraction tile. -/
theorem acc3_succ (c : Dev nD) (t : Fin cfg3.N) :
    acc3 V c t.succ = k3_pay2 (iblk3 V c 0 t) (iblk3 V c 1 t) (if t.val % 3 = 0 then k3_pay1 else acc3 V c t.castSucc) := by
  obtain ⟨n, hn⟩ := t
  show accN V c (n + 1) = _
  rw [accN, dif_pos hn]; rfl

/-- The scratch operand: a whole scoped buffer of the kernel's own. -/
abbrev scM3 : Memref sig .tc .vmem S2000x256 .f32 := Memref.whole cc3_scratch0

/-- The region invariant before point `t`: the scratch buffer at the running sum — at anything where the sum is about
    to restart (`t % 3 = 0`), so that the invariant holds of a scratch buffer nothing has written yet —, the other
    scoped buffers unopened, and the generator register at some state. -/
def Phi3 (c : Dev nD) (t : Fin (cfg3.N + 1)) : sProp 𝕄 :=
  iprop((∃ a, ⌜t.val % 3 ≠ 0 → a = acc3 V c t⌝ ∗ owns (c : Thread nD τ) scM3 fullShare a)
    ∗ Pipeline.scopedRestBut (Ix := Unit) (Name := ℕ) (U := UR sig nD τ) (Lvl := ℕ) (Val := Elt F) spec3 c [cc3_scratch0]
    ∗ ∃ r, prngReg c r)

/-- The proof data of the fourth matmul's pipeline on core `c`: the arrays as the region finds them (`V`); after the
    body at point `t` each input's buffer at its block, and the output's at the epilogue of the running sum after the
    point and the bias, scale and shift rows (consulted only where the contraction tile is the last: elsewhere the
    output window is idle); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay3 (acc3 V c t.succ) (iblk3 V c 2 t) (iblk3 V c 3 t) (iblk3 V c 4 t)
  Φ t := Phi3 V c t
  q _ := fullShare
  owed _ := 0

end Cert.KernelIdeal.Hand

end
-- ==== Proof.KI.Data.lean ====
/- The buffers' contents at every boundary of the kernel program's @main, from the launch memory: each host stretch
   folds its operations over the contents before it; each of the four tiled matrix products replaces its output array
   by what its write-backs leave (the proof data's final array) and touches nothing else. These valuations are the
   generated family's at a particular choice of the regions' outputs, and the four pipelines' proof data are each taken
   at the contents its region is entered from. -/
import proofs.«148293_j56684978372941_1_alg».proof.Proof.Gen.KernelIdeal.Regions
import proofs.«148293_j56684978372941_1_alg».proof.Proof.KI.Dat0
import proofs.«148293_j56684978372941_1_alg».proof.Proof.KI.Dat1
import proofs.«148293_j56684978372941_1_alg».proof.Proof.KI.Dat2
import proofs.«148293_j56684978372941_1_alg».proof.Proof.KI.Dat3
import Idealize.ShloMosaic.Lib.Pipeline.Kit
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev W0 (c : Dev nD) : Valuation τ sig (Elt F) := Gen.V0 m c
/-- After the host stretch `hostOps0`. -/
abbrev W1 (c : Dev nD) : Valuation τ sig (Elt F) := StableHlo.after hostOps0 (W0 m c)
/-- Region 0's entry contents read at the TensorCore's references (what its proof data take). -/
abbrev E0 : (c : Dev nD) → (b : Ref sig .tc) → Buf (Elt F) ((c : Thread nD τ).loc b) := fun c b => W1 m c b
/-- What region 0 leaves in its output array: the write-backs of its output window folded over the grid. -/
def out0 (c : Dev nD) : Buf (Elt F) ((c : Thread nD τ).loc main_v48) := (dat0 (E0 m) c).arrAt 5 cfg0.N
/-- After region 0: its output array at what the pipeline leaves, every other buffer as entered. -/
def W2 (c : Dev nD) : Valuation τ sig (Elt F) := Function.update (W1 m c) main_v48 (out0 m c)
/-- After the host stretch `hostOps1`. -/
abbrev W3 (c : Dev nD) : Valuation τ sig (Elt F) := StableHlo.after hostOps1 (W2 m c)
/-- Region 1's entry contents read at the TensorCore's references (what its proof data take). -/
abbrev E1 : (c : Dev nD) → (b : Ref sig .tc) → Buf (Elt F) ((c : Thread nD τ).loc b) := fun c b => W3 m c b
/-- What region 1 leaves in its output array: the write-backs of its output window folded over the grid. -/
def out1 (c : Dev nD) : Buf (Elt F) ((c : Thread nD τ).loc main_v89) := (dat1 (E1 m) c).arrAt 5 cfg1.N
/-- After region 1: its output array at what the pipeline leaves, every other buffer as entered. -/
def W4 (c : Dev nD) : Valuation τ sig (Elt F) := Function.update (W3 m c) main_v89 (out1 m c)
/-- After the host stretch `hostOps2`. -/
abbrev W5 (c : Dev nD) : Valuation τ sig (Elt F) := StableHlo.after hostOps2 (W4 m c)
/-- After the host stretch `hostOps2_1`. -/
abbrev W6 (c : Dev nD) : Valuation τ sig (Elt F) := StableHlo.after hostOps2_1 (W5 m c)
/-- After the host stretch `hostOps2_2`. -/
abbrev W7 (c : Dev nD) : Valuation τ sig (Elt F) := StableHlo.after hostOps2_2 (W6 m c)
/-- After the host stretch `hostOps2_3`. -/
abbrev W8 (c : Dev nD) : Valuation τ sig (Elt F) := StableHlo.after hostOps2_3 (W7 m c)
/-- After the host stretch `hostOps2_4`. -/
abbrev W9 (c : Dev nD) : Valuation τ sig (Elt F) := StableHlo.after hostOps2_4 (W8 m c)
/-- Region 2's entry contents read at the TensorCore's references (what its proof data take). -/
abbrev E2 : (c : Dev nD) → (b : Ref sig .tc) → Buf (Elt F) ((c : Thread nD τ).loc b) := fun c b => W9 m c b
/-- What region 2 leaves in its output array: the write-backs of its output window folded over the grid. -/
def out2 (c : Dev nD) : Buf (Elt F) ((c : Thread nD τ).loc main_v150) := (dat2 (E2 m) c).arrAt 5 cfg2.N
/-- After region 2: its output array at what the pipeline leaves, every other buffer as entered. -/
def W10 (c : Dev nD) : Valuation τ sig (Elt F) := Function.update (W9 m c) main_v150 (out2 m c)
/-- After the host stretch `hostOps3`. -/
abbrev W11 (c : Dev nD) : Valuation τ sig (Elt F) := StableHlo.after hostOps3 (W10 m c)
/-- After the host stretch `hostOps3_1`. -/
abbrev W12 (c : Dev nD) : Valuation τ sig (Elt F) := StableHlo.after hostOps3_1 (W11 m c)
/-- After the host stretch `hostOps3_2`. -/
abbrev W13 (c : Dev nD) : Valuation τ sig (Elt F) := StableHlo.after hostOps3_2 (W12 m c)
/-- After the host stretch `hostOps3_3`. -/
abbrev W14 (c : Dev nD) : Valuation τ sig (Elt F) := StableHlo.after hostOps3_3 (W13 m c)
/-- After the host stretch `hostOps3_4`. -/
abbrev W15 (c : Dev nD) : Valuation τ sig (Elt F) := StableHlo.after hostOps3_4 (W14 m c)
/-- Region 3's entry contents read at the TensorCore's references (what its proof data take). -/
abbrev E3 : (c : Dev nD) → (b : Ref sig .tc) → Buf (Elt F) ((c : Thread nD τ).loc b) := fun c b => W15 m c b
/-- What region 3 leaves in its output array: the write-backs of its output window folded over the grid. -/
def out3 (c : Dev nD) : Buf (Elt F) ((c : Thread nD τ).loc main_v198) := (dat3 (E3 m) c).arrAt 5 cfg3.N
/-- After region 3: its output array at what the pipeline leaves, every other buffer as entered. -/
def W16 (c : Dev nD) : Valuation τ sig (Elt F) := Function.update (W15 m c) main_v198 (out3 m c)
/-- After the host stretch `hostOps4`. -/
abbrev W17 (c : Dev nD) : Valuation τ sig (Elt F) := StableHlo.after hostOps4 (W16 m c)
/-- After the host stretch `hostOps4_1`. -/
abbrev W18 (c : Dev nD) : Valuation τ sig (Elt F) := StableHlo.after hostOps4_1 (W17 m c)
/-- After the host stretch `hostOps4_2`. -/
abbrev W19 (c : Dev nD) : Valuation τ sig (Elt F) := StableHlo.after hostOps4_2 (W18 m c)
/-- After the host stretch `hostOps4_3`. -/
abbrev W20 (c : Dev nD) : Valuation τ sig (Elt F) := StableHlo.after hostOps4_3 (W19 m c)
/-- After the host stretch `hostOps4_4`. -/
abbrev W21 (c : Dev nD) : Valuation τ sig (Elt F) := StableHlo.after hostOps4_4 (W20 m c)

/-! ## The regions' outputs as the generated family's unknowns -/

/-- The contents the regions leave, indexed as the generated valuations read them: after item J − 1 every buffer
    holds what boundary J's valuation says. -/
def outs : Gen.Outs (F := F) := fun J r c =>
  match J with
  | 2 => W2 m c r
  | 4 => W4 m c r
  | 10 => W10 m c r
  | 16 => W16 m c r
  | _ => W0 m c r

theorem outs_at0 (c : Dev nD) : outs m 2 main_v48 c = out0 m c := by
  show W2 m c main_v48 = out0 m c
  unfold W2; exact Function.update_self ..
theorem outs_at1 (c : Dev nD) : outs m 4 main_v89 c = out1 m c := by
  show W4 m c main_v89 = out1 m c
  unfold W4; exact Function.update_self ..
theorem outs_at2 (c : Dev nD) : outs m 10 main_v150 c = out2 m c := by
  show W10 m c main_v150 = out2 m c
  unfold W10; exact Function.update_self ..
theorem outs_at3 (c : Dev nD) : outs m 16 main_v198 c = out3 m c := by
  show W16 m c main_v198 = out3 m c
  unfold W16; exact Function.update_self ..

/-! ## The generated valuations at these outputs are the ones above -/

theorem V0_eq (c : Dev nD) : Gen.V0 m c = W0 m c := rfl
theorem V1_eq (c : Dev nD) : Gen.V1 m c = W1 m c := by
  show StableHlo.after hostOps0 (Gen.V0 m c) = StableHlo.after hostOps0 (W0 m c)
  rw [V0_eq m c]
theorem V2_eq (c : Dev nD) : Gen.V2 m (outs m) c = W2 m c := by
  show Function.update (Gen.V1 m c) main_v48 (outs m 2 main_v48 c) = Function.update (W1 m c) main_v48 (out0 m c)
  rw [V1_eq m c]; exact congrArg _ (outs_at0 m c)
theorem V3_eq (c : Dev nD) : Gen.V3 m (outs m) c = W3 m c := by
  show StableHlo.after hostOps1 (Gen.V2 m (outs m) c) = StableHlo.after hostOps1 (W2 m c)
  rw [V2_eq m c]
theorem V4_eq (c : Dev nD) : Gen.V4 m (outs m) c = W4 m c := by
  show Function.update (Gen.V3 m (outs m) c) main_v89 (outs m 4 main_v89 c) = Function.update (W3 m c) main_v89 (out1 m c)
  rw [V3_eq m c]; exact congrArg _ (outs_at1 m c)
theorem V5_eq (c : Dev nD) : Gen.V5 m (outs m) c = W5 m c := by
  show StableHlo.after hostOps2 (Gen.V4 m (outs m) c) = StableHlo.after hostOps2 (W4 m c)
  rw [V4_eq m c]
theorem V6_eq (c : Dev nD) : Gen.V6 m (outs m) c = W6 m c := by
  show StableHlo.after hostOps2_1 (Gen.V5 m (outs m) c) = StableHlo.after hostOps2_1 (W5 m c)
  rw [V5_eq m c]
theorem V7_eq (c : Dev nD) : Gen.V7 m (outs m) c = W7 m c := by
  show StableHlo.after hostOps2_2 (Gen.V6 m (outs m) c) = StableHlo.after hostOps2_2 (W6 m c)
  rw [V6_eq m c]
theorem V8_eq (c : Dev nD) : Gen.V8 m (outs m) c = W8 m c := by
  show StableHlo.after hostOps2_3 (Gen.V7 m (outs m) c) = StableHlo.after hostOps2_3 (W7 m c)
  rw [V7_eq m c]
theorem V9_eq (c : Dev nD) : Gen.V9 m (outs m) c = W9 m c := by
  show StableHlo.after hostOps2_4 (Gen.V8 m (outs m) c) = StableHlo.after hostOps2_4 (W8 m c)
  rw [V8_eq m c]
theorem V10_eq (c : Dev nD) : Gen.V10 m (outs m) c = W10 m c := by
  show Function.update (Gen.V9 m (outs m) c) main_v150 (outs m 10 main_v150 c) = Function.update (W9 m c) main_v150 (out2 m c)
  rw [V9_eq m c]; exact congrArg _ (outs_at2 m c)
theorem V11_eq (c : Dev nD) : Gen.V11 m (outs m) c = W11 m c := by
  show StableHlo.after hostOps3 (Gen.V10 m (outs m) c) = StableHlo.after hostOps3 (W10 m c)
  rw [V10_eq m c]
theorem V12_eq (c : Dev nD) : Gen.V12 m (outs m) c = W12 m c := by
  show StableHlo.after hostOps3_1 (Gen.V11 m (outs m) c) = StableHlo.after hostOps3_1 (W11 m c)
  rw [V11_eq m c]
theorem V13_eq (c : Dev nD) : Gen.V13 m (outs m) c = W13 m c := by
  show StableHlo.after hostOps3_2 (Gen.V12 m (outs m) c) = StableHlo.after hostOps3_2 (W12 m c)
  rw [V12_eq m c]
theorem V14_eq (c : Dev nD) : Gen.V14 m (outs m) c = W14 m c := by
  show StableHlo.after hostOps3_3 (Gen.V13 m (outs m) c) = StableHlo.after hostOps3_3 (W13 m c)
  rw [V13_eq m c]
theorem V15_eq (c : Dev nD) : Gen.V15 m (outs m) c = W15 m c := by
  show StableHlo.after hostOps3_4 (Gen.V14 m (outs m) c) = StableHlo.after hostOps3_4 (W14 m c)
  rw [V14_eq m c]
theorem V16_eq (c : Dev nD) : Gen.V16 m (outs m) c = W16 m c := by
  show Function.update (Gen.V15 m (outs m) c) main_v198 (outs m 16 main_v198 c) = Function.update (W15 m c) main_v198 (out3 m c)
  rw [V15_eq m c]; exact congrArg _ (outs_at3 m c)
theorem V17_eq (c : Dev nD) : Gen.V17 m (outs m) c = W17 m c := by
  show StableHlo.after hostOps4 (Gen.V16 m (outs m) c) = StableHlo.after hostOps4 (W16 m c)
  rw [V16_eq m c]
theorem V18_eq (c : Dev nD) : Gen.V18 m (outs m) c = W18 m c := by
  show StableHlo.after hostOps4_1 (Gen.V17 m (outs m) c) = StableHlo.after hostOps4_1 (W17 m c)
  rw [V17_eq m c]
theorem V19_eq (c : Dev nD) : Gen.V19 m (outs m) c = W19 m c := by
  show StableHlo.after hostOps4_2 (Gen.V18 m (outs m) c) = StableHlo.after hostOps4_2 (W18 m c)
  rw [V18_eq m c]
theorem V20_eq (c : Dev nD) : Gen.V20 m (outs m) c = W20 m c := by
  show StableHlo.after hostOps4_3 (Gen.V19 m (outs m) c) = StableHlo.after hostOps4_3 (W19 m c)
  rw [V19_eq m c]
theorem V21_eq (c : Dev nD) : Gen.V21 m (outs m) c = W21 m c := by
  show StableHlo.after hostOps4_4 (Gen.V20 m (outs m) c) = StableHlo.after hostOps4_4 (W20 m c)
  rw [V20_eq m c]

/-! ## The proof data family -/

/-- Every pipeline's proof data, each at its region's entry contents — a literal match on the pipeline's index. -/
def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

end Cert.KernelIdeal.Hand

end
-- ==== Proof.KI.Run.lean ====
/- The kernel program's run: @main as the generated list of segments (seventeen host stretches and the four tiled matrix
   products), launched from any memory with zero counters. Every weakly fair execution terminates, and in every final
   memory each unscoped buffer holds what the last boundary's valuation says — the arguments their launch contents, the
   result buffer the score tail of what the fourth product left. The regions' records are parameters here. -/
import proofs.«148293_j56684978372941_1_alg».proof.Proof.KI.Data

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What rides beside the buffers at each of the five boundaries next to a region: the same rest everywhere. -/
abbrev Erest : Fin 5 → Dev nD → sProp 𝕄 := fun _ c => R c

/-- The rest ends owing nothing. -/
theorem rest_owes (c : Dev nD) : (R (F := F) c) ⊢ (iprop(∃ W, owes (c : Thread nD τ) (0 : CellTallies nD τ sig Unit) W) : sProp 𝕄) := by
  iintro ⟨-, HO⟩; iexact HO

/-- Region 0's entry and exit entailments restated over the generated valuations (equal to ours). -/
theorem hpre0' (R0 : Pipeline.RegionSeg (pcfgs (F := F)) Gen.adm (pdats m) () defs₀ 𝒱₀ L lv 0)
    (h : ∀ c : Dev nD, iprop(StableHlo.held (c : Thread nD τ) (Pipeline.ucRefs τ sig) (W1 m c) ∗ R c) ⊢ R0.pre c) (c : Dev nD) :
    iprop(StableHlo.held (c : Thread nD τ) (Pipeline.ucRefs τ sig) (Gen.V1 m c) ∗ Erest (F := F) 0 c) ⊢ R0.pre c := by
  rw [V1_eq m c]; exact h c
theorem hpost0' (R0 : Pipeline.RegionSeg (pcfgs (F := F)) Gen.adm (pdats m) () defs₀ 𝒱₀ L lv 0)
    (h : ∀ c : Dev nD, R0.post c ⊢ iprop(StableHlo.held (c : Thread nD τ) (Pipeline.ucRefs τ sig) (W2 m c) ∗ R c)) (c : Dev nD) :
    R0.post c ⊢ iprop(StableHlo.held (c : Thread nD τ) (Pipeline.ucRefs τ sig) (Gen.V2 m (outs m) c) ∗ Erest (F := F) 1 c) := by
  rw [V2_eq m c]; exact h c
/-- Region 1's entry and exit entailments restated over the generated valuations (equal to ours). -/
theorem hpre1' (R1 : Pipeline.RegionSeg (pcfgs (F := F)) Gen.adm (pdats m) () defs₀ 𝒱₀ L lv 1)
    (h : ∀ c : Dev nD, iprop(StableHlo.held (c : Thread nD τ) (Pipeline.ucRefs τ sig) (W3 m c) ∗ R c) ⊢ R1.pre c) (c : Dev nD) :
    iprop(StableHlo.held (c : Thread nD τ) (Pipeline.ucRefs τ sig) (Gen.V3 m (outs m) c) ∗ Erest (F := F) 1 c) ⊢ R1.pre c := by
  rw [V3_eq m c]; exact h c
theorem hpost1' (R1 : Pipeline.RegionSeg (pcfgs (F := F)) Gen.adm (pdats m) () defs₀ 𝒱₀ L lv 1)
    (h : ∀ c : Dev nD, R1.post c ⊢ iprop(StableHlo.held (c : Thread nD τ) (Pipeline.ucRefs τ sig) (W4 m c) ∗ R c)) (c : Dev nD) :
    R1.post c ⊢ iprop(StableHlo.held (c : Thread nD τ) (Pipeline.ucRefs τ sig) (Gen.V4 m (outs m) c) ∗ Erest (F := F) 2 c) := by
  rw [V4_eq m c]; exact h c
/-- Region 2's entry and exit entailments restated over the generated valuations (equal to ours). -/
theorem hpre2' (R2 : Pipeline.RegionSeg (pcfgs (F := F)) Gen.adm (pdats m) () defs₀ 𝒱₀ L lv 2)
    (h : ∀ c : Dev nD, iprop(StableHlo.held (c : Thread nD τ) (Pipeline.ucRefs τ sig) (W9 m c) ∗ R c) ⊢ R2.pre c) (c : Dev nD) :
    iprop(StableHlo.held (c : Thread nD τ) (Pipeline.ucRefs τ sig) (Gen.V9 m (outs m) c) ∗ Erest (F := F) 2 c) ⊢ R2.pre c := by
  rw [V9_eq m c]; exact h c
theorem hpost2' (R2 : Pipeline.RegionSeg (pcfgs (F := F)) Gen.adm (pdats m) () defs₀ 𝒱₀ L lv 2)
    (h : ∀ c : Dev nD, R2.post c ⊢ iprop(StableHlo.held (c : Thread nD τ) (Pipeline.ucRefs τ sig) (W10 m c) ∗ R c)) (c : Dev nD) :
    R2.post c ⊢ iprop(StableHlo.held (c : Thread nD τ) (Pipeline.ucRefs τ sig) (Gen.V10 m (outs m) c) ∗ Erest (F := F) 3 c) := by
  rw [V10_eq m c]; exact h c
/-- Region 3's entry and exit entailments restated over the generated valuations (equal to ours). -/
theorem hpre3' (R3 : Pipeline.RegionSeg (pcfgs (F := F)) Gen.adm (pdats m) () defs₀ 𝒱₀ L lv 3)
    (h : ∀ c : Dev nD, iprop(StableHlo.held (c : Thread nD τ) (Pipeline.ucRefs τ sig) (W15 m c) ∗ R c) ⊢ R3.pre c) (c : Dev nD) :
    iprop(StableHlo.held (c : Thread nD τ) (Pipeline.ucRefs τ sig) (Gen.V15 m (outs m) c) ∗ Erest (F := F) 3 c) ⊢ R3.pre c := by
  rw [V15_eq m c]; exact h c
theorem hpost3' (R3 : Pipeline.RegionSeg (pcfgs (F := F)) Gen.adm (pdats m) () defs₀ 𝒱₀ L lv 3)
    (h : ∀ c : Dev nD, R3.post c ⊢ iprop(StableHlo.held (c : Thread nD τ) (Pipeline.ucRefs τ sig) (W16 m c) ∗ R c)) (c : Dev nD) :
    R3.post c ⊢ iprop(StableHlo.held (c : Thread nD τ) (Pipeline.ucRefs τ sig) (Gen.V16 m (outs m) c) ∗ Erest (F := F) 4 c) := by
  rw [V16_eq m c]; exact h c

section Run

set_option backward.isDefEq.respectTransparency.types false in
/-- THE RUN. Given the four regions' records, entered from and left at our valuations beside the rest. -/
theorem run_all (ρ : Dev nD → PrngReg)
    (R0 : Pipeline.RegionSeg (pcfgs (F := F)) Gen.adm (pdats m) () defs₀ 𝒱₀ L lv 0)
    (hpre0 : ∀ c : Dev nD, iprop(StableHlo.held (c : Thread nD τ) (Pipeline.ucRefs τ sig) (W1 m c) ∗ R c) ⊢ R0.pre c)
    (hpost0 : ∀ c : Dev nD, R0.post c ⊢ iprop(StableHlo.held (c : Thread nD τ) (Pipeline.ucRefs τ sig) (W2 m c) ∗ R c))
    (R1 : Pipeline.RegionSeg (pcfgs (F := F)) Gen.adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c))
    (R2 : Pipeline.RegionSeg (pcfgs (F := F)) Gen.adm (pdats m) () defs₀ 𝒱₀ L lv 2)
    (hpre2 : ∀ c : Dev nD, iprop(StableHlo.held (c : Thread nD τ) (Pipeline.ucRefs τ sig) (W9 m c) ∗ R c) ⊢ R2.pre c)
    (hpost2 : ∀ c : Dev nD, R2.post c ⊢ iprop(StableHlo.held (c : Thread nD τ) (Pipeline.ucRefs τ sig) (W10 m c) ∗ R c))
    (R3 : Pipeline.RegionSeg (pcfgs (F := F)) Gen.adm (pdats m) () defs₀ 𝒱₀ L lv 3)
    (hpre3 : ∀ c : Dev nD, iprop(StableHlo.held (c : Thread nD τ) (Pipeline.ucRefs τ sig) (W15 m c) ∗ R c) ⊢ R3.pre c)
    (hpost3 : ∀ c : Dev nD, R3.post c ⊢ iprop(StableHlo.held (c : Thread nD τ) (Pipeline.ucRefs τ sig) (W16 m c) ∗ R c)) :
    θ_run defs (onTc (τ := τ) (main (F := F))) ⟨m, fun _ => 0, ρ⟩ (fun r => ∀ c : Dev nD,
    ∀ b ∈ Pipeline.ucRefs τ sig, r.2.mem (((c : Thread nD τ)).1, b) = W21 m c b) := by
  refine Pipeline.θ_run_regions_kit_dev (pcfgs (F := F)) Gen.adm (pdats m) () cellOf_inj emb₁ defs₀ 𝒱₀ L lv m ρ main
    (Gen.segs m (outs m) 𝒱₀ L lv (Erest (F := F)) () (pdats m) R0 R1 R2 R3)
    (fun c Q => by
      rewrite [main_chain c, Pipeline.Seg.run_eq_chain,
        show (Gen.segs m (outs m) 𝒱₀ L lv (Erest (F := F)) () (pdats m) R0 R1 R2 R3 c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1,
          StableHlo.seq hostOps4_2,
          StableHlo.seq hostOps4_3,
          StableHlo.seq hostOps4_4 ] from rfl]
      exact .rfl)
    (fun c => by simp only [Gen.segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj)) ?hu
    (T₀ := fun c => iprop(StableHlo.held (c : Thread nD τ) (Pipeline.ucRefs τ sig) (Gen.V0 m c) ∗ Erest (F := F) 0 c))
    (Tₙ := fun c => StableHlo.held (c : Thread nD τ) (Pipeline.ucRefs τ sig) (Gen.V21 m (outs m) c))
    (hch := fun c => ⟨.rfl, hpre0' m R0 hpre0 c, hpost0' m R0 hpost0 c, hpre1' m R1 hpre1 c, hpost1' m R1 hpost1 c, .rfl, .rfl, .rfl, .rfl, hpre2' m R2 hpre2 c, hpost2' m R2 hpost2 c, .rfl, .rfl, .rfl, .rfl, hpre3' m R3 hpre3 c, hpost3' m R3 hpost3 c, .rfl, .rfl, .rfl, .rfl, sep_mono .rfl (rest_owes c)⟩)
    (hinit := ?hinit)
    (QY := fun c s => ∀ b ∈ Pipeline.ucRefs τ sig, s.mem (((c : Thread nD τ)).1, b) = Gen.V21 m (outs m) c b)
    (hfin := fun c s' => ?hfin) (hQ := fun s h c b hb => (h c b hb).trans (congrFun (V21_eq m c) b))
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    iintro ⟨Hh, HSI⟩
    unfold StableHlo.held
    imodintro
    iapply (pointsTo_read_all (Pipeline.ucRefs τ sig) (fun b => (((c : Thread nD τ)).1, b)) (Gen.V21 m (outs m) c) s')
    isplitl [Hh] <;> iassumption

end Run

end Cert.KernelIdeal.Hand

end
-- ==== Proof.KI.Claims.lean ====
/- What the kernel program's run gives: its argument arrays end as launched (no host operation and no region writes
   an argument), and its result buffer ends at the last boundary's contents. Both are read off the run, which leaves every
   unscoped buffer at that valuation. -/
import proofs.«148293_j56684978372941_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each argument's buffer at the last boundary is its launch contents -/

theorem W21_arg0 (c : Dev nD) : W21 m c main_arg0 = m ((c : Thread nD τ).loc main_arg0) :=
  (congrFun (V21_eq m c) _).symm.trans (Gen.V21_main_arg0 m (outs m) c)
theorem W21_arg1 (c : Dev nD) : W21 m c main_arg1 = m ((c : Thread nD τ).loc main_arg1) :=
  (congrFun (V21_eq m c) _).symm.trans (Gen.V21_main_arg1 m (outs m) c)
theorem W21_arg2 (c : Dev nD) : W21 m c main_arg2 = m ((c : Thread nD τ).loc main_arg2) :=
  (congrFun (V21_eq m c) _).symm.trans (Gen.V21_main_arg2 m (outs m) c)
theorem W21_arg3 (c : Dev nD) : W21 m c main_arg3 = m ((c : Thread nD τ).loc main_arg3) :=
  (congrFun (V21_eq m c) _).symm.trans (Gen.V21_main_arg3 m (outs m) c)
theorem W21_arg4 (c : Dev nD) : W21 m c main_arg4 = m ((c : Thread nD τ).loc main_arg4) :=
  (congrFun (V21_eq m c) _).symm.trans (Gen.V21_main_arg4 m (outs m) c)
theorem W21_arg5 (c : Dev nD) : W21 m c main_arg5 = m ((c : Thread nD τ).loc main_arg5) :=
  (congrFun (V21_eq m c) _).symm.trans (Gen.V21_main_arg5 m (outs m) c)
theorem W21_arg6 (c : Dev nD) : W21 m c main_arg6 = m ((c : Thread nD τ).loc main_arg6) :=
  (congrFun (V21_eq m c) _).symm.trans (Gen.V21_main_arg6 m (outs m) c)
theorem W21_arg7 (c : Dev nD) : W21 m c main_arg7 = m ((c : Thread nD τ).loc main_arg7) :=
  (congrFun (V21_eq m c) _).symm.trans (Gen.V21_main_arg7 m (outs m) c)
theorem W21_arg8 (c : Dev nD) : W21 m c main_arg8 = m ((c : Thread nD τ).loc main_arg8) :=
  (congrFun (V21_eq m c) _).symm.trans (Gen.V21_main_arg8 m (outs m) c)
theorem W21_arg9 (c : Dev nD) : W21 m c main_arg9 = m ((c : Thread nD τ).loc main_arg9) :=
  (congrFun (V21_eq m c) _).symm.trans (Gen.V21_main_arg9 m (outs m) c)
theorem W21_arg10 (c : Dev nD) : W21 m c main_arg10 = m ((c : Thread nD τ).loc main_arg10) :=
  (congrFun (V21_eq m c) _).symm.trans (Gen.V21_main_arg10 m (outs m) c)
theorem W21_arg11 (c : Dev nD) : W21 m c main_arg11 = m ((c : Thread nD τ).loc main_arg11) :=
  (congrFun (V21_eq m c) _).symm.trans (Gen.V21_main_arg11 m (outs m) c)
theorem W21_arg12 (c : Dev nD) : W21 m c main_arg12 = m ((c : Thread nD τ).loc main_arg12) :=
  (congrFun (V21_eq m c) _).symm.trans (Gen.V21_main_arg12 m (outs m) c)
theorem W21_arg13 (c : Dev nD) : W21 m c main_arg13 = m ((c : Thread nD τ).loc main_arg13) :=
  (congrFun (V21_eq m c) _).symm.trans (Gen.V21_main_arg13 m (outs m) c)
theorem W21_arg14 (c : Dev nD) : W21 m c main_arg14 = m ((c : Thread nD τ).loc main_arg14) :=
  (congrFun (V21_eq m c) _).symm.trans (Gen.V21_main_arg14 m (outs m) c)
theorem W21_arg15 (c : Dev nD) : W21 m c main_arg15 = m ((c : Thread nD τ).loc main_arg15) :=
  (congrFun (V21_eq m c) _).symm.trans (Gen.V21_main_arg15 m (outs m) c)
theorem W21_arg16 (c : Dev nD) : W21 m c main_arg16 = m ((c : Thread nD τ).loc main_arg16) :=
  (congrFun (V21_eq m c) _).symm.trans (Gen.V21_main_arg16 m (outs m) c)
theorem W21_arg17 (c : Dev nD) : W21 m c main_arg17 = m ((c : Thread nD τ).loc main_arg17) :=
  (congrFun (V21_eq m c) _).symm.trans (Gen.V21_main_arg17 m (outs m) c)
theorem W21_arg18 (c : Dev nD) : W21 m c main_arg18 = m ((c : Thread nD τ).loc main_arg18) :=
  (congrFun (V21_eq m c) _).symm.trans (Gen.V21_main_arg18 m (outs m) c)
theorem W21_arg19 (c : Dev nD) : W21 m c main_arg19 = m ((c : Thread nD τ).loc main_arg19) :=
  (congrFun (V21_eq m c) _).symm.trans (Gen.V21_main_arg19 m (outs m) c)
theorem W21_arg20 (c : Dev nD) : W21 m c main_arg20 = m ((c : Thread nD τ).loc main_arg20) :=
  (congrFun (V21_eq m c) _).symm.trans (Gen.V21_main_arg20 m (outs m) c)
theorem W21_arg21 (c : Dev nD) : W21 m c main_arg21 = m ((c : Thread nD τ).loc main_arg21) :=
  (congrFun (V21_eq m c) _).symm.trans (Gen.V21_main_arg21 m (outs m) c)
theorem W21_arg22 (c : Dev nD) : W21 m c main_arg22 = m ((c : Thread nD τ).loc main_arg22) :=
  (congrFun (V21_eq m c) _).symm.trans (Gen.V21_main_arg22 m (outs m) c)
theorem W21_arg23 (c : Dev nD) : W21 m c main_arg23 = m ((c : Thread nD τ).loc main_arg23) :=
  (congrFun (V21_eq m c) _).symm.trans (Gen.V21_main_arg23 m (outs m) c)
theorem W21_arg24 (c : Dev nD) : W21 m c main_arg24 = m ((c : Thread nD τ).loc main_arg24) :=
  (congrFun (V21_eq m c) _).symm.trans (Gen.V21_main_arg24 m (outs m) c)
theorem W21_arg25 (c : Dev nD) : W21 m c main_arg25 = m ((c : Thread nD τ).loc main_arg25) :=
  (congrFun (V21_eq m c) _).symm.trans (Gen.V21_main_arg25 m (outs m) c)
theorem W21_arg26 (c : Dev nD) : W21 m c main_arg26 = m ((c : Thread nD τ).loc main_arg26) :=
  (congrFun (V21_eq m c) _).symm.trans (Gen.V21_main_arg26 m (outs m) c)
theorem W21_arg27 (c : Dev nD) : W21 m c main_arg27 = m ((c : Thread nD τ).loc main_arg27) :=
  (congrFun (V21_eq m c) _).symm.trans (Gen.V21_main_arg27 m (outs m) c)
theorem W21_arg28 (c : Dev nD) : W21 m c main_arg28 = m ((c : Thread nD τ).loc main_arg28) :=
  (congrFun (V21_eq m c) _).symm.trans (Gen.V21_main_arg28 m (outs m) c)

/-! ## The frame and the result -/

set_option backward.isDefEq.respectTransparency.types false in
/-- The argument arrays end unchanged. -/
theorem frame_of (ρ : Dev nD → PrngReg)
    (R0 : Pipeline.RegionSeg (pcfgs (F := F)) Gen.adm (pdats m) () defs₀ 𝒱₀ L lv 0)
    (hpre0 : ∀ c : Dev nD, iprop(StableHlo.held (c : Thread nD τ) (Pipeline.ucRefs τ sig) (W1 m c) ∗ R c) ⊢ R0.pre c)
    (hpost0 : ∀ c : Dev nD, R0.post c ⊢ iprop(StableHlo.held (c : Thread nD τ) (Pipeline.ucRefs τ sig) (W2 m c) ∗ R c))
    (R1 : Pipeline.RegionSeg (pcfgs (F := F)) Gen.adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c))
    (R2 : Pipeline.RegionSeg (pcfgs (F := F)) Gen.adm (pdats m) () defs₀ 𝒱₀ L lv 2)
    (hpre2 : ∀ c : Dev nD, iprop(StableHlo.held (c : Thread nD τ) (Pipeline.ucRefs τ sig) (W9 m c) ∗ R c) ⊢ R2.pre c)
    (hpost2 : ∀ c : Dev nD, R2.post c ⊢ iprop(StableHlo.held (c : Thread nD τ) (Pipeline.ucRefs τ sig) (W10 m c) ∗ R c))
    (R3 : Pipeline.RegionSeg (pcfgs (F := F)) Gen.adm (pdats m) () defs₀ 𝒱₀ L lv 3)
    (hpre3 : ∀ c : Dev nD, iprop(StableHlo.held (c : Thread nD τ) (Pipeline.ucRefs τ sig) (W15 m c) ∗ R c) ⊢ R3.pre c)
    (hpost3 : ∀ c : Dev nD, R3.post c ⊢ iprop(StableHlo.held (c : Thread nD τ) (Pipeline.ucRefs τ sig) (W16 m c) ∗ R c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_arg0 (by decide))).trans (W21_arg0 m c),
      (h c _ (mem_uc main_arg1 (by decide))).trans (W21_arg1 m c),
      (h c _ (mem_uc main_arg2 (by decide))).trans (W21_arg2 m c),
      (h c _ (mem_uc main_arg3 (by decide))).trans (W21_arg3 m c),
      (h c _ (mem_uc main_arg4 (by decide))).trans (W21_arg4 m c),
      (h c _ (mem_uc main_arg5 (by decide))).trans (W21_arg5 m c),
      (h c _ (mem_uc main_arg6 (by decide))).trans (W21_arg6 m c),
      (h c _ (mem_uc main_arg7 (by decide))).trans (W21_arg7 m c),
      (h c _ (mem_uc main_arg8 (by decide))).trans (W21_arg8 m c),
      (h c _ (mem_uc main_arg9 (by decide))).trans (W21_arg9 m c),
      (h c _ (mem_uc main_arg10 (by decide))).trans (W21_arg10 m c),
      (h c _ (mem_uc main_arg11 (by decide))).trans (W21_arg11 m c),
      (h c _ (mem_uc main_arg12 (by decide))).trans (W21_arg12 m c),
      (h c _ (mem_uc main_arg13 (by decide))).trans (W21_arg13 m c),
      (h c _ (mem_uc main_arg14 (by decide))).trans (W21_arg14 m c),
      (h c _ (mem_uc main_arg15 (by decide))).trans (W21_arg15 m c),
      (h c _ (mem_uc main_arg16 (by decide))).trans (W21_arg16 m c),
      (h c _ (mem_uc main_arg17 (by decide))).trans (W21_arg17 m c),
      (h c _ (mem_uc main_arg18 (by decide))).trans (W21_arg18 m c),
      (h c _ (mem_uc main_arg19 (by decide))).trans (W21_arg19 m c),
      (h c _ (mem_uc main_arg20 (by decide))).trans (W21_arg20 m c),
      (h c _ (mem_uc main_arg21 (by decide))).trans (W21_arg21 m c),
      (h c _ (mem_uc main_arg22 (by decide))).trans (W21_arg22 m c),
      (h c _ (mem_uc main_arg23 (by decide))).trans (W21_arg23 m c),
      (h c _ (mem_uc main_arg24 (by decide))).trans (W21_arg24 m c),
      (h c _ (mem_uc main_arg25 (by decide))).trans (W21_arg25 m c),
      (h c _ (mem_uc main_arg26 (by decide))).trans (W21_arg26 m c),
      (h c _ (mem_uc main_arg27 (by decide))).trans (W21_arg27 m c),
      (h c _ (mem_uc main_arg28 (by decide))).trans (W21_arg28 m c)⟩)
    (run_all m ρ R0 hpre0 hpost0 R1 hpre1 hpost1 R2 hpre2 hpost2 R3 hpre3 hpost3)

set_option backward.isDefEq.respectTransparency.types false in
/-- The result buffer ends at the last boundary's contents. -/
theorem result_of (ρ : Dev nD → PrngReg)
    (R0 : Pipeline.RegionSeg (pcfgs (F := F)) Gen.adm (pdats m) () defs₀ 𝒱₀ L lv 0)
    (hpre0 : ∀ c : Dev nD, iprop(StableHlo.held (c : Thread nD τ) (Pipeline.ucRefs τ sig) (W1 m c) ∗ R c) ⊢ R0.pre c)
    (hpost0 : ∀ c : Dev nD, R0.post c ⊢ iprop(StableHlo.held (c : Thread nD τ) (Pipeline.ucRefs τ sig) (W2 m c) ∗ R c))
    (R1 : Pipeline.RegionSeg (pcfgs (F := F)) Gen.adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c))
    (R2 : Pipeline.RegionSeg (pcfgs (F := F)) Gen.adm (pdats m) () defs₀ 𝒱₀ L lv 2)
    (hpre2 : ∀ c : Dev nD, iprop(StableHlo.held (c : Thread nD τ) (Pipeline.ucRefs τ sig) (W9 m c) ∗ R c) ⊢ R2.pre c)
    (hpost2 : ∀ c : Dev nD, R2.post c ⊢ iprop(StableHlo.held (c : Thread nD τ) (Pipeline.ucRefs τ sig) (W10 m c) ∗ R c))
    (R3 : Pipeline.RegionSeg (pcfgs (F := F)) Gen.adm (pdats m) () defs₀ 𝒱₀ L lv 3)
    (hpre3 : ∀ c : Dev nD, iprop(StableHlo.held (c : Thread nD τ) (Pipeline.ucRefs τ sig) (W15 m c) ∗ R c) ⊢ R3.pre c)
    (hpost3 : ∀ c : Dev nD, R3.post c ⊢ iprop(StableHlo.held (c : Thread nD τ) (Pipeline.ucRefs τ sig) (W16 m c) ∗ R c)) :
    θ_run defs (onTc (τ := τ) (main (F := F))) ⟨m, fun _ => 0, ρ⟩ (fun r => ∀ c : Dev nD,
      r.2.mem ((c.tc : Thread nD τ).loc main_v219) = W21 m c main_v219) :=
  (θ_run defs _ _).mono (fun r h c => h c _ (mem_uc main_v219 (by decide)))
    (run_all m ρ R0 hpre0 hpost0 R1 hpre1 hpost1 R2 hpre2 hpost2 R3 hpre3 hpost3)

set_option backward.isDefEq.respectTransparency.types false in
/-- Both at once: the result buffer at the last boundary's contents and the arguments unchanged. -/
theorem full_of (ρ : Dev nD → PrngReg)
    (R0 : Pipeline.RegionSeg (pcfgs (F := F)) Gen.adm (pdats m) () defs₀ 𝒱₀ L lv 0)
    (hpre0 : ∀ c : Dev nD, iprop(StableHlo.held (c : Thread nD τ) (Pipeline.ucRefs τ sig) (W1 m c) ∗ R c) ⊢ R0.pre c)
    (hpost0 : ∀ c : Dev nD, R0.post c ⊢ iprop(StableHlo.held (c : Thread nD τ) (Pipeline.ucRefs τ sig) (W2 m c) ∗ R c))
    (R1 : Pipeline.RegionSeg (pcfgs (F := F)) Gen.adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c))
    (R2 : Pipeline.RegionSeg (pcfgs (F := F)) Gen.adm (pdats m) () defs₀ 𝒱₀ L lv 2)
    (hpre2 : ∀ c : Dev nD, iprop(StableHlo.held (c : Thread nD τ) (Pipeline.ucRefs τ sig) (W9 m c) ∗ R c) ⊢ R2.pre c)
    (hpost2 : ∀ c : Dev nD, R2.post c ⊢ iprop(StableHlo.held (c : Thread nD τ) (Pipeline.ucRefs τ sig) (W10 m c) ∗ R c))
    (R3 : Pipeline.RegionSeg (pcfgs (F := F)) Gen.adm (pdats m) () defs₀ 𝒱₀ L lv 3)
    (hpre3 : ∀ c : Dev nD, iprop(StableHlo.held (c : Thread nD τ) (Pipeline.ucRefs τ sig) (W15 m c) ∗ R c) ⊢ R3.pre c)
    (hpost3 : ∀ c : Dev nD, R3.post c ⊢ iprop(StableHlo.held (c : Thread nD τ) (Pipeline.ucRefs τ sig) (W16 m c) ∗ R c)) :
    θ_run defs (onTc (τ := τ) (main (F := F))) ⟨m, fun _ => 0, ρ⟩ (fun r => ∀ c : Dev nD,
      r.2.mem ((c.tc : Thread nD τ).loc main_v219) = W21 m c main_v219
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨h c _ (mem_uc main_v219 (by decide)),
      (h c _ (mem_uc main_arg0 (by decide))).trans (W21_arg0 m c),
      (h c _ (mem_uc main_arg1 (by decide))).trans (W21_arg1 m c),
      (h c _ (mem_uc main_arg2 (by decide))).trans (W21_arg2 m c),
      (h c _ (mem_uc main_arg3 (by decide))).trans (W21_arg3 m c),
      (h c _ (mem_uc main_arg4 (by decide))).trans (W21_arg4 m c),
      (h c _ (mem_uc main_arg5 (by decide))).trans (W21_arg5 m c),
      (h c _ (mem_uc main_arg6 (by decide))).trans (W21_arg6 m c),
      (h c _ (mem_uc main_arg7 (by decide))).trans (W21_arg7 m c),
      (h c _ (mem_uc main_arg8 (by decide))).trans (W21_arg8 m c),
      (h c _ (mem_uc main_arg9 (by decide))).trans (W21_arg9 m c),
      (h c _ (mem_uc main_arg10 (by decide))).trans (W21_arg10 m c),
      (h c _ (mem_uc main_arg11 (by decide))).trans (W21_arg11 m c),
      (h c _ (mem_uc main_arg12 (by decide))).trans (W21_arg12 m c),
      (h c _ (mem_uc main_arg13 (by decide))).trans (W21_arg13 m c),
      (h c _ (mem_uc main_arg14 (by decide))).trans (W21_arg14 m c),
      (h c _ (mem_uc main_arg15 (by decide))).trans (W21_arg15 m c),
      (h c _ (mem_uc main_arg16 (by decide))).trans (W21_arg16 m c),
      (h c _ (mem_uc main_arg17 (by decide))).trans (W21_arg17 m c),
      (h c _ (mem_uc main_arg18 (by decide))).trans (W21_arg18 m c),
      (h c _ (mem_uc main_arg19 (by decide))).trans (W21_arg19 m c),
      (h c _ (mem_uc main_arg20 (by decide))).trans (W21_arg20 m c),
      (h c _ (mem_uc main_arg21 (by decide))).trans (W21_arg21 m c),
      (h c _ (mem_uc main_arg22 (by decide))).trans (W21_arg22 m c),
      (h c _ (mem_uc main_arg23 (by decide))).trans (W21_arg23 m c),
      (h c _ (mem_uc main_arg24 (by decide))).trans (W21_arg24 m c),
      (h c _ (mem_uc main_arg25 (by decide))).trans (W21_arg25 m c),
      (h c _ (mem_uc main_arg26 (by decide))).trans (W21_arg26 m c),
      (h c _ (mem_uc main_arg27 (by decide))).trans (W21_arg27 m c),
      (h c _ (mem_uc main_arg28 (by decide))).trans (W21_arg28 m c)⟩)
    (run_all m ρ R0 hpre0 hpost0 R1 hpre1 hpost1 R2 hpre2 hpost2 R3 hpre3 hpost3)

end Cert.KernelIdeal.Hand

end
-- ==== Proof.KI.Run3.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the fourth tiled matmul, run in each of its three control cases

The body branches twice on the contraction coordinate `k = i 1` of the grid point: where `k = 0` it first zeroes
the running sum; it always adds the product of the `x` and `w` tiles to the running sum; where `k` is the last
contraction tile (`k = 2`) it writes `relu (sum + bias) * scale + shift` into the output tile. On a grid of 3
contraction tiles the two conditions never hold together, so there are three cases. Every load and store is of a
whole buffer, so each buffer ends at the payload of the last store into it. -/

/-- The first branch's condition, from the grid coordinates: the contraction tile is the first. -/
abbrev cond3_1 (i : grid3.Coords) : Prop := (Scalar.cmpi .ne (Scalar.extui (Scalar.cmpi .eq (BitVec.ofNat 32 (i 1).val) 0#32)) 0#32) = 1#1
/-- It holds at the points ≡ 0 (mod 3): the contraction coordinate is the fast axis of the 50 × 3 grid. -/
theorem hcond3_1 : ∀ t : Fin cfg3.N, cond3_1 (grid3.coords t) ↔ t.val % 3 = 0 :=
  (by decide +kernel : ∀ t : Fin grid3.N, cond3_1 (grid3.coords t) ↔ t.val % 3 = 0)
/-- The second branch's condition (the contraction tile is the last) holds at the points ≡ 2 (mod 3). -/
theorem hcond3_2 : ∀ t : Fin cfg3.N, k3_cond2 (grid3.coords t) = 1#1 ↔ t.val % 3 = 2 :=
  (by decide +kernel : ∀ t : Fin grid3.N, k3_cond2 (grid3.coords t) = 1#1 ↔ t.val % 3 = 2)

/-- The output window is idle exactly where the contraction tile is not the last, -/
theorem idleAt3_5 : ∀ t : Fin cfg3.N, ¬ t.val % 3 = 2 → cfg3.idle 5 (grid3.coords t) = true :=
  (by decide +kernel : ∀ t : Fin grid3.N, ¬ t.val % 3 = 2 → cfg3.idle 5 (grid3.coords t) = true)
theorem liveAt3_5 : ∀ t : Fin cfg3.N, t.val % 3 = 2 → cfg3.idle 5 (grid3.coords t) = false :=
  (by decide +kernel : ∀ t : Fin grid3.N, t.val % 3 = 2 → cfg3.idle 5 (grid3.coords t) = false)

/-- The zero offsets of every access of the body, as a function. -/
theorem hz2 : (![0, 0] : Fin 2 → Nat) = fun _ => 0 := by
  funext a; match a with
  | ⟨0, _⟩ => rfl
  | ⟨1, _⟩ => rfl

/-- A store through the whole-shape rectangle, LAST, leaves its payload as the buffer's contents, whatever the
    earlier stores and the prior contents were. -/
theorem read_store_last {κ : Kind} {sp : Space} {S : Shape} {e : EltTy} (v : View sig κ sp S e) (f : v.ty.Contents (Elt F))
    {off : Fin S.rank → Nat} (hz : off = fun _ => 0) (inb : ∀ a, off a + S.size a ≤ S.size a) (p : S.Idx → Elt F e)
    (L : List (View.Piece (Elt F) S e)) :
    v.read (Elt F) (v.writes (Elt F) f (⟨Rect.unit off S.size inb, p⟩ :: L)) = p :=
  (View.read_writes_eq_canon v f _ fun y => ⟨_, List.mem_cons.mpr (Or.inl rfl), View.mem_set_unit_zero hz inb y⟩).trans
    (View.canon_cons_unit_zero hz inb p L)

set_option maxHeartbeats 1000000 in
/-- FIRST contraction tile: the running sum, whatever it held, ends at the tiles' product added to zero; the `x` and
    `w` tiles are read only; the bias, scale, shift and output buffers are not touched. -/
theorem sound_kernel3_first (c : Dev nD) (E : Set ℕ) (i : grid3.Coords) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : cond3_1 i) (hc2 : ¬ k3_cond2 i = 1#1)
    (x : Vec F S2000x256 .f32) (w : Vec F S256x256 .f32) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k3_pay2 x w k3_pay1)) -∗ K ⟨⟩))
      ⊢ wp frame (wpE (defs₀ (F := F)) Variants.none c none) E (cc3__matmul_kernel i arg2 harg2 arg3 harg3 arg4 harg4 arg5 harg5 arg6 harg6 arg7 harg7 arg8 harg8) K := by
  simp only [cc3__matmul_kernel_eq_skeleton]; unfold cc3__matmul_kernel_skel
  unfold owns
  iintro ⟨⟨%f2, %hf2, H2⟩, ⟨%f3, %hf3, H3⟩, ⟨%a, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x256) hz2, View.ld_unit_zero (S := S256x256) hz2, View.ld_unit_zero (S := S1x256) hz2, View.readCov_unit_zero (S := S2000x256) _ hz2]

set_option maxHeartbeats 1000000 in
/-- A MIDDLE contraction tile: the running sum `a` ends at the tiles' product added to it. -/
theorem sound_kernel3_mid (c : Dev nD) (E : Set ℕ) (i : grid3.Coords) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : ¬ cond3_1 i) (hc2 : ¬ k3_cond2 i = 1#1)
    (x : Vec F S2000x256 .f32) (w : Vec F S256x256 .f32) (a : Vec F S2000x256 .f32) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k3_pay2 x w a)) -∗ K ⟨⟩))
      ⊢ wp frame (wpE (defs₀ (F := F)) Variants.none c none) E (cc3__matmul_kernel i arg2 harg2 arg3 harg3 arg4 harg4 arg5 harg5 arg6 harg6 arg7 harg7 arg8 harg8) K := by
  simp only [cc3__matmul_kernel_eq_skeleton]; unfold cc3__matmul_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x256) hz2, View.ld_unit_zero (S := S256x256) hz2, View.ld_unit_zero (S := S1x256) hz2, View.readCov_unit_zero (S := S2000x256) _ hz2]

set_option maxHeartbeats 1000000 in
/-- The LAST contraction tile: the running sum `a` ends at the tiles' product added to it, and the output tile,
    whatever it held, at the epilogue of that sum and the bias, scale and shift rows. -/
theorem sound_kernel3_last (c : Dev nD) (E : Set ℕ) (i : grid3.Coords) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : ¬ cond3_1 i) (hc2 : k3_cond2 i = 1#1)
    (x : Vec F S2000x256 .f32) (w : Vec F S256x256 .f32) (a : Vec F S2000x256 .f32)
    (b s h : Vec F S1x256 .f32) (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare s ∗ owns (c : Thread nD τ) arg6 fullShare h
        ∗ (∃ d, owns (c : Thread nD τ) arg7 fullShare d) ∗ owns (c : Thread nD τ) arg8 fullShare a
        ∗ (iprop(owns (c : Thread nD τ) arg2 fullShare x ∗ owns (c : Thread nD τ) arg3 fullShare w
            ∗ owns (c : Thread nD τ) arg4 fullShare b ∗ owns (c : Thread nD τ) arg5 fullShare s ∗ owns (c : Thread nD τ) arg6 fullShare h
            ∗ owns (c : Thread nD τ) arg7 fullShare (k3_pay3 (k3_pay2 x w a) b s h) ∗ owns (c : Thread nD τ) arg8 fullShare (k3_pay2 x w a)) -∗ K ⟨⟩))
      ⊢ wp frame (wpE (defs₀ (F := F)) Variants.none c none) E (cc3__matmul_kernel i arg2 harg2 arg3 harg3 arg4 harg4 arg5 harg5 arg6 harg6 arg7 harg7 arg8 harg8) K := by
  simp only [cc3__matmul_kernel_eq_skeleton]; unfold cc3__matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf2; subst hf3; subst hf4; subst hf5; subst hf6; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; sl_unfold_run_names
    refine (read_store_last _ _ hz2 _ _ _).trans ?_
    simp only [View.readAt_eq_ld, View.ld_unit_zero (S := S2000x256) hz2, View.ld_unit_zero (S := S256x256) hz2, View.ld_unit_zero (S := S1x256) hz2, View.readCov_unit_zero (S := S2000x256) _ hz2]
  iexists _; isplitr
  swap; · iexact H8
  ipureintro; sl_unfold_run_names
  refine (read_store_last _ _ hz2 _ _ _).trans ?_
  simp only [View.readAt_eq_ld, View.ld_unit_zero (S := S2000x256) hz2, View.ld_unit_zero (S := S256x256) hz2, View.ld_unit_zero (S := S1x256) hz2, View.readCov_unit_zero (S := S2000x256) _ hz2]

end Cert.KernelIdeal.Hand

end
-- ==== Proof.KI.Run0.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Run3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the first tiled matmul, run in each of its three control cases

The body branches twice on the contraction coordinate `k = i 1` of the grid point: where `k = 0` it first zeroes
the running sum; it always adds the product of the left and right tiles to the running sum; where `k` is the last
contraction tile (`k = 3`) it writes `max (sum + bias) 0` into the output tile. On a grid of 4 contraction tiles the two
conditions never hold together, so there are three cases. Every load and store is of a whole buffer, so each buffer
ends at the payload of the last store into it. -/

/-- The first branch's condition, from the grid coordinates: the contraction tile is the first. -/
abbrev cond0_1 (i : grid0.Coords) : Prop := (Scalar.cmpi .ne (Scalar.extui (Scalar.cmpi .eq (BitVec.ofNat 32 (i 1).val) 0#32)) 0#32) = 1#1
/-- It holds at the points ≡ 0 (mod 4): the contraction coordinate is the fast axis of the grid. -/
theorem hcond0_1 : ∀ t : Fin cfg0.N, cond0_1 (grid0.coords t) ↔ t.val % 4 = 0 :=
  (by decide +kernel : ∀ t : Fin grid0.N, cond0_1 (grid0.coords t) ↔ t.val % 4 = 0)
/-- The second branch's condition (the contraction tile is the last) holds at the points ≡ 3 (mod 4). -/
theorem hcond0_2 : ∀ t : Fin cfg0.N, k0_cond2 (grid0.coords t) = 1#1 ↔ t.val % 4 = 3 :=
  (by decide +kernel : ∀ t : Fin grid0.N, k0_cond2 (grid0.coords t) = 1#1 ↔ t.val % 4 = 3)

/-- The output window is idle exactly where the contraction tile is not the last. -/
theorem idleAt0_5 : ∀ t : Fin cfg0.N, ¬ t.val % 4 = 3 → cfg0.idle 5 (grid0.coords t) = true :=
  (by decide +kernel : ∀ t : Fin grid0.N, ¬ t.val % 4 = 3 → cfg0.idle 5 (grid0.coords t) = true)
theorem liveAt0_5 : ∀ t : Fin cfg0.N, t.val % 4 = 3 → cfg0.idle 5 (grid0.coords t) = false :=
  (by decide +kernel : ∀ t : Fin grid0.N, t.val % 4 = 3 → cfg0.idle 5 (grid0.coords t) = false)

set_option maxHeartbeats 1000000 in
/-- FIRST contraction tile: the running sum, whatever it held, ends at the tiles' product added to zero; the left and
    right tiles are read only; the bias, scale, shift and output buffers are not touched. -/
theorem sound_kernel0_first (c : Dev nD) (E : Set ℕ) (i : grid0.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : cond0_1 i) (hc2 : ¬ k0_cond2 i = 1#1)
    (x : Vec F S2000x512 .f32) (w : Vec F S512x512 .f32) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k0_pay2 x w k0_pay1)) -∗ K ⟨⟩))
      ⊢ wp frame (wpE (defs₀ (F := F)) Variants.none c none) E (cc0__matmul_kernel i arg2 harg2 arg3 harg3 arg4 harg4 arg5 harg5 arg6 harg6 arg7 harg7 arg8 harg8) K := by
  simp only [cc0__matmul_kernel_eq_skeleton]; unfold cc0__matmul_kernel_skel
  unfold owns
  iintro ⟨⟨%f2, %hf2, H2⟩, ⟨%f3, %hf3, H3⟩, ⟨%a, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

set_option maxHeartbeats 1000000 in
/-- A MIDDLE contraction tile: the running sum `a` ends at the tiles' product added to it. -/
theorem sound_kernel0_mid (c : Dev nD) (E : Set ℕ) (i : grid0.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : ¬ cond0_1 i) (hc2 : ¬ k0_cond2 i = 1#1)
    (x : Vec F S2000x512 .f32) (w : Vec F S512x512 .f32) (a : Vec F S2000x512 .f32) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k0_pay2 x w a)) -∗ K ⟨⟩))
      ⊢ wp frame (wpE (defs₀ (F := F)) Variants.none c none) E (cc0__matmul_kernel i arg2 harg2 arg3 harg3 arg4 harg4 arg5 harg5 arg6 harg6 arg7 harg7 arg8 harg8) K := by
  simp only [cc0__matmul_kernel_eq_skeleton]; unfold cc0__matmul_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

set_option maxHeartbeats 1000000 in
/-- The LAST contraction tile: the running sum `a` ends at the tiles' product added to it, and the output tile,
    whatever it held, at that sum plus the bias row, clamped below at zero. -/
theorem sound_kernel0_last (c : Dev nD) (E : Set ℕ) (i : grid0.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : ¬ cond0_1 i) (hc2 : k0_cond2 i = 1#1)
    (x : Vec F S2000x512 .f32) (w : Vec F S512x512 .f32) (a : Vec F S2000x512 .f32) (b : Vec F S1x512 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg7 fullShare d) ∗ owns (c : Thread nD τ) arg8 fullShare a
        ∗ (iprop(owns (c : Thread nD τ) arg2 fullShare x ∗ owns (c : Thread nD τ) arg3 fullShare w ∗ owns (c : Thread nD τ) arg4 fullShare b
            ∗ owns (c : Thread nD τ) arg7 fullShare (k0_pay3 (k0_pay2 x w a) b) ∗ owns (c : Thread nD τ) arg8 fullShare (k0_pay2 x w a)) -∗ K ⟨⟩))
      ⊢ wp frame (wpE (defs₀ (F := F)) Variants.none c none) E (cc0__matmul_kernel i arg2 harg2 arg3 harg3 arg4 harg4 arg5 harg5 arg6 harg6 arg7 harg7 arg8 harg8) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%d7, %f7, -, H7⟩, ⟨%f8, %hf8, H8⟩, Hk⟩
  subst hf2; subst hf3; subst hf4; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro; sl_unfold_run_names
    refine (read_store_last _ _ hz2 _ _ _).trans ?_
    simp only [View.readAt_eq_ld, View.ld_unit_zero (S := S2000x512) hz2, View.ld_unit_zero (S := S512x512) hz2, View.ld_unit_zero (S := S1x512) hz2, View.readCov_unit_zero (S := S2000x512) _ hz2]
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

end Cert.KernelIdeal.Hand

end
-- ==== Proof.KI.Body0.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Dat0
import proofs.«148293_j56684978372941_1_alg».proof.Proof.KI.Run0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The body obligation of the first tiled matmul

At every grid point the body is handed the left, right, bias, scale and shift windows at their blocks and the scratch
buffer at the running sum, and hands the scratch buffer back at the running sum one step on; the output window is
written — with the completed sum plus the bias, clamped below at zero, — only where the contraction tile is the last, and is handed back as
found elsewhere. -/

/-- The proof data's arrays are the region-entry contents. -/
theorem A_eq0 (c : Dev nD) (w : Fin cfg0.W) : (dat0 V c).A w = V c (Pipeline.arrRef spec0 w) := by
  dsimp only [dat0]

/-- What the body leaves, window by window: each input's block in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- and in the output window the running sum after the point plus the bias row, clamped below at zero (what a last contraction tile writes
    back). -/
theorem after0_out (c : Dev nD) (t : Fin cfg0.N) :
    (dat0 V c).after 5 t = k0_pay3 (acc0 V c t.succ) (iblk0 V c 2 t) := by dsimp only [dat0]

/-- The invariant and the tallies of the proof data, projected. -/
theorem Phi0_eq (c : Dev nD) (t : Fin (cfg0.N + 1)) : (dat0 V c).Φ t = Phi0 V c t := by dsimp only [dat0]
theorem owed0_eq (c : Dev nD) (t : Fin (cfg0.N + 1)) : (dat0 V c).owed t = 0 := by dsimp only [dat0]
theorem recorded0_eq (c : Dev nD) (t : Fin (cfg0.N + 1)) : (dat0 V c).recorded t = Set.univ := by dsimp only [dat0]

/-- Each input's current staging buffer holds its block at every point, fetched there or not: an input not fetched at
    a point has the block index it had at the point before, and the body leaves every input's block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- The output window is not written back where the contraction tile is not the last. -/
theorem noFlush0_5 (t : Fin cfg0.N) (h2 : ¬ t.val % 4 = 3) : (cfg0.win 5).flush t = false :=
  Bool.eq_false_iff.mpr fun hf => h2 ((flush0_5 t).mp hf)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the output window as the configuration's idle table has it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (dat0 V c).leavesExact 5 t)

set_option maxHeartbeats 2000000 in
/-- The body at any point, by the residue of the point modulo 4 (the contraction tile): the inputs' memrefs hold their
    blocks; the invariant hands over the scratch buffer — at the running sum unless the sum restarts here — and takes it
    back at the sum one step on (`acc0_succ`); the other scoped buffers, the generator register and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    Phi0_eq, Phi0_eq, after0_0, after0_1, after0_2, after0_3, after0_4]
  unfold Phi0
  by_cases h0 : t.val % 4 = 0
  · have h2 : ¬ t.val % 4 = 3 := by omega
    rw [Dat.leavesExact_idle (dat0 V c) 5 t (idleAt0_5 t h2) (noFlush0_5 t h2)]
    iintro ⟨⟨⟨%a, -, HS⟩, Hrest, Hg⟩, Ho, ⟨%d0, H0⟩, ⟨%d1, H1⟩, ⟨%d2, H2⟩, ⟨%d3, H3⟩, ⟨%d4, H4⟩, H5⟩
    iapply (sound_kernel0_first c Set.univ (grid0.coords t) _ _ _ _ _ _ _ _ _ _ _ _ _ _ ((hcond0_1 t).mpr h0) (fun h => h2 ((hcond0_2 t).mp h)) (iblk0 V c 0 t) (iblk0 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _; rw [acc0_succ, if_pos h0]
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h2 : t.val % 4 = 3
    · rw [show (dat0 V c).leavesExact 5 t = owns (c : Thread nD τ) (st0_5 t) fullShare ((dat0 V c).after 5 t) from by
        unfold Dat.leavesExact; rw [liveAt0_5 t h2], after0_out]
      iintro ⟨⟨⟨%a, %ha, HS⟩, Hrest, Hg⟩, Ho, ⟨%d0, H0⟩, ⟨%d1, H1⟩, ⟨%d2, H2⟩, ⟨%d3, H3⟩, ⟨%d4, H4⟩, ⟨%d5, H5⟩⟩
      obtain rfl := ha (by simpa using h0)
      iapply (sound_kernel0_last c Set.univ (grid0.coords t) _ _ _ _ _ _ _ _ _ _ _ _ _ _ (fun h => h0 ((hcond0_1 t).mp h)) ((hcond0_2 t).mpr h2)
        (iblk0 V c 0 t) (iblk0 V c 1 t) (acc0 V c t.castSucc) (iblk0 V c 2 t) _)
      isplitl [H0]; · iexact H0
      isplitl [H1]; · iexact H1
      isplitl [H2]; · iexact H2
      isplitl [H5]; · iexists _; iexact H5
      isplitl [HS]; · iexact HS
      iintro ⟨H0, H1, H2, H5, HS⟩
      rw [acc0_succ, if_neg h0]
      isplitl [HS Hrest Hg]
      · isplitl [HS]
        · iexists _; isplitr
          swap; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idleAt0_5 t h2) (noFlush0_5 t h2)]
      iintro ⟨⟨⟨%a, %ha, HS⟩, Hrest, Hg⟩, Ho, ⟨%d0, H0⟩, ⟨%d1, H1⟩, ⟨%d2, H2⟩, ⟨%d3, H3⟩, ⟨%d4, H4⟩, H5⟩
      obtain rfl := ha (by simpa using h0)
      iapply (sound_kernel0_mid c Set.univ (grid0.coords t) _ _ _ _ _ _ _ _ _ _ _ _ _ _ (fun h => h0 ((hcond0_1 t).mp h)) (fun h => h2 ((hcond0_2 t).mp h))
        (iblk0 V c 0 t) (iblk0 V c 1 t) (acc0 V c t.castSucc) _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _; rw [acc0_succ, if_neg h0]
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.SharedRow.lean ====
/- One array read through two windows. The bias row and the shift row of the tiled matrix products are the same
   array, so two of a pipeline's windows stage one buffer. The pipeline rule then wants that buffer dealt between the
   two windows: each holds half of it (reading needs no more), and the halves are put together again when the region
   is left. This file states and proves that bookkeeping once, for any pipeline of the program with exactly one such
   pair of windows. -/
import proofs.«148293_j56684978372941_1_alg».proof.Proof.Gen.KernelIdeal
import Idealize.ShloMosaic.Lib.Pipeline.Frame
import Idealize.ShloMosaic.Lib.Pipeline.RegionsLoop

noncomputable section

namespace Cert.KernelIdeal.Hand

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (UR sig nD τ) ℕ

/-- A buffer of the core held at a share, at the contents a valuation gives it. -/
def bufAt (c : Dev nD) (V : (b : Ref sig .tc) → Buf (Elt F) ((c : Thread nD τ).loc b)) (b : Ref sig .tc) (q : PosShare TreeShare) : sProp 𝕄 :=
  ((c : Thread nD τ).loc b) ↦{q} V b

/-- Windows `i` and `j` of the pipeline read ONE array and no other two windows share one; every array is a whole
    unscoped buffer; the proof data give window `i` the left half of the shared array and window `j` the right half,
    and hold every other array whole. -/
structure SharedRow {cfg : Pipeline.Cfg sig Λ₀} {c : Dev nD} (dat : Dat τ (Elt F) Unit ℕ (UR sig nD τ) ℕ cfg c) (i j : Fin cfg.W) : Prop where
  ne : i ≠ j
  same : Pipeline.arrRef cfg.spec i = Pipeline.arrRef cfg.spec j
  inj : ∀ w w', Pipeline.arrRef cfg.spec w = Pipeline.arrRef cfg.spec w' → w = w' ∨ (w = i ∧ w' = j) ∨ (w = j ∧ w' = i)
  unscoped : ∀ w, (Pipeline.arrRef cfg.spec w).isScoped = false
  whole : ∀ w, (cfg.spec w).arr.IsWhole
  share_i : dat.share i = fullShare.left
  share_j : dat.share j = fullShare.right
  share_rest : ∀ w, w ≠ i → w ≠ j → dat.share w = fullShare

namespace SharedRow

variable {cfg : Pipeline.Cfg sig Λ₀} {c : Dev nD} {dat : Dat τ (Elt F) Unit ℕ (UR sig nD τ) ℕ cfg c} {i j : Fin cfg.W}

/-- The windows' arrays, each at its window's share, at contents read off one valuation `V` of the buffers, ARE the
    distinct buffers behind them held whole at `V`: the two halves of the shared buffer make the whole of it, and
    every other window's array is its buffer. -/
theorem arrays_eq (h : SharedRow dat i j) (V : (b : Ref sig .tc) → Buf (Elt F) ((c : Thread nD τ).loc b))
    (G : (w : Fin cfg.W) → Buf (Elt F) ((cfg.spec w).arr.view.loc (c : Thread nD τ))) (hG : ∀ w, G w = V (Pipeline.arrRef cfg.spec w)) :
    (dat.arrays G : sProp 𝕄) = Pipeline.arrBufs cfg.spec c V := by
  classical
  have e1 : (dat.arrays G : sProp 𝕄) = bigSep Finset.univ fun w => bufAt c V (Pipeline.arrRef cfg.spec w) (dat.share w) := by
    unfold Dat.arrays
    exact bigSep_congr fun w _ => by rw [(h.whole w).set_eq_univ, hG]; rfl
  -- the windows other than the pair
  have hjmem : j ∈ (Finset.univ : Finset (Fin cfg.W)).erase i := Finset.mem_erase.mpr ⟨h.ne.symm, Finset.mem_univ _⟩
  have himem : i ∈ (Finset.univ : Finset (Fin cfg.W)).erase j := Finset.mem_erase.mpr ⟨h.ne, Finset.mem_univ _⟩
  have hR : ∀ w ∈ ((Finset.univ : Finset (Fin cfg.W)).erase i).erase j, bufAt c V (Pipeline.arrRef cfg.spec w) (dat.share w) = bufAt c V (Pipeline.arrRef cfg.spec w) fullShare := fun w hw => by
    have hwj : w ≠ j := (Finset.mem_erase.mp hw).1
    have hwi : w ≠ i := (Finset.mem_erase.mp (Finset.mem_erase.mp hw).2).1
    rw [h.share_rest w hwi hwj]
  have e2 : (bigSep Finset.univ fun w => bufAt c V (Pipeline.arrRef cfg.spec w) (dat.share w))
      = iprop(bufAt c V (Pipeline.arrRef cfg.spec i) fullShare.left ∗ bufAt c V (Pipeline.arrRef cfg.spec i) fullShare.right
          ∗ bigSep (((Finset.univ : Finset (Fin cfg.W)).erase i).erase j) fun w => bufAt c V (Pipeline.arrRef cfg.spec w) fullShare) := by
    rw [bigSep_erase (Finset.mem_univ i), bigSep_erase hjmem, h.share_i, h.share_j, ← h.same, bigSep_congr hR]
    rfl
  -- the buffers behind the arrays: one per window but `j`
  have hinj : Set.InjOn (Pipeline.arrRef cfg.spec) ((Finset.univ : Finset (Fin cfg.W)).erase j) := fun w hw w' hw' e => by
    have hwj : w ≠ j := (Finset.mem_erase.mp hw).1
    have hw'j : w' ≠ j := (Finset.mem_erase.mp hw').1
    rcases h.inj w w' e with h0 | ⟨-, h1⟩ | ⟨h1, -⟩
    · exact h0
    · exact absurd h1 hw'j
    · exact absurd h1 hwj
  have himg : (Finset.univ : Finset (Fin cfg.W)).image (Pipeline.arrRef cfg.spec) = ((Finset.univ : Finset (Fin cfg.W)).erase j).image (Pipeline.arrRef cfg.spec) := by
    ext b; constructor
    · intro hb
      obtain ⟨w, -, rfl⟩ := Finset.mem_image.mp hb
      by_cases hwj : w = j
      · subst hwj; exact Finset.mem_image.mpr ⟨i, himem, h.same⟩
      · exact Finset.mem_image.mpr ⟨w, Finset.mem_erase.mpr ⟨hwj, Finset.mem_univ _⟩, rfl⟩
    · intro hb
      obtain ⟨w, -, rfl⟩ := Finset.mem_image.mp hb
      exact Finset.mem_image.mpr ⟨w, Finset.mem_univ _, rfl⟩
  have e3 : (Pipeline.arrBufs cfg.spec c V : sProp 𝕄)
      = iprop(bufAt c V (Pipeline.arrRef cfg.spec i) fullShare
          ∗ bigSep (((Finset.univ : Finset (Fin cfg.W)).erase i).erase j) fun w => bufAt c V (Pipeline.arrRef cfg.spec w) fullShare) := by
    unfold Pipeline.arrBufs
    rw [himg, bigSep_image_of_injOn hinj, bigSep_erase himem, Finset.erase_right_comm]
    rfl
  have hsh : (bufAt c V (Pipeline.arrRef cfg.spec i) fullShare : sProp 𝕄)
      ⊣⊢ iprop(bufAt c V (Pipeline.arrRef cfg.spec i) fullShare.left ∗ bufAt c V (Pipeline.arrRef cfg.spec i) fullShare.right) := by
    unfold bufAt; exact pointsTo_share (PosShare.mem_left_op_right fullShare)
  have h₁ : iprop(bufAt c V (Pipeline.arrRef cfg.spec i) fullShare.left ∗ bufAt c V (Pipeline.arrRef cfg.spec i) fullShare.right
        ∗ bigSep (((Finset.univ : Finset (Fin cfg.W)).erase i).erase j) fun w => bufAt c V (Pipeline.arrRef cfg.spec w) fullShare)
      ⊢ (iprop(bufAt c V (Pipeline.arrRef cfg.spec i) fullShare
        ∗ bigSep (((Finset.univ : Finset (Fin cfg.W)).erase i).erase j) fun w => bufAt c V (Pipeline.arrRef cfg.spec w) fullShare) : sProp 𝕄) := by
    iintro ⟨Hl, Hr, HR⟩
    isplitl [Hl Hr]
    · iapply hsh.2
      isplitl [Hl] <;> iassumption
    iexact HR
  have h₂ : iprop(bufAt c V (Pipeline.arrRef cfg.spec i) fullShare
        ∗ bigSep (((Finset.univ : Finset (Fin cfg.W)).erase i).erase j) fun w => bufAt c V (Pipeline.arrRef cfg.spec w) fullShare)
      ⊢ (iprop(bufAt c V (Pipeline.arrRef cfg.spec i) fullShare.left ∗ bufAt c V (Pipeline.arrRef cfg.spec i) fullShare.right
        ∗ bigSep (((Finset.univ : Finset (Fin cfg.W)).erase i).erase j) fun w => bufAt c V (Pipeline.arrRef cfg.spec w) fullShare) : sProp 𝕄) := by
    iintro ⟨Hf, HR⟩
    ihave H := hsh.1 $$ Hf
    icases H with ⟨Hl, Hr⟩
    isplitl [Hl]; · iexact Hl
    isplitl [Hr]; · iexact Hr
    iexact HR
  rw [e1, e2, e3]
  exact BI.equiv_iff.mp ⟨h₁, h₂⟩

/-- The core's unscoped buffers at contents `V` are the buffers behind the windows' arrays and the rest. -/
theorem unscopedBufs_eq (h : SharedRow dat i j) (V : (b : Ref sig .tc) → Buf (Elt F) ((c : Thread nD τ).loc b)) :
    (unscopedBufs c V : sProp 𝕄) = iprop(Pipeline.arrBufs cfg.spec c V ∗ Pipeline.unscopedRest cfg.spec c V) := by
  classical
  have hA : Finset.univ.image (Pipeline.arrRef cfg.spec) ⊆ Finset.univ.filter fun b : Ref sig .tc => ¬ b.isScoped := fun b hb => by
    obtain ⟨w, -, rfl⟩ := Finset.mem_image.mp hb
    exact Finset.mem_filter.mpr ⟨Finset.mem_univ _, by simp [h.unscoped w]⟩
  unfold unscopedBufs Pipeline.unscopedRest Pipeline.arrBufs
  rw [bigSep_sdiff_split hA]
  rfl

/-- ENTRY: the core's unscoped buffers at the contents `V` the region is entered at are the pipeline's arrays at the
    proof data's entry contents — read off `V` (`hA`) — and the unscoped buffers that are no window's array. -/
theorem entry (h : SharedRow dat i j) (V : (b : Ref sig .tc) → Buf (Elt F) ((c : Thread nD τ).loc b))
    (hA : ∀ w, dat.A w = V (Pipeline.arrRef cfg.spec w)) :
    (unscopedBufs c V : sProp 𝕄) ⊢ iprop(dat.arrays (dat.arrAt · 0) ∗ Pipeline.unscopedRest cfg.spec c V) := by
  rw [h.unscopedBufs_eq V, h.arrays_eq V (dat.arrAt · 0) (fun w => (show dat.arrAt w 0 = dat.A w from rfl).trans (hA w))]

/-- EXIT: the pipeline's arrays at contents `G` and the other unscoped buffers at `V` are the core's unscoped buffers
    at any valuation `V'` that has the arrays at `G` and agrees with `V` off them. -/
theorem exit (h : SharedRow dat i j) (V V' : (b : Ref sig .tc) → Buf (Elt F) ((c : Thread nD τ).loc b))
    (G : (w : Fin cfg.W) → Buf (Elt F) ((cfg.spec w).arr.view.loc (c : Thread nD τ))) (hG : ∀ w, G w = V' (Pipeline.arrRef cfg.spec w))
    (hrest : ∀ b, b ∉ Finset.univ.image (Pipeline.arrRef cfg.spec) → V' b = V b) :
    iprop(dat.arrays G ∗ Pipeline.unscopedRest cfg.spec c V) ⊢ (unscopedBufs c V' : sProp 𝕄) := by
  rw [h.unscopedBufs_eq V', h.arrays_eq V' G hG]
  refine sep_mono .rfl (Entails.of_eq ?_)
  unfold Pipeline.unscopedRest
  exact bigSep_congr fun b hb => by rw [hrest b (Finset.mem_sdiff.mp hb).2]

end SharedRow

end Cert.KernelIdeal.Hand

end
-- ==== Proof.KI.Reg0.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«148293_j56684978372941_1_alg».proof.Proof.KI.Data
import proofs.«148293_j56684978372941_1_alg».proof.Proof.KI.Body0
import proofs.«148293_j56684978372941_1_alg».proof.Proof.KI.SharedRow
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The first tiled matmul as a segment of the program's run

The region is entered with every unscoped buffer at the contents the host operations before it left, and left with
its output array at what the write-backs of the last contraction tiles leave and every other buffer as entered. Its
scratch buffer is one of the scoped buffers no window stages: it enters the invariant at anything (the running sum
restarts at the first point) and is given back at whatever the last point left. -/

/-- The contents at the region's exit, read at the TensorCore's references. -/
abbrev X0 : (c : Dev nD) → (b : Ref sig .tc) → Buf (Elt F) ((c : Thread nD τ).loc b) := fun c b => W2 m c b

/-- An input window's array ends as it was entered: no write-back touches it, and it is not the output array. -/
theorem hF0_in (c : Dev nD) (w : Fin cfg0.W) (hin : (cfg0.win w).isOut = false)
    (hne : (Proc.devRef .tc (Pipeline.arrRef spec0 w) : DevRef τ sig) ≠ Proc.devRef .tc main_v48) :
    (dat0 (E0 m) c).arrAt w cfg0.N = X0 m c (Pipeline.arrRef spec0 w) := by
  rw [Dat.arrAt_in _ w hin, A_eq0]
  show W1 m c (Proc.devRef .tc (Pipeline.arrRef spec0 w)) = W2 m c (Proc.devRef .tc (Pipeline.arrRef spec0 w))
  unfold W2; exact (Function.update_of_ne hne _ _).symm

/-- At the region's exit each of its arrays holds what the pipeline leaves: the inputs their entry contents, the output
    the write-backs folded over the grid. -/
theorem hF0 (c : Dev nD) : ∀ w : Fin cfg0.W, (dat0 (E0 m) c).arrAt w cfg0.N = X0 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => by
    refine Eq.symm ?_
    show W2 m c (Proc.devRef .tc main_v48) = out0 m c
    unfold W2; exact Function.update_self ..

/-- Every buffer that is no array of the region holds at its exit what it held at its entry. -/
theorem hrest0 (c : Dev nD) : ∀ b, b ∉ Finset.univ.image (Pipeline.arrRef spec0) → X0 m c b = E0 m c b := fun b hb => by
  show W2 m c (Proc.devRef .tc b) = W1 m c (Proc.devRef .tc b)
  unfold W2
  exact Function.update_of_ne (fun e => hb (Finset.mem_image.mpr ⟨5, Finset.mem_univ _,
    (show Pipeline.arrRef spec0 5 = b from (Proc.devRef_injective _ e).symm)⟩)) _ _

/-- The bias window (2) and the shift window (4) read one array, a row of zeros the host wrote; no other two windows
    share an array. The proof data give the two windows the two halves of that row. -/
theorem shared0 (c : Dev nD) : SharedRow (cfg := cfg0) (pdats m 0 c) 2 4 where
  ne := by decide
  same := rfl
  inj := by decide
  unscoped := winFacts₀0.arr_unscoped
  whole := arr_whole0
  share_i := rfl
  share_j := rfl
  share_rest := fun w => by
    match w with
    | ⟨0, _⟩ => exact fun _ _ => rfl
    | ⟨1, _⟩ => exact fun _ _ => rfl
    | ⟨2, _⟩ => exact fun h _ => absurd rfl h
    | ⟨3, _⟩ => exact fun _ _ => rfl
    | ⟨4, _⟩ => exact fun _ h => absurd rfl h
    | ⟨5, _⟩ => exact fun _ _ => rfl

-- the library's entry and exit lemmas speak of the pipeline's configuration through a definition that must be unfolded to meet cfg0
set_option backward.isDefEq.respectTransparency.types false in
/-- The first matmul's region over the thread state: entered from every unscoped buffer at the contents before it,
    left at those contents with the output array replaced. Its arrays are split out of the unscoped buffers and put back
    at the exit contents; the generator register and the scratch buffer go into the invariant and come back out; nothing
    is owed; the kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := (shared0 m c).entry (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Phi0 (E0 m) c 0 from rfl]; unfold Phi0
    rw [show (Pipeline.scopedRest (Pipeline.pin (pcfgs (F := F)) Gen.adm 0).spec c : sProp 𝕄) = _ from scopedRest0_split c]
    iintro ⟨Hp, -, ⟨%f, Hs⟩, Hrest⟩
    isplitl [Hs]
    · iexists f; isplitr
      · ipureintro; intro h; exact absurd rfl h
      rw [owns_whole]; iexact Hs
    isplitl [Hrest]; · iexact Hrest
    iexact Hp
  hout c := by
    rw [Pipeline.ownSems0_none, show (pdats m 0 c).Φ (Fin.last _) = Phi0 (E0 m) c (Fin.last _) from rfl]; unfold Phi0
    rw [show (Pipeline.scopedRest (Pipeline.pin (pcfgs (F := F)) Gen.adm 0).spec c : sProp 𝕄) = _ from scopedRest0_split c]
    iintro ⟨⟨%a, -, Hs⟩, Hrest, Hr⟩
    isplitl [Hr]; · iexact Hr
    isplitr; · iempintro
    isplitl [Hs]
    · iexists a; rw [← owns_whole]; iexact Hs
    iexact Hrest
  hexit c := by
    have hjoin := (shared0 m c).exit (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from and left at the boundary contents beside the rest, as stated. -/
theorem hpre0 (c : Dev nD) : iprop(StableHlo.held (c : Thread nD τ) (Pipeline.ucRefs τ sig) (W1 m c) ∗ R c) ⊢ (reg0 m).pre c := .rfl
theorem hpost0 (c : Dev nD) : (reg0 m).post c ⊢ iprop(StableHlo.held (c : Thread nD τ) (Pipeline.ucRefs τ sig) (W2 m c) ∗ R c) := .rfl

end Cert.KernelIdeal.Hand

end
-- ==== Proof.KI.Run1.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Run3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the second tiled matmul, run in each of its three control cases

The body branches twice on the contraction coordinate `k = i 1` of the grid point: where `k = 0` it first zeroes
the running sum; it always adds the product of the left and right tiles to the running sum; where `k` is the last
contraction tile (`k = 3`) it writes `sum + bias` into the output tile. On a grid of 4 contraction tiles the two
conditions never hold together, so there are three cases. Every load and store is of a whole buffer, so each buffer
ends at the payload of the last store into it. -/

/-- The first branch's condition, from the grid coordinates: the contraction tile is the first. -/
abbrev cond1_1 (i : grid1.Coords) : Prop := (Scalar.cmpi .ne (Scalar.extui (Scalar.cmpi .eq (BitVec.ofNat 32 (i 1).val) 0#32)) 0#32) = 1#1
/-- It holds at the points ≡ 0 (mod 4): the contraction coordinate is the fast axis of the grid. -/
theorem hcond1_1 : ∀ t : Fin cfg1.N, cond1_1 (grid1.coords t) ↔ t.val % 4 = 0 :=
  (by decide +kernel : ∀ t : Fin grid1.N, cond1_1 (grid1.coords t) ↔ t.val % 4 = 0)
/-- The second branch's condition (the contraction tile is the last) holds at the points ≡ 3 (mod 4). -/
theorem hcond1_2 : ∀ t : Fin cfg1.N, k1_cond2 (grid1.coords t) = 1#1 ↔ t.val % 4 = 3 :=
  (by decide +kernel : ∀ t : Fin grid1.N, k1_cond2 (grid1.coords t) = 1#1 ↔ t.val % 4 = 3)

/-- The output window is idle exactly where the contraction tile is not the last. -/
theorem idleAt1_5 : ∀ t : Fin cfg1.N, ¬ t.val % 4 = 3 → cfg1.idle 5 (grid1.coords t) = true :=
  (by decide +kernel : ∀ t : Fin grid1.N, ¬ t.val % 4 = 3 → cfg1.idle 5 (grid1.coords t) = true)
theorem liveAt1_5 : ∀ t : Fin cfg1.N, t.val % 4 = 3 → cfg1.idle 5 (grid1.coords t) = false :=
  (by decide +kernel : ∀ t : Fin grid1.N, t.val % 4 = 3 → cfg1.idle 5 (grid1.coords t) = false)

set_option maxHeartbeats 1000000 in
/-- FIRST contraction tile: the running sum, whatever it held, ends at the tiles' product added to zero; the left and
    right tiles are read only; the bias, scale, shift and output buffers are not touched. -/
theorem sound_kernel1_first (c : Dev nD) (E : Set ℕ) (i : grid1.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : cond1_1 i) (hc2 : ¬ k1_cond2 i = 1#1)
    (x : Vec F S2000x512 .f32) (w : Vec F S512x512 .f32) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k1_pay2 x w k1_pay1)) -∗ K ⟨⟩))
      ⊢ wp frame (wpE (defs₀ (F := F)) Variants.none c none) E (cc1__matmul_kernel i arg2 harg2 arg3 harg3 arg4 harg4 arg5 harg5 arg6 harg6 arg7 harg7 arg8 harg8) K := by
  simp only [cc1__matmul_kernel_eq_skeleton]; unfold cc1__matmul_kernel_skel
  unfold owns
  iintro ⟨⟨%f2, %hf2, H2⟩, ⟨%f3, %hf3, H3⟩, ⟨%a, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

set_option maxHeartbeats 1000000 in
/-- A MIDDLE contraction tile: the running sum `a` ends at the tiles' product added to it. -/
theorem sound_kernel1_mid (c : Dev nD) (E : Set ℕ) (i : grid1.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : ¬ cond1_1 i) (hc2 : ¬ k1_cond2 i = 1#1)
    (x : Vec F S2000x512 .f32) (w : Vec F S512x512 .f32) (a : Vec F S2000x512 .f32) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k1_pay2 x w a)) -∗ K ⟨⟩))
      ⊢ wp frame (wpE (defs₀ (F := F)) Variants.none c none) E (cc1__matmul_kernel i arg2 harg2 arg3 harg3 arg4 harg4 arg5 harg5 arg6 harg6 arg7 harg7 arg8 harg8) K := by
  simp only [cc1__matmul_kernel_eq_skeleton]; unfold cc1__matmul_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

set_option maxHeartbeats 1000000 in
/-- The LAST contraction tile: the running sum `a` ends at the tiles' product added to it, and the output tile,
    whatever it held, at that sum plus the bias row. -/
theorem sound_kernel1_last (c : Dev nD) (E : Set ℕ) (i : grid1.Coords) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole)
    (hc1 : ¬ cond1_1 i) (hc2 : k1_cond2 i = 1#1)
    (x : Vec F S2000x512 .f32) (w : Vec F S512x512 .f32) (a : Vec F S2000x512 .f32) (b : Vec F S1x512 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg7 fullShare d) ∗ owns (c : Thread nD τ) arg8 fullShare a
        ∗ (iprop(owns (c : Thread nD τ) arg2 fullShare x ∗ owns (c : Thread nD τ) arg3 fullShare w ∗ owns (c : Thread nD τ) arg4 fullShare b
            ∗ owns (c : Thread nD τ) arg7 fullShare (k1_pay3 (k1_pay2 x w a) b) ∗ owns (c : Thread nD τ) arg8 fullShare (k1_pay2 x w a)) -∗ K ⟨⟩))
      ⊢ wp frame (wpE (defs₀ (F := F)) Variants.none c none) E (cc1__matmul_kernel i arg2 harg2 arg3 harg3 arg4 harg4 arg5 harg5 arg6 harg6 arg7 harg7 arg8 harg8) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%d7, %f7, -, H7⟩, ⟨%f8, %hf8, H8⟩, Hk⟩
  subst hf2; subst hf3; subst hf4; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro; sl_unfold_run_names
    refine (read_store_last _ _ hz2 _ _ _).trans ?_
    simp only [View.readAt_eq_ld, View.ld_unit_zero (S := S2000x512) hz2, View.ld_unit_zero (S := S512x512) hz2, View.ld_unit_zero (S := S1x512) hz2, View.readCov_unit_zero (S := S2000x512) _ hz2]
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x512) hz2, View.ld_unit_zero (S := S1x512) hz2, View.readCov_unit_zero (S := S2000x512) _ hz2]

end Cert.KernelIdeal.Hand

end
-- ==== Proof.KI.Body1.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Dat1
import proofs.«148293_j56684978372941_1_alg».proof.Proof.KI.Run1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The body obligation of the second tiled matmul

At every grid point the body is handed the left, right, bias, scale and shift windows at their blocks and the scratch
buffer at the running sum, and hands the scratch buffer back at the running sum one step on; the output window is
written — with the completed sum plus the bias — only where the contraction tile is the last, and is handed back as
found elsewhere. -/

/-- The proof data's arrays are the region-entry contents. -/
theorem A_eq1 (c : Dev nD) (w : Fin cfg1.W) : (dat1 V c).A w = V c (Pipeline.arrRef spec1 w) := by
  dsimp only [dat1]

/-- What the body leaves, window by window: each input's block in place, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- and in the output window the running sum after the point plus the bias row (what a last contraction tile writes
    back). -/
theorem after1_out (c : Dev nD) (t : Fin cfg1.N) :
    (dat1 V c).after 5 t = k1_pay3 (acc1 V c t.succ) (iblk1 V c 2 t) := by dsimp only [dat1]

/-- The invariant and the tallies of the proof data, projected. -/
theorem Phi1_eq (c : Dev nD) (t : Fin (cfg1.N + 1)) : (dat1 V c).Φ t = Phi1 V c t := by dsimp only [dat1]
theorem owed1_eq (c : Dev nD) (t : Fin (cfg1.N + 1)) : (dat1 V c).owed t = 0 := by dsimp only [dat1]
theorem recorded1_eq (c : Dev nD) (t : Fin (cfg1.N + 1)) : (dat1 V c).recorded t = Set.univ := by dsimp only [dat1]

/-- Each input's current staging buffer holds its block at every point, fetched there or not: an input not fetched at
    a point has the block index it had at the point before, and the body leaves every input's block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- The output window is not written back where the contraction tile is not the last. -/
theorem noFlush1_5 (t : Fin cfg1.N) (h2 : ¬ t.val % 4 = 3) : (cfg1.win 5).flush t = false :=
  Bool.eq_false_iff.mpr fun hf => h2 ((flush1_5 t).mp hf)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the output window as the configuration's idle table has it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (dat1 V c).leavesExact 5 t)

set_option maxHeartbeats 2000000 in
/-- The body at any point, by the residue of the point modulo 4 (the contraction tile): the inputs' memrefs hold their
    blocks; the invariant hands over the scratch buffer — at the running sum unless the sum restarts here — and takes it
    back at the sum one step on (`acc1_succ`); the other scoped buffers, the generator register and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    Phi1_eq, Phi1_eq, after1_0, after1_1, after1_2, after1_3, after1_4]
  unfold Phi1
  by_cases h0 : t.val % 4 = 0
  · have h2 : ¬ t.val % 4 = 3 := by omega
    rw [Dat.leavesExact_idle (dat1 V c) 5 t (idleAt1_5 t h2) (noFlush1_5 t h2)]
    iintro ⟨⟨⟨%a, -, HS⟩, Hrest, Hg⟩, Ho, ⟨%d0, H0⟩, ⟨%d1, H1⟩, ⟨%d2, H2⟩, ⟨%d3, H3⟩, ⟨%d4, H4⟩, H5⟩
    iapply (sound_kernel1_first c Set.univ (grid1.coords t) _ _ _ _ _ _ _ _ _ _ _ _ _ _ ((hcond1_1 t).mpr h0) (fun h => h2 ((hcond1_2 t).mp h)) (iblk1 V c 0 t) (iblk1 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _; rw [acc1_succ, if_pos h0]
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h2 : t.val % 4 = 3
    · rw [show (dat1 V c).leavesExact 5 t = owns (c : Thread nD τ) (st1_5 t) fullShare ((dat1 V c).after 5 t) from by
        unfold Dat.leavesExact; rw [liveAt1_5 t h2], after1_out]
      iintro ⟨⟨⟨%a, %ha, HS⟩, Hrest, Hg⟩, Ho, ⟨%d0, H0⟩, ⟨%d1, H1⟩, ⟨%d2, H2⟩, ⟨%d3, H3⟩, ⟨%d4, H4⟩, ⟨%d5, H5⟩⟩
      obtain rfl := ha (by simpa using h0)
      iapply (sound_kernel1_last c Set.univ (grid1.coords t) _ _ _ _ _ _ _ _ _ _ _ _ _ _ (fun h => h0 ((hcond1_1 t).mp h)) ((hcond1_2 t).mpr h2)
        (iblk1 V c 0 t) (iblk1 V c 1 t) (acc1 V c t.castSucc) (iblk1 V c 2 t) _)
      isplitl [H0]; · iexact H0
      isplitl [H1]; · iexact H1
      isplitl [H2]; · iexact H2
      isplitl [H5]; · iexists _; iexact H5
      isplitl [HS]; · iexact HS
      iintro ⟨H0, H1, H2, H5, HS⟩
      rw [acc1_succ, if_neg h0]
      isplitl [HS Hrest Hg]
      · isplitl [HS]
        · iexists _; isplitr
          swap; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t h2) (noFlush1_5 t h2)]
      iintro ⟨⟨⟨%a, %ha, HS⟩, Hrest, Hg⟩, Ho, ⟨%d0, H0⟩, ⟨%d1, H1⟩, ⟨%d2, H2⟩, ⟨%d3, H3⟩, ⟨%d4, H4⟩, H5⟩
      obtain rfl := ha (by simpa using h0)
      iapply (sound_kernel1_mid c Set.univ (grid1.coords t) _ _ _ _ _ _ _ _ _ _ _ _ _ _ (fun h => h0 ((hcond1_1 t).mp h)) (fun h => h2 ((hcond1_2 t).mp h))
        (iblk1 V c 0 t) (iblk1 V c 1 t) (acc1 V c t.castSucc) _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _; rw [acc1_succ, if_neg h0]
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg1.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«148293_j56684978372941_1_alg».proof.Proof.KI.Data
import proofs.«148293_j56684978372941_1_alg».proof.Proof.KI.Body1
import proofs.«148293_j56684978372941_1_alg».proof.Proof.KI.SharedRow
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second tiled matmul as a segment of the program's run

The region is entered with every unscoped buffer at the contents the host operations before it left, and left with
its output array at what the write-backs of the last contraction tiles leave and every other buffer as entered. The
bias row and the shift row are one array, read through two windows: at the entry its points-to is dealt to them in
halves, and at the exit the halves are joined again. The scratch buffer is one of the scoped buffers no window stages:
it enters the invariant at anything (the running sum restarts at the first point) and is given back at whatever the
last point left. -/

variable (m : (ℓ : Loc nD τ sig) → Buf (Elt F) ℓ)

/-- The bias and shift windows read one array, each holding half of it; the other windows' arrays are distinct whole
    unscoped buffers held outright. -/
theorem shared1 (c : Dev nD) : SharedRow (cfg := cfg1) (pdats m 1 c) 2 4 where
  ne := by decide
  same := rfl
  inj := by decide
  unscoped := winFacts₀1.arr_unscoped
  whole := arr_whole1
  share_i := rfl
  share_j := rfl
  share_rest := fun w => match w with
    | ⟨0, _⟩ => fun _ _ => rfl
    | ⟨1, _⟩ => fun _ _ => rfl
    | ⟨2, _⟩ => fun h _ => absurd rfl h
    | ⟨3, _⟩ => fun _ _ => rfl
    | ⟨4, _⟩ => fun _ h => absurd rfl h
    | ⟨5, _⟩ => fun _ _ => rfl

/-- The contents at the region's exit, read at the TensorCore's references. -/
abbrev X1 : (c : Dev nD) → (b : Ref sig .tc) → Buf (Elt F) ((c : Thread nD τ).loc b) := fun c b => W4 m c b

/-- An input window's array ends as it was entered: no write-back touches it, and it is not the output array. -/
theorem hF1_in (c : Dev nD) (w : Fin cfg1.W) (hin : (cfg1.win w).isOut = false)
    (hne : (Proc.devRef .tc (Pipeline.arrRef spec1 w) : DevRef τ sig) ≠ Proc.devRef .tc main_v89) :
    (dat1 (E1 m) c).arrAt w cfg1.N = X1 m c (Pipeline.arrRef spec1 w) := by
  rw [Dat.arrAt_in _ w hin, A_eq1]
  show W3 m c (Proc.devRef .tc (Pipeline.arrRef spec1 w)) = W4 m c (Proc.devRef .tc (Pipeline.arrRef spec1 w))
  unfold W4; exact (Function.update_of_ne hne _ _).symm

/-- At the region's exit each of its arrays holds what the pipeline leaves: the inputs their entry contents, the output
    the write-backs folded over the grid. -/
theorem hF1 (c : Dev nD) : ∀ w : Fin cfg1.W, (dat1 (E1 m) c).arrAt w cfg1.N = X1 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => by
    refine Eq.symm ?_
    show W4 m c (Proc.devRef .tc main_v89) = out1 m c
    unfold W4; exact Function.update_self ..

/-- Every buffer that is no array of the region holds at its exit what it held at its entry. -/
theorem hrest1 (c : Dev nD) : ∀ b, b ∉ Finset.univ.image (Pipeline.arrRef spec1) → X1 m c b = E1 m c b := fun b hb => by
  show W4 m c (Proc.devRef .tc b) = W3 m c (Proc.devRef .tc b)
  unfold W4
  exact Function.update_of_ne (fun e => hb (Finset.mem_image.mpr ⟨5, Finset.mem_univ _,
    (show Pipeline.arrRef spec1 5 = b from (Proc.devRef_injective _ e).symm)⟩)) _ _

-- the entry and exit lemmas speak of the pipeline's configuration through a definition that must be unfolded to meet cfg1
set_option backward.isDefEq.respectTransparency.types false in
/-- The second matmul's region over the thread state: entered from every unscoped buffer at the contents before it,
    left at those contents with the output array replaced. Its arrays are split out of the unscoped buffers — the shared
    row in halves — and put back at the exit contents; the generator register and the scratch buffer go into the invariant
    and come back out; nothing is owed; the kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := (shared1 m c).entry (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (E1 m) c 0 from rfl]; unfold Phi1
    rw [show (Pipeline.scopedRest (Pipeline.pin (pcfgs (F := F)) Gen.adm 1).spec c : sProp 𝕄) = _ from scopedRest1_split c]
    iintro ⟨Hp, -, ⟨%f, Hs⟩, Hrest⟩
    isplitl [Hs]
    · iexists f; isplitr
      · ipureintro; intro h; exact absurd rfl h
      rw [owns_whole]; iexact Hs
    isplitl [Hrest]; · iexact Hrest
    iexact Hp
  hout c := by
    rw [Pipeline.ownSems0_none, show (pdats m 1 c).Φ (Fin.last _) = Phi1 (E1 m) c (Fin.last _) from rfl]; unfold Phi1
    rw [show (Pipeline.scopedRest (Pipeline.pin (pcfgs (F := F)) Gen.adm 1).spec c : sProp 𝕄) = _ from scopedRest1_split c]
    iintro ⟨⟨%a, -, Hs⟩, Hrest, Hr⟩
    isplitl [Hr]; · iexact Hr
    isplitr; · iempintro
    isplitl [Hs]
    · iexists a; rw [← owns_whole]; iexact Hs
    iexact Hrest
  hexit c := by
    have hjoin := (shared1 m c).exit (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from and left at the boundary contents beside the rest, as stated. -/
theorem hpre1 (c : Dev nD) : iprop(StableHlo.held (c : Thread nD τ) (Pipeline.ucRefs τ sig) (W3 m c) ∗ R c) ⊢ (reg1 m).pre c := .rfl
theorem hpost1 (c : Dev nD) : (reg1 m).post c ⊢ iprop(StableHlo.held (c : Thread nD τ) (Pipeline.ucRefs τ sig) (W4 m c) ∗ R c) := .rfl

end Cert.KernelIdeal.Hand

end
-- ==== Proof.KI.Run2.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Run3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the third tiled matmul, run in each of its three control cases

The body branches twice on the contraction coordinate `k = i 1` of the grid point: where `k = 0` it first zeroes
the running sum; it always adds the product of the left and right tiles to the running sum; where `k` is the last
contraction tile (`k = 3`) it writes `sum + bias` into the output tile. On a grid of 4 contraction tiles the two
conditions never hold together, so there are three cases. Every load and store is of a whole buffer, so each buffer
ends at the payload of the last store into it. -/

/-- The first branch's condition, from the grid coordinates: the contraction tile is the first. -/
abbrev cond2_1 (i : grid2.Coords) : Prop := (Scalar.cmpi .ne (Scalar.extui (Scalar.cmpi .eq (BitVec.ofNat 32 (i 1).val) 0#32)) 0#32) = 1#1
/-- It holds at the points ≡ 0 (mod 4): the contraction coordinate is the fast axis of the grid. -/
theorem hcond2_1 : ∀ t : Fin cfg2.N, cond2_1 (grid2.coords t) ↔ t.val % 4 = 0 :=
  (by decide +kernel : ∀ t : Fin grid2.N, cond2_1 (grid2.coords t) ↔ t.val % 4 = 0)
/-- The second branch's condition (the contraction tile is the last) holds at the points ≡ 3 (mod 4). -/
theorem hcond2_2 : ∀ t : Fin cfg2.N, k2_cond2 (grid2.coords t) = 1#1 ↔ t.val % 4 = 3 :=
  (by decide +kernel : ∀ t : Fin grid2.N, k2_cond2 (grid2.coords t) = 1#1 ↔ t.val % 4 = 3)

/-- The output window is idle exactly where the contraction tile is not the last. -/
theorem idleAt2_5 : ∀ t : Fin cfg2.N, ¬ t.val % 4 = 3 → cfg2.idle 5 (grid2.coords t) = true :=
  (by decide +kernel : ∀ t : Fin grid2.N, ¬ t.val % 4 = 3 → cfg2.idle 5 (grid2.coords t) = true)
theorem liveAt2_5 : ∀ t : Fin cfg2.N, t.val % 4 = 3 → cfg2.idle 5 (grid2.coords t) = false :=
  (by decide +kernel : ∀ t : Fin grid2.N, t.val % 4 = 3 → cfg2.idle 5 (grid2.coords t) = false)

set_option maxHeartbeats 1000000 in
/-- FIRST contraction tile: the running sum, whatever it held, ends at the tiles' product added to zero; the left and
    right tiles are read only; the bias, scale, shift and output buffers are not touched. -/
theorem sound_kernel2_first (c : Dev nD) (E : Set ℕ) (i : grid2.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : cond2_1 i) (hc2 : ¬ k2_cond2 i = 1#1)
    (x : Vec F S2000x512 .f32) (w : Vec F S512x256 .f32) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k2_pay2 x w k2_pay1)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  unfold owns
  iintro ⟨⟨%f2, %hf2, H2⟩, ⟨%f3, %hf3, H3⟩, ⟨%a, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x256) hz2, View.ld_unit_zero (S := S1x256) hz2, View.ld_unit_zero (S := S2000x256) hz2, View.readCov_unit_zero (S := S2000x256) _ hz2]

set_option maxHeartbeats 1000000 in
/-- A MIDDLE contraction tile: the running sum `a` ends at the tiles' product added to it. -/
theorem sound_kernel2_mid (c : Dev nD) (E : Set ℕ) (i : grid2.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : ¬ cond2_1 i) (hc2 : ¬ k2_cond2 i = 1#1)
    (x : Vec F S2000x512 .f32) (w : Vec F S512x256 .f32) (a : Vec F S2000x256 .f32) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k2_pay2 x w a)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x256) hz2, View.ld_unit_zero (S := S1x256) hz2, View.ld_unit_zero (S := S2000x256) hz2, View.readCov_unit_zero (S := S2000x256) _ hz2]

set_option maxHeartbeats 1000000 in
/-- The LAST contraction tile: the running sum `a` ends at the tiles' product added to it, and the output tile,
    whatever it held, at that sum plus the bias row. -/
theorem sound_kernel2_last (c : Dev nD) (E : Set ℕ) (i : grid2.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole) (arg8 : Memref sig .tc .vmem S2000x256 .f32) (harg8 : arg8.IsWhole)
    (hc1 : ¬ cond2_1 i) (hc2 : k2_cond2 i = 1#1)
    (x : Vec F S2000x512 .f32) (w : Vec F S512x256 .f32) (a : Vec F S2000x256 .f32) (b : Vec F S1x256 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg7 fullShare d) ∗ owns (c : Thread nD τ) arg8 fullShare a
        ∗ (iprop(owns (c : Thread nD τ) arg2 fullShare x ∗ owns (c : Thread nD τ) arg3 fullShare w ∗ owns (c : Thread nD τ) arg4 fullShare b
            ∗ owns (c : Thread nD τ) arg7 fullShare (k2_pay3 (k2_pay2 x w a) b) ∗ owns (c : Thread nD τ) arg8 fullShare (k2_pay2 x w a)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  unfold owns
  iintro ⟨⟨%f2, %hf2, H2⟩, ⟨%f3, %hf3, H3⟩, ⟨%f4, %hf4, H4⟩, ⟨%d7, %f7, -, H7⟩, ⟨%f8, %hf8, H8⟩, Hk⟩
  subst hf2; subst hf3; subst hf4; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro; sl_unfold_run_names
    refine (read_store_last _ _ hz2 _ _ _).trans ?_
    simp only [View.readAt_eq_ld, View.ld_unit_zero (S := S2000x512) hz2, View.ld_unit_zero (S := S512x256) hz2, View.ld_unit_zero (S := S1x256) hz2, View.ld_unit_zero (S := S2000x256) hz2, View.readCov_unit_zero (S := S2000x256) _ hz2]
  iexists _; isplitr
  swap; · iexact H8
  ipureintro; sl_unfold_run_names
  refine (read_store_last _ _ hz2 _ _ _).trans ?_
  simp only [View.readAt_eq_ld, View.ld_unit_zero (S := S2000x512) hz2, View.ld_unit_zero (S := S512x256) hz2, View.ld_unit_zero (S := S1x256) hz2, View.ld_unit_zero (S := S2000x256) hz2, View.readCov_unit_zero (S := S2000x256) _ hz2]

end Cert.KernelIdeal.Hand

end
-- ==== Proof.KI.Body2.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Dat2
import proofs.«148293_j56684978372941_1_alg».proof.Proof.KI.Run2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! # The body obligation of the third tiled matmul

At every grid point the body is handed the left, right, bias, scale and shift windows at their blocks and the scratch
buffer at the running sum, and hands the scratch buffer back at the running sum one step on; the output window is
written — with the completed sum plus the bias — only where the contraction tile is the last, and is handed back as
found elsewhere. -/

/-- The proof data's arrays are the region-entry contents. -/
theorem A_eq2 (c : Dev nD) (w : Fin cfg2.W) : (dat2 V c).A w = V c (Pipeline.arrRef spec2 w) := by
  dsimp only [dat2]

/-- What the body leaves, window by window: each input's block in place, -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
/-- and in the output window the running sum after the point plus the bias row (what a last contraction tile writes
    back). -/
theorem after2_out (c : Dev nD) (t : Fin cfg2.N) :
    (dat2 V c).after 5 t = k2_pay3 (acc2 V c t.succ) (iblk2 V c 2 t) := by dsimp only [dat2]

/-- The invariant and the tallies of the proof data, projected. -/
theorem Phi2_eq (c : Dev nD) (t : Fin (cfg2.N + 1)) : (dat2 V c).Φ t = Phi2 V c t := by dsimp only [dat2]
theorem owed2_eq (c : Dev nD) (t : Fin (cfg2.N + 1)) : (dat2 V c).owed t = 0 := by dsimp only [dat2]
theorem recorded2_eq (c : Dev nD) (t : Fin (cfg2.N + 1)) : (dat2 V c).recorded t = Set.univ := by dsimp only [dat2]

/-- Each input's current staging buffer holds its block at every point, fetched there or not: an input not fetched at
    a point has the block index it had at the point before, and the body leaves every input's block in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- The output window is not written back where the contraction tile is not the last. -/
theorem noFlush2_5 (t : Fin cfg2.N) (h2 : ¬ t.val % 4 = 3) : (cfg2.win 5).flush t = false :=
  Bool.eq_false_iff.mpr fun hf => h2 ((flush2_5 t).mp hf)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: the output window as the configuration's idle table has it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ (dat2 V c).leavesExact 5 t)

set_option maxHeartbeats 2000000 in
/-- The body at any point, by the residue of the point modulo 4 (the contraction tile): the inputs' memrefs hold their
    blocks; the invariant hands over the scratch buffer — at the running sum unless the sum restarts here — and takes it
    back at the sum one step on (`acc2_succ`); the other scoped buffers, the generator register and the core's dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    Phi2_eq, Phi2_eq, after2_0, after2_1, after2_2, after2_3, after2_4]
  unfold Phi2
  by_cases h0 : t.val % 4 = 0
  · have h2 : ¬ t.val % 4 = 3 := by omega
    rw [Dat.leavesExact_idle (dat2 V c) 5 t (idleAt2_5 t h2) (noFlush2_5 t h2)]
    iintro ⟨⟨⟨%a, -, HS⟩, Hrest, Hg⟩, Ho, ⟨%d0, H0⟩, ⟨%d1, H1⟩, ⟨%d2, H2⟩, ⟨%d3, H3⟩, ⟨%d4, H4⟩, H5⟩
    iapply (sound_kernel2_first c Set.univ (grid2.coords t) _ _ _ _ _ _ _ _ _ _ _ _ _ _ ((hcond2_1 t).mpr h0) (fun h => h2 ((hcond2_2 t).mp h)) (iblk2 V c 0 t) (iblk2 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _; rw [acc2_succ, if_pos h0]
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h2 : t.val % 4 = 3
    · rw [show (dat2 V c).leavesExact 5 t = owns (c : Thread nD τ) (st2_5 t) fullShare ((dat2 V c).after 5 t) from by
        unfold Dat.leavesExact; rw [liveAt2_5 t h2], after2_out]
      iintro ⟨⟨⟨%a, %ha, HS⟩, Hrest, Hg⟩, Ho, ⟨%d0, H0⟩, ⟨%d1, H1⟩, ⟨%d2, H2⟩, ⟨%d3, H3⟩, ⟨%d4, H4⟩, ⟨%d5, H5⟩⟩
      obtain rfl := ha (by simpa using h0)
      iapply (sound_kernel2_last c Set.univ (grid2.coords t) _ _ _ _ _ _ _ _ _ _ _ _ _ _ (fun h => h0 ((hcond2_1 t).mp h)) ((hcond2_2 t).mpr h2)
        (iblk2 V c 0 t) (iblk2 V c 1 t) (acc2 V c t.castSucc) (iblk2 V c 2 t) _)
      isplitl [H0]; · iexact H0
      isplitl [H1]; · iexact H1
      isplitl [H2]; · iexact H2
      isplitl [H5]; · iexists _; iexact H5
      isplitl [HS]; · iexact HS
      iintro ⟨H0, H1, H2, H5, HS⟩
      rw [acc2_succ, if_neg h0]
      isplitl [HS Hrest Hg]
      · isplitl [HS]
        · iexists _; isplitr
          swap; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat2 V c) 5 t (idleAt2_5 t h2) (noFlush2_5 t h2)]
      iintro ⟨⟨⟨%a, %ha, HS⟩, Hrest, Hg⟩, Ho, ⟨%d0, H0⟩, ⟨%d1, H1⟩, ⟨%d2, H2⟩, ⟨%d3, H3⟩, ⟨%d4, H4⟩, H5⟩
      obtain rfl := ha (by simpa using h0)
      iapply (sound_kernel2_mid c Set.univ (grid2.coords t) _ _ _ _ _ _ _ _ _ _ _ _ _ _ (fun h => h0 ((hcond2_1 t).mp h)) (fun h => h2 ((hcond2_2 t).mp h))
        (iblk2 V c 0 t) (iblk2 V c 1 t) (acc2 V c t.castSucc) _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _; rw [acc2_succ, if_neg h0]
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg2.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«148293_j56684978372941_1_alg».proof.Proof.KI.Data
import proofs.«148293_j56684978372941_1_alg».proof.Proof.KI.Body2
import proofs.«148293_j56684978372941_1_alg».proof.Proof.KI.SharedRow
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third tiled matmul as a segment of the program's run

The region is entered with every unscoped buffer at the contents the host operations before it left, and left with
its output array at what the write-backs of the last contraction tiles leave and every other buffer as entered. The
bias row and the shift row are one array, read through two windows: at the entry its points-to is dealt to them in
halves, and at the exit the halves are joined again. The scratch buffer is one of the scoped buffers no window stages:
it enters the invariant at anything (the running sum restarts at the first point) and is given back at whatever the
last point left. -/

variable (m : (ℓ : Loc nD τ sig) → Buf (Elt F) ℓ)

/-- The bias and shift windows read one array, each holding half of it; the other windows' arrays are distinct whole
    unscoped buffers held outright. -/
theorem shared2 (c : Dev nD) : SharedRow (cfg := cfg2) (pdats m 2 c) 2 4 where
  ne := by decide
  same := rfl
  inj := by decide
  unscoped := winFacts₀2.arr_unscoped
  whole := arr_whole2
  share_i := rfl
  share_j := rfl
  share_rest := fun w => match w with
    | ⟨0, _⟩ => fun _ _ => rfl
    | ⟨1, _⟩ => fun _ _ => rfl
    | ⟨2, _⟩ => fun h _ => absurd rfl h
    | ⟨3, _⟩ => fun _ _ => rfl
    | ⟨4, _⟩ => fun _ h => absurd rfl h
    | ⟨5, _⟩ => fun _ _ => rfl

/-- The contents at the region's exit, read at the TensorCore's references. -/
abbrev X2 : (c : Dev nD) → (b : Ref sig .tc) → Buf (Elt F) ((c : Thread nD τ).loc b) := fun c b => W10 m c b

/-- An input window's array ends as it was entered: no write-back touches it, and it is not the output array. -/
theorem hF2_in (c : Dev nD) (w : Fin cfg2.W) (hin : (cfg2.win w).isOut = false)
    (hne : (Proc.devRef .tc (Pipeline.arrRef spec2 w) : DevRef τ sig) ≠ Proc.devRef .tc main_v150) :
    (dat2 (E2 m) c).arrAt w cfg2.N = X2 m c (Pipeline.arrRef spec2 w) := by
  rw [Dat.arrAt_in _ w hin, A_eq2]
  show W9 m c (Proc.devRef .tc (Pipeline.arrRef spec2 w)) = W10 m c (Proc.devRef .tc (Pipeline.arrRef spec2 w))
  unfold W10; exact (Function.update_of_ne hne _ _).symm

/-- At the region's exit each of its arrays holds what the pipeline leaves: the inputs their entry contents, the output
    the write-backs folded over the grid. -/
theorem hF2 (c : Dev nD) : ∀ w : Fin cfg2.W, (dat2 (E2 m) c).arrAt w cfg2.N = X2 m c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => by
    refine Eq.symm ?_
    show W10 m c (Proc.devRef .tc main_v150) = out2 m c
    unfold W10; exact Function.update_self ..

/-- Every buffer that is no array of the region holds at its exit what it held at its entry. -/
theorem hrest2 (c : Dev nD) : ∀ b, b ∉ Finset.univ.image (Pipeline.arrRef spec2) → X2 m c b = E2 m c b := fun b hb => by
  show W10 m c (Proc.devRef .tc b) = W9 m c (Proc.devRef .tc b)
  unfold W10
  exact Function.update_of_ne (fun e => hb (Finset.mem_image.mpr ⟨5, Finset.mem_univ _,
    (show Pipeline.arrRef spec2 5 = b from (Proc.devRef_injective _ e).symm)⟩)) _ _

-- the entry and exit lemmas speak of the pipeline's configuration through a definition that must be unfolded to meet cfg2
set_option backward.isDefEq.respectTransparency.types false in
/-- The third matmul's region over the thread state: entered from every unscoped buffer at the contents before it,
    left at those contents with the output array replaced. Its arrays are split out of the unscoped buffers — the shared
    row in halves — and put back at the exit contents; the generator register and the scratch buffer go into the invariant
    and come back out; nothing is owed; the kernel has no semaphore of its own. -/
def reg2 : Pipeline.RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := (shared2 m c).entry (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Phi2 (E2 m) c 0 from rfl]; unfold Phi2
    rw [show (Pipeline.scopedRest (Pipeline.pin (pcfgs (F := F)) Gen.adm 2).spec c : sProp 𝕄) = _ from scopedRest2_split c]
    iintro ⟨Hp, -, ⟨%f, Hs⟩, Hrest⟩
    isplitl [Hs]
    · iexists f; isplitr
      · ipureintro; intro h; exact absurd rfl h
      rw [owns_whole]; iexact Hs
    isplitl [Hrest]; · iexact Hrest
    iexact Hp
  hout c := by
    rw [Pipeline.ownSems0_none, show (pdats m 2 c).Φ (Fin.last _) = Phi2 (E2 m) c (Fin.last _) from rfl]; unfold Phi2
    rw [show (Pipeline.scopedRest (Pipeline.pin (pcfgs (F := F)) Gen.adm 2).spec c : sProp 𝕄) = _ from scopedRest2_split c]
    iintro ⟨⟨%a, -, Hs⟩, Hrest, Hr⟩
    isplitl [Hr]; · iexact Hr
    isplitr; · iempintro
    isplitl [Hs]
    · iexists a; rw [← owns_whole]; iexact Hs
    iexact Hrest
  hexit c := by
    have hjoin := (shared2 m c).exit (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from and left at the boundary contents beside the rest, as stated. -/
theorem hpre2 (c : Dev nD) : iprop(StableHlo.held (c : Thread nD τ) (Pipeline.ucRefs τ sig) (W9 m c) ∗ R c) ⊢ (reg2 m).pre c := .rfl
theorem hpost2 (c : Dev nD) : (reg2 m).post c ⊢ iprop(StableHlo.held (c : Thread nD τ) (Pipeline.ucRefs τ sig) (W10 m c) ∗ R c) := .rfl

end Cert.KernelIdeal.Hand

end
-- ==== Proof.KI.Body3.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Dat3
import proofs.«148293_j56684978372941_1_alg».proof.Proof.KI.Run3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the fourth matmul region is entered
variable (V : (c : Dev nD) → (b : Ref sig .tc) → Buf (Elt F) ((c : Thread nD τ).loc b))

/-! # The body obligation of the fourth tiled matmul

At every grid point the body is handed the `x`, `w`, bias, scale and shift windows at their blocks and the scratch
buffer at the running sum, and hands the scratch buffer back at the running sum one step on; the output window is
written — with the epilogue of the completed sum — only where the contraction tile is the last, and is handed back
as found elsewhere. -/

/-- The proof data's arrays are the region-entry contents. -/
theorem A_eq3 (c : Dev nD) (w : Fin cfg3.W) : (dat3 V c).A w = V c (Pipeline.arrRef spec3 w) := by
  dsimp only [dat3]

/-- What the body leaves, window by window: each input's block in place, -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
/-- and in the output window the epilogue `relu (sum + bias) * scale + shift` of the running sum after the point and
    the bias, scale and shift rows (what a last contraction tile writes back). -/
theorem after3_out (c : Dev nD) (t : Fin cfg3.N) :
    (dat3 V c).after 5 t = k3_pay3 (acc3 V c t.succ) (iblk3 V c 2 t) (iblk3 V c 3 t) (iblk3 V c 4 t) := by dsimp only [dat3]

/-- The invariant, the tallies and the shares of the proof data, projected. -/
theorem Phi3_eq (c : Dev nD) (t : Fin (cfg3.N + 1)) : (dat3 V c).Φ t = Phi3 V c t := by dsimp only [dat3]
theorem owed3_eq (c : Dev nD) (t : Fin (cfg3.N + 1)) : (dat3 V c).owed t = 0 := by dsimp only [dat3]
theorem q3_eq (c : Dev nD) (w : Fin cfg3.W) : (dat3 V c).q w = fullShare := by dsimp only [dat3]
theorem recorded3_eq (c : Dev nD) (t : Fin (cfg3.N + 1)) : (dat3 V c).recorded t = Set.univ := by dsimp only [dat3]

/-- Each input's current staging buffer holds its block at every point, fetched there or not: an input not fetched at
    a point has the block index it had at the point before, and the body leaves every input's block in place. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

/-- The output window is not written back where the contraction tile is not the last. -/
theorem noFlush3_5 (t : Fin cfg3.N) (h2 : ¬ t.val % 3 = 2) : (cfg3.win 5).flush t = false :=
  Bool.eq_false_iff.mpr fun hf => h2 ((flush3_5 t).mp hf)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: the output window as the configuration's idle table has it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ (dat3 V c).leavesExact 5 t)

set_option maxHeartbeats 2000000 in
/-- The body at any point, by the residue of the point modulo 3 (the contraction tile): the inputs' memrefs hold their
    blocks; the invariant hands over the scratch buffer — at the running sum unless the sum restarts here — and takes it
    back at the sum one step on (`acc3_succ`); the other scoped buffers, the generator register and the core's `owes`
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    Phi3_eq, Phi3_eq, after3_0, after3_1, after3_2, after3_3, after3_4]
  unfold Phi3
  by_cases h0 : t.val % 3 = 0
  · have h2 : ¬ t.val % 3 = 2 := by omega
    rw [Dat.leavesExact_idle (dat3 V c) 5 t (idleAt3_5 t h2) (noFlush3_5 t h2)]
    iintro ⟨⟨⟨%a, -, HS⟩, Hrest, Hg⟩, Ho, ⟨%d0, H0⟩, ⟨%d1, H1⟩, ⟨%d2, H2⟩, ⟨%d3, H3⟩, ⟨%d4, H4⟩, H5⟩
    iapply (sound_kernel3_first c Set.univ (grid3.coords t) _ _ _ _ _ _ _ _ _ _ _ _ _ _ ((hcond3_1 t).mpr h0) (fun h => h2 ((hcond3_2 t).mp h)) (iblk3 V c 0 t) (iblk3 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _; rw [acc3_succ, if_pos h0]
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h2 : t.val % 3 = 2
    · rw [show (dat3 V c).leavesExact 5 t = owns (c : Thread nD τ) (st3_5 t) fullShare ((dat3 V c).after 5 t) from by
        unfold Dat.leavesExact; rw [liveAt3_5 t h2], after3_out]
      iintro ⟨⟨⟨%a, %ha, HS⟩, Hrest, Hg⟩, Ho, ⟨%d0, H0⟩, ⟨%d1, H1⟩, ⟨%d2, H2⟩, ⟨%d3, H3⟩, ⟨%d4, H4⟩, ⟨%d5, H5⟩⟩
      obtain rfl := ha (by simpa using h0)
      iapply (sound_kernel3_last c Set.univ (grid3.coords t) _ _ _ _ _ _ _ _ _ _ _ _ _ _ (fun h => h0 ((hcond3_1 t).mp h)) ((hcond3_2 t).mpr h2)
        (iblk3 V c 0 t) (iblk3 V c 1 t) (acc3 V c t.castSucc) (iblk3 V c 2 t) (iblk3 V c 3 t) (iblk3 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      rw [acc3_succ, if_neg h0]
      isplitl [HS Hrest Hg]
      · isplitl [HS]
        · iexists _; isplitr
          swap; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat3 V c) 5 t (idleAt3_5 t h2) (noFlush3_5 t h2)]
      iintro ⟨⟨⟨%a, %ha, HS⟩, Hrest, Hg⟩, Ho, ⟨%d0, H0⟩, ⟨%d1, H1⟩, ⟨%d2, H2⟩, ⟨%d3, H3⟩, ⟨%d4, H4⟩, H5⟩
      obtain rfl := ha (by simpa using h0)
      iapply (sound_kernel3_mid c Set.univ (grid3.coords t) _ _ _ _ _ _ _ _ _ _ _ _ _ _ (fun h => h0 ((hcond3_1 t).mp h)) (fun h => h2 ((hcond3_2 t).mp h))
        (iblk3 V c 0 t) (iblk3 V c 1 t) (acc3 V c t.castSucc) _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _; rw [acc3_succ, if_neg h0]
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg3.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«148293_j56684978372941_1_alg».proof.Proof.KI.Data
import proofs.«148293_j56684978372941_1_alg».proof.Proof.KI.Body3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The fourth tiled matmul as a segment of the program's run

The region is entered with every unscoped buffer at the contents the host operations before it left, and left with
its output array at what the write-backs of the last contraction tiles leave and every other buffer as entered. Its
scratch buffer is one of the scoped buffers no window stages: it enters the invariant at anything (the running sum
restarts at the first point) and is given back at whatever the last point left. -/

/-- The contents at the region's exit, read at the TensorCore's references. -/
abbrev X3 : (c : Dev nD) → (b : Ref sig .tc) → Buf (Elt F) ((c : Thread nD τ).loc b) := fun c b => W16 m c b

/-- An input window's array ends as it was entered: no write-back touches it, and it is not the output array. -/
theorem hF3_in (c : Dev nD) (w : Fin cfg3.W) (hin : (cfg3.win w).isOut = false)
    (hne : (Proc.devRef .tc (Pipeline.arrRef spec3 w) : DevRef τ sig) ≠ Proc.devRef .tc main_v198) :
    (dat3 (E3 m) c).arrAt w cfg3.N = X3 m c (Pipeline.arrRef spec3 w) := by
  rw [Dat.arrAt_in _ w hin, A_eq3]
  show W15 m c (Proc.devRef .tc (Pipeline.arrRef spec3 w)) = W16 m c (Proc.devRef .tc (Pipeline.arrRef spec3 w))
  unfold W16; exact (Function.update_of_ne hne _ _).symm

/-- At the region's exit each of its arrays holds what the pipeline leaves: the inputs their entry contents, the output
    the write-backs folded over the grid. -/
theorem hF3 (c : Dev nD) : ∀ w : Fin cfg3.W, (dat3 (E3 m) c).arrAt w cfg3.N = X3 m c (Pipeline.arrRef spec3 w)
  | ⟨0, _⟩ => hF3_in m c 0 rfl (by decide)
  | ⟨1, _⟩ => hF3_in m c 1 rfl (by decide)
  | ⟨2, _⟩ => hF3_in m c 2 rfl (by decide)
  | ⟨3, _⟩ => hF3_in m c 3 rfl (by decide)
  | ⟨4, _⟩ => hF3_in m c 4 rfl (by decide)
  | ⟨5, _⟩ => by
    refine Eq.symm ?_
    show W16 m c (Proc.devRef .tc main_v198) = out3 m c
    unfold W16; exact Function.update_self ..

/-- Every buffer that is no array of the region holds at its exit what it held at its entry. -/
theorem hrest3 (c : Dev nD) : ∀ b, b ∉ Finset.univ.image (Pipeline.arrRef spec3) → X3 m c b = E3 m c b := fun b hb => by
  show W16 m c (Proc.devRef .tc b) = W15 m c (Proc.devRef .tc b)
  unfold W16
  exact Function.update_of_ne (fun e => hb (Finset.mem_image.mpr ⟨5, Finset.mem_univ _,
    (show Pipeline.arrRef spec3 5 = b from (Proc.devRef_injective _ e).symm)⟩)) _ _

-- the library's entry and exit lemmas speak of the pipeline's configuration through a definition that must be unfolded to meet cfg3
set_option backward.isDefEq.respectTransparency.types false in
/-- The fourth matmul's region over the thread state: entered from every unscoped buffer at the contents before it,
    left at those contents with the output array replaced. Its arrays are split out of the unscoped buffers and put back
    at the exit contents; the generator register and the scratch buffer go into the invariant and come back out; nothing
    is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Phi3 (E3 m) c 0 from rfl]; unfold Phi3
    rw [show (Pipeline.scopedRest (Pipeline.pin (pcfgs (F := F)) Gen.adm 3).spec c : sProp 𝕄) = _ from scopedRest3_split c]
    iintro ⟨Hp, -, ⟨%f, Hs⟩, Hrest⟩
    isplitl [Hs]
    · iexists f; isplitr
      · ipureintro; intro h; exact absurd rfl h
      rw [owns_whole]; iexact Hs
    isplitl [Hrest]; · iexact Hrest
    iexact Hp
  hout c := by
    rw [Pipeline.ownSems0_none, show (pdats m 3 c).Φ (Fin.last _) = Phi3 (E3 m) c (Fin.last _) from rfl]; unfold Phi3
    rw [show (Pipeline.scopedRest (Pipeline.pin (pcfgs (F := F)) Gen.adm 3).spec c : sProp 𝕄) = _ from scopedRest3_split c]
    iintro ⟨⟨%a, -, Hs⟩, Hrest, Hr⟩
    isplitl [Hr]; · iexact Hr
    isplitr; · iempintro
    isplitl [Hs]
    · iexists a; rw [← owns_whole]; iexact Hs
    iexact Hrest
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from and left at the boundary contents beside the rest, as stated. -/
theorem hpre3 (c : Dev nD) : iprop(StableHlo.held (c : Thread nD τ) (Pipeline.ucRefs τ sig) (W15 m c) ∗ R c) ⊢ (reg3 m).pre c := .rfl
theorem hpost3 (c : Dev nD) : (reg3 m).post c ⊢ iprop(StableHlo.held (c : Thread nD τ) (Pipeline.ucRefs τ sig) (W16 m c) ∗ R c) := .rfl

end Cert.KernelIdeal.Hand

end
-- ==== Proof.Ref.Fold.lean ====
import Idealize.ShloMosaic.Lib.Pipeline.Frame

/-!
# A line of single-assignment operations, read one operation at a time

A straight line of host operations in which every operation writes one buffer of its own is a system of
equations: the buffer an operation writes ends holding the operation's function of what its operands end
holding.  Two facts about the fold `StableHlo.after` give this.  A buffer that no operation from position
`k` on writes holds at the end what it held after the first `k` operations; and the buffer operation `k`
writes, if no later operation writes it again, holds at the end what operation `k` put there.  Both are
stated against a list `W` naming, position by position, the buffer each operation writes, so that "is not
written from position `k` on" is the decidable `r ∉ W.drop k` over references.
-/

noncomputable section

namespace Cert.ReferenceIdeal.Hand

open Idealize.ShloMosaic Idealize.ShloMosaic.StableHlo

variable {τ : Topo} {sig : RefSig} {Val : EltTy → Type}

/-- `W` names, position by position, the one buffer each operation of the line writes. -/
abbrev WritesAt (ops : List (HloOp τ sig Val)) (W : List (Ref sig .tc)) : Prop :=
  List.Forall₂ (fun op r => op.writes = {Proc.devRef (τ := τ) .tc r}) ops W

/-- Two lines in a row write what each writes, in a row. -/
theorem WritesAt.append {l₁ l₂ : List (HloOp τ sig Val)} {W₁ W₂ : List (Ref sig .tc)}
    (h₁ : WritesAt l₁ W₁) (h₂ : WritesAt l₂ W₂) : WritesAt (l₁ ++ l₂) (W₁ ++ W₂) :=
  List.rel_append h₁ h₂

/-- A reference that is not among the written ones is written by no operation of the line. -/
theorem WritesAt.not_written : ∀ {ops : List (HloOp τ sig Val)} {W : List (Ref sig .tc)}, WritesAt ops W →
    ∀ {a : Ref sig .tc}, a ∉ W → ∀ op ∈ ops, Proc.devRef (τ := τ) .tc a ∉ op.writes
  | _, _, .nil, _, _, _, hop => nomatch hop
  | _, _, .cons hr ht, a, ha, op, hop => by
    rcases List.mem_cons.mp hop with rfl | hop
    · rw [hr, Finset.mem_singleton]
      exact devRef_ne_of_ne fun e => ha (e ▸ List.mem_cons_self)
    · exact WritesAt.not_written ht (fun h => ha (List.mem_cons_of_mem _ h)) op hop

/-- The same from any position on. -/
theorem WritesAt.drop {ops : List (HloOp τ sig Val)} {W : List (Ref sig .tc)} (h : WritesAt ops W) (k : Nat) :
    WritesAt (ops.drop k) (W.drop k) :=
  List.forall₂_drop k h

/-- A buffer no operation from position `k` on writes: at the end it holds what it held after the first `k`. -/
theorem after_eq_take {ops : List (HloOp τ sig Val)} {W : List (Ref sig .tc)} (h : WritesAt ops W) (k : Nat)
    {a : Ref sig .tc} (ha : a ∉ W.drop k) (V : Valuation τ sig Val) :
    after ops V (Proc.devRef .tc a) = after (ops.take k) V (Proc.devRef .tc a) := by
  conv_lhs => rw [← List.take_append_drop k ops, after_append]
  exact after_of_forall_not_mem _ _ ((h.drop k).not_written ha)

/-- The buffer operation `k` writes, not written again later: at the end it holds what operation `k` left. -/
theorem after_eq_result {ops : List (HloOp τ sig Val)} {W : List (Ref sig .tc)} (h : WritesAt ops W) (k : Nat)
    {op : HloOp τ sig Val} (hop : ops[k]? = some op) {y : Ref sig .tc} (hy : y ∉ W.drop (k + 1))
    (V : Valuation τ sig Val) :
    after ops V (Proc.devRef .tc y) = op.result (after (ops.take k) V) (Proc.devRef .tc y) := by
  obtain ⟨hk, rfl⟩ := List.getElem?_eq_some_iff.mp hop
  conv_lhs => rw [← List.take_append_drop k ops, after_append, List.drop_eq_getElem_cons hk, after_cons]
  exact after_of_forall_not_mem _ _ ((h.drop (k + 1)).not_written hy)

/-- A property of every operation of two lines holds of every operation of the two in a row. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

section Stages

variable {ops : List (HloOp τ sig Val)} {W : List (Ref sig .tc)} (h : WritesAt ops W) (k : Nat)
variable {x a b c y : Ref sig .tc}
include h

/-- Operation `k` a constant: its buffer ends at the constant. -/
theorem stage_nullary {v : y.ty.Contents Val} {hy}
    (hop : ops[k]? = some (nullary (τ := τ) y v hy)) (hy' : y ∉ W.drop (k + 1)) (V : Valuation τ sig Val) :
    after ops V (Proc.devRef .tc y) = v := by
  rw [after_eq_result h k hop hy' V, nullary_result]

/-- Operation `k` of one operand: its buffer ends at the function of what the operand's ends holding. -/
theorem stage_unary {f : x.ty.Contents Val → y.ty.Contents Val} {hx hy}
    (hop : ops[k]? = some (unary (τ := τ) x y f hx hy)) (hy' : y ∉ W.drop (k + 1)) (hx' : x ∉ W.drop k)
    (V : Valuation τ sig Val) :
    after ops V (Proc.devRef .tc y) = f (after ops V (Proc.devRef .tc x)) := by
  rw [after_eq_result h k hop hy' V, unary_result, after_eq_take h k hx' V]

/-- Operation `k` of two operands. -/
theorem stage_binary {f : a.ty.Contents Val → b.ty.Contents Val → y.ty.Contents Val} {ha hb hy}
    (hop : ops[k]? = some (binary (τ := τ) a b y f ha hb hy)) (hy' : y ∉ W.drop (k + 1))
    (ha' : a ∉ W.drop k) (hb' : b ∉ W.drop k) (V : Valuation τ sig Val) :
    after ops V (Proc.devRef .tc y) = f (after ops V (Proc.devRef .tc a)) (after ops V (Proc.devRef .tc b)) := by
  rw [after_eq_result h k hop hy' V, binary_result, after_eq_take h k ha' V, after_eq_take h k hb' V]

/-- Operation `k` of three operands. -/
theorem stage_ternary {f : c.ty.Contents Val → a.ty.Contents Val → b.ty.Contents Val → y.ty.Contents Val} {hc ha hb hy}
    (hop : ops[k]? = some (ternary (τ := τ) c a b y f hc ha hb hy)) (hy' : y ∉ W.drop (k + 1))
    (hc' : c ∉ W.drop k) (ha' : a ∉ W.drop k) (hb' : b ∉ W.drop k) (V : Valuation τ sig Val) :
    after ops V (Proc.devRef .tc y)
      = f (after ops V (Proc.devRef .tc c)) (after ops V (Proc.devRef .tc a)) (after ops V (Proc.devRef .tc b)) := by
  rw [after_eq_result h k hop hy' V, ternary_result, after_eq_take h k hc' V, after_eq_take h k ha' V,
    after_eq_take h k hb' V]

/-- Operation `k` a change of shape: the operand's elements in row-major order. -/
theorem stage_reshape {he hn hx hy}
    (hop : ops[k]? = some (reshape (τ := τ) (Val := Val) x y he hn hx hy)) (hy' : y ∉ W.drop (k + 1))
    (hx' : x ∉ W.drop k) (V : Valuation τ sig Val) :
    after ops V (Proc.devRef .tc y) = fun i => he ▸ shapeCast y.ty.shape (after ops V (Proc.devRef .tc x)) hn i := by
  rw [after_eq_result h k hop hy' V, reshape_result, after_eq_take h k hx' V]

/-- Operation `k` of a family of operands. -/
theorem stage_nary {n : Nat} {xs : Fin n → Ref sig .tc} {f : ((i : Fin n) → (xs i).ty.Contents Val) → y.ty.Contents Val}
    {hxs hy} (hop : ops[k]? = some (nary (τ := τ) xs y f hxs hy)) (hy' : y ∉ W.drop (k + 1))
    (hxs' : ∀ i, xs i ∉ W.drop k) (V : Valuation τ sig Val) :
    after ops V (Proc.devRef .tc y) = f (fun i => after ops V (Proc.devRef .tc (xs i))) := by
  rw [after_eq_result h k hop hy' V, nary_result]
  congr 1; funext i; exact (after_eq_take h k (hxs' i) V).symm

end Stages

end Cert.ReferenceIdeal.Hand

end
-- ==== Proof.Ref.Ops0.lean ====
import proofs.«148293_j56684978372941_1_alg».proof.Proof.Gen.ReferenceIdeal
import proofs.«148293_j56684978372941_1_alg».proof.Proof.Ref.Fold

/-!
# The reference's statements 1 to 60, as a list of operations

The printed window `main_part0` is a straight line of host operations; a call of an outlined function
is that function's operations over the buffers of the call.  Each stretch between calls, and each call's
body, is listed here in order, with the buffer each operation writes beside it; the window is then the
line of all of them.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 60 operations of `@main`, from the one writing `main_c` to the one writing `main_v48`. -/
abbrev encodeAndFirstMessages : List (HloOp τ sig (Elt F)) :=
  ( StableHlo.nullary main_c (constantI S_ 32 0#32)
  :: StableHlo.unary main_c main_v0 (broadcastInDim S50000 ![] bcast_S_S50000 : (⟨S_, .i32⟩ : BufTy).Contents (Elt F) → (⟨S50000, .i32⟩ : BufTy).Contents (Elt F))
  :: StableHlo.binary main_arg0 main_v0 main_v1 (cmpi .slt : (⟨S50000, .i32⟩ : BufTy).Contents (Elt F) → (⟨S50000, .i32⟩ : BufTy).Contents (Elt F) → (⟨S50000, .i1⟩ : BufTy).Contents (Elt F))
  :: StableHlo.nullary main_c_0 (constantI S_ 32 16#32)
  :: StableHlo.unary main_c_0 main_v2 (broadcastInDim S50000 ![] bcast_S_S50000 : (⟨S_, .i32⟩ : BufTy).Contents (Elt F) → (⟨S50000, .i32⟩ : BufTy).Contents (Elt F))
  :: StableHlo.binary main_arg0 main_v2 main_v3 (addi : (⟨S50000, .i32⟩ : BufTy).Contents (Elt F) → (⟨S50000, .i32⟩ : BufTy).Contents (Elt F) → (⟨S50000, .i32⟩ : BufTy).Contents (Elt F))
  :: StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v4 main_v5 (broadcastInDim S50000x1 ![0] bcast_S50000_S50000x1_0 : (⟨S50000, .i32⟩ : BufTy).Contents (Elt F) → (⟨S50000x1, .i32⟩ : BufTy).Contents (Elt F))
  :: StableHlo.binary main_arg10 main_v5 main_v6 ((fun x i => Host.gather gather_S16x512_S50000x1_S50000x512_1_0_n_n_0_1_1512 x i) : (⟨S16x512, .f32⟩ : BufTy).Contents (Elt F) → (⟨S50000x1, .i32⟩ : BufTy).Contents (Elt F) → (⟨S50000x512, .f32⟩ : BufTy).Contents (Elt F))
  :: StableHlo.binary main_arg9 main_v6 main_v7 (addf : (⟨S50000x512, .f32⟩ : BufTy).Contents (Elt F) → (⟨S50000x512, .f32⟩ : BufTy).Contents (Elt F) → (⟨S50000x512, .f32⟩ : BufTy).Contents (Elt F))
  :: StableHlo.binary main_v7 main_arg11 main_v8 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.nullary main_c_1 (constantI S_ 32 0#32)
  :: StableHlo.unary main_c_1 main_v9 (broadcastInDim S200000 ![] bcast_S_S200000 : (⟨S_, .i32⟩ : BufTy).Contents (Elt F) → (⟨S200000, .i32⟩ : BufTy).Contents (Elt F))
  :: StableHlo.binary main_arg1 main_v9 main_v10 (cmpi .slt : (⟨S200000, .i32⟩ : BufTy).Contents (Elt F) → (⟨S200000, .i32⟩ : BufTy).Contents (Elt F) → (⟨S200000, .i1⟩ : BufTy).Contents (Elt F))
  :: StableHlo.nullary main_c_2 (constantI S_ 32 50000#32)
  :: StableHlo.unary main_c_2 main_v11 (broadcastInDim S200000 ![] bcast_S_S200000 : (⟨S_, .i32⟩ : BufTy).Contents (Elt F) → (⟨S200000, .i32⟩ : BufTy).Contents (Elt F))
  :: StableHlo.binary main_arg1 main_v11 main_v12 (addi : (⟨S200000, .i32⟩ : BufTy).Contents (Elt F) → (⟨S200000, .i32⟩ : BufTy).Contents (Elt F) → (⟨S200000, .i32⟩ : BufTy).Contents (Elt F))
  :: StableHlo.ternary main_v10 main_v12 main_arg1 main_v13 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v13 main_v14 (broadcastInDim S200000x1 ![0] bcast_S200000_S200000x1_0 : (⟨S200000, .i32⟩ : BufTy).Contents (Elt F) → (⟨S200000x1, .i32⟩ : BufTy).Contents (Elt F))
  :: StableHlo.binary main_v7 main_v14 main_v15 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst (constant S_ .f32 0x00000000#32)
  :: StableHlo.unary main_cst main_v16 (broadcastInDim S50000x512 ![] bcast_S_S50000x512 : (⟨S_, .f32⟩ : BufTy).Contents (Elt F) → (⟨S50000x512, .f32⟩ : BufTy).Contents (Elt F))
  :: StableHlo.unary main_arg2 main_v17 (broadcastInDim S200000x1 ![0] bcast_S200000_S200000x1_0 : (⟨S200000, .i32⟩ : BufTy).Contents (Elt F) → (⟨S200000x1, .i32⟩ : BufTy).Contents (Elt F))
  :: StableHlo.ternary main_v16 main_v17 main_v15 main_v18 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg12 main_v19 ((extractStridedSlice S1x512x512 ![0, 0, 0] · slices_S3x512x512_S1x512x512_0_0_0) : (⟨S3x512x512, .f32⟩ : BufTy).Contents (Elt F) → (⟨S1x512x512, .f32⟩ : BufTy).Contents (Elt F))
  :: StableHlo.reshape main_v19 main_v20 rfl shapeCasts_S1x512x512_S512x512
  :: StableHlo.binary main_v18 main_v20 main_v21 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v8 main_v21 main_v22 (addf : (⟨S50000x512, .f32⟩ : BufTy).Contents (Elt F) → (⟨S50000x512, .f32⟩ : BufTy).Contents (Elt F) → (⟨S50000x512, .f32⟩ : BufTy).Contents (Elt F))
  :: StableHlo.nullary main_c_3 (constantI S_ 32 0#32)
  :: StableHlo.unary main_c_3 main_v23 (broadcastInDim S200000 ![] bcast_S_S200000 : (⟨S_, .i32⟩ : BufTy).Contents (Elt F) → (⟨S200000, .i32⟩ : BufTy).Contents (Elt F))
  :: StableHlo.binary main_arg3 main_v23 main_v24 (cmpi .slt : (⟨S200000, .i32⟩ : BufTy).Contents (Elt F) → (⟨S200000, .i32⟩ : BufTy).Contents (Elt F) → (⟨S200000, .i1⟩ : BufTy).Contents (Elt F))
  :: StableHlo.nullary main_c_4 (constantI S_ 32 50000#32)
  :: StableHlo.unary main_c_4 main_v25 (broadcastInDim S200000 ![] bcast_S_S200000 : (⟨S_, .i32⟩ : BufTy).Contents (Elt F) → (⟨S200000, .i32⟩ : BufTy).Contents (Elt F))
  :: StableHlo.binary main_arg3 main_v25 main_v26 (addi : (⟨S200000, .i32⟩ : BufTy).Contents (Elt F) → (⟨S200000, .i32⟩ : BufTy).Contents (Elt F) → (⟨S200000, .i32⟩ : BufTy).Contents (Elt F))
  :: StableHlo.ternary main_v24 main_v26 main_arg3 main_v27 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v27 main_v28 (broadcastInDim S200000x1 ![0] bcast_S200000_S200000x1_0 : (⟨S200000, .i32⟩ : BufTy).Contents (Elt F) → (⟨S200000x1, .i32⟩ : BufTy).Contents (Elt F))
  :: StableHlo.binary main_v7 main_v28 main_v29 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_5 (constant S_ .f32 0x00000000#32)
  :: StableHlo.unary main_cst_5 main_v30 (broadcastInDim S50000x512 ![] bcast_S_S50000x512 : (⟨S_, .f32⟩ : BufTy).Contents (Elt F) → (⟨S50000x512, .f32⟩ : BufTy).Contents (Elt F))
  :: StableHlo.unary main_arg4 main_v31 (broadcastInDim S200000x1 ![0] bcast_S200000_S200000x1_0 : (⟨S200000, .i32⟩ : BufTy).Contents (Elt F) → (⟨S200000x1, .i32⟩ : BufTy).Contents (Elt F))
  :: StableHlo.ternary main_v30 main_v31 main_v29 main_v32 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg12 main_v33 ((extractStridedSlice S1x512x512 ![1, 0, 0] · slices_S3x512x512_S1x512x512_1_0_0) : (⟨S3x512x512, .f32⟩ : BufTy).Contents (Elt F) → (⟨S1x512x512, .f32⟩ : BufTy).Contents (Elt F))
  :: StableHlo.reshape main_v33 main_v34 rfl shapeCasts_S1x512x512_S512x512
  :: StableHlo.binary main_v32 main_v34 main_v35 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v22 main_v35 main_v36 (addf : (⟨S50000x512, .f32⟩ : BufTy).Contents (Elt F) → (⟨S50000x512, .f32⟩ : BufTy).Contents (Elt F) → (⟨S50000x512, .f32⟩ : BufTy).Contents (Elt F))
  :: StableHlo.nullary main_c_6 (constantI S_ 32 0#32)
  :: StableHlo.unary main_c_6 main_v37 (broadcastInDim S200000 ![] bcast_S_S200000 : (⟨S_, .i32⟩ : BufTy).Contents (Elt F) → (⟨S200000, .i32⟩ : BufTy).Contents (Elt F))
  :: StableHlo.binary main_arg5 main_v37 main_v38 (cmpi .slt : (⟨S200000, .i32⟩ : BufTy).Contents (Elt F) → (⟨S200000, .i32⟩ : BufTy).Contents (Elt F) → (⟨S200000, .i1⟩ : BufTy).Contents (Elt F))
  :: StableHlo.nullary main_c_7 (constantI S_ 32 50000#32)
  :: StableHlo.unary main_c_7 main_v39 (broadcastInDim S200000 ![] bcast_S_S200000 : (⟨S_, .i32⟩ : BufTy).Contents (Elt F) → (⟨S200000, .i32⟩ : BufTy).Contents (Elt F))
  :: StableHlo.binary main_arg5 main_v39 main_v40 (addi : (⟨S200000, .i32⟩ : BufTy).Contents (Elt F) → (⟨S200000, .i32⟩ : BufTy).Contents (Elt F) → (⟨S200000, .i32⟩ : BufTy).Contents (Elt F))
  :: StableHlo.ternary main_v38 main_v40 main_arg5 main_v41 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v41 main_v42 (broadcastInDim S200000x1 ![0] bcast_S200000_S200000x1_0 : (⟨S200000, .i32⟩ : BufTy).Contents (Elt F) → (⟨S200000x1, .i32⟩ : BufTy).Contents (Elt F))
  :: StableHlo.binary main_v7 main_v42 main_v43 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_8 (constant S_ .f32 0x00000000#32)
  :: StableHlo.unary main_cst_8 main_v44 (broadcastInDim S50000x512 ![] bcast_S_S50000x512 : (⟨S_, .f32⟩ : BufTy).Contents (Elt F) → (⟨S50000x512, .f32⟩ : BufTy).Contents (Elt F))
  :: StableHlo.unary main_arg6 main_v45 (broadcastInDim S200000x1 ![0] bcast_S200000_S200000x1_0 : (⟨S200000, .i32⟩ : BufTy).Contents (Elt F) → (⟨S200000x1, .i32⟩ : BufTy).Contents (Elt F))
  :: StableHlo.ternary main_v44 main_v45 main_v43 main_v46 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg12 main_v47 ((extractStridedSlice S1x512x512 ![2, 0, 0] · slices_S3x512x512_S1x512x512_2_0_0) : (⟨S3x512x512, .f32⟩ : BufTy).Contents (Elt F) → (⟨S1x512x512, .f32⟩ : BufTy).Contents (Elt F))
  :: StableHlo.reshape main_v47 main_v48 rfl shapeCasts_S1x512x512_S512x512
  :: [] )

/-- The buffer each of them writes, in order. -/
abbrev encodeAndFirstMessagesW : List (Ref sig .tc) :=
  [main_c, main_v0, main_v1, main_c_0, main_v2, main_v3, main_v4, main_v5, main_v6, main_v7, main_v8, main_c_1, main_v9, main_v10, main_c_2, main_v11, main_v12, main_v13, main_v14, main_v15, main_cst, main_v16, main_v17, main_v18, main_v19, main_v20, main_v21, main_v22, main_c_3, main_v23, main_v24, main_c_4, main_v25, main_v26, main_v27, main_v28, main_v29, main_cst_5, main_v30, main_v31, main_v32, main_v33, main_v34, main_v35, main_v36, main_c_6, main_v37, main_v38, main_c_7, main_v39, main_v40, main_v41, main_v42, main_v43, main_cst_8, main_v44, main_v45, main_v46, main_v47, main_v48]

theorem encodeAndFirstMessages_writes : WritesAt (encodeAndFirstMessages : List (HloOp τ sig (Elt F))) encodeAndFirstMessagesW :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))))))))))))))))))))))))))))))))

theorem encodeAndFirstMessages_sub : (encodeAndFirstMessages : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub ..⟩

theorem encodeAndFirstMessages_fresh : (encodeAndFirstMessages : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 0: its stretches and calls in a row. -/
abbrev ops0 : List (HloOp τ sig (Elt F)) := encodeAndFirstMessages

/-- The buffer each operation of window 0 writes, in order. -/
abbrev W0 : List (Ref sig .tc) := encodeAndFirstMessagesW

theorem ops0_writes : WritesAt (ops0 : List (HloOp τ sig (Elt F))) W0 :=
  encodeAndFirstMessages_writes

theorem ops0_sub : (ops0 : List (HloOp τ sig (Elt F))).Forall fun op => op.bufs ⊆ tcRefs τ sig :=
  encodeAndFirstMessages_sub

theorem ops0_fresh : (ops0 : List (HloOp τ sig (Elt F))).Forall fun op => op.fresh = ∅ :=
  encodeAndFirstMessages_fresh

/-- The printed window, statement against item: each stretch and each call's body is one item of the chain. -/
theorem part0_chain (c : Dev nD) : main_part0 (F := F) c = (Pipeline.chainK
  [  ]
  (seq encodeAndFirstMessages) : Prog (TpuEff nD τ sig (Elt F) (Pipeline.Sig Λ₀ (Fin 0) fun p => (pcfgs (F := F) p).Adm) .tc) PUnit) := by
  chain_rfl

/-- The printed window is the line of its operations. -/
theorem part0_eq (c : Dev nD) : main_part0 (F := F) c = seq ops0 := by
  exact part0_chain c

end Cert.ReferenceIdeal.Hand

end
-- ==== Proof.Ref.Ops1.lean ====
import proofs.«148293_j56684978372941_1_alg».proof.Proof.Gen.ReferenceIdeal
import proofs.«148293_j56684978372941_1_alg».proof.Proof.Ref.Fold

/-!
# The reference's statements 61 to 120, as a list of operations

The printed window `main_part1` is a straight line of host operations; a call of an outlined function
is that function's operations over the buffers of the call.  Each stretch between calls, and each call's
body, is listed here in order, with the buffer each operation writes beside it; the window is then the
line of all of them.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 2 operations of `@main`, from the one writing `main_v49` to the one writing `main_v50`. -/
abbrev inLayerLast : List (HloOp τ sig (Elt F)) :=
  ( StableHlo.binary main_v46 main_v48 main_v49 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v36 main_v49 main_v50 (addf : (⟨S50000x512, .f32⟩ : BufTy).Contents (Elt F) → (⟨S50000x512, .f32⟩ : BufTy).Contents (Elt F) → (⟨S50000x512, .f32⟩ : BufTy).Contents (Elt F))
  :: [] )

/-- The buffer each of them writes, in order. -/
abbrev inLayerLastW : List (Ref sig .tc) :=
  [main_v49, main_v50]

theorem inLayerLast_writes : WritesAt (inLayerLast : List (HloOp τ sig (Elt F))) inLayerLastW :=
  .cons rfl (.cons rfl (List.Forall₂.nil))

theorem inLayerLast_sub : (inLayerLast : List (HloOp τ sig (Elt F))).Forall fun op => op.bufs ⊆ tcRefs τ sig :=
  ⟨binary_bufs_sub .., binary_bufs_sub ..⟩

theorem inLayerLast_fresh : (inLayerLast : List (HloOp τ sig (Elt F))).Forall fun op => op.fresh = ∅ :=
  ⟨rfl, rfl⟩

/-- the 3 operations of `@relu` run over the buffers of `main_call0`, from the one writing `main_call0_cst` to the one writing `main_v51`. -/
abbrev inLayerRelu : List (HloOp τ sig (Elt F)) :=
  ( StableHlo.TRef.nullary main_call0.cst (constant S_ .f32 0x00000000#32)
  :: StableHlo.TRef.unary main_call0.cst main_call0.v0 (broadcastInDim S50000x512 ![] bcast_S_S50000x512)
  :: StableHlo.TRef.binary (.of main_v50 : StableHlo.TRef sig ⟨S50000x512, .f32⟩) main_call0.v0 main_call0.v1 maximumf
  :: [] )

/-- The buffer each of them writes, in order. -/
abbrev inLayerReluW : List (Ref sig .tc) :=
  [main_call0_cst, main_call0_v0, main_v51]

theorem inLayerRelu_writes : WritesAt (inLayerRelu : List (HloOp τ sig (Elt F))) inLayerReluW :=
  .cons rfl (.cons rfl (.cons rfl (List.Forall₂.nil)))

theorem inLayerRelu_sub : (inLayerRelu : List (HloOp τ sig (Elt F))).Forall fun op => op.bufs ⊆ tcRefs τ sig :=
  ⟨nullary_bufs_sub .., unary_bufs_sub .., binary_bufs_sub ..⟩

theorem inLayerRelu_fresh : (inLayerRelu : List (HloOp τ sig (Elt F))).Forall fun op => op.fresh = ∅ :=
  ⟨rfl, rfl, rfl⟩

/-- 57 operations of `@main`, from the one writing `main_v52` to the one writing `main_v97`. -/
abbrev resLayer : List (HloOp τ sig (Elt F)) :=
  ( StableHlo.binary main_v51 main_arg13 main_v52 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.nullary main_c_9 (constantI S_ 32 0#32)
  :: StableHlo.unary main_c_9 main_v53 (broadcastInDim S200000 ![] bcast_S_S200000 : (⟨S_, .i32⟩ : BufTy).Contents (Elt F) → (⟨S200000, .i32⟩ : BufTy).Contents (Elt F))
  :: StableHlo.binary main_arg1 main_v53 main_v54 (cmpi .slt : (⟨S200000, .i32⟩ : BufTy).Contents (Elt F) → (⟨S200000, .i32⟩ : BufTy).Contents (Elt F) → (⟨S200000, .i1⟩ : BufTy).Contents (Elt F))
  :: StableHlo.nullary main_c_10 (constantI S_ 32 50000#32)
  :: StableHlo.unary main_c_10 main_v55 (broadcastInDim S200000 ![] bcast_S_S200000 : (⟨S_, .i32⟩ : BufTy).Contents (Elt F) → (⟨S200000, .i32⟩ : BufTy).Contents (Elt F))
  :: StableHlo.binary main_arg1 main_v55 main_v56 (addi : (⟨S200000, .i32⟩ : BufTy).Contents (Elt F) → (⟨S200000, .i32⟩ : BufTy).Contents (Elt F) → (⟨S200000, .i32⟩ : BufTy).Contents (Elt F))
  :: StableHlo.ternary main_v54 main_v56 main_arg1 main_v57 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v57 main_v58 (broadcastInDim S200000x1 ![0] bcast_S200000_S200000x1_0 : (⟨S200000, .i32⟩ : BufTy).Contents (Elt F) → (⟨S200000x1, .i32⟩ : BufTy).Contents (Elt F))
  :: StableHlo.binary main_v51 main_v58 main_v59 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_11 (constant S_ .f32 0x00000000#32)
  :: StableHlo.unary main_cst_11 main_v60 (broadcastInDim S50000x512 ![] bcast_S_S50000x512 : (⟨S_, .f32⟩ : BufTy).Contents (Elt F) → (⟨S50000x512, .f32⟩ : BufTy).Contents (Elt F))
  :: StableHlo.unary main_arg2 main_v61 (broadcastInDim S200000x1 ![0] bcast_S200000_S200000x1_0 : (⟨S200000, .i32⟩ : BufTy).Contents (Elt F) → (⟨S200000x1, .i32⟩ : BufTy).Contents (Elt F))
  :: StableHlo.ternary main_v60 main_v61 main_v59 main_v62 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg14 main_v63 ((extractStridedSlice S1x512x512 ![0, 0, 0] · slices_S3x512x512_S1x512x512_0_0_0) : (⟨S3x512x512, .f32⟩ : BufTy).Contents (Elt F) → (⟨S1x512x512, .f32⟩ : BufTy).Contents (Elt F))
  :: StableHlo.reshape main_v63 main_v64 rfl shapeCasts_S1x512x512_S512x512
  :: StableHlo.binary main_v62 main_v64 main_v65 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v52 main_v65 main_v66 (addf : (⟨S50000x512, .f32⟩ : BufTy).Contents (Elt F) → (⟨S50000x512, .f32⟩ : BufTy).Contents (Elt F) → (⟨S50000x512, .f32⟩ : BufTy).Contents (Elt F))
  :: StableHlo.nullary main_c_12 (constantI S_ 32 0#32)
  :: StableHlo.unary main_c_12 main_v67 (broadcastInDim S200000 ![] bcast_S_S200000 : (⟨S_, .i32⟩ : BufTy).Contents (Elt F) → (⟨S200000, .i32⟩ : BufTy).Contents (Elt F))
  :: StableHlo.binary main_arg3 main_v67 main_v68 (cmpi .slt : (⟨S200000, .i32⟩ : BufTy).Contents (Elt F) → (⟨S200000, .i32⟩ : BufTy).Contents (Elt F) → (⟨S200000, .i1⟩ : BufTy).Contents (Elt F))
  :: StableHlo.nullary main_c_13 (constantI S_ 32 50000#32)
  :: StableHlo.unary main_c_13 main_v69 (broadcastInDim S200000 ![] bcast_S_S200000 : (⟨S_, .i32⟩ : BufTy).Contents (Elt F) → (⟨S200000, .i32⟩ : BufTy).Contents (Elt F))
  :: StableHlo.binary main_arg3 main_v69 main_v70 (addi : (⟨S200000, .i32⟩ : BufTy).Contents (Elt F) → (⟨S200000, .i32⟩ : BufTy).Contents (Elt F) → (⟨S200000, .i32⟩ : BufTy).Contents (Elt F))
  :: StableHlo.ternary main_v68 main_v70 main_arg3 main_v71 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v71 main_v72 (broadcastInDim S200000x1 ![0] bcast_S200000_S200000x1_0 : (⟨S200000, .i32⟩ : BufTy).Contents (Elt F) → (⟨S200000x1, .i32⟩ : BufTy).Contents (Elt F))
  :: StableHlo.binary main_v51 main_v72 main_v73 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_14 (constant S_ .f32 0x00000000#32)
  :: StableHlo.unary main_cst_14 main_v74 (broadcastInDim S50000x512 ![] bcast_S_S50000x512 : (⟨S_, .f32⟩ : BufTy).Contents (Elt F) → (⟨S50000x512, .f32⟩ : BufTy).Contents (Elt F))
  :: StableHlo.unary main_arg4 main_v75 (broadcastInDim S200000x1 ![0] bcast_S200000_S200000x1_0 : (⟨S200000, .i32⟩ : BufTy).Contents (Elt F) → (⟨S200000x1, .i32⟩ : BufTy).Contents (Elt F))
  :: StableHlo.ternary main_v74 main_v75 main_v73 main_v76 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg14 main_v77 ((extractStridedSlice S1x512x512 ![1, 0, 0] · slices_S3x512x512_S1x512x512_1_0_0) : (⟨S3x512x512, .f32⟩ : BufTy).Contents (Elt F) → (⟨S1x512x512, .f32⟩ : BufTy).Contents (Elt F))
  :: StableHlo.reshape main_v77 main_v78 rfl shapeCasts_S1x512x512_S512x512
  :: StableHlo.binary main_v76 main_v78 main_v79 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v66 main_v79 main_v80 (addf : (⟨S50000x512, .f32⟩ : BufTy).Contents (Elt F) → (⟨S50000x512, .f32⟩ : BufTy).Contents (Elt F) → (⟨S50000x512, .f32⟩ : BufTy).Contents (Elt F))
  :: StableHlo.nullary main_c_15 (constantI S_ 32 0#32)
  :: StableHlo.unary main_c_15 main_v81 (broadcastInDim S200000 ![] bcast_S_S200000 : (⟨S_, .i32⟩ : BufTy).Contents (Elt F) → (⟨S200000, .i32⟩ : BufTy).Contents (Elt F))
  :: StableHlo.binary main_arg5 main_v81 main_v82 (cmpi .slt : (⟨S200000, .i32⟩ : BufTy).Contents (Elt F) → (⟨S200000, .i32⟩ : BufTy).Contents (Elt F) → (⟨S200000, .i1⟩ : BufTy).Contents (Elt F))
  :: StableHlo.nullary main_c_16 (constantI S_ 32 50000#32)
  :: StableHlo.unary main_c_16 main_v83 (broadcastInDim S200000 ![] bcast_S_S200000 : (⟨S_, .i32⟩ : BufTy).Contents (Elt F) → (⟨S200000, .i32⟩ : BufTy).Contents (Elt F))
  :: StableHlo.binary main_arg5 main_v83 main_v84 (addi : (⟨S200000, .i32⟩ : BufTy).Contents (Elt F) → (⟨S200000, .i32⟩ : BufTy).Contents (Elt F) → (⟨S200000, .i32⟩ : BufTy).Contents (Elt F))
  :: StableHlo.ternary main_v82 main_v84 main_arg5 main_v85 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v85 main_v86 (broadcastInDim S200000x1 ![0] bcast_S200000_S200000x1_0 : (⟨S200000, .i32⟩ : BufTy).Contents (Elt F) → (⟨S200000x1, .i32⟩ : BufTy).Contents (Elt F))
  :: StableHlo.binary main_v51 main_v86 main_v87 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_17 (constant S_ .f32 0x00000000#32)
  :: StableHlo.unary main_cst_17 main_v88 (broadcastInDim S50000x512 ![] bcast_S_S50000x512 : (⟨S_, .f32⟩ : BufTy).Contents (Elt F) → (⟨S50000x512, .f32⟩ : BufTy).Contents (Elt F))
  :: StableHlo.unary main_arg6 main_v89 (broadcastInDim S200000x1 ![0] bcast_S200000_S200000x1_0 : (⟨S200000, .i32⟩ : BufTy).Contents (Elt F) → (⟨S200000x1, .i32⟩ : BufTy).Contents (Elt F))
  :: StableHlo.ternary main_v88 main_v89 main_v87 main_v90 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg14 main_v91 ((extractStridedSlice S1x512x512 ![2, 0, 0] · slices_S3x512x512_S1x512x512_2_0_0) : (⟨S3x512x512, .f32⟩ : BufTy).Contents (Elt F) → (⟨S1x512x512, .f32⟩ : BufTy).Contents (Elt F))
  :: StableHlo.reshape main_v91 main_v92 rfl shapeCasts_S1x512x512_S512x512
  :: StableHlo.binary main_v90 main_v92 main_v93 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v80 main_v93 main_v94 (addf : (⟨S50000x512, .f32⟩ : BufTy).Contents (Elt F) → (⟨S50000x512, .f32⟩ : BufTy).Contents (Elt F) → (⟨S50000x512, .f32⟩ : BufTy).Contents (Elt F))
  :: StableHlo.nullary main_cst_18 (constant S_ .f32 0x00000000#32)
  :: StableHlo.binary main_v94 main_cst_18 main_v95 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F))
  :: StableHlo.unary main_v95 main_v96 (broadcastInDim S50000x1 ![0] bcast_S50000_S50000x1_0 : (⟨S50000, .f32⟩ : BufTy).Contents (Elt F) → (⟨S50000x1, .f32⟩ : BufTy).Contents (Elt F))
  :: StableHlo.nullary main_cst_19 (constant S_ .f32 0x44000000#32)
  :: StableHlo.unary main_cst_19 main_v97 (broadcastInDim S50000x1 ![] bcast_S_S50000x1 : (⟨S_, .f32⟩ : BufTy).Contents (Elt F) → (⟨S50000x1, .f32⟩ : BufTy).Contents (Elt F))
  :: [] )

/-- The buffer each of them writes, in order. -/
abbrev resLayerW : List (Ref sig .tc) :=
  [main_v52, main_c_9, main_v53, main_v54, main_c_10, main_v55, main_v56, main_v57, main_v58, main_v59, main_cst_11, main_v60, main_v61, main_v62, main_v63, main_v64, main_v65, main_v66, main_c_12, main_v67, main_v68, main_c_13, main_v69, main_v70, main_v71, main_v72, main_v73, main_cst_14, main_v74, main_v75, main_v76, main_v77, main_v78, main_v79, main_v80, main_c_15, main_v81, main_v82, main_c_16, main_v83, main_v84, main_v85, main_v86, main_v87, main_cst_17, main_v88, main_v89, main_v90, main_v91, main_v92, main_v93, main_v94, main_cst_18, main_v95, main_v96, main_cst_19, main_v97]

theorem resLayer_writes : WritesAt (resLayer : List (HloOp τ sig (Elt F))) resLayerW :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))))))))))))))))))))))))))))))))

theorem resLayer_sub : (resLayer : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., binary_bufs_sub .., unary_bufs_sub .., nullary_bufs_sub .., unary_bufs_sub ..⟩

theorem resLayer_fresh : (resLayer : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 1: its stretches and calls in a row. -/
abbrev ops1 : List (HloOp τ sig (Elt F)) := inLayerLast ++ (inLayerRelu ++ (resLayer))

/-- The buffer each operation of window 1 writes, in order. -/
abbrev W1 : List (Ref sig .tc) := inLayerLastW ++ (inLayerReluW ++ (resLayerW))

theorem ops1_writes : WritesAt (ops1 : List (HloOp τ sig (Elt F))) W1 :=
  WritesAt.append inLayerLast_writes (WritesAt.append inLayerRelu_writes (resLayer_writes))

theorem ops1_sub : (ops1 : List (HloOp τ sig (Elt F))).Forall fun op => op.bufs ⊆ tcRefs τ sig :=
  forall_append inLayerLast_sub (forall_append inLayerRelu_sub (resLayer_sub))

theorem ops1_fresh : (ops1 : List (HloOp τ sig (Elt F))).Forall fun op => op.fresh = ∅ :=
  forall_append inLayerLast_fresh (forall_append inLayerRelu_fresh (resLayer_fresh))

/-- The printed window, statement against item: each stretch and each call's body is one item of the chain. -/
theorem part1_chain (c : Dev nD) : main_part1 (F := F) c = (Pipeline.chainK
  [ seq inLayerLast,
    seq inLayerRelu ]
  (seq resLayer) : Prog (TpuEff nD τ sig (Elt F) (Pipeline.Sig Λ₀ (Fin 0) fun p => (pcfgs (F := F) p).Adm) .tc) PUnit) := by
  chain_rfl

/-- The printed window is the line of its operations. -/
theorem part1_eq (c : Dev nD) : main_part1 (F := F) c = seq ops1 := by
  rw [part1_chain]
  simp only [seq_append]
  rfl

end Cert.ReferenceIdeal.Hand

end
-- ==== Proof.Ref.Ops2.lean ====
import proofs.«148293_j56684978372941_1_alg».proof.Proof.Gen.ReferenceIdeal
import proofs.«148293_j56684978372941_1_alg».proof.Proof.Ref.Fold

/-!
# The reference's statements 121 to 180, as a list of operations

The printed window `main_part2` is a straight line of host operations; a call of an outlined function
is that function's operations over the buffers of the call.  Each stretch between calls, and each call's
body, is listed here in order, with the buffer each operation writes beside it; the window is then the
line of all of them.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 2 operations of `@main`, from the one writing `main_v98` to the one writing `main_c_20`. -/
abbrev resLayerLast : List (HloOp τ sig (Elt F)) :=
  ( StableHlo.binary main_v96 main_v97 main_v98 (Host.divf : (⟨S50000x1, .f32⟩ : BufTy).Contents (Elt F) → (⟨S50000x1, .f32⟩ : BufTy).Contents (Elt F) → (⟨S50000x1, .f32⟩ : BufTy).Contents (Elt F))
  :: StableHlo.nullary main_c_20 (constantI S_ 32 0#32)
  :: [] )

/-- The buffer each of them writes, in order. -/
abbrev resLayerLastW : List (Ref sig .tc) :=
  [main_v98, main_c_20]

theorem resLayerLast_writes : WritesAt (resLayerLast : List (HloOp τ sig (Elt F))) resLayerLastW :=
  .cons rfl (.cons rfl (List.Forall₂.nil))

theorem resLayerLast_sub : (resLayerLast : List (HloOp τ sig (Elt F))).Forall fun op => op.bufs ⊆ tcRefs τ sig :=
  ⟨binary_bufs_sub .., nullary_bufs_sub ..⟩

theorem resLayerLast_fresh : (resLayerLast : List (HloOp τ sig (Elt F))).Forall fun op => op.fresh = ∅ :=
  ⟨rfl, rfl⟩

/-- the 23 operations of `@var` run over the buffers of `main_call1`, from the one writing `main_call1_cst` to the one writing `main_v99`. -/
abbrev rowVariance : List (HloOp τ sig (Elt F)) :=
  ( StableHlo.TRef.nullary main_call1.cst (constant S_ .f32 0x00000000#32)
  :: StableHlo.TRef.binary (.of main_v94 : StableHlo.TRef sig ⟨S50000x512, .f32⟩) main_call1.cst main_call1.v0 (fun x v => Host.reduceAdd x v reducesTo_S50000x512_S50000_d1 h_S_)
  :: StableHlo.TRef.unary main_call1.v0 main_call1.v1 (broadcastInDim S50000x1 ![0] bcast_S50000_S50000x1_0)
  :: StableHlo.TRef.nullary main_call1.cst_0 (constant S_ .f32 0x44000000#32)
  :: StableHlo.TRef.unary main_call1.cst_0 main_call1.v2 (broadcastInDim S50000x1 ![] bcast_S_S50000x1)
  :: StableHlo.TRef.binary main_call1.v1 main_call1.v2 main_call1.v3 Host.divf
  :: StableHlo.TRef.unary main_call1.v3 main_call1.v4 (broadcastInDim S50000x512 ![0, 1] bcast_S50000x1_S50000x512_0_1)
  :: StableHlo.TRef.binary (.of main_v94 : StableHlo.TRef sig ⟨S50000x512, .f32⟩) main_call1.v4 main_call1.v5 subf
  :: StableHlo.TRef.binary main_call1.v5 main_call1.v5 main_call1.v6 mulf
  :: StableHlo.TRef.unary (.of main_c_20 : StableHlo.TRef sig ⟨S_, .i32⟩) main_call1.v7 (sitofp .f32)
  :: StableHlo.TRef.nullary main_call1.cst_1 (constant S_ .f32 0x44000000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S50000x512_S50000_d1 h_S_)
  :: StableHlo.TRef.unary main_call1.v9 main_call1.v10 (broadcastInDim S50000x1 ![0] bcast_S50000_S50000x1_0)
  :: StableHlo.TRef.unary main_call1.v8 main_call1.v11 (broadcastInDim S50000x1 ![] bcast_S_S50000x1)
  :: StableHlo.TRef.binary main_call1.v10 main_call1.v11 main_call1.v12 Host.divf
  :: StableHlo.TRef.nullary main_call1.cst_3 (constant S_ .f32 0x00000000#32)
  :: StableHlo.TRef.binary main_call1.v8 main_call1.cst_3 main_call1.v13 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S50000x1 ![] bcast_S_S50000x1)
  :: StableHlo.TRef.ternary main_call1.v13 main_call1.v12 main_call1.call0.v1 main_call1.call0.v2 (fun p a b => select (broadcastInDim S50000x1 ![] bcast_S_S50000x1 p) a b)
  :: [] )

/-- The buffer each of them writes, in order. -/
abbrev rowVarianceW : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v99]

theorem rowVariance_writes : WritesAt (rowVariance : List (HloOp τ sig (Elt F))) rowVarianceW :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))

theorem rowVariance_sub : (rowVariance : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem rowVariance_fresh : (rowVariance : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- 14 operations of `@main`, from the one writing `main_v100` to the one writing `main_v112`. -/
abbrev normalize : List (HloOp τ sig (Elt F)) :=
  ( StableHlo.unary main_v98 main_v100 (broadcastInDim S50000x512 ![0, 1] bcast_S50000x1_S50000x512_0_1 : (⟨S50000x1, .f32⟩ : BufTy).Contents (Elt F) → (⟨S50000x512, .f32⟩ : BufTy).Contents (Elt F))
  :: StableHlo.binary main_v94 main_v100 main_v101 (subf : (⟨S50000x512, .f32⟩ : BufTy).Contents (Elt F) → (⟨S50000x512, .f32⟩ : BufTy).Contents (Elt F) → (⟨S50000x512, .f32⟩ : BufTy).Contents (Elt F))
  :: StableHlo.nullary main_cst_21 (constant S_ .f32 0x3727C5AC#32)
  :: StableHlo.unary main_cst_21 main_v102 (broadcastInDim S50000x1 ![] bcast_S_S50000x1 : (⟨S_, .f32⟩ : BufTy).Contents (Elt F) → (⟨S50000x1, .f32⟩ : BufTy).Contents (Elt F))
  :: StableHlo.binary main_v99 main_v102 main_v103 (addf : (⟨S50000x1, .f32⟩ : BufTy).Contents (Elt F) → (⟨S50000x1, .f32⟩ : BufTy).Contents (Elt F) → (⟨S50000x1, .f32⟩ : BufTy).Contents (Elt F))
  :: StableHlo.unary main_v103 main_v104 (Host.rsqrt : (⟨S50000x1, .f32⟩ : BufTy).Contents (Elt F) → (⟨S50000x1, .f32⟩ : BufTy).Contents (Elt F))
  :: StableHlo.unary main_v104 main_v105 (broadcastInDim S50000x512 ![0, 1] bcast_S50000x1_S50000x512_0_1 : (⟨S50000x1, .f32⟩ : BufTy).Contents (Elt F) → (⟨S50000x512, .f32⟩ : BufTy).Contents (Elt F))
  :: StableHlo.binary main_v101 main_v105 main_v106 (mulf : (⟨S50000x512, .f32⟩ : BufTy).Contents (Elt F) → (⟨S50000x512, .f32⟩ : BufTy).Contents (Elt F) → (⟨S50000x512, .f32⟩ : BufTy).Contents (Elt F))
  :: StableHlo.unary main_arg15 main_v107 (broadcastInDim S1x512 ![1] bcast_S512_S1x512_1 : (⟨S512, .f32⟩ : BufTy).Contents (Elt F) → (⟨S1x512, .f32⟩ : BufTy).Contents (Elt F))
  :: StableHlo.unary main_v107 main_v108 (broadcastInDim S50000x512 ![0, 1] bcast_S1x512_S50000x512_0_1 : (⟨S1x512, .f32⟩ : BufTy).Contents (Elt F) → (⟨S50000x512, .f32⟩ : BufTy).Contents (Elt F))
  :: StableHlo.binary main_v106 main_v108 main_v109 (mulf : (⟨S50000x512, .f32⟩ : BufTy).Contents (Elt F) → (⟨S50000x512, .f32⟩ : BufTy).Contents (Elt F) → (⟨S50000x512, .f32⟩ : BufTy).Contents (Elt F))
  :: StableHlo.unary main_arg16 main_v110 (broadcastInDim S1x512 ![1] bcast_S512_S1x512_1 : (⟨S512, .f32⟩ : BufTy).Contents (Elt F) → (⟨S1x512, .f32⟩ : BufTy).Contents (Elt F))
  :: StableHlo.unary main_v110 main_v111 (broadcastInDim S50000x512 ![0, 1] bcast_S1x512_S50000x512_0_1 : (⟨S1x512, .f32⟩ : BufTy).Contents (Elt F) → (⟨S50000x512, .f32⟩ : BufTy).Contents (Elt F))
  :: StableHlo.binary main_v109 main_v111 main_v112 (addf : (⟨S50000x512, .f32⟩ : BufTy).Contents (Elt F) → (⟨S50000x512, .f32⟩ : BufTy).Contents (Elt F) → (⟨S50000x512, .f32⟩ : BufTy).Contents (Elt F))
  :: [] )

/-- The buffer each of them writes, in order. -/
abbrev normalizeW : List (Ref sig .tc) :=
  [main_v100, main_v101, main_cst_21, main_v102, main_v103, main_v104, main_v105, main_v106, main_v107, main_v108, main_v109, main_v110, main_v111, main_v112]

theorem normalize_writes : WritesAt (normalize : List (HloOp τ sig (Elt F))) normalizeW :=
  .cons rfl (.cons rfl (.cons rfl (.cons rfl (.cons rfl (.cons rfl (.cons rfl (.cons rfl (.cons rfl (.cons rfl (.cons rfl (.cons rfl (.cons rfl (.cons rfl (List.Forall₂.nil))))))))))))))

theorem normalize_sub : (normalize : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem normalize_fresh : (normalize : List (HloOp τ sig (Elt F))).Forall fun op => op.fresh = ∅ :=
  ⟨rfl, rfl, rfl, rfl, rfl, rfl, rfl, rfl, rfl, rfl, rfl, rfl, rfl, rfl⟩

/-- the 3 operations of `@relu` run over the buffers of `main_call2`, from the one writing `main_call2_cst` to the one writing `main_v113`. -/
abbrev normRelu : List (HloOp τ sig (Elt F)) :=
  ( StableHlo.TRef.nullary main_call2.cst (constant S_ .f32 0x00000000#32)
  :: StableHlo.TRef.unary main_call2.cst main_call2.v0 (broadcastInDim S50000x512 ![] bcast_S_S50000x512)
  :: StableHlo.TRef.binary (.of main_v112 : StableHlo.TRef sig ⟨S50000x512, .f32⟩) main_call2.v0 main_call2.v1 maximumf
  :: [] )

/-- The buffer each of them writes, in order. -/
abbrev normReluW : List (Ref sig .tc) :=
  [main_call2_cst, main_call2_v0, main_v113]

theorem normRelu_writes : WritesAt (normRelu : List (HloOp τ sig (Elt F))) normReluW :=
  .cons rfl (.cons rfl (.cons rfl (List.Forall₂.nil)))

theorem normRelu_sub : (normRelu : List (HloOp τ sig (Elt F))).Forall fun op => op.bufs ⊆ tcRefs τ sig :=
  ⟨nullary_bufs_sub .., unary_bufs_sub .., binary_bufs_sub ..⟩

theorem normRelu_fresh : (normRelu : List (HloOp τ sig (Elt F))).Forall fun op => op.fresh = ∅ :=
  ⟨rfl, rfl, rfl⟩

/-- 42 operations of `@main`, from the one writing `main_v114` to the one writing `main_v147`. -/
abbrev outLayer : List (HloOp τ sig (Elt F)) :=
  ( StableHlo.binary main_v51 main_v113 main_v114 (addf : (⟨S50000x512, .f32⟩ : BufTy).Contents (Elt F) → (⟨S50000x512, .f32⟩ : BufTy).Contents (Elt F) → (⟨S50000x512, .f32⟩ : BufTy).Contents (Elt F))
  :: StableHlo.binary main_v114 main_arg17 main_v115 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
  :: StableHlo.nullary main_c_22 (constantI S_ 32 0#32)
  :: StableHlo.unary main_c_22 main_v116 (broadcastInDim S200000 ![] bcast_S_S200000 : (⟨S_, .i32⟩ : BufTy).Contents (Elt F) → (⟨S200000, .i32⟩ : BufTy).Contents (Elt F))
  :: StableHlo.binary main_arg1 main_v116 main_v117 (cmpi .slt : (⟨S200000, .i32⟩ : BufTy).Contents (Elt F) → (⟨S200000, .i32⟩ : BufTy).Contents (Elt F) → (⟨S200000, .i1⟩ : BufTy).Contents (Elt F))
  :: StableHlo.nullary main_c_23 (constantI S_ 32 50000#32)
  :: StableHlo.unary main_c_23 main_v118 (broadcastInDim S200000 ![] bcast_S_S200000 : (⟨S_, .i32⟩ : BufTy).Contents (Elt F) → (⟨S200000, .i32⟩ : BufTy).Contents (Elt F))
  :: StableHlo.binary main_arg1 main_v118 main_v119 (addi : (⟨S200000, .i32⟩ : BufTy).Contents (Elt F) → (⟨S200000, .i32⟩ : BufTy).Contents (Elt F) → (⟨S200000, .i32⟩ : BufTy).Contents (Elt F))
  :: StableHlo.ternary main_v117 main_v119 main_arg1 main_v120 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v120 main_v121 (broadcastInDim S200000x1 ![0] bcast_S200000_S200000x1_0 : (⟨S200000, .i32⟩ : BufTy).Contents (Elt F) → (⟨S200000x1, .i32⟩ : BufTy).Contents (Elt F))
  :: StableHlo.binary main_v114 main_v121 main_v122 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_24 (constant S_ .f32 0x00000000#32)
  :: StableHlo.unary main_cst_24 main_v123 (broadcastInDim S50000x512 ![] bcast_S_S50000x512 : (⟨S_, .f32⟩ : BufTy).Contents (Elt F) → (⟨S50000x512, .f32⟩ : BufTy).Contents (Elt F))
  :: StableHlo.unary main_arg2 main_v124 (broadcastInDim S200000x1 ![0] bcast_S200000_S200000x1_0 : (⟨S200000, .i32⟩ : BufTy).Contents (Elt F) → (⟨S200000x1, .i32⟩ : BufTy).Contents (Elt F))
  :: StableHlo.ternary main_v123 main_v124 main_v122 main_v125 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg18 main_v126 ((extractStridedSlice S1x512x256 ![0, 0, 0] · slices_S3x512x256_S1x512x256_0_0_0) : (⟨S3x512x256, .f32⟩ : BufTy).Contents (Elt F) → (⟨S1x512x256, .f32⟩ : BufTy).Contents (Elt F))
  :: StableHlo.reshape main_v126 main_v127 rfl shapeCasts_S1x512x256_S512x256
  :: StableHlo.binary main_v125 main_v127 main_v128 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
  :: StableHlo.binary main_v115 main_v128 main_v129 (addf : (⟨S50000x256, .f32⟩ : BufTy).Contents (Elt F) → (⟨S50000x256, .f32⟩ : BufTy).Contents (Elt F) → (⟨S50000x256, .f32⟩ : BufTy).Contents (Elt F))
  :: StableHlo.nullary main_c_25 (constantI S_ 32 0#32)
  :: StableHlo.unary main_c_25 main_v130 (broadcastInDim S200000 ![] bcast_S_S200000 : (⟨S_, .i32⟩ : BufTy).Contents (Elt F) → (⟨S200000, .i32⟩ : BufTy).Contents (Elt F))
  :: StableHlo.binary main_arg3 main_v130 main_v131 (cmpi .slt : (⟨S200000, .i32⟩ : BufTy).Contents (Elt F) → (⟨S200000, .i32⟩ : BufTy).Contents (Elt F) → (⟨S200000, .i1⟩ : BufTy).Contents (Elt F))
  :: StableHlo.nullary main_c_26 (constantI S_ 32 50000#32)
  :: StableHlo.unary main_c_26 main_v132 (broadcastInDim S200000 ![] bcast_S_S200000 : (⟨S_, .i32⟩ : BufTy).Contents (Elt F) → (⟨S200000, .i32⟩ : BufTy).Contents (Elt F))
  :: StableHlo.binary main_arg3 main_v132 main_v133 (addi : (⟨S200000, .i32⟩ : BufTy).Contents (Elt F) → (⟨S200000, .i32⟩ : BufTy).Contents (Elt F) → (⟨S200000, .i32⟩ : BufTy).Contents (Elt F))
  :: StableHlo.ternary main_v131 main_v133 main_arg3 main_v134 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v134 main_v135 (broadcastInDim S200000x1 ![0] bcast_S200000_S200000x1_0 : (⟨S200000, .i32⟩ : BufTy).Contents (Elt F) → (⟨S200000x1, .i32⟩ : BufTy).Contents (Elt F))
  :: StableHlo.binary main_v114 main_v135 main_v136 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_27 (constant S_ .f32 0x00000000#32)
  :: StableHlo.unary main_cst_27 main_v137 (broadcastInDim S50000x512 ![] bcast_S_S50000x512 : (⟨S_, .f32⟩ : BufTy).Contents (Elt F) → (⟨S50000x512, .f32⟩ : BufTy).Contents (Elt F))
  :: StableHlo.unary main_arg4 main_v138 (broadcastInDim S200000x1 ![0] bcast_S200000_S200000x1_0 : (⟨S200000, .i32⟩ : BufTy).Contents (Elt F) → (⟨S200000x1, .i32⟩ : BufTy).Contents (Elt F))
  :: StableHlo.ternary main_v137 main_v138 main_v136 main_v139 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg18 main_v140 ((extractStridedSlice S1x512x256 ![1, 0, 0] · slices_S3x512x256_S1x512x256_1_0_0) : (⟨S3x512x256, .f32⟩ : BufTy).Contents (Elt F) → (⟨S1x512x256, .f32⟩ : BufTy).Contents (Elt F))
  :: StableHlo.reshape main_v140 main_v141 rfl shapeCasts_S1x512x256_S512x256
  :: StableHlo.binary main_v139 main_v141 main_v142 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
  :: StableHlo.binary main_v129 main_v142 main_v143 (addf : (⟨S50000x256, .f32⟩ : BufTy).Contents (Elt F) → (⟨S50000x256, .f32⟩ : BufTy).Contents (Elt F) → (⟨S50000x256, .f32⟩ : BufTy).Contents (Elt F))
  :: StableHlo.nullary main_c_28 (constantI S_ 32 0#32)
  :: StableHlo.unary main_c_28 main_v144 (broadcastInDim S200000 ![] bcast_S_S200000 : (⟨S_, .i32⟩ : BufTy).Contents (Elt F) → (⟨S200000, .i32⟩ : BufTy).Contents (Elt F))
  :: StableHlo.binary main_arg5 main_v144 main_v145 (cmpi .slt : (⟨S200000, .i32⟩ : BufTy).Contents (Elt F) → (⟨S200000, .i32⟩ : BufTy).Contents (Elt F) → (⟨S200000, .i1⟩ : BufTy).Contents (Elt F))
  :: StableHlo.nullary main_c_29 (constantI S_ 32 50000#32)
  :: StableHlo.unary main_c_29 main_v146 (broadcastInDim S200000 ![] bcast_S_S200000 : (⟨S_, .i32⟩ : BufTy).Contents (Elt F) → (⟨S200000, .i32⟩ : BufTy).Contents (Elt F))
  :: StableHlo.binary main_arg5 main_v146 main_v147 (addi : (⟨S200000, .i32⟩ : BufTy).Contents (Elt F) → (⟨S200000, .i32⟩ : BufTy).Contents (Elt F) → (⟨S200000, .i32⟩ : BufTy).Contents (Elt F))
  :: [] )

/-- The buffer each of them writes, in order. -/
abbrev outLayerW : List (Ref sig .tc) :=
  [main_v114, main_v115, main_c_22, main_v116, main_v117, main_c_23, main_v118, main_v119, main_v120, main_v121, main_v122, main_cst_24, main_v123, main_v124, main_v125, main_v126, main_v127, main_v128, main_v129, main_c_25, main_v130, main_v131, main_c_26, main_v132, main_v133, main_v134, main_v135, main_v136, main_cst_27, main_v137, main_v138, main_v139, main_v140, main_v141, main_v142, main_v143, main_c_28, main_v144, main_v145, main_c_29, main_v146, main_v147]

theorem outLayer_writes : WritesAt (outLayer : List (HloOp τ sig (Elt F))) outLayerW :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))))))))))))))

theorem outLayer_sub : (outLayer : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub ..⟩

theorem outLayer_fresh : (outLayer : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 2: its stretches and calls in a row. -/
abbrev ops2 : List (HloOp τ sig (Elt F)) := resLayerLast ++ (rowVariance ++ (normalize ++ (normRelu ++ (outLayer))))

/-- The buffer each operation of window 2 writes, in order. -/
abbrev W2 : List (Ref sig .tc) := resLayerLastW ++ (rowVarianceW ++ (normalizeW ++ (normReluW ++ (outLayerW))))

theorem ops2_writes : WritesAt (ops2 : List (HloOp τ sig (Elt F))) W2 :=
  WritesAt.append resLayerLast_writes (WritesAt.append rowVariance_writes (WritesAt.append normalize_writes (WritesAt.append normRelu_writes (outLayer_writes))))

theorem ops2_sub : (ops2 : List (HloOp τ sig (Elt F))).Forall fun op => op.bufs ⊆ tcRefs τ sig :=
  forall_append resLayerLast_sub (forall_append rowVariance_sub (forall_append normalize_sub (forall_append normRelu_sub (outLayer_sub))))

theorem ops2_fresh : (ops2 : List (HloOp τ sig (Elt F))).Forall fun op => op.fresh = ∅ :=
  forall_append resLayerLast_fresh (forall_append rowVariance_fresh (forall_append normalize_fresh (forall_append normRelu_fresh (outLayer_fresh))))

/-- The printed window, statement against item: each stretch and each call's body is one item of the chain. -/
theorem part2_chain (c : Dev nD) : main_part2 (F := F) c = (Pipeline.chainK
  [ seq resLayerLast,
    seq rowVariance,
    seq normalize,
    seq normRelu ]
  (seq outLayer) : Prog (TpuEff nD τ sig (Elt F) (Pipeline.Sig Λ₀ (Fin 0) fun p => (pcfgs (F := F) p).Adm) .tc) PUnit) := by
  chain_rfl

/-- The printed window is the line of its operations. -/
theorem part2_eq (c : Dev nD) : main_part2 (F := F) c = seq ops2 := by
  rw [part2_chain]
  simp only [seq_append]
  rfl

end Cert.ReferenceIdeal.Hand

end
-- ==== Proof.Ref.Ops3.lean ====
import proofs.«148293_j56684978372941_1_alg».proof.Proof.Gen.ReferenceIdeal
import proofs.«148293_j56684978372941_1_alg».proof.Proof.Ref.Fold

/-!
# The reference's statements 181 to 240, as a list of operations

The printed window `main_part3` is a straight line of host operations; a call of an outlined function
is that function's operations over the buffers of the call.  Each stretch between calls, and each call's
body, is listed here in order, with the buffer each operation writes beside it; the window is then the
line of all of them.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 45 operations of `@main`, from the one writing `main_v148` to the one writing `main_c_37`. -/
abbrev outLayerAndPairs : List (HloOp τ sig (Elt F)) :=
  ( StableHlo.ternary main_v145 main_v147 main_arg5 main_v148 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v148 main_v149 (broadcastInDim S200000x1 ![0] bcast_S200000_S200000x1_0 : (⟨S200000, .i32⟩ : BufTy).Contents (Elt F) → (⟨S200000x1, .i32⟩ : BufTy).Contents (Elt F))
  :: StableHlo.binary main_v114 main_v149 main_v150 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_30 (constant S_ .f32 0x00000000#32)
  :: StableHlo.unary main_cst_30 main_v151 (broadcastInDim S50000x512 ![] bcast_S_S50000x512 : (⟨S_, .f32⟩ : BufTy).Contents (Elt F) → (⟨S50000x512, .f32⟩ : BufTy).Contents (Elt F))
  :: StableHlo.unary main_arg6 main_v152 (broadcastInDim S200000x1 ![0] bcast_S200000_S200000x1_0 : (⟨S200000, .i32⟩ : BufTy).Contents (Elt F) → (⟨S200000x1, .i32⟩ : BufTy).Contents (Elt F))
  :: StableHlo.ternary main_v151 main_v152 main_v150 main_v153 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg18 main_v154 ((extractStridedSlice S1x512x256 ![2, 0, 0] · slices_S3x512x256_S1x512x256_2_0_0) : (⟨S3x512x256, .f32⟩ : BufTy).Contents (Elt F) → (⟨S1x512x256, .f32⟩ : BufTy).Contents (Elt F))
  :: StableHlo.reshape main_v154 main_v155 rfl shapeCasts_S1x512x256_S512x256
  :: StableHlo.binary main_v153 main_v155 main_v156 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
  :: StableHlo.binary main_v143 main_v156 main_v157 (addf : (⟨S50000x256, .f32⟩ : BufTy).Contents (Elt F) → (⟨S50000x256, .f32⟩ : BufTy).Contents (Elt F) → (⟨S50000x256, .f32⟩ : BufTy).Contents (Elt F))
  :: StableHlo.unary main_arg7 main_v158 ((extractStridedSlice S1x100000 ![0, 0] · slices_S2x100000_S1x100000_0_0) : (⟨S2x100000, .i32⟩ : BufTy).Contents (Elt F) → (⟨S1x100000, .i32⟩ : BufTy).Contents (Elt F))
  :: StableHlo.reshape main_v158 main_v159 rfl shapeCasts_S1x100000_S100000
  :: StableHlo.nullary main_c_31 (constantI S_ 32 0#32)
  :: StableHlo.unary main_c_31 main_v160 (broadcastInDim S100000 ![] bcast_S_S100000 : (⟨S_, .i32⟩ : BufTy).Contents (Elt F) → (⟨S100000, .i32⟩ : BufTy).Contents (Elt F))
  :: StableHlo.binary main_v159 main_v160 main_v161 (cmpi .slt : (⟨S100000, .i32⟩ : BufTy).Contents (Elt F) → (⟨S100000, .i32⟩ : BufTy).Contents (Elt F) → (⟨S100000, .i1⟩ : BufTy).Contents (Elt F))
  :: StableHlo.nullary main_c_32 (constantI S_ 32 50000#32)
  :: StableHlo.unary main_c_32 main_v162 (broadcastInDim S100000 ![] bcast_S_S100000 : (⟨S_, .i32⟩ : BufTy).Contents (Elt F) → (⟨S100000, .i32⟩ : BufTy).Contents (Elt F))
  :: StableHlo.binary main_v159 main_v162 main_v163 (addi : (⟨S100000, .i32⟩ : BufTy).Contents (Elt F) → (⟨S100000, .i32⟩ : BufTy).Contents (Elt F) → (⟨S100000, .i32⟩ : BufTy).Contents (Elt F))
  :: StableHlo.ternary main_v161 main_v163 main_v159 main_v164 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v164 main_v165 (broadcastInDim S100000x1 ![0] bcast_S100000_S100000x1_0 : (⟨S100000, .i32⟩ : BufTy).Contents (Elt F) → (⟨S100000x1, .i32⟩ : BufTy).Contents (Elt F))
  :: StableHlo.binary main_v157 main_v165 main_v166 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F))
  :: StableHlo.unary main_arg7 main_v167 ((extractStridedSlice S1x100000 ![1, 0] · slices_S2x100000_S1x100000_1_0) : (⟨S2x100000, .i32⟩ : BufTy).Contents (Elt F) → (⟨S1x100000, .i32⟩ : BufTy).Contents (Elt F))
  :: StableHlo.reshape main_v167 main_v168 rfl shapeCasts_S1x100000_S100000
  :: StableHlo.nullary main_c_33 (constantI S_ 32 0#32)
  :: StableHlo.unary main_c_33 main_v169 (broadcastInDim S100000 ![] bcast_S_S100000 : (⟨S_, .i32⟩ : BufTy).Contents (Elt F) → (⟨S100000, .i32⟩ : BufTy).Contents (Elt F))
  :: StableHlo.binary main_v168 main_v169 main_v170 (cmpi .slt : (⟨S100000, .i32⟩ : BufTy).Contents (Elt F) → (⟨S100000, .i32⟩ : BufTy).Contents (Elt F) → (⟨S100000, .i1⟩ : BufTy).Contents (Elt F))
  :: StableHlo.nullary main_c_34 (constantI S_ 32 50000#32)
  :: StableHlo.unary main_c_34 main_v171 (broadcastInDim S100000 ![] bcast_S_S100000 : (⟨S_, .i32⟩ : BufTy).Contents (Elt F) → (⟨S100000, .i32⟩ : BufTy).Contents (Elt F))
  :: StableHlo.binary main_v168 main_v171 main_v172 (addi : (⟨S100000, .i32⟩ : BufTy).Contents (Elt F) → (⟨S100000, .i32⟩ : BufTy).Contents (Elt F) → (⟨S100000, .i32⟩ : BufTy).Contents (Elt F))
  :: StableHlo.ternary main_v170 main_v172 main_v168 main_v173 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v173 main_v174 (broadcastInDim S100000x1 ![0] bcast_S100000_S100000x1_0 : (⟨S100000, .i32⟩ : BufTy).Contents (Elt F) → (⟨S100000x1, .i32⟩ : BufTy).Contents (Elt F))
  :: StableHlo.binary main_v157 main_v174 main_v175 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F))
  :: StableHlo.unary main_arg7 main_v176 ((extractStridedSlice S1x100000 ![0, 0] · slices_S2x100000_S1x100000_0_0) : (⟨S2x100000, .i32⟩ : BufTy).Contents (Elt F) → (⟨S1x100000, .i32⟩ : BufTy).Contents (Elt F))
  :: StableHlo.reshape main_v176 main_v177 rfl shapeCasts_S1x100000_S100000
  :: StableHlo.nullary main_c_35 (constantI S_ 32 0#32)
  :: StableHlo.unary main_c_35 main_v178 (broadcastInDim S100000 ![] bcast_S_S100000 : (⟨S_, .i32⟩ : BufTy).Contents (Elt F) → (⟨S100000, .i32⟩ : BufTy).Contents (Elt F))
  :: StableHlo.binary main_v177 main_v178 main_v179 (cmpi .slt : (⟨S100000, .i32⟩ : BufTy).Contents (Elt F) → (⟨S100000, .i32⟩ : BufTy).Contents (Elt F) → (⟨S100000, .i1⟩ : BufTy).Contents (Elt F))
  :: StableHlo.nullary main_c_36 (constantI S_ 32 50000#32)
  :: StableHlo.unary main_c_36 main_v180 (broadcastInDim S100000 ![] bcast_S_S100000 : (⟨S_, .i32⟩ : BufTy).Contents (Elt F) → (⟨S100000, .i32⟩ : BufTy).Contents (Elt F))
  :: StableHlo.binary main_v177 main_v180 main_v181 (addi : (⟨S100000, .i32⟩ : BufTy).Contents (Elt F) → (⟨S100000, .i32⟩ : BufTy).Contents (Elt F) → (⟨S100000, .i32⟩ : BufTy).Contents (Elt F))
  :: StableHlo.ternary main_v179 main_v181 main_v177 main_v182 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v182 main_v183 (broadcastInDim S100000x1 ![0] bcast_S100000_S100000x1_0 : (⟨S100000, .i32⟩ : BufTy).Contents (Elt F) → (⟨S100000x1, .i32⟩ : BufTy).Contents (Elt F))
  :: StableHlo.binary main_arg8 main_v183 main_v184 ((fun x i => Host.gather gather_S50000_S100000x1_S100000_n_0_n_n_0_1_1 x i) : (⟨S50000, .i32⟩ : BufTy).Contents (Elt F) → (⟨S100000x1, .i32⟩ : BufTy).Contents (Elt F) → (⟨S100000, .i32⟩ : BufTy).Contents (Elt F))
  :: StableHlo.nullary main_c_37 (constantI S_ 32 1#32)
  :: [] )

/-- The buffer each of them writes, in order. -/
abbrev outLayerAndPairsW : List (Ref sig .tc) :=
  [main_v148, main_v149, main_v150, main_cst_30, main_v151, main_v152, main_v153, main_v154, main_v155, main_v156, main_v157, main_v158, main_v159, main_c_31, main_v160, main_v161, main_c_32, main_v162, main_v163, main_v164, main_v165, main_v166, main_v167, main_v168, main_c_33, main_v169, main_v170, main_c_34, main_v171, main_v172, main_v173, main_v174, main_v175, main_v176, main_v177, main_c_35, main_v178, main_v179, main_c_36, main_v180, main_v181, main_v182, main_v183, main_v184, main_c_37]

theorem outLayerAndPairs_writes : WritesAt (outLayerAndPairs : List (HloOp τ sig (Elt F))) outLayerAndPairsW :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))))))))))))))))))))

theorem outLayerAndPairs_sub : (outLayerAndPairs : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

theorem outLayerAndPairs_fresh : (outLayerAndPairs : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- the 3 operations of `@clip` run over the buffers of `main_call3`, from the one writing `main_call3_v0` to the one writing `main_v185`. -/
abbrev srcDegreeClip : List (HloOp τ sig (Elt F)) :=
  ( StableHlo.TRef.unary (.of main_c_37 : StableHlo.TRef sig ⟨S_, .i32⟩) main_call3.v0 id
  :: StableHlo.TRef.unary main_call3.v0 main_call3.v1 (broadcastInDim S100000 ![] bcast_S_S100000)
  :: StableHlo.TRef.binary main_call3.v1 (.of main_v184 : StableHlo.TRef sig ⟨S100000, .i32⟩) main_call3.v2 maxsi
  :: [] )

/-- The buffer each of them writes, in order. -/
abbrev srcDegreeClipW : List (Ref sig .tc) :=
  [main_call3_v0, main_call3_v1, main_v185]

theorem srcDegreeClip_writes : WritesAt (srcDegreeClip : List (HloOp τ sig (Elt F))) srcDegreeClipW :=
  .cons rfl (.cons rfl (.cons rfl (List.Forall₂.nil)))

theorem srcDegreeClip_sub : (srcDegreeClip : List (HloOp τ sig (Elt F))).Forall fun op => op.bufs ⊆ tcRefs τ sig :=
  ⟨unary_bufs_sub .., unary_bufs_sub .., binary_bufs_sub ..⟩

theorem srcDegreeClip_fresh : (srcDegreeClip : List (HloOp τ sig (Elt F))).Forall fun op => op.fresh = ∅ :=
  ⟨rfl, rfl, rfl⟩

/-- 13 operations of `@main`, from the one writing `main_v186` to the one writing `main_c_40`. -/
abbrev dstDegree : List (HloOp τ sig (Elt F)) :=
  ( StableHlo.unary main_v185 main_v186 (sitofp .f32 : (⟨S100000, .i32⟩ : BufTy).Contents (Elt F) → (⟨S100000, .f32⟩ : BufTy).Contents (Elt F))
  :: StableHlo.unary main_arg7 main_v187 ((extractStridedSlice S1x100000 ![1, 0] · slices_S2x100000_S1x100000_1_0) : (⟨S2x100000, .i32⟩ : BufTy).Contents (Elt F) → (⟨S1x100000, .i32⟩ : BufTy).Contents (Elt F))
  :: StableHlo.reshape main_v187 main_v188 rfl shapeCasts_S1x100000_S100000
  :: StableHlo.nullary main_c_38 (constantI S_ 32 0#32)
  :: StableHlo.unary main_c_38 main_v189 (broadcastInDim S100000 ![] bcast_S_S100000 : (⟨S_, .i32⟩ : BufTy).Contents (Elt F) → (⟨S100000, .i32⟩ : BufTy).Contents (Elt F))
  :: StableHlo.binary main_v188 main_v189 main_v190 (cmpi .slt : (⟨S100000, .i32⟩ : BufTy).Contents (Elt F) → (⟨S100000, .i32⟩ : BufTy).Contents (Elt F) → (⟨S100000, .i1⟩ : BufTy).Contents (Elt F))
  :: StableHlo.nullary main_c_39 (constantI S_ 32 50000#32)
  :: StableHlo.unary main_c_39 main_v191 (broadcastInDim S100000 ![] bcast_S_S100000 : (⟨S_, .i32⟩ : BufTy).Contents (Elt F) → (⟨S100000, .i32⟩ : BufTy).Contents (Elt F))
  :: StableHlo.binary main_v188 main_v191 main_v192 (addi : (⟨S100000, .i32⟩ : BufTy).Contents (Elt F) → (⟨S100000, .i32⟩ : BufTy).Contents (Elt F) → (⟨S100000, .i32⟩ : BufTy).Contents (Elt F))
  :: StableHlo.ternary main_v190 main_v192 main_v188 main_v193 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v193 main_v194 (broadcastInDim S100000x1 ![0] bcast_S100000_S100000x1_0 : (⟨S100000, .i32⟩ : BufTy).Contents (Elt F) → (⟨S100000x1, .i32⟩ : BufTy).Contents (Elt F))
  :: StableHlo.binary main_arg8 main_v194 main_v195 ((fun x i => Host.gather gather_S50000_S100000x1_S100000_n_0_n_n_0_1_1 x i) : (⟨S50000, .i32⟩ : BufTy).Contents (Elt F) → (⟨S100000x1, .i32⟩ : BufTy).Contents (Elt F) → (⟨S100000, .i32⟩ : BufTy).Contents (Elt F))
  :: StableHlo.nullary main_c_40 (constantI S_ 32 1#32)
  :: [] )

/-- The buffer each of them writes, in order. -/
abbrev dstDegreeW : List (Ref sig .tc) :=
  [main_v186, main_v187, main_v188, main_c_38, main_v189, main_v190, main_c_39, main_v191, main_v192, main_v193, main_v194, main_v195, main_c_40]

theorem dstDegree_writes : WritesAt (dstDegree : List (HloOp τ sig (Elt F))) dstDegreeW :=
  .cons rfl (.cons rfl (.cons rfl (.cons rfl (.cons rfl (.cons rfl (.cons rfl (.cons rfl (.cons rfl (.cons rfl (.cons rfl (.cons rfl (.cons rfl (List.Forall₂.nil)))))))))))))

theorem dstDegree_sub : (dstDegree : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

theorem dstDegree_fresh : (dstDegree : List (HloOp τ sig (Elt F))).Forall fun op => op.fresh = ∅ :=
  ⟨rfl, rfl, rfl, rfl, rfl, rfl, rfl, rfl, rfl, rfl, rfl, rfl, rfl⟩

/-- the 3 operations of `@clip` run over the buffers of `main_call4`, from the one writing `main_call4_v0` to the one writing `main_v196`. -/
abbrev dstDegreeClip : List (HloOp τ sig (Elt F)) :=
  ( StableHlo.TRef.unary (.of main_c_40 : StableHlo.TRef sig ⟨S_, .i32⟩) main_call4.v0 id
  :: StableHlo.TRef.unary main_call4.v0 main_call4.v1 (broadcastInDim S100000 ![] bcast_S_S100000)
  :: StableHlo.TRef.binary main_call4.v1 (.of main_v195 : StableHlo.TRef sig ⟨S100000, .i32⟩) main_call4.v2 maxsi
  :: [] )

/-- The buffer each of them writes, in order. -/
abbrev dstDegreeClipW : List (Ref sig .tc) :=
  [main_call4_v0, main_call4_v1, main_v196]

theorem dstDegreeClip_writes : WritesAt (dstDegreeClip : List (HloOp τ sig (Elt F))) dstDegreeClipW :=
  .cons rfl (.cons rfl (.cons rfl (List.Forall₂.nil)))

theorem dstDegreeClip_sub : (dstDegreeClip : List (HloOp τ sig (Elt F))).Forall fun op => op.bufs ⊆ tcRefs τ sig :=
  ⟨unary_bufs_sub .., unary_bufs_sub .., binary_bufs_sub ..⟩

theorem dstDegreeClip_fresh : (dstDegreeClip : List (HloOp τ sig (Elt F))).Forall fun op => op.fresh = ∅ :=
  ⟨rfl, rfl, rfl⟩

/-- Window 3: its stretches and calls in a row. -/
abbrev ops3 : List (HloOp τ sig (Elt F)) := outLayerAndPairs ++ (srcDegreeClip ++ (dstDegree ++ (dstDegreeClip)))

/-- The buffer each operation of window 3 writes, in order. -/
abbrev W3 : List (Ref sig .tc) := outLayerAndPairsW ++ (srcDegreeClipW ++ (dstDegreeW ++ (dstDegreeClipW)))

theorem ops3_writes : WritesAt (ops3 : List (HloOp τ sig (Elt F))) W3 :=
  WritesAt.append outLayerAndPairs_writes (WritesAt.append srcDegreeClip_writes (WritesAt.append dstDegree_writes (dstDegreeClip_writes)))

theorem ops3_sub : (ops3 : List (HloOp τ sig (Elt F))).Forall fun op => op.bufs ⊆ tcRefs τ sig :=
  forall_append outLayerAndPairs_sub (forall_append srcDegreeClip_sub (forall_append dstDegree_sub (dstDegreeClip_sub)))

theorem ops3_fresh : (ops3 : List (HloOp τ sig (Elt F))).Forall fun op => op.fresh = ∅ :=
  forall_append outLayerAndPairs_fresh (forall_append srcDegreeClip_fresh (forall_append dstDegree_fresh (dstDegreeClip_fresh)))

/-- The printed window, statement against item: each stretch and each call's body is one item of the chain. -/
theorem part3_chain (c : Dev nD) : main_part3 (F := F) c = (Pipeline.chainK
  [ seq outLayerAndPairs,
    seq srcDegreeClip,
    seq dstDegree ]
  (seq dstDegreeClip) : Prog (TpuEff nD τ sig (Elt F) (Pipeline.Sig Λ₀ (Fin 0) fun p => (pcfgs (F := F) p).Adm) .tc) PUnit) := by
  chain_rfl

/-- The printed window is the line of its operations. -/
theorem part3_eq (c : Dev nD) : main_part3 (F := F) c = seq ops3 := by
  rw [part3_chain]
  simp only [seq_append]
  rfl

end Cert.ReferenceIdeal.Hand

end
-- ==== Proof.Ref.Ops4.lean ====
import proofs.«148293_j56684978372941_1_alg».proof.Proof.Gen.ReferenceIdeal
import proofs.«148293_j56684978372941_1_alg».proof.Proof.Ref.Fold

/-!
# The reference's statements 241 to 287, as a list of operations

The printed window `main_part4` is a straight line of host operations; a call of an outlined function
is that function's operations over the buffers of the call.  Each stretch between calls, and each call's
body, is listed here in order, with the buffer each operation writes beside it; the window is then the
line of all of them.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 7 operations of `@main`, from the one writing `main_v197` to the one writing `main_v203`. -/
abbrev pairFeatures : List (HloOp τ sig (Elt F)) :=
  ( StableHlo.unary main_v196 main_v197 (sitofp .f32 : (⟨S100000, .i32⟩ : BufTy).Contents (Elt F) → (⟨S100000, .f32⟩ : BufTy).Contents (Elt F))
  :: StableHlo.binary main_v166 main_v175 main_v198 (mulf : (⟨S100000x256, .f32⟩ : BufTy).Contents (Elt F) → (⟨S100000x256, .f32⟩ : BufTy).Contents (Elt F) → (⟨S100000x256, .f32⟩ : BufTy).Contents (Elt F))
  :: StableHlo.nary ![main_v166, main_v175, main_v198] main_v199 (fun u => concatenate S100000x768 1 [⟨S100000x256, u 0⟩, ⟨S100000x256, u 1⟩, ⟨S100000x256, u 2⟩] concatenates_S100000x256_S100000x256_S100000x256_S100000x768_d1)
  :: StableHlo.binary main_v199 main_arg19 main_v200 ((fun l r => Host.dotGeneral dot_S100000x768_S768x256_S100000x256_1_0_0_1_n_n none l r) : (⟨S100000x768, .f32⟩ : BufTy).Contents (Elt F) → (⟨S768x256, .f32⟩ : BufTy).Contents (Elt F) → (⟨S100000x256, .f32⟩ : BufTy).Contents (Elt F))
  :: StableHlo.unary main_arg20 main_v201 (broadcastInDim S1x256 ![1] bcast_S256_S1x256_1 : (⟨S256, .f32⟩ : BufTy).Contents (Elt F) → (⟨S1x256, .f32⟩ : BufTy).Contents (Elt F))
  :: StableHlo.unary main_v201 main_v202 (broadcastInDim S100000x256 ![0, 1] bcast_S1x256_S100000x256_0_1 : (⟨S1x256, .f32⟩ : BufTy).Contents (Elt F) → (⟨S100000x256, .f32⟩ : BufTy).Contents (Elt F))
  :: StableHlo.binary main_v200 main_v202 main_v203 (addf : (⟨S100000x256, .f32⟩ : BufTy).Contents (Elt F) → (⟨S100000x256, .f32⟩ : BufTy).Contents (Elt F) → (⟨S100000x256, .f32⟩ : BufTy).Contents (Elt F))
  :: [] )

/-- The buffer each of them writes, in order. -/
abbrev pairFeaturesW : List (Ref sig .tc) :=
  [main_v197, main_v198, main_v199, main_v200, main_v201, main_v202, main_v203]

theorem pairFeatures_writes : WritesAt (pairFeatures : List (HloOp τ sig (Elt F))) pairFeaturesW :=
  .cons rfl (.cons rfl (.cons rfl (.cons rfl (.cons rfl (.cons rfl (.cons rfl (List.Forall₂.nil)))))))

theorem pairFeatures_sub : (pairFeatures : List (HloOp τ sig (Elt F))).Forall fun op => op.bufs ⊆ tcRefs τ sig :=
  ⟨unary_bufs_sub .., binary_bufs_sub .., nary_bufs_sub .., binary_bufs_sub .., unary_bufs_sub .., unary_bufs_sub .., binary_bufs_sub ..⟩

theorem pairFeatures_fresh : (pairFeatures : List (HloOp τ sig (Elt F))).Forall fun op => op.fresh = ∅ :=
  ⟨rfl, rfl, rfl, rfl, rfl, rfl, rfl⟩

/-- the 3 operations of `@relu_0` run over the buffers of `main_call5`, from the one writing `main_call5_cst` to the one writing `main_v204`. -/
abbrev hiddenRelu : List (HloOp τ sig (Elt F)) :=
  ( StableHlo.TRef.nullary main_call5.cst (constant S_ .f32 0x00000000#32)
  :: StableHlo.TRef.unary main_call5.cst main_call5.v0 (broadcastInDim S100000x256 ![] bcast_S_S100000x256)
  :: StableHlo.TRef.binary (.of main_v203 : StableHlo.TRef sig ⟨S100000x256, .f32⟩) main_call5.v0 main_call5.v1 maximumf
  :: [] )

/-- The buffer each of them writes, in order. -/
abbrev hiddenReluW : List (Ref sig .tc) :=
  [main_call5_cst, main_call5_v0, main_v204]

theorem hiddenRelu_writes : WritesAt (hiddenRelu : List (HloOp τ sig (Elt F))) hiddenReluW :=
  .cons rfl (.cons rfl (.cons rfl (List.Forall₂.nil)))

theorem hiddenRelu_sub : (hiddenRelu : List (HloOp τ sig (Elt F))).Forall fun op => op.bufs ⊆ tcRefs τ sig :=
  ⟨nullary_bufs_sub .., unary_bufs_sub .., binary_bufs_sub ..⟩

theorem hiddenRelu_fresh : (hiddenRelu : List (HloOp τ sig (Elt F))).Forall fun op => op.fresh = ∅ :=
  ⟨rfl, rfl, rfl⟩

/-- 21 operations of `@main`, from the one writing `main_v205` to the one writing `main_v224`. -/
abbrev batchNormAndScore : List (HloOp τ sig (Elt F)) :=
  ( StableHlo.unary main_arg23 main_v205 (broadcastInDim S1x256 ![1] bcast_S256_S1x256_1 : (⟨S256, .f32⟩ : BufTy).Contents (Elt F) → (⟨S1x256, .f32⟩ : BufTy).Contents (Elt F))
  :: StableHlo.unary main_v205 main_v206 (broadcastInDim S100000x256 ![0, 1] bcast_S1x256_S100000x256_0_1 : (⟨S1x256, .f32⟩ : BufTy).Contents (Elt F) → (⟨S100000x256, .f32⟩ : BufTy).Contents (Elt F))
  :: StableHlo.binary main_v204 main_v206 main_v207 (subf : (⟨S100000x256, .f32⟩ : BufTy).Contents (Elt F) → (⟨S100000x256, .f32⟩ : BufTy).Contents (Elt F) → (⟨S100000x256, .f32⟩ : BufTy).Contents (Elt F))
  :: StableHlo.nullary main_cst_41 (constant S_ .f32 0x3727C5AC#32)
  :: StableHlo.unary main_cst_41 main_v208 (broadcastInDim S256 ![] bcast_S_S256 : (⟨S_, .f32⟩ : BufTy).Contents (Elt F) → (⟨S256, .f32⟩ : BufTy).Contents (Elt F))
  :: StableHlo.binary main_arg24 main_v208 main_v209 (addf : (⟨S256, .f32⟩ : BufTy).Contents (Elt F) → (⟨S256, .f32⟩ : BufTy).Contents (Elt F) → (⟨S256, .f32⟩ : BufTy).Contents (Elt F))
  :: StableHlo.unary main_v209 main_v210 (Host.rsqrt : (⟨S256, .f32⟩ : BufTy).Contents (Elt F) → (⟨S256, .f32⟩ : BufTy).Contents (Elt F))
  :: StableHlo.unary main_v210 main_v211 (broadcastInDim S1x256 ![1] bcast_S256_S1x256_1 : (⟨S256, .f32⟩ : BufTy).Contents (Elt F) → (⟨S1x256, .f32⟩ : BufTy).Contents (Elt F))
  :: StableHlo.unary main_v211 main_v212 (broadcastInDim S100000x256 ![0, 1] bcast_S1x256_S100000x256_0_1 : (⟨S1x256, .f32⟩ : BufTy).Contents (Elt F) → (⟨S100000x256, .f32⟩ : BufTy).Contents (Elt F))
  :: StableHlo.binary main_v207 main_v212 main_v213 (mulf : (⟨S100000x256, .f32⟩ : BufTy).Contents (Elt F) → (⟨S100000x256, .f32⟩ : BufTy).Contents (Elt F) → (⟨S100000x256, .f32⟩ : BufTy).Contents (Elt F))
  :: StableHlo.unary main_arg21 main_v214 (broadcastInDim S1x256 ![1] bcast_S256_S1x256_1 : (⟨S256, .f32⟩ : BufTy).Contents (Elt F) → (⟨S1x256, .f32⟩ : BufTy).Contents (Elt F))
  :: StableHlo.unary main_v214 main_v215 (broadcastInDim S100000x256 ![0, 1] bcast_S1x256_S100000x256_0_1 : (⟨S1x256, .f32⟩ : BufTy).Contents (Elt F) → (⟨S100000x256, .f32⟩ : BufTy).Contents (Elt F))
  :: StableHlo.binary main_v213 main_v215 main_v216 (mulf : (⟨S100000x256, .f32⟩ : BufTy).Contents (Elt F) → (⟨S100000x256, .f32⟩ : BufTy).Contents (Elt F) → (⟨S100000x256, .f32⟩ : BufTy).Contents (Elt F))
  :: StableHlo.unary main_arg22 main_v217 (broadcastInDim S1x256 ![1] bcast_S256_S1x256_1 : (⟨S256, .f32⟩ : BufTy).Contents (Elt F) → (⟨S1x256, .f32⟩ : BufTy).Contents (Elt F))
  :: StableHlo.unary main_v217 main_v218 (broadcastInDim S100000x256 ![0, 1] bcast_S1x256_S100000x256_0_1 : (⟨S1x256, .f32⟩ : BufTy).Contents (Elt F) → (⟨S100000x256, .f32⟩ : BufTy).Contents (Elt F))
  :: StableHlo.binary main_v216 main_v218 main_v219 (addf : (⟨S100000x256, .f32⟩ : BufTy).Contents (Elt F) → (⟨S100000x256, .f32⟩ : BufTy).Contents (Elt F) → (⟨S100000x256, .f32⟩ : BufTy).Contents (Elt F))
  :: StableHlo.binary main_v219 main_arg25 main_v220 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F))
  :: StableHlo.unary main_arg26 main_v221 (broadcastInDim S1x1 ![1] bcast_S1_S1x1_1 : (⟨S1, .f32⟩ : BufTy).Contents (Elt F) → (⟨S1x1, .f32⟩ : BufTy).Contents (Elt F))
  :: StableHlo.unary main_v221 main_v222 (broadcastInDim S100000x1 ![0, 1] bcast_S1x1_S100000x1_0_1 : (⟨S1x1, .f32⟩ : BufTy).Contents (Elt F) → (⟨S100000x1, .f32⟩ : BufTy).Contents (Elt F))
  :: StableHlo.binary main_v220 main_v222 main_v223 (addf : (⟨S100000x1, .f32⟩ : BufTy).Contents (Elt F) → (⟨S100000x1, .f32⟩ : BufTy).Contents (Elt F) → (⟨S100000x1, .f32⟩ : BufTy).Contents (Elt F))
  :: StableHlo.reshape main_v223 main_v224 rfl shapeCasts_S100000x1_S100000
  :: [] )

/-- The buffer each of them writes, in order. -/
abbrev batchNormAndScoreW : List (Ref sig .tc) :=
  [main_v205, main_v206, main_v207, main_cst_41, main_v208, main_v209, main_v210, main_v211, main_v212, main_v213, main_v214, main_v215, main_v216, main_v217, main_v218, main_v219, main_v220, main_v221, main_v222, main_v223, main_v224]

theorem batchNormAndScore_writes : WritesAt (batchNormAndScore : List (HloOp τ sig (Elt F))) batchNormAndScoreW :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))

theorem batchNormAndScore_sub : (batchNormAndScore : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., reshape_bufs_sub ..⟩

theorem batchNormAndScore_fresh : (batchNormAndScore : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- the 2 operations of `@relu_1` run over the buffers of `main_call6`, from the one writing `main_call6_cst` to the one writing `main_v225`. -/
abbrev alphaRelu : List (HloOp τ sig (Elt F)) :=
  ( StableHlo.TRef.nullary main_call6.cst (constant S_ .f32 0x00000000#32)
  :: StableHlo.TRef.binary (.of main_arg27 : StableHlo.TRef sig ⟨S_, .f32⟩) main_call6.cst main_call6.v0 maximumf
  :: [] )

/-- The buffer each of them writes, in order. -/
abbrev alphaReluW : List (Ref sig .tc) :=
  [main_call6_cst, main_v225]

theorem alphaRelu_writes : WritesAt (alphaRelu : List (HloOp τ sig (Elt F))) alphaReluW :=
  .cons rfl (.cons rfl (List.Forall₂.nil))

theorem alphaRelu_sub : (alphaRelu : List (HloOp τ sig (Elt F))).Forall fun op => op.bufs ⊆ tcRefs τ sig :=
  ⟨nullary_bufs_sub .., binary_bufs_sub ..⟩

theorem alphaRelu_fresh : (alphaRelu : List (HloOp τ sig (Elt F))).Forall fun op => op.fresh = ∅ :=
  ⟨rfl, rfl⟩

/-- 4 operations of `@main`, from the one writing `main_v226` to the one writing `main_v229`. -/
abbrev srcLogTerm : List (HloOp τ sig (Elt F)) :=
  ( StableHlo.unary main_v186 main_v226 (Host.log : (⟨S100000, .f32⟩ : BufTy).Contents (Elt F) → (⟨S100000, .f32⟩ : BufTy).Contents (Elt F))
  :: StableHlo.unary main_v225 main_v227 (broadcastInDim S100000 ![] bcast_S_S100000 : (⟨S_, .f32⟩ : BufTy).Contents (Elt F) → (⟨S100000, .f32⟩ : BufTy).Contents (Elt F))
  :: StableHlo.binary main_v227 main_v226 main_v228 (mulf : (⟨S100000, .f32⟩ : BufTy).Contents (Elt F) → (⟨S100000, .f32⟩ : BufTy).Contents (Elt F) → (⟨S100000, .f32⟩ : BufTy).Contents (Elt F))
  :: StableHlo.binary main_v224 main_v228 main_v229 (subf : (⟨S100000, .f32⟩ : BufTy).Contents (Elt F) → (⟨S100000, .f32⟩ : BufTy).Contents (Elt F) → (⟨S100000, .f32⟩ : BufTy).Contents (Elt F))
  :: [] )

/-- The buffer each of them writes, in order. -/
abbrev srcLogTermW : List (Ref sig .tc) :=
  [main_v226, main_v227, main_v228, main_v229]

theorem srcLogTerm_writes : WritesAt (srcLogTerm : List (HloOp τ sig (Elt F))) srcLogTermW :=
  .cons rfl (.cons rfl (.cons rfl (.cons rfl (List.Forall₂.nil))))

theorem srcLogTerm_sub : (srcLogTerm : List (HloOp τ sig (Elt F))).Forall fun op => op.bufs ⊆ tcRefs τ sig :=
  ⟨unary_bufs_sub .., unary_bufs_sub .., binary_bufs_sub .., binary_bufs_sub ..⟩

theorem srcLogTerm_fresh : (srcLogTerm : List (HloOp τ sig (Elt F))).Forall fun op => op.fresh = ∅ :=
  ⟨rfl, rfl, rfl, rfl⟩

/-- the 2 operations of `@relu_1` run over the buffers of `main_call7`, from the one writing `main_call7_cst` to the one writing `main_v230`. -/
abbrev betaRelu : List (HloOp τ sig (Elt F)) :=
  ( StableHlo.TRef.nullary main_call7.cst (constant S_ .f32 0x00000000#32)
  :: StableHlo.TRef.binary (.of main_arg28 : StableHlo.TRef sig ⟨S_, .f32⟩) main_call7.cst main_call7.v0 maximumf
  :: [] )

/-- The buffer each of them writes, in order. -/
abbrev betaReluW : List (Ref sig .tc) :=
  [main_call7_cst, main_v230]

theorem betaRelu_writes : WritesAt (betaRelu : List (HloOp τ sig (Elt F))) betaReluW :=
  .cons rfl (.cons rfl (List.Forall₂.nil))

theorem betaRelu_sub : (betaRelu : List (HloOp τ sig (Elt F))).Forall fun op => op.bufs ⊆ tcRefs τ sig :=
  ⟨nullary_bufs_sub .., binary_bufs_sub ..⟩

theorem betaRelu_fresh : (betaRelu : List (HloOp τ sig (Elt F))).Forall fun op => op.fresh = ∅ :=
  ⟨rfl, rfl⟩

/-- 11 operations of `@main`, from the one writing `main_v231` to the one writing `main_v240`. -/
abbrev scoreTail : List (HloOp τ sig (Elt F)) :=
  ( StableHlo.unary main_v197 main_v231 (Host.log : (⟨S100000, .f32⟩ : BufTy).Contents (Elt F) → (⟨S100000, .f32⟩ : BufTy).Contents (Elt F))
  :: StableHlo.unary main_v230 main_v232 (broadcastInDim S100000 ![] bcast_S_S100000 : (⟨S_, .f32⟩ : BufTy).Contents (Elt F) → (⟨S100000, .f32⟩ : BufTy).Contents (Elt F))
  :: StableHlo.binary main_v232 main_v231 main_v233 (mulf : (⟨S100000, .f32⟩ : BufTy).Contents (Elt F) → (⟨S100000, .f32⟩ : BufTy).Contents (Elt F) → (⟨S100000, .f32⟩ : BufTy).Contents (Elt F))
  :: StableHlo.binary main_v229 main_v233 main_v234 (subf : (⟨S100000, .f32⟩ : BufTy).Contents (Elt F) → (⟨S100000, .f32⟩ : BufTy).Contents (Elt F) → (⟨S100000, .f32⟩ : BufTy).Contents (Elt F))
  :: StableHlo.unary main_v186 main_v235 (Host.sqrt : (⟨S100000, .f32⟩ : BufTy).Contents (Elt F) → (⟨S100000, .f32⟩ : BufTy).Contents (Elt F))
  :: StableHlo.unary main_v197 main_v236 (Host.sqrt : (⟨S100000, .f32⟩ : BufTy).Contents (Elt F) → (⟨S100000, .f32⟩ : BufTy).Contents (Elt F))
  :: StableHlo.binary main_v235 main_v236 main_v237 (mulf : (⟨S100000, .f32⟩ : BufTy).Contents (Elt F) → (⟨S100000, .f32⟩ : BufTy).Contents (Elt F) → (⟨S100000, .f32⟩ : BufTy).Contents (Elt F))
  :: StableHlo.nullary main_cst_42 (constant S_ .f32 0x322BCC77#32)
  :: StableHlo.unary main_cst_42 main_v238 (broadcastInDim S100000 ![] bcast_S_S100000 : (⟨S_, .f32⟩ : BufTy).Contents (Elt F) → (⟨S100000, .f32⟩ : BufTy).Contents (Elt F))
  :: StableHlo.binary main_v237 main_v238 main_v239 (addf : (⟨S100000, .f32⟩ : BufTy).Contents (Elt F) → (⟨S100000, .f32⟩ : BufTy).Contents (Elt F) → (⟨S100000, .f32⟩ : BufTy).Contents (Elt F))
  :: StableHlo.binary main_v234 main_v239 main_v240 (Host.divf : (⟨S100000, .f32⟩ : BufTy).Contents (Elt F) → (⟨S100000, .f32⟩ : BufTy).Contents (Elt F) → (⟨S100000, .f32⟩ : BufTy).Contents (Elt F))
  :: [] )

/-- The buffer each of them writes, in order. -/
abbrev scoreTailW : List (Ref sig .tc) :=
  [main_v231, main_v232, main_v233, main_v234, main_v235, main_v236, main_v237, main_cst_42, main_v238, main_v239, main_v240]

theorem scoreTail_writes : WritesAt (scoreTail : List (HloOp τ sig (Elt F))) scoreTailW :=
  .cons rfl (.cons rfl (.cons rfl (.cons rfl (.cons rfl (.cons rfl (.cons rfl (.cons rfl (.cons rfl (.cons rfl (.cons rfl (List.Forall₂.nil)))))))))))

theorem scoreTail_sub : (scoreTail : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

theorem scoreTail_fresh : (scoreTail : List (HloOp τ sig (Elt F))).Forall fun op => op.fresh = ∅ :=
  ⟨rfl, rfl, rfl, rfl, rfl, rfl, rfl, rfl, rfl, rfl, rfl⟩

/-- Window 4: its stretches and calls in a row. -/
abbrev ops4 : List (HloOp τ sig (Elt F)) := pairFeatures ++ (hiddenRelu ++ (batchNormAndScore ++ (alphaRelu ++ (srcLogTerm ++ (betaRelu ++ (scoreTail))))))

/-- The buffer each operation of window 4 writes, in order. -/
abbrev W4 : List (Ref sig .tc) := pairFeaturesW ++ (hiddenReluW ++ (batchNormAndScoreW ++ (alphaReluW ++ (srcLogTermW ++ (betaReluW ++ (scoreTailW))))))

theorem ops4_writes : WritesAt (ops4 : List (HloOp τ sig (Elt F))) W4 :=
  WritesAt.append pairFeatures_writes (WritesAt.append hiddenRelu_writes (WritesAt.append batchNormAndScore_writes (WritesAt.append alphaRelu_writes (WritesAt.append srcLogTerm_writes (WritesAt.append betaRelu_writes (scoreTail_writes))))))

theorem ops4_sub : (ops4 : List (HloOp τ sig (Elt F))).Forall fun op => op.bufs ⊆ tcRefs τ sig :=
  forall_append pairFeatures_sub (forall_append hiddenRelu_sub (forall_append batchNormAndScore_sub (forall_append alphaRelu_sub (forall_append srcLogTerm_sub (forall_append betaRelu_sub (scoreTail_sub))))))

theorem ops4_fresh : (ops4 : List (HloOp τ sig (Elt F))).Forall fun op => op.fresh = ∅ :=
  forall_append pairFeatures_fresh (forall_append hiddenRelu_fresh (forall_append batchNormAndScore_fresh (forall_append alphaRelu_fresh (forall_append srcLogTerm_fresh (forall_append betaRelu_fresh (scoreTail_fresh))))))

/-- The printed window, statement against item: each stretch and each call's body is one item of the chain. -/
theorem part4_chain (c : Dev nD) : main_part4 (F := F) c = (Pipeline.chainK
  [ seq pairFeatures,
    seq hiddenRelu,
    seq batchNormAndScore,
    seq alphaRelu,
    seq srcLogTerm,
    seq betaRelu ]
  (seq scoreTail) : Prog (TpuEff nD τ sig (Elt F) (Pipeline.Sig Λ₀ (Fin 0) fun p => (pcfgs (F := F) p).Adm) .tc) PUnit) := by
  chain_rfl

/-- The printed window is the line of its operations. -/
theorem part4_eq (c : Dev nD) : main_part4 (F := F) c = seq ops4 := by
  rw [part4_chain]
  simp only [seq_append]
  rfl

end Cert.ReferenceIdeal.Hand

end
-- ==== Proof.Ref.Ops.lean ====
import proofs.«148293_j56684978372941_1_alg».proof.Proof.Ref.Ops0
import proofs.«148293_j56684978372941_1_alg».proof.Proof.Ref.Ops1
import proofs.«148293_j56684978372941_1_alg».proof.Proof.Ref.Ops2
import proofs.«148293_j56684978372941_1_alg».proof.Proof.Ref.Ops3
import proofs.«148293_j56684978372941_1_alg».proof.Proof.Ref.Ops4

/-!
# The reference program as one line of operations

`@main` runs its five windows in order, so it is the line of all their operations; every operation writes
one buffer of its own, named position by position in `W`, touches TensorCore references only, and
determines its result.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of `@main`, the callees' at their call sites, in order. -/
abbrev ops : List (HloOp τ sig (Elt F)) := ops0 ++ (ops1 ++ (ops2 ++ (ops3 ++ ops4)))

/-- The buffer each operation writes, in order. -/
abbrev W : List (Ref sig .tc) := W0 ++ (W1 ++ (W2 ++ (W3 ++ W4)))

theorem ops_writes : WritesAt (ops : List (HloOp τ sig (Elt F))) W :=
  WritesAt.append ops0_writes (WritesAt.append ops1_writes (WritesAt.append ops2_writes (WritesAt.append ops3_writes ops4_writes)))

theorem ops_sub : (ops : List (HloOp τ sig (Elt F))).Forall fun op => op.bufs ⊆ tcRefs τ sig :=
  forall_append ops0_sub (forall_append ops1_sub (forall_append ops2_sub (forall_append ops3_sub ops4_sub)))

theorem ops_fresh : (ops : List (HloOp τ sig (Elt F))).Forall fun op => op.fresh = ∅ :=
  forall_append ops0_fresh (forall_append ops1_fresh (forall_append ops2_fresh (forall_append ops3_fresh ops4_fresh)))

/-- `@main` is the line of its operations: window after window, each the line of its own. -/
theorem main_eq (c : Dev nD) : main (F := F) c = seq ops := by
  show (main_part0 (F := F) c >>= fun _ => main_part1 (F := F) c >>= fun _ => main_part2 (F := F) c >>= fun _ =>
      main_part3 (F := F) c >>= fun _ => main_part4 (F := F) c) = seq (ops0 ++ (ops1 ++ (ops2 ++ (ops3 ++ ops4))))
  rw [part0_eq, part1_eq, part2_eq, part3_eq, part4_eq]
  simp only [seq_append]

end Cert.ReferenceIdeal.Hand

end
-- ==== Proof.Ref.Run.lean ====
import proofs.«148293_j56684978372941_1_alg».proof.Proof.Ref.Ops
import Idealize.ShloMosaic.Lib.StableHlo.Run

/-!
# The reference's run

The reference is a program of tensor values only: its signature scopes no buffer and no semaphore, so its
run is the run of a straight line.  Every weakly fair execution terminates without a fault, and every
TensorCore buffer ends at the fold of the operations over the launch contents; the fold is kept folded.
No operation writes an argument's buffer, so the arguments end as they were launched.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of `@main` terminates, and
    each TensorCore buffer ends at the fold of the operations over what the launch dealt the device. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (fun b => m (c, b)) (b : DevRef τ sig) :=
  run_seq scopedRefs_eq scopedSems_eq defs main (fun _ => ops) main_eq (fun _ => ops_sub) m ρ
    (fun _ => List.forall_iff_forall_mem.1 ops_fresh)

/-- A buffer no operation writes holds after the line what it held before. -/
theorem kept_of_not_written {a : Ref sig .tc} (ha : a ∉ (W : List (Ref sig .tc))) (V : Valuation τ sig (Elt F)) :
    after ops V (a : DevRef τ sig) = V (a : DevRef τ sig) :=
  after_eq_take ops_writes 0 ha V

theorem arg0_kept (V : Valuation τ sig (Elt F)) : after ops V (main_arg0 : DevRef τ sig) = V (main_arg0 : DevRef τ sig) :=
  kept_of_not_written (by decide +kernel) V
theorem arg1_kept (V : Valuation τ sig (Elt F)) : after ops V (main_arg1 : DevRef τ sig) = V (main_arg1 : DevRef τ sig) :=
  kept_of_not_written (by decide +kernel) V
theorem arg2_kept (V : Valuation τ sig (Elt F)) : after ops V (main_arg2 : DevRef τ sig) = V (main_arg2 : DevRef τ sig) :=
  kept_of_not_written (by decide +kernel) V
theorem arg3_kept (V : Valuation τ sig (Elt F)) : after ops V (main_arg3 : DevRef τ sig) = V (main_arg3 : DevRef τ sig) :=
  kept_of_not_written (by decide +kernel) V
theorem arg4_kept (V : Valuation τ sig (Elt F)) : after ops V (main_arg4 : DevRef τ sig) = V (main_arg4 : DevRef τ sig) :=
  kept_of_not_written (by decide +kernel) V
theorem arg5_kept (V : Valuation τ sig (Elt F)) : after ops V (main_arg5 : DevRef τ sig) = V (main_arg5 : DevRef τ sig) :=
  kept_of_not_written (by decide +kernel) V
theorem arg6_kept (V : Valuation τ sig (Elt F)) : after ops V (main_arg6 : DevRef τ sig) = V (main_arg6 : DevRef τ sig) :=
  kept_of_not_written (by decide +kernel) V
theorem arg7_kept (V : Valuation τ sig (Elt F)) : after ops V (main_arg7 : DevRef τ sig) = V (main_arg7 : DevRef τ sig) :=
  kept_of_not_written (by decide +kernel) V
theorem arg8_kept (V : Valuation τ sig (Elt F)) : after ops V (main_arg8 : DevRef τ sig) = V (main_arg8 : DevRef τ sig) :=
  kept_of_not_written (by decide +kernel) V
theorem arg9_kept (V : Valuation τ sig (Elt F)) : after ops V (main_arg9 : DevRef τ sig) = V (main_arg9 : DevRef τ sig) :=
  kept_of_not_written (by decide +kernel) V
theorem arg10_kept (V : Valuation τ sig (Elt F)) : after ops V (main_arg10 : DevRef τ sig) = V (main_arg10 : DevRef τ sig) :=
  kept_of_not_written (by decide +kernel) V
theorem arg11_kept (V : Valuation τ sig (Elt F)) : after ops V (main_arg11 : DevRef τ sig) = V (main_arg11 : DevRef τ sig) :=
  kept_of_not_written (by decide +kernel) V
theorem arg12_kept (V : Valuation τ sig (Elt F)) : after ops V (main_arg12 : DevRef τ sig) = V (main_arg12 : DevRef τ sig) :=
  kept_of_not_written (by decide +kernel) V
theorem arg13_kept (V : Valuation τ sig (Elt F)) : after ops V (main_arg13 : DevRef τ sig) = V (main_arg13 : DevRef τ sig) :=
  kept_of_not_written (by decide +kernel) V
theorem arg14_kept (V : Valuation τ sig (Elt F)) : after ops V (main_arg14 : DevRef τ sig) = V (main_arg14 : DevRef τ sig) :=
  kept_of_not_written (by decide +kernel) V
theorem arg15_kept (V : Valuation τ sig (Elt F)) : after ops V (main_arg15 : DevRef τ sig) = V (main_arg15 : DevRef τ sig) :=
  kept_of_not_written (by decide +kernel) V
theorem arg16_kept (V : Valuation τ sig (Elt F)) : after ops V (main_arg16 : DevRef τ sig) = V (main_arg16 : DevRef τ sig) :=
  kept_of_not_written (by decide +kernel) V
theorem arg17_kept (V : Valuation τ sig (Elt F)) : after ops V (main_arg17 : DevRef τ sig) = V (main_arg17 : DevRef τ sig) :=
  kept_of_not_written (by decide +kernel) V
theorem arg18_kept (V : Valuation τ sig (Elt F)) : after ops V (main_arg18 : DevRef τ sig) = V (main_arg18 : DevRef τ sig) :=
  kept_of_not_written (by decide +kernel) V
theorem arg19_kept (V : Valuation τ sig (Elt F)) : after ops V (main_arg19 : DevRef τ sig) = V (main_arg19 : DevRef τ sig) :=
  kept_of_not_written (by decide +kernel) V
theorem arg20_kept (V : Valuation τ sig (Elt F)) : after ops V (main_arg20 : DevRef τ sig) = V (main_arg20 : DevRef τ sig) :=
  kept_of_not_written (by decide +kernel) V
theorem arg21_kept (V : Valuation τ sig (Elt F)) : after ops V (main_arg21 : DevRef τ sig) = V (main_arg21 : DevRef τ sig) :=
  kept_of_not_written (by decide +kernel) V
theorem arg22_kept (V : Valuation τ sig (Elt F)) : after ops V (main_arg22 : DevRef τ sig) = V (main_arg22 : DevRef τ sig) :=
  kept_of_not_written (by decide +kernel) V
theorem arg23_kept (V : Valuation τ sig (Elt F)) : after ops V (main_arg23 : DevRef τ sig) = V (main_arg23 : DevRef τ sig) :=
  kept_of_not_written (by decide +kernel) V
theorem arg24_kept (V : Valuation τ sig (Elt F)) : after ops V (main_arg24 : DevRef τ sig) = V (main_arg24 : DevRef τ sig) :=
  kept_of_not_written (by decide +kernel) V
theorem arg25_kept (V : Valuation τ sig (Elt F)) : after ops V (main_arg25 : DevRef τ sig) = V (main_arg25 : DevRef τ sig) :=
  kept_of_not_written (by decide +kernel) V
theorem arg26_kept (V : Valuation τ sig (Elt F)) : after ops V (main_arg26 : DevRef τ sig) = V (main_arg26 : DevRef τ sig) :=
  kept_of_not_written (by decide +kernel) V
theorem arg27_kept (V : Valuation τ sig (Elt F)) : after ops V (main_arg27 : DevRef τ sig) = V (main_arg27 : DevRef τ sig) :=
  kept_of_not_written (by decide +kernel) V
theorem arg28_kept (V : Valuation τ sig (Elt F)) : after ops V (main_arg28 : DevRef τ sig) = V (main_arg28 : DevRef τ sig) :=
  kept_of_not_written (by decide +kernel) V

/-- No operation writes an argument: after the line every argument's buffer holds what it held before. -/
theorem args_kept (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig)
    ∧ after ops V (main_arg14 : DevRef τ sig) = V (main_arg14 : DevRef τ sig)
    ∧ after ops V (main_arg15 : DevRef τ sig) = V (main_arg15 : DevRef τ sig)
    ∧ after ops V (main_arg16 : DevRef τ sig) = V (main_arg16 : DevRef τ sig)
    ∧ after ops V (main_arg17 : DevRef τ sig) = V (main_arg17 : DevRef τ sig)
    ∧ after ops V (main_arg18 : DevRef τ sig) = V (main_arg18 : DevRef τ sig)
    ∧ after ops V (main_arg19 : DevRef τ sig) = V (main_arg19 : DevRef τ sig)
    ∧ after ops V (main_arg20 : DevRef τ sig) = V (main_arg20 : DevRef τ sig)
    ∧ after ops V (main_arg21 : DevRef τ sig) = V (main_arg21 : DevRef τ sig)
    ∧ after ops V (main_arg22 : DevRef τ sig) = V (main_arg22 : DevRef τ sig)
    ∧ after ops V (main_arg23 : DevRef τ sig) = V (main_arg23 : DevRef τ sig)
    ∧ after ops V (main_arg24 : DevRef τ sig) = V (main_arg24 : DevRef τ sig)
    ∧ after ops V (main_arg25 : DevRef τ sig) = V (main_arg25 : DevRef τ sig)
    ∧ after ops V (main_arg26 : DevRef τ sig) = V (main_arg26 : DevRef τ sig)
    ∧ after ops V (main_arg27 : DevRef τ sig) = V (main_arg27 : DevRef τ sig)
    ∧ after ops V (main_arg28 : DevRef τ sig) = V (main_arg28 : DevRef τ sig) :=
  ⟨arg0_kept V, arg1_kept V, arg2_kept V, arg3_kept V, arg4_kept V, arg5_kept V, arg6_kept V, arg7_kept V, arg8_kept V, arg9_kept V, arg10_kept V, arg11_kept V, arg12_kept V, arg13_kept V, arg14_kept V, arg15_kept V, arg16_kept V, arg17_kept V, arg18_kept V, arg19_kept V, arg20_kept V, arg21_kept V, arg22_kept V, arg23_kept V, arg24_kept V, arg25_kept V, arg26_kept V, arg27_kept V, arg28_kept V⟩

/-- The frame: every weakly fair execution terminates without a fault and the argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨(h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _),
      (h c main_arg10).trans (arg10_kept _),
      (h c main_arg11).trans (arg11_kept _),
      (h c main_arg12).trans (arg12_kept _),
      (h c main_arg13).trans (arg13_kept _),
      (h c main_arg14).trans (arg14_kept _),
      (h c main_arg15).trans (arg15_kept _),
      (h c main_arg16).trans (arg16_kept _),
      (h c main_arg17).trans (arg17_kept _),
      (h c main_arg18).trans (arg18_kept _),
      (h c main_arg19).trans (arg19_kept _),
      (h c main_arg20).trans (arg20_kept _),
      (h c main_arg21).trans (arg21_kept _),
      (h c main_arg22).trans (arg22_kept _),
      (h c main_arg23).trans (arg23_kept _),
      (h c main_arg24).trans (arg24_kept _),
      (h c main_arg25).trans (arg25_kept _),
      (h c main_arg26).trans (arg26_kept _),
      (h c main_arg27).trans (arg27_kept _),
      (h c main_arg28).trans (arg28_kept _)⟩)
    (run m ρ)

end Cert.ReferenceIdeal.Hand

end
-- ==== Proof.KI.Out0Def.lean ====
import proofs.«148293_j56684978372941_1_alg».proof.Proof.Gen.KernelIdeal.Skeleton
import Idealize.ShloMosaic.Lib.ValueIdx

noncomputable section

namespace Cert.KernelIdeal.Hand

open Cert.KernelIdeal Cert.KernelIdeal.Gen
open Idealize.ShloMosaic
open Idealize.ShloMosaic.ValueIdx (ix2 eq_ix2 idx2_lt0 idx2_lt1)

variable {F : FTy → Type} [FloatOps F]

/-! # What the first tiled matmul leaves in its output array, as one function of its operand arrays

The 50000 × 2048 operand `X` is cut into 25 row tiles of 2000 rows and 4 contraction tiles of 512 columns; the
2048 × 512 weight `Wt` into the 4 matching tiles of 512 rows. Row tile `r` of the result is the bias row added to
the sum, over the contraction tiles in order, of the products of `X`'s tile (r, k) and `Wt`'s tile k, each product
added to the sum so far and the first to zero. -/

/-- Tile (`r`, `k`) of the operand: rows `2000 r …`, columns `512 k …`. -/
def lhsBlk0 (X : Vec F S50000x2048 .f32) (r : Fin 25) (k : Fin 4) : Vec F S2000x512 .f32 :=
  fun y => X (ix2 (⟨2000 * r.val + (y 0).val, by have := idx2_lt0 y; have := r.isLt; omega⟩ : Fin 50000)
    (⟨512 * k.val + (y 1).val, by have := idx2_lt1 y; have := k.isLt; omega⟩ : Fin 2048))

/-- Tile `k` of the weight: rows `512 k …`, every column. -/
def rhsBlk0 (Wt : Vec F S2048x512 .f32) (k : Fin 4) : Vec F S512x512 .f32 :=
  fun y => Wt (ix2 (⟨512 * k.val + (y 0).val, by have := idx2_lt0 y; have := k.isLt; omega⟩ : Fin 2048)
    (⟨(y 1).val, idx2_lt1 y⟩ : Fin 512))

/-- The completed sum of row tile `r`: the 4 contraction tiles' products added in order, starting from zero. -/
def rowAcc0 (X : Vec F S50000x2048 .f32) (Wt : Vec F S2048x512 .f32) (r : Fin 25) : Vec F S2000x512 .f32 :=
  k0_pay2 (lhsBlk0 X r 3) (rhsBlk0 Wt 3) (k0_pay2 (lhsBlk0 X r 2) (rhsBlk0 Wt 2) (k0_pay2 (lhsBlk0 X r 1) (rhsBlk0 Wt 1) (k0_pay2 (lhsBlk0 X r 0) (rhsBlk0 Wt 0) k0_pay1)))

/-- The output array: at row `i 0`, the completed sum of its row tile `i 0 / 2000` plus the bias row, read at the
    row's place `i 0 % 2000` inside the tile. -/
def G0 (X : Vec F S50000x2048 .f32) (Wt : Vec F S2048x512 .f32) (b : Vec F S1x512 .f32) : Vec F S50000x512 .f32 :=
  fun i => k0_pay3 (rowAcc0 X Wt ⟨(i 0).val / 2000, by have := idx2_lt0 i; omega⟩) b
    (ix2 (⟨(i 0).val % 2000, Nat.mod_lt _ (by decide)⟩ : Fin 2000) (⟨(i 1).val, idx2_lt1 i⟩ : Fin 512))

end Cert.KernelIdeal.Hand

end
-- ==== Proof.KI.Out0.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Body0
import proofs.«148293_j56684978372941_1_alg».proof.Proof.KI.Out0Def
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

open Idealize.ShloMosaic.ValueIdx (ix2 eq_ix2 idx2_lt0 idx2_lt1)

/-! # The first tiled matmul's output array is `G0` of its operand arrays

Point `t` of the 25 × 4 grid works on row tile `t / 4` and contraction tile `t % 4`. The windows' blocks are tiles
of their arrays at those indices; the running sum after a last contraction tile is the 4 products of its row
tile added in order; the block written back there is the block of `G0` at row tile `t / 4`; and the row tiles cover
the output array. -/

/-! ## Where each window's block sits, decided over the grid -/

theorem idx0_0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem idx0_1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-! ## The windows' blocks as tiles of the arrays -/

/-- At point `t = 4 r + k` the left window's block is tile (`r`, `k`) of the left array. -/
theorem blk0_0 (c : Dev nD) (t : Fin cfg0.N) (r : Fin 25) (k : Fin 4) (ht : t.val = 4 * r.val + k.val) :
    iblk0 V c 0 t = lhsBlk0 (V c main_v38) r k := by
  funext y
  show V c main_v38 (((cfg0.win 0).blk t).view.emb y) = V c main_v38 _
  refine congrArg _ (funext fun a => Fin.ext ?_)
  obtain ⟨e0, e1⟩ := idx0_0 t
  have hk := k.isLt
  match a with
  | ⟨0, _⟩ => show win0_0.index t (0 : Fin 2) * 2000 + 1 * (y 0).val = 2000 * r.val + (y 0).val; rw [e0]; omega
  | ⟨1, _⟩ => show win0_0.index t (1 : Fin 2) * 512 + 1 * (y 1).val = 512 * k.val + (y 1).val; rw [e1]; omega

/-- and the right window's block is tile `k` of the right array. -/
theorem blk0_1 (c : Dev nD) (t : Fin cfg0.N) (k : Fin 4) (ht : t.val % 4 = k.val) :
    iblk0 V c 1 t = rhsBlk0 (V c main_v45) k := by
  funext y
  show V c main_v45 (((cfg0.win 1).blk t).view.emb y) = V c main_v45 _
  refine congrArg _ (funext fun a => Fin.ext ?_)
  obtain ⟨e0, e1⟩ := idx0_1 t
  match a with
  | ⟨0, _⟩ => show win0_1.index t (0 : Fin 2) * 512 + 1 * (y 0).val = 512 * k.val + (y 0).val; rw [e0]; omega
  | ⟨1, _⟩ => show win0_1.index t (1 : Fin 2) * 512 + 1 * (y 1).val = (y 1).val; rw [e1]; omega

/-- The bias window's block is the whole bias row at every point. -/
theorem blk0_2 (c : Dev nD) (t : Fin cfg0.N) : iblk0 V c 2 t = V c main_v46 := by
  funext y
  show V c main_v46 (((cfg0.win 2).blk t).view.emb y) = V c main_v46 y
  refine congrArg _ (funext fun a => Fin.ext ?_)
  obtain ⟨e0, e1⟩ := idx0_2 t
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-! ## The running sum after a row tile's last contraction tile -/

theorem accN0_succ (c : Dev nD) (n : ℕ) (h : n < cfg0.N) :
    accN0 V c (n + 1) = k0_pay2 (iblk0 V c 0 ⟨n, h⟩) (iblk0 V c 1 ⟨n, h⟩) (if n % 4 = 0 then k0_pay1 else accN0 V c n) := by
  rw [accN0, dif_pos h]

/-- After the 4 points of row tile `r` the running sum is the tile's 4 products added in order from zero. -/
theorem accN0_row (c : Dev nD) (r : Fin 25) :
    accN0 V c (4 * r.val + 3 + 1) = rowAcc0 (V c main_v38) (V c main_v45) r := by
  have hr := r.isLt
  have hN : cfg0.N = 100 := N_0
  have h0 : 4 * r.val < cfg0.N := by omega
  have h1 : 4 * r.val + 1 < cfg0.N := by omega
  have h2 : 4 * r.val + 2 < cfg0.N := by omega
  have h3 : 4 * r.val + 3 < cfg0.N := by omega
  rw [accN0_succ V c _ h3, if_neg (by omega), accN0_succ V c _ h2, if_neg (by omega), accN0_succ V c _ h1, if_neg (by omega), accN0_succ V c _ h0, if_pos (by omega),
    blk0_0 V c ⟨4 * r.val + 3, h3⟩ r 3 rfl, blk0_1 V c ⟨4 * r.val + 3, h3⟩ 3 (by show (4 * r.val + 3) % 4 = 3; omega),
    blk0_0 V c ⟨4 * r.val + 2, h2⟩ r 2 rfl, blk0_1 V c ⟨4 * r.val + 2, h2⟩ 2 (by show (4 * r.val + 2) % 4 = 2; omega),
    blk0_0 V c ⟨4 * r.val + 1, h1⟩ r 1 rfl, blk0_1 V c ⟨4 * r.val + 1, h1⟩ 1 (by show (4 * r.val + 1) % 4 = 1; omega),
    blk0_0 V c ⟨4 * r.val, h0⟩ r 0 rfl, blk0_1 V c ⟨4 * r.val, h0⟩ 0 (by show (4 * r.val) % 4 = 0; omega)]
  rfl

theorem acc0_row (c : Dev nD) (t : Fin cfg0.N) (r : Fin 25) (ht : t.val = 4 * r.val + 3) :
    acc0 V c t.succ = rowAcc0 (V c main_v38) (V c main_v45) r := by
  show accN0 V c (t.val + 1) = _
  rw [ht]; exact accN0_row V c r

/-! ## `G0` at an index of a row tile -/

theorem G0_apply (X : Vec F S50000x2048 .f32) (Wt : Vec F S2048x512 .f32) (b : Vec F S1x512 .f32) (r : Fin 25)
    (y : S2000x512.Idx) (i : S50000x512.Idx) (h0 : (i 0).val = 2000 * r.val + (y 0).val) (h1 : (i 1).val = (y 1).val) :
    G0 X Wt b i = k0_pay3 (rowAcc0 X Wt r) b y := by
  have hy0 := idx2_lt0 y
  have er : (⟨(i 0).val / 2000, by have := idx2_lt0 i; omega⟩ : Fin 25) = r := Fin.ext (by show (i 0).val / 2000 = r.val; omega)
  have ey : ix2 (⟨(i 0).val % 2000, Nat.mod_lt _ (by decide)⟩ : Fin 2000) (⟨(i 1).val, idx2_lt1 i⟩ : Fin 512) = y := by
    funext a
    match a with
    | ⟨0, _⟩ => exact Fin.ext (by show (i 0).val % 2000 = (y 0).val; omega)
    | ⟨1, _⟩ => exact Fin.ext h1
  show k0_pay3 (rowAcc0 X Wt ⟨(i 0).val / 2000, _⟩) b (ix2 _ _) = _
  rw [er, ey]

/-! ## What a last contraction tile writes back, and the cover -/

/-- The block point `t` writes back (a last contraction tile) is the block of `G0` there. -/
theorem flushed0_eq (c : Dev nD) (t : Fin cfg0.N) (h2 : t.val % 4 = 3) :
    (dat0 V c).flushed 5 t = ((cfg0.win 5).blk t).view.read (Elt F) (G0 (V c main_v38) (V c main_v45) (V c main_v46)) := by
  show (cfg0.win 5).cut (grid0.coords t) ((dat0 V c).after 5 t) = _
  rw [after0_out]
  have hN : cfg0.N = 100 := N_0
  have ht := t.isLt
  have htr : t.val = 4 * (t.val / 4) + 3 := by omega
  obtain ⟨e0, e1⟩ := idx0_5 t
  funext y
  show k0_pay3 (acc0 V c t.succ) (iblk0 V c 2 t) y
    = G0 (V c main_v38) (V c main_v45) (V c main_v46) (((cfg0.win 5).blk t).view.emb y)
  rw [G0_apply _ _ _ (⟨t.val / 4, by omega⟩ : Fin 25) y _
      (by show win0_5.index t (0 : Fin 2) * 2000 + 1 * (y 0).val = 2000 * (t.val / 4) + (y 0).val; rw [e0]; omega)
      (by show win0_5.index t (1 : Fin 2) * 512 + 1 * (y 1).val = (y 1).val; rw [e1]; omega),
    acc0_row V c t ⟨t.val / 4, by omega⟩ htr, blk0_2]

/-- An index of the output array is in point `t`'s block iff each coordinate is in the block's range on its axis. -/
theorem mem_outBlk0 (t : Fin cfg0.N) (i : S50000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v48).slice (win0_5.rect t)).set ↔ _
  rw [View.set_slice_whole, Rect.mem_set_unit]
  exact Iff.rfl

/-- Every row of the output array lies in the block of its row tile's last point. -/
theorem cover0 (i : S50000x512.Idx) : ∃ t : Fin cfg0.N, (cfg0.win 5).flush t = true ∧ i ∈ ((cfg0.win 5).blk t).view.set := by
  have hi0 := idx2_lt0 i
  have hi1 := idx2_lt1 i
  have hN : cfg0.N = 100 := N_0
  obtain ⟨t, ht⟩ : ∃ t : Fin cfg0.N, t.val = 4 * ((i 0).val / 2000) + 3 := ⟨⟨4 * ((i 0).val / 2000) + 3, by omega⟩, rfl⟩
  obtain ⟨e0, e1⟩ := idx0_5 t
  refine ⟨t, (flush0_5 t).mpr (by omega), ?_⟩
  rw [mem_outBlk0]
  intro a
  match a with
  | ⟨0, _⟩ => show win0_5.index t (0 : Fin 2) * 2000 ≤ (i 0).val ∧ (i 0).val < win0_5.index t (0 : Fin 2) * 2000 + 2000; rw [e0]; omega
  | ⟨1, _⟩ => show win0_5.index t (1 : Fin 2) * 512 ≤ (i 1).val ∧ (i 1).val < win0_5.index t (1 : Fin 2) * 512 + 512; rw [e1]; omega

/-- THE OUTPUT ARRAY after the region: `G0` of the operand arrays as the region finds them. -/
theorem out0_eq (c : Dev nD) : (dat0 V c).arrAt 5 cfg0.N = G0 (V c main_v38) (V c main_v45) (V c main_v46) :=
  (dat0 V c).arrAt_eq_of_cover 5 _ (fun t hf => flushed0_eq V c t ((flush0_5 t).mp hf)) cover0

end Cert.KernelIdeal.Hand

end
-- ==== Proof.KI.Out1Def.lean ====
import proofs.«148293_j56684978372941_1_alg».proof.Proof.Gen.KernelIdeal.Skeleton
import Idealize.ShloMosaic.Lib.ValueIdx

noncomputable section

namespace Cert.KernelIdeal.Hand

open Cert.KernelIdeal Cert.KernelIdeal.Gen
open Idealize.ShloMosaic
open Idealize.ShloMosaic.ValueIdx (ix2 eq_ix2 idx2_lt0 idx2_lt1)

variable {F : FTy → Type} [FloatOps F]

/-! # What the second tiled matmul leaves in its output array, as one function of its operand arrays

The 50000 × 2048 operand `X` is cut into 25 row tiles of 2000 rows and 4 contraction tiles of 512 columns; the
2048 × 512 weight `Wt` into the 4 matching tiles of 512 rows. Row tile `r` of the result is the bias row added to
the sum, over the contraction tiles in order, of the products of `X`'s tile (r, k) and `Wt`'s tile k, each product
added to the sum so far and the first to zero. -/

/-- Tile (`r`, `k`) of the operand: rows `2000 r …`, columns `512 k …`. -/
def lhsBlk1 (X : Vec F S50000x2048 .f32) (r : Fin 25) (k : Fin 4) : Vec F S2000x512 .f32 :=
  fun y => X (ix2 (⟨2000 * r.val + (y 0).val, by have := idx2_lt0 y; have := r.isLt; omega⟩ : Fin 50000)
    (⟨512 * k.val + (y 1).val, by have := idx2_lt1 y; have := k.isLt; omega⟩ : Fin 2048))

/-- Tile `k` of the weight: rows `512 k …`, every column. -/
def rhsBlk1 (Wt : Vec F S2048x512 .f32) (k : Fin 4) : Vec F S512x512 .f32 :=
  fun y => Wt (ix2 (⟨512 * k.val + (y 0).val, by have := idx2_lt0 y; have := k.isLt; omega⟩ : Fin 2048)
    (⟨(y 1).val, idx2_lt1 y⟩ : Fin 512))

/-- The completed sum of row tile `r`: the 4 contraction tiles' products added in order, starting from zero. -/
def rowAcc1 (X : Vec F S50000x2048 .f32) (Wt : Vec F S2048x512 .f32) (r : Fin 25) : Vec F S2000x512 .f32 :=
  k1_pay2 (lhsBlk1 X r 3) (rhsBlk1 Wt 3) (k1_pay2 (lhsBlk1 X r 2) (rhsBlk1 Wt 2) (k1_pay2 (lhsBlk1 X r 1) (rhsBlk1 Wt 1) (k1_pay2 (lhsBlk1 X r 0) (rhsBlk1 Wt 0) k1_pay1)))

/-- The output array: at row `i 0`, the completed sum of its row tile `i 0 / 2000` plus the bias row, read at the
    row's place `i 0 % 2000` inside the tile. -/
def G1 (X : Vec F S50000x2048 .f32) (Wt : Vec F S2048x512 .f32) (b : Vec F S1x512 .f32) : Vec F S50000x512 .f32 :=
  fun i => k1_pay3 (rowAcc1 X Wt ⟨(i 0).val / 2000, by have := idx2_lt0 i; omega⟩) b
    (ix2 (⟨(i 0).val % 2000, Nat.mod_lt _ (by decide)⟩ : Fin 2000) (⟨(i 1).val, idx2_lt1 i⟩ : Fin 512))

end Cert.KernelIdeal.Hand

end
-- ==== Proof.KI.Out1.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Body1
import proofs.«148293_j56684978372941_1_alg».proof.Proof.KI.Out1Def
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

open Idealize.ShloMosaic.ValueIdx (ix2 eq_ix2 idx2_lt0 idx2_lt1)

/-! # The second tiled matmul's output array is `G1` of its operand arrays

Point `t` of the 25 × 4 grid works on row tile `t / 4` and contraction tile `t % 4`. The windows' blocks are tiles
of their arrays at those indices; the running sum after a last contraction tile is the 4 products of its row
tile added in order; the block written back there is the block of `G1` at row tile `t / 4`; and the row tiles cover
the output array. -/

/-! ## Where each window's block sits, decided over the grid -/

theorem idx1_0 : ∀ t : Fin cfg1.N, win1_0.index t (0 : Fin 2) = t.val / 4 ∧ win1_0.index t (1 : Fin 2) = t.val % 4 :=
  (by decide +kernel : ∀ t : Fin grid1.N, win1_0.index t (0 : Fin 2) = t.val / 4 ∧ win1_0.index t (1 : Fin 2) = t.val % 4)
theorem idx1_1 : ∀ t : Fin cfg1.N, win1_1.index t (0 : Fin 2) = t.val % 4 ∧ win1_1.index t (1 : Fin 2) = 0 :=
  (by decide +kernel : ∀ t : Fin grid1.N, win1_1.index t (0 : Fin 2) = t.val % 4 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_5 : ∀ t : Fin cfg1.N, win1_5.index t (0 : Fin 2) = t.val / 4 ∧ win1_5.index t (1 : Fin 2) = 0 :=
  (by decide +kernel : ∀ t : Fin grid1.N, win1_5.index t (0 : Fin 2) = t.val / 4 ∧ win1_5.index t (1 : Fin 2) = 0)

/-! ## The windows' blocks as tiles of the arrays -/

/-- At point `t = 4 r + k` the left window's block is tile (`r`, `k`) of the left array. -/
theorem blk1_0 (c : Dev nD) (t : Fin cfg1.N) (r : Fin 25) (k : Fin 4) (ht : t.val = 4 * r.val + k.val) :
    iblk1 V c 0 t = lhsBlk1 (V c main_v79) r k := by
  funext y
  show V c main_v79 (((cfg1.win 0).blk t).view.emb y) = V c main_v79 _
  refine congrArg _ (funext fun a => Fin.ext ?_)
  obtain ⟨e0, e1⟩ := idx1_0 t
  have hk := k.isLt
  match a with
  | ⟨0, _⟩ => show win1_0.index t (0 : Fin 2) * 2000 + 1 * (y 0).val = 2000 * r.val + (y 0).val; rw [e0]; omega
  | ⟨1, _⟩ => show win1_0.index t (1 : Fin 2) * 512 + 1 * (y 1).val = 512 * k.val + (y 1).val; rw [e1]; omega

/-- and the right window's block is tile `k` of the right array. -/
theorem blk1_1 (c : Dev nD) (t : Fin cfg1.N) (k : Fin 4) (ht : t.val % 4 = k.val) :
    iblk1 V c 1 t = rhsBlk1 (V c main_v86) k := by
  funext y
  show V c main_v86 (((cfg1.win 1).blk t).view.emb y) = V c main_v86 _
  refine congrArg _ (funext fun a => Fin.ext ?_)
  obtain ⟨e0, e1⟩ := idx1_1 t
  match a with
  | ⟨0, _⟩ => show win1_1.index t (0 : Fin 2) * 512 + 1 * (y 0).val = 512 * k.val + (y 0).val; rw [e0]; omega
  | ⟨1, _⟩ => show win1_1.index t (1 : Fin 2) * 512 + 1 * (y 1).val = (y 1).val; rw [e1]; omega

/-- The bias window's block is the whole bias row at every point. -/
theorem blk1_2 (c : Dev nD) (t : Fin cfg1.N) : iblk1 V c 2 t = V c main_v87 := by
  funext y
  show V c main_v87 (((cfg1.win 2).blk t).view.emb y) = V c main_v87 y
  refine congrArg _ (funext fun a => Fin.ext ?_)
  obtain ⟨e0, e1⟩ := idx1_2 t
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega

/-! ## The running sum after a row tile's last contraction tile -/

theorem accN1_succ (c : Dev nD) (n : ℕ) (h : n < cfg1.N) :
    accN1 V c (n + 1) = k1_pay2 (iblk1 V c 0 ⟨n, h⟩) (iblk1 V c 1 ⟨n, h⟩) (if n % 4 = 0 then k1_pay1 else accN1 V c n) := by
  rw [accN1, dif_pos h]

/-- After the 4 points of row tile `r` the running sum is the tile's 4 products added in order from zero. -/
theorem accN1_row (c : Dev nD) (r : Fin 25) :
    accN1 V c (4 * r.val + 3 + 1) = rowAcc1 (V c main_v79) (V c main_v86) r := by
  have hr := r.isLt
  have hN : cfg1.N = 100 := N_1
  have h0 : 4 * r.val < cfg1.N := by omega
  have h1 : 4 * r.val + 1 < cfg1.N := by omega
  have h2 : 4 * r.val + 2 < cfg1.N := by omega
  have h3 : 4 * r.val + 3 < cfg1.N := by omega
  rw [accN1_succ V c _ h3, if_neg (by omega), accN1_succ V c _ h2, if_neg (by omega), accN1_succ V c _ h1, if_neg (by omega), accN1_succ V c _ h0, if_pos (by omega),
    blk1_0 V c ⟨4 * r.val + 3, h3⟩ r 3 rfl, blk1_1 V c ⟨4 * r.val + 3, h3⟩ 3 (by show (4 * r.val + 3) % 4 = 3; omega),
    blk1_0 V c ⟨4 * r.val + 2, h2⟩ r 2 rfl, blk1_1 V c ⟨4 * r.val + 2, h2⟩ 2 (by show (4 * r.val + 2) % 4 = 2; omega),
    blk1_0 V c ⟨4 * r.val + 1, h1⟩ r 1 rfl, blk1_1 V c ⟨4 * r.val + 1, h1⟩ 1 (by show (4 * r.val + 1) % 4 = 1; omega),
    blk1_0 V c ⟨4 * r.val, h0⟩ r 0 rfl, blk1_1 V c ⟨4 * r.val, h0⟩ 0 (by show (4 * r.val) % 4 = 0; omega)]
  rfl

theorem acc1_row (c : Dev nD) (t : Fin cfg1.N) (r : Fin 25) (ht : t.val = 4 * r.val + 3) :
    acc1 V c t.succ = rowAcc1 (V c main_v79) (V c main_v86) r := by
  show accN1 V c (t.val + 1) = _
  rw [ht]; exact accN1_row V c r

/-! ## `G1` at an index of a row tile -/

theorem G1_apply (X : Vec F S50000x2048 .f32) (Wt : Vec F S2048x512 .f32) (b : Vec F S1x512 .f32) (r : Fin 25)
    (y : S2000x512.Idx) (i : S50000x512.Idx) (h0 : (i 0).val = 2000 * r.val + (y 0).val) (h1 : (i 1).val = (y 1).val) :
    G1 X Wt b i = k1_pay3 (rowAcc1 X Wt r) b y := by
  have hy0 := idx2_lt0 y
  have er : (⟨(i 0).val / 2000, by have := idx2_lt0 i; omega⟩ : Fin 25) = r := Fin.ext (by show (i 0).val / 2000 = r.val; omega)
  have ey : ix2 (⟨(i 0).val % 2000, Nat.mod_lt _ (by decide)⟩ : Fin 2000) (⟨(i 1).val, idx2_lt1 i⟩ : Fin 512) = y := by
    funext a
    match a with
    | ⟨0, _⟩ => exact Fin.ext (by show (i 0).val % 2000 = (y 0).val; omega)
    | ⟨1, _⟩ => exact Fin.ext h1
  show k1_pay3 (rowAcc1 X Wt ⟨(i 0).val / 2000, _⟩) b (ix2 _ _) = _
  rw [er, ey]

/-! ## What a last contraction tile writes back, and the cover -/

/-- The block point `t` writes back (a last contraction tile) is the block of `G1` there. -/
theorem flushed1_eq (c : Dev nD) (t : Fin cfg1.N) (h2 : t.val % 4 = 3) :
    (dat1 V c).flushed 5 t = ((cfg1.win 5).blk t).view.read (Elt F) (G1 (V c main_v79) (V c main_v86) (V c main_v87)) := by
  show (cfg1.win 5).cut (grid1.coords t) ((dat1 V c).after 5 t) = _
  rw [after1_out]
  have hN : cfg1.N = 100 := N_1
  have ht := t.isLt
  have htr : t.val = 4 * (t.val / 4) + 3 := by omega
  obtain ⟨e0, e1⟩ := idx1_5 t
  funext y
  show k1_pay3 (acc1 V c t.succ) (iblk1 V c 2 t) y
    = G1 (V c main_v79) (V c main_v86) (V c main_v87) (((cfg1.win 5).blk t).view.emb y)
  rw [G1_apply _ _ _ (⟨t.val / 4, by omega⟩ : Fin 25) y _
      (by show win1_5.index t (0 : Fin 2) * 2000 + 1 * (y 0).val = 2000 * (t.val / 4) + (y 0).val; rw [e0]; omega)
      (by show win1_5.index t (1 : Fin 2) * 512 + 1 * (y 1).val = (y 1).val; rw [e1]; omega),
    acc1_row V c t ⟨t.val / 4, by omega⟩ htr, blk1_2]

/-- An index of the output array is in point `t`'s block iff each coordinate is in the block's range on its axis. -/
theorem mem_outBlk1 (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v89).slice (win1_5.rect t)).set ↔ _
  rw [View.set_slice_whole, Rect.mem_set_unit]
  exact Iff.rfl

/-- Every row of the output array lies in the block of its row tile's last point. -/
theorem cover1 (i : S50000x512.Idx) : ∃ t : Fin cfg1.N, (cfg1.win 5).flush t = true ∧ i ∈ ((cfg1.win 5).blk t).view.set := by
  have hi0 := idx2_lt0 i
  have hi1 := idx2_lt1 i
  have hN : cfg1.N = 100 := N_1
  obtain ⟨t, ht⟩ : ∃ t : Fin cfg1.N, t.val = 4 * ((i 0).val / 2000) + 3 := ⟨⟨4 * ((i 0).val / 2000) + 3, by omega⟩, rfl⟩
  obtain ⟨e0, e1⟩ := idx1_5 t
  refine ⟨t, (flush1_5 t).mpr (by omega), ?_⟩
  rw [mem_outBlk1]
  intro a
  match a with
  | ⟨0, _⟩ => show win1_5.index t (0 : Fin 2) * 2000 ≤ (i 0).val ∧ (i 0).val < win1_5.index t (0 : Fin 2) * 2000 + 2000; rw [e0]; omega
  | ⟨1, _⟩ => show win1_5.index t (1 : Fin 2) * 512 ≤ (i 1).val ∧ (i 1).val < win1_5.index t (1 : Fin 2) * 512 + 512; rw [e1]; omega

/-- THE OUTPUT ARRAY after the region: `G1` of the operand arrays as the region finds them. -/
theorem out1_eq (c : Dev nD) : (dat1 V c).arrAt 5 cfg1.N = G1 (V c main_v79) (V c main_v86) (V c main_v87) :=
  (dat1 V c).arrAt_eq_of_cover 5 _ (fun t hf => flushed1_eq V c t ((flush1_5 t).mp hf)) cover1

end Cert.KernelIdeal.Hand

end
-- ==== Proof.KI.Out2Def.lean ====
import proofs.«148293_j56684978372941_1_alg».proof.Proof.Gen.KernelIdeal.Skeleton
import Idealize.ShloMosaic.Lib.ValueIdx

noncomputable section

namespace Cert.KernelIdeal.Hand

open Cert.KernelIdeal Cert.KernelIdeal.Gen
open Idealize.ShloMosaic
open Idealize.ShloMosaic.ValueIdx (ix2 eq_ix2 idx2_lt0 idx2_lt1)

variable {F : FTy → Type} [FloatOps F]

/-! # What the third tiled matmul leaves in its output array, as one function of its operand arrays

The 50000 × 2048 operand `X` is cut into 25 row tiles of 2000 rows and 4 contraction tiles of 512 columns; the
2048 × 256 weight `Wt` into the 4 matching tiles of 512 rows. Row tile `r` of the result is the bias row added to
the sum, over the contraction tiles in order, of the products of `X`'s tile (r, k) and `Wt`'s tile k, each product
added to the sum so far and the first to zero. -/

/-- Tile (`r`, `k`) of the operand: rows `2000 r …`, columns `512 k …`. -/
def lhsBlk2 (X : Vec F S50000x2048 .f32) (r : Fin 25) (k : Fin 4) : Vec F S2000x512 .f32 :=
  fun y => X (ix2 (⟨2000 * r.val + (y 0).val, by have := idx2_lt0 y; have := r.isLt; omega⟩ : Fin 50000)
    (⟨512 * k.val + (y 1).val, by have := idx2_lt1 y; have := k.isLt; omega⟩ : Fin 2048))

/-- Tile `k` of the weight: rows `512 k …`, every column. -/
def rhsBlk2 (Wt : Vec F S2048x256 .f32) (k : Fin 4) : Vec F S512x256 .f32 :=
  fun y => Wt (ix2 (⟨512 * k.val + (y 0).val, by have := idx2_lt0 y; have := k.isLt; omega⟩ : Fin 2048)
    (⟨(y 1).val, idx2_lt1 y⟩ : Fin 256))

/-- The completed sum of row tile `r`: the 4 contraction tiles' products added in order, starting from zero. -/
def rowAcc2 (X : Vec F S50000x2048 .f32) (Wt : Vec F S2048x256 .f32) (r : Fin 25) : Vec F S2000x256 .f32 :=
  k2_pay2 (lhsBlk2 X r 3) (rhsBlk2 Wt 3) (k2_pay2 (lhsBlk2 X r 2) (rhsBlk2 Wt 2) (k2_pay2 (lhsBlk2 X r 1) (rhsBlk2 Wt 1) (k2_pay2 (lhsBlk2 X r 0) (rhsBlk2 Wt 0) k2_pay1)))

/-- The output array: at row `i 0`, the completed sum of its row tile `i 0 / 2000` plus the bias row, read at the
    row's place `i 0 % 2000` inside the tile. -/
def G2 (X : Vec F S50000x2048 .f32) (Wt : Vec F S2048x256 .f32) (b : Vec F S1x256 .f32) : Vec F S50000x256 .f32 :=
  fun i => k2_pay3 (rowAcc2 X Wt ⟨(i 0).val / 2000, by have := idx2_lt0 i; omega⟩) b
    (ix2 (⟨(i 0).val % 2000, Nat.mod_lt _ (by decide)⟩ : Fin 2000) (⟨(i 1).val, idx2_lt1 i⟩ : Fin 256))

end Cert.KernelIdeal.Hand

end
-- ==== Proof.KI.Out2.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Body2
import proofs.«148293_j56684978372941_1_alg».proof.Proof.KI.Out2Def
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

open Idealize.ShloMosaic.ValueIdx (ix2 eq_ix2 idx2_lt0 idx2_lt1)

/-! # The third tiled matmul's output array is `G2` of its operand arrays

Point `t` of the 25 × 4 grid works on row tile `t / 4` and contraction tile `t % 4`. The windows' blocks are tiles
of their arrays at those indices; the running sum after a last contraction tile is the 4 products of its row
tile added in order; the block written back there is the block of `G2` at row tile `t / 4`; and the row tiles cover
the output array. -/

/-! ## Where each window's block sits, decided over the grid -/

theorem idx2_0 : ∀ t : Fin cfg2.N, win2_0.index t (0 : Fin 2) = t.val / 4 ∧ win2_0.index t (1 : Fin 2) = t.val % 4 :=
  (by decide +kernel : ∀ t : Fin grid2.N, win2_0.index t (0 : Fin 2) = t.val / 4 ∧ win2_0.index t (1 : Fin 2) = t.val % 4)
theorem idx2_1 : ∀ t : Fin cfg2.N, win2_1.index t (0 : Fin 2) = t.val % 4 ∧ win2_1.index t (1 : Fin 2) = 0 :=
  (by decide +kernel : ∀ t : Fin grid2.N, win2_1.index t (0 : Fin 2) = t.val % 4 ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_5 : ∀ t : Fin cfg2.N, win2_5.index t (0 : Fin 2) = t.val / 4 ∧ win2_5.index t (1 : Fin 2) = 0 :=
  (by decide +kernel : ∀ t : Fin grid2.N, win2_5.index t (0 : Fin 2) = t.val / 4 ∧ win2_5.index t (1 : Fin 2) = 0)

/-! ## The windows' blocks as tiles of the arrays -/

/-- At point `t = 4 r + k` the left window's block is tile (`r`, `k`) of the left array. -/
theorem blk2_0 (c : Dev nD) (t : Fin cfg2.N) (r : Fin 25) (k : Fin 4) (ht : t.val = 4 * r.val + k.val) :
    iblk2 V c 0 t = lhsBlk2 (V c main_v140) r k := by
  funext y
  show V c main_v140 (((cfg2.win 0).blk t).view.emb y) = V c main_v140 _
  refine congrArg _ (funext fun a => Fin.ext ?_)
  obtain ⟨e0, e1⟩ := idx2_0 t
  have hk := k.isLt
  match a with
  | ⟨0, _⟩ => show win2_0.index t (0 : Fin 2) * 2000 + 1 * (y 0).val = 2000 * r.val + (y 0).val; rw [e0]; omega
  | ⟨1, _⟩ => show win2_0.index t (1 : Fin 2) * 512 + 1 * (y 1).val = 512 * k.val + (y 1).val; rw [e1]; omega

/-- and the right window's block is tile `k` of the right array. -/
theorem blk2_1 (c : Dev nD) (t : Fin cfg2.N) (k : Fin 4) (ht : t.val % 4 = k.val) :
    iblk2 V c 1 t = rhsBlk2 (V c main_v147) k := by
  funext y
  show V c main_v147 (((cfg2.win 1).blk t).view.emb y) = V c main_v147 _
  refine congrArg _ (funext fun a => Fin.ext ?_)
  obtain ⟨e0, e1⟩ := idx2_1 t
  match a with
  | ⟨0, _⟩ => show win2_1.index t (0 : Fin 2) * 512 + 1 * (y 0).val = 512 * k.val + (y 0).val; rw [e0]; omega
  | ⟨1, _⟩ => show win2_1.index t (1 : Fin 2) * 256 + 1 * (y 1).val = (y 1).val; rw [e1]; omega

/-- The bias window's block is the whole bias row at every point. -/
theorem blk2_2 (c : Dev nD) (t : Fin cfg2.N) : iblk2 V c 2 t = V c main_v148 := by
  funext y
  show V c main_v148 (((cfg2.win 2).blk t).view.emb y) = V c main_v148 y
  refine congrArg _ (funext fun a => Fin.ext ?_)
  obtain ⟨e0, e1⟩ := idx2_2 t
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-! ## The running sum after a row tile's last contraction tile -/

theorem accN2_succ (c : Dev nD) (n : ℕ) (h : n < cfg2.N) :
    accN2 V c (n + 1) = k2_pay2 (iblk2 V c 0 ⟨n, h⟩) (iblk2 V c 1 ⟨n, h⟩) (if n % 4 = 0 then k2_pay1 else accN2 V c n) := by
  rw [accN2, dif_pos h]

/-- After the 4 points of row tile `r` the running sum is the tile's 4 products added in order from zero. -/
theorem accN2_row (c : Dev nD) (r : Fin 25) :
    accN2 V c (4 * r.val + 3 + 1) = rowAcc2 (V c main_v140) (V c main_v147) r := by
  have hr := r.isLt
  have hN : cfg2.N = 100 := N_2
  have h0 : 4 * r.val < cfg2.N := by omega
  have h1 : 4 * r.val + 1 < cfg2.N := by omega
  have h2 : 4 * r.val + 2 < cfg2.N := by omega
  have h3 : 4 * r.val + 3 < cfg2.N := by omega
  rw [accN2_succ V c _ h3, if_neg (by omega), accN2_succ V c _ h2, if_neg (by omega), accN2_succ V c _ h1, if_neg (by omega), accN2_succ V c _ h0, if_pos (by omega),
    blk2_0 V c ⟨4 * r.val + 3, h3⟩ r 3 rfl, blk2_1 V c ⟨4 * r.val + 3, h3⟩ 3 (by show (4 * r.val + 3) % 4 = 3; omega),
    blk2_0 V c ⟨4 * r.val + 2, h2⟩ r 2 rfl, blk2_1 V c ⟨4 * r.val + 2, h2⟩ 2 (by show (4 * r.val + 2) % 4 = 2; omega),
    blk2_0 V c ⟨4 * r.val + 1, h1⟩ r 1 rfl, blk2_1 V c ⟨4 * r.val + 1, h1⟩ 1 (by show (4 * r.val + 1) % 4 = 1; omega),
    blk2_0 V c ⟨4 * r.val, h0⟩ r 0 rfl, blk2_1 V c ⟨4 * r.val, h0⟩ 0 (by show (4 * r.val) % 4 = 0; omega)]
  rfl

theorem acc2_row (c : Dev nD) (t : Fin cfg2.N) (r : Fin 25) (ht : t.val = 4 * r.val + 3) :
    acc2 V c t.succ = rowAcc2 (V c main_v140) (V c main_v147) r := by
  show accN2 V c (t.val + 1) = _
  rw [ht]; exact accN2_row V c r

/-! ## `G2` at an index of a row tile -/

theorem G2_apply (X : Vec F S50000x2048 .f32) (Wt : Vec F S2048x256 .f32) (b : Vec F S1x256 .f32) (r : Fin 25)
    (y : S2000x256.Idx) (i : S50000x256.Idx) (h0 : (i 0).val = 2000 * r.val + (y 0).val) (h1 : (i 1).val = (y 1).val) :
    G2 X Wt b i = k2_pay3 (rowAcc2 X Wt r) b y := by
  have hy0 := idx2_lt0 y
  have er : (⟨(i 0).val / 2000, by have := idx2_lt0 i; omega⟩ : Fin 25) = r := Fin.ext (by show (i 0).val / 2000 = r.val; omega)
  have ey : ix2 (⟨(i 0).val % 2000, Nat.mod_lt _ (by decide)⟩ : Fin 2000) (⟨(i 1).val, idx2_lt1 i⟩ : Fin 256) = y := by
    funext a
    match a with
    | ⟨0, _⟩ => exact Fin.ext (by show (i 0).val % 2000 = (y 0).val; omega)
    | ⟨1, _⟩ => exact Fin.ext h1
  show k2_pay3 (rowAcc2 X Wt ⟨(i 0).val / 2000, _⟩) b (ix2 _ _) = _
  rw [er, ey]

/-! ## What a last contraction tile writes back, and the cover -/

/-- The block point `t` writes back (a last contraction tile) is the block of `G2` there. -/
theorem flushed2_eq (c : Dev nD) (t : Fin cfg2.N) (h2 : t.val % 4 = 3) :
    (dat2 V c).flushed 5 t = ((cfg2.win 5).blk t).view.read (Elt F) (G2 (V c main_v140) (V c main_v147) (V c main_v148)) := by
  show (cfg2.win 5).cut (grid2.coords t) ((dat2 V c).after 5 t) = _
  rw [after2_out]
  have hN : cfg2.N = 100 := N_2
  have ht := t.isLt
  have htr : t.val = 4 * (t.val / 4) + 3 := by omega
  obtain ⟨e0, e1⟩ := idx2_5 t
  funext y
  show k2_pay3 (acc2 V c t.succ) (iblk2 V c 2 t) y
    = G2 (V c main_v140) (V c main_v147) (V c main_v148) (((cfg2.win 5).blk t).view.emb y)
  rw [G2_apply _ _ _ (⟨t.val / 4, by omega⟩ : Fin 25) y _
      (by show win2_5.index t (0 : Fin 2) * 2000 + 1 * (y 0).val = 2000 * (t.val / 4) + (y 0).val; rw [e0]; omega)
      (by show win2_5.index t (1 : Fin 2) * 256 + 1 * (y 1).val = (y 1).val; rw [e1]; omega),
    acc2_row V c t ⟨t.val / 4, by omega⟩ htr, blk2_2]

/-- An index of the output array is in point `t`'s block iff each coordinate is in the block's range on its axis. -/
theorem mem_outBlk2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v150).slice (win2_5.rect t)).set ↔ _
  rw [View.set_slice_whole, Rect.mem_set_unit]
  exact Iff.rfl

/-- Every row of the output array lies in the block of its row tile's last point. -/
theorem cover2 (i : S50000x256.Idx) : ∃ t : Fin cfg2.N, (cfg2.win 5).flush t = true ∧ i ∈ ((cfg2.win 5).blk t).view.set := by
  have hi0 := idx2_lt0 i
  have hi1 := idx2_lt1 i
  have hN : cfg2.N = 100 := N_2
  obtain ⟨t, ht⟩ : ∃ t : Fin cfg2.N, t.val = 4 * ((i 0).val / 2000) + 3 := ⟨⟨4 * ((i 0).val / 2000) + 3, by omega⟩, rfl⟩
  obtain ⟨e0, e1⟩ := idx2_5 t
  refine ⟨t, (flush2_5 t).mpr (by omega), ?_⟩
  rw [mem_outBlk2]
  intro a
  match a with
  | ⟨0, _⟩ => show win2_5.index t (0 : Fin 2) * 2000 ≤ (i 0).val ∧ (i 0).val < win2_5.index t (0 : Fin 2) * 2000 + 2000; rw [e0]; omega
  | ⟨1, _⟩ => show win2_5.index t (1 : Fin 2) * 256 ≤ (i 1).val ∧ (i 1).val < win2_5.index t (1 : Fin 2) * 256 + 256; rw [e1]; omega

/-- THE OUTPUT ARRAY after the region: `G2` of the operand arrays as the region finds them. -/
theorem out2_eq (c : Dev nD) : (dat2 V c).arrAt 5 cfg2.N = G2 (V c main_v140) (V c main_v147) (V c main_v148) :=
  (dat2 V c).arrAt_eq_of_cover 5 _ (fun t hf => flushed2_eq V c t ((flush2_5 t).mp hf)) cover2

end Cert.KernelIdeal.Hand

end
-- ==== Proof.KI.Out3Def.lean ====
import proofs.«148293_j56684978372941_1_alg».proof.Proof.Gen.KernelIdeal.Skeleton
import Idealize.ShloMosaic.Lib.ValueIdx

noncomputable section

namespace Cert.KernelIdeal.Hand

open Cert.KernelIdeal Cert.KernelIdeal.Gen
open Idealize.ShloMosaic
open Idealize.ShloMosaic.ValueIdx (ix2 eq_ix2 idx2_lt0 idx2_lt1)

variable {F : FTy → Type} [FloatOps F]

/-! # What the fourth tiled matmul leaves in its output array, as one function of its operand arrays

The 100000 × 768 operand `X` is cut into 50 row tiles of 2000 rows and 3 contraction tiles of 256 columns; the
768 × 256 weight `Wt` into the 3 matching tiles of 256 rows. Row tile `r` of the result is the epilogue
`relu (sum + bias) * scale + shift` of the sum, over the contraction tiles in order, of the products of `X`'s tile
(r, k) and `Wt`'s tile k, each product added to the sum so far and the first to zero. -/

/-- Tile (`r`, `k`) of the operand: rows `2000 r …`, columns `256 k …`. -/
def lhsBlk3 (X : Vec F S100000x768 .f32) (r : Fin 50) (k : Fin 3) : Vec F S2000x256 .f32 :=
  fun y => X (ix2 (⟨2000 * r.val + (y 0).val, by have := idx2_lt0 y; have := r.isLt; omega⟩ : Fin 100000)
    (⟨256 * k.val + (y 1).val, by have := idx2_lt1 y; have := k.isLt; omega⟩ : Fin 768))

/-- Tile `k` of the weight: rows `256 k …`, every column. -/
def rhsBlk3 (Wt : Vec F S768x256 .f32) (k : Fin 3) : Vec F S256x256 .f32 :=
  fun y => Wt (ix2 (⟨256 * k.val + (y 0).val, by have := idx2_lt0 y; have := k.isLt; omega⟩ : Fin 768)
    (⟨(y 1).val, idx2_lt1 y⟩ : Fin 256))

/-- The completed sum of row tile `r`: the three contraction tiles' products added in order, starting from zero. -/
def rowAcc3 (X : Vec F S100000x768 .f32) (Wt : Vec F S768x256 .f32) (r : Fin 50) : Vec F S2000x256 .f32 :=
  k3_pay2 (lhsBlk3 X r 2) (rhsBlk3 Wt 2) (k3_pay2 (lhsBlk3 X r 1) (rhsBlk3 Wt 1) (k3_pay2 (lhsBlk3 X r 0) (rhsBlk3 Wt 0) k3_pay1))

/-- The output array: at row `i 0`, the epilogue of the completed sum of its row tile `i 0 / 2000` with the bias,
    scale and shift rows, read at the row's place `i 0 % 2000` inside the tile. -/
def G3 (X : Vec F S100000x768 .f32) (Wt : Vec F S768x256 .f32) (b s h : Vec F S1x256 .f32) : Vec F S100000x256 .f32 :=
  fun i => k3_pay3 (rowAcc3 X Wt ⟨(i 0).val / 2000, by have := idx2_lt0 i; omega⟩) b s h
    (ix2 (⟨(i 0).val % 2000, Nat.mod_lt _ (by decide)⟩ : Fin 2000) (⟨(i 1).val, idx2_lt1 i⟩ : Fin 256))

end Cert.KernelIdeal.Hand

end
-- ==== Proof.KI.Out3.lean ====
import proofs.«148293_j56684978372941_1_alg».proof.Proof.Gen.KernelIdeal.Launch
import proofs.«148293_j56684978372941_1_alg».proof.Proof.Gen.KernelIdeal.Skeleton
import proofs.«148293_j56684978372941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«148293_j56684978372941_1_alg».proof.Proof.KI.Body3
import proofs.«148293_j56684978372941_1_alg».proof.Proof.KI.Out3Def
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

open Idealize.ShloMosaic.ValueIdx (ix2 eq_ix2 idx2_lt0 idx2_lt1)

/-! # The fourth tiled matmul's output array is `G3` of its operand arrays

Point `t` of the 50 × 3 grid works on row tile `t / 3` and contraction tile `t % 3`. The windows' blocks are tiles
of their arrays at those indices; the running sum after a last contraction tile is the three products of its row
tile added in order; the block written back there is the block of `G3` at row tile `t / 3`; and the row tiles cover
the output array. -/

/-! ## Where each window's block sits, decided over the grid -/

theorem idx3_0 : ∀ t : Fin cfg3.N, win3_0.index t (0 : Fin 2) = t.val / 3 ∧ win3_0.index t (1 : Fin 2) = t.val % 3 :=
  (by decide +kernel : ∀ t : Fin grid3.N, win3_0.index t (0 : Fin 2) = t.val / 3 ∧ win3_0.index t (1 : Fin 2) = t.val % 3)
theorem idx3_1 : ∀ t : Fin cfg3.N, win3_1.index t (0 : Fin 2) = t.val % 3 ∧ win3_1.index t (1 : Fin 2) = 0 :=
  (by decide +kernel : ∀ t : Fin grid3.N, win3_1.index t (0 : Fin 2) = t.val % 3 ∧ win3_1.index t (1 : Fin 2) = 0)
theorem idx3_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx3_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
theorem idx3_5 : ∀ t : Fin cfg3.N, win3_5.index t (0 : Fin 2) = t.val / 3 ∧ win3_5.index t (1 : Fin 2) = 0 :=
  (by decide +kernel : ∀ t : Fin grid3.N, win3_5.index t (0 : Fin 2) = t.val / 3 ∧ win3_5.index t (1 : Fin 2) = 0)

/-! ## The windows' blocks as tiles of the arrays -/

/-- At point `t = 3 r + k` the left window's block is tile (`r`, `k`) of the left array. -/
theorem blk3_0 (c : Dev nD) (t : Fin cfg3.N) (r : Fin 50) (k : Fin 3) (ht : t.val = 3 * r.val + k.val) :
    iblk3 V c 0 t = lhsBlk3 (V c main_v188) r k := by
  funext y
  show V c main_v188 (((cfg3.win 0).blk t).view.emb y) = V c main_v188 _
  refine congrArg _ (funext fun a => Fin.ext ?_)
  obtain ⟨e0, e1⟩ := idx3_0 t
  have hk := k.isLt
  match a with
  | ⟨0, _⟩ => show win3_0.index t (0 : Fin 2) * 2000 + 1 * (y 0).val = 2000 * r.val + (y 0).val; rw [e0]; omega
  | ⟨1, _⟩ => show win3_0.index t (1 : Fin 2) * 256 + 1 * (y 1).val = 256 * k.val + (y 1).val; rw [e1]; omega

/-- and the right window's block is tile `k` of the right array. -/
theorem blk3_1 (c : Dev nD) (t : Fin cfg3.N) (k : Fin 3) (ht : t.val % 3 = k.val) :
    iblk3 V c 1 t = rhsBlk3 (V c main_arg19) k := by
  funext y
  show V c main_arg19 (((cfg3.win 1).blk t).view.emb y) = V c main_arg19 _
  refine congrArg _ (funext fun a => Fin.ext ?_)
  obtain ⟨e0, e1⟩ := idx3_1 t
  match a with
  | ⟨0, _⟩ => show win3_1.index t (0 : Fin 2) * 256 + 1 * (y 0).val = 256 * k.val + (y 0).val; rw [e0]; omega
  | ⟨1, _⟩ => show win3_1.index t (1 : Fin 2) * 256 + 1 * (y 1).val = (y 1).val; rw [e1]; omega

/-- The bias window's block is the whole bias row at every point. -/
theorem blk3_2 (c : Dev nD) (t : Fin cfg3.N) : iblk3 V c 2 t = V c main_v195 := by
  funext y
  show V c main_v195 (((cfg3.win 2).blk t).view.emb y) = V c main_v195 y
  refine congrArg _ (funext fun a => Fin.ext ?_)
  obtain ⟨e0, e1⟩ := idx3_2 t
  match a with
  | ⟨0, _⟩ => show win3_2.index t (0 : Fin 2) * 1 + 1 * (y 0).val = (y 0).val; rw [e0]; omega
  | ⟨1, _⟩ => show win3_2.index t (1 : Fin 2) * 256 + 1 * (y 1).val = (y 1).val; rw [e1]; omega
/-- The scale window's block is the whole scale row at every point. -/
theorem blk3_3 (c : Dev nD) (t : Fin cfg3.N) : iblk3 V c 3 t = V c main_v196 := by
  funext y
  show V c main_v196 (((cfg3.win 3).blk t).view.emb y) = V c main_v196 y
  refine congrArg _ (funext fun a => Fin.ext ?_)
  obtain ⟨e0, e1⟩ := idx3_3 t
  match a with
  | ⟨0, _⟩ => show win3_3.index t (0 : Fin 2) * 1 + 1 * (y 0).val = (y 0).val; rw [e0]; omega
  | ⟨1, _⟩ => show win3_3.index t (1 : Fin 2) * 256 + 1 * (y 1).val = (y 1).val; rw [e1]; omega
/-- The shift window's block is the whole shift row at every point. -/
theorem blk3_4 (c : Dev nD) (t : Fin cfg3.N) : iblk3 V c 4 t = V c main_v197 := by
  funext y
  show V c main_v197 (((cfg3.win 4).blk t).view.emb y) = V c main_v197 y
  refine congrArg _ (funext fun a => Fin.ext ?_)
  obtain ⟨e0, e1⟩ := idx3_4 t
  match a with
  | ⟨0, _⟩ => show win3_4.index t (0 : Fin 2) * 1 + 1 * (y 0).val = (y 0).val; rw [e0]; omega
  | ⟨1, _⟩ => show win3_4.index t (1 : Fin 2) * 256 + 1 * (y 1).val = (y 1).val; rw [e1]; omega

/-! ## The running sum after a row tile's last contraction tile -/

theorem accN_succ (c : Dev nD) (n : ℕ) (h : n < cfg3.N) :
    accN V c (n + 1) = k3_pay2 (iblk3 V c 0 ⟨n, h⟩) (iblk3 V c 1 ⟨n, h⟩) (if n % 3 = 0 then k3_pay1 else accN V c n) := by
  rw [accN, dif_pos h]

/-- After the three points of row tile `r` the running sum is the tile's three products added in order from zero. -/
theorem accN_row (c : Dev nD) (r : Fin 50) :
    accN V c (3 * r.val + 2 + 1) = rowAcc3 (V c main_v188) (V c main_arg19) r := by
  have hr := r.isLt
  have hN : cfg3.N = 150 := N_3
  have h0 : 3 * r.val < cfg3.N := by omega
  have h1 : 3 * r.val + 1 < cfg3.N := by omega
  have h2 : 3 * r.val + 2 < cfg3.N := by omega
  rw [accN_succ V c _ h2, if_neg (by omega), accN_succ V c _ h1, if_neg (by omega), accN_succ V c _ h0, if_pos (by omega),
    blk3_0 V c ⟨3 * r.val + 2, h2⟩ r 2 rfl, blk3_1 V c ⟨3 * r.val + 2, h2⟩ 2 (by show (3 * r.val + 2) % 3 = 2; omega),
    blk3_0 V c ⟨3 * r.val + 1, h1⟩ r 1 rfl, blk3_1 V c ⟨3 * r.val + 1, h1⟩ 1 (by show (3 * r.val + 1) % 3 = 1; omega),
    blk3_0 V c ⟨3 * r.val, h0⟩ r 0 rfl, blk3_1 V c ⟨3 * r.val, h0⟩ 0 (by show (3 * r.val) % 3 = 0; omega)]
  rfl

theorem acc3_row (c : Dev nD) (t : Fin cfg3.N) (r : Fin 50) (ht : t.val = 3 * r.val + 2) :
    acc3 V c t.succ = rowAcc3 (V c main_v188) (V c main_arg19) r := by
  show accN V c (t.val + 1) = _
  rw [ht]; exact accN_row V c r

/-! ## `G3` at an index of a row tile -/

theorem G3_apply (X : Vec F S100000x768 .f32) (Wt : Vec F S768x256 .f32) (b s h : Vec F S1x256 .f32) (r : Fin 50)
    (y : S2000x256.Idx) (i : S100000x256.Idx) (h0 : (i 0).val = 2000 * r.val + (y 0).val) (h1 : (i 1).val = (y 1).val) :
    G3 X Wt b s h i = k3_pay3 (rowAcc3 X Wt r) b s h y := by
  have hy0 := idx2_lt0 y
  have er : (⟨(i 0).val / 2000, by have := idx2_lt0 i; omega⟩ : Fin 50) = r := Fin.ext (by show (i 0).val / 2000 = r.val; omega)
  have ey : ix2 (⟨(i 0).val % 2000, Nat.mod_lt _ (by decide)⟩ : Fin 2000) (⟨(i 1).val, idx2_lt1 i⟩ : Fin 256) = y := by
    funext a
    match a with
    | ⟨0, _⟩ => exact Fin.ext (by show (i 0).val % 2000 = (y 0).val; omega)
    | ⟨1, _⟩ => exact Fin.ext h1
  show k3_pay3 (rowAcc3 X Wt ⟨(i 0).val / 2000, _⟩) b s h (ix2 _ _) = _
  rw [er, ey]

/-! ## What a last contraction tile writes back, and the cover -/

/-- The block point `t` writes back (a last contraction tile) is the block of `G3` there. -/
theorem flushed3_eq (c : Dev nD) (t : Fin cfg3.N) (h2 : t.val % 3 = 2) :
    (dat3 V c).flushed 5 t = ((cfg3.win 5).blk t).view.read (Elt F)
      (G3 (V c main_v188) (V c main_arg19) (V c main_v195) (V c main_v196) (V c main_v197)) := by
  show (cfg3.win 5).cut (grid3.coords t) ((dat3 V c).after 5 t) = _
  rw [after3_out]
  have hN : cfg3.N = 150 := N_3
  have ht := t.isLt
  have htr : t.val = 3 * (t.val / 3) + 2 := by omega
  obtain ⟨e0, e1⟩ := idx3_5 t
  funext y
  show k3_pay3 (acc3 V c t.succ) (iblk3 V c 2 t) (iblk3 V c 3 t) (iblk3 V c 4 t) y
    = G3 (V c main_v188) (V c main_arg19) (V c main_v195) (V c main_v196) (V c main_v197) (((cfg3.win 5).blk t).view.emb y)
  rw [G3_apply _ _ _ _ _ (⟨t.val / 3, by omega⟩ : Fin 50) y _
      (by show win3_5.index t (0 : Fin 2) * 2000 + 1 * (y 0).val = 2000 * (t.val / 3) + (y 0).val; rw [e0]; omega)
      (by show win3_5.index t (1 : Fin 2) * 256 + 1 * (y 1).val = (y 1).val; rw [e1]; omega),
    acc3_row V c t ⟨t.val / 3, by omega⟩ htr, blk3_2, blk3_3, blk3_4]

/-- An index of the output array is in point `t`'s block iff each coordinate is in the block's range on its axis. -/
theorem mem_outBlk3 (t : Fin cfg3.N) (i : S100000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v198).slice (win3_5.rect t)).set ↔ _
  rw [View.set_slice_whole, Rect.mem_set_unit]
  exact Iff.rfl

/-- Every row of the output array lies in the block of its row tile's last point. -/
theorem cover3 (i : S100000x256.Idx) : ∃ t : Fin cfg3.N, (cfg3.win 5).flush t = true ∧ i ∈ ((cfg3.win 5).blk t).view.set := by
  have hi0 := idx2_lt0 i
  have hi1 := idx2_lt1 i
  have hN : cfg3.N = 150 := N_3
  obtain ⟨t, ht⟩ : ∃ t : Fin cfg3.N, t.val = 3 * ((i 0).val / 2000) + 2 := ⟨⟨3 * ((i 0).val / 2000) + 2, by omega⟩, rfl⟩
  obtain ⟨e0, e1⟩ := idx3_5 t
  refine ⟨t, (flush3_5 t).mpr (by omega), ?_⟩
  rw [mem_outBlk3]
  intro a
  match a with
  | ⟨0, _⟩ => show win3_5.index t (0 : Fin 2) * 2000 ≤ (i 0).val ∧ (i 0).val < win3_5.index t (0 : Fin 2) * 2000 + 2000; rw [e0]; omega
  | ⟨1, _⟩ => show win3_5.index t (1 : Fin 2) * 256 ≤ (i 1).val ∧ (i 1).val < win3_5.index t (1 : Fin 2) * 256 + 256; rw [e1]; omega

/-- THE OUTPUT ARRAY after the region: `G3` of the operand arrays as the region finds them. -/
theorem out3_eq (c : Dev nD) :
    (dat3 V c).arrAt 5 cfg3.N = G3 (V c main_v188) (V c main_arg19) (V c main_v195) (V c main_v196) (V c main_v197) :=
  (dat3 V c).arrAt_eq_of_cover 5 _ (fun t hf => flushed3_eq V c t ((flush3_5 t).mp hf)) cover3

end Cert.KernelIdeal.Hand

end
-- ==== Proof.Spec.Defs.lean ====
/- The vocabulary of the link-prediction network, as pure functions of arrays: node encoding, the
   per-relation message sums, the stacked operands of the three graph layers, layer normalisation with
   its residual step, the pair features, the folded batch-norm constants and the degree-corrected score.
   Each function is one logical step of the source program, written as the composition of the printed
   array operations, so that a buffer's contents after a host stretch is one of these functions of the
   program's arguments by unfolding alone. The last part states the same layers in the arrangement of
   the plain reference: one product per relation, summed, instead of one stacked product. -/
import proofs.«148293_j56684978372941_1_alg».proof.KernelIdeal

noncomputable section

namespace Cert.Hand.Spec

open Idealize.ShloMosaic
open Cert.KernelIdeal Cert.KernelIdeal.Facts₀

variable {F : FTy → Type} [FloatOps F] [Facts₀]

/-! ## Index columns -/

/-- A node-type id wrapped once (a negative id counts from the end: i < 0 ↦ i + 16), as a column. -/
def wrapT (tid : IVec S50000 32) : IVec S50000x1 32 :=
  broadcastInDim S50000x1 ![0] bcast_S50000_S50000x1_0
    (select (cmpi .slt tid (broadcastInDim S50000 ![] bcast_S_S50000 (constantI S_ 32 0#32)))
      (addi tid (broadcastInDim S50000 ![] bcast_S_S50000 (constantI S_ 32 16#32))) tid)

/-- An edge endpoint wrapped once (i < 0 ↦ i + 50000), as a column. -/
def wrapE (idx : IVec S200000 32) : IVec S200000x1 32 :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 50000#32))) idx)

/-- A pair endpoint wrapped once (i < 0 ↦ i + 50000), as a column. -/
def wrapP (idx : IVec S100000 32) : IVec S100000x1 32 :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 50000#32))) idx)

/-! ## Encoding and messages -/

/-- Node features x0: the node's embedding row plus the type embedding's row at its type id. -/
def encode (emb : FVec F S50000x512 .f32) (temb : FVec F S16x512 .f32) (tid : IVec S50000 32) : FVec F S50000x512 .f32 :=
  addf emb (Host.gather gather_S16x512_S50000x1_S50000x512_1_0_n_n_0_1_1512 temb (wrapT tid))

/-- The all-zero node-feature array the message sums start from. -/
def zeroX : FVec F S50000x512 .f32 :=
  broadcastInDim S50000x512 ![] bcast_S_S50000x512 (constant S_ .f32 0x00000000#32)

/-- One relation's messages: row n is the sum of x[src e] over the edges e with dst e = n
    (gather the source rows, scatter-add them at the destinations into zero). -/
def msg (x : FVec F S50000x512 .f32) (src dst : IVec S200000 32) : FVec F S50000x512 .f32 :=
  Host.scatterAdd scatter_S50000x512_S200000x1_S200000x512_1_0_0_1 zeroX
    (broadcastInDim S200000x1 ![0] bcast_S200000_S200000x1_0 dst)
    (Host.gather gather_S50000x512_S200000x1_S200000x512_1_0_n_n_0_1_1512 x (wrapE src))

/-! ## The stacked operands of a graph layer -/

/-- The layer's left operand: the features and the three relations' messages side by side (axis 1). -/
def catX (x m0 m1 m2 : FVec F S50000x512 .f32) : FVec F S50000x2048 .f32 :=
  concatenate S50000x2048 1 [⟨S50000x512, x⟩, ⟨S50000x512, m0⟩, ⟨S50000x512, m1⟩, ⟨S50000x512, m2⟩]
    concatenates_S50000x512_S50000x512_S50000x512_S50000x512_S50000x2048_d1

/-- Relation 0's weight matrix: slab 0 of the stacked relation weights. -/
def relW512_0 (w : FVec F S3x512x512 .f32) : FVec F S512x512 .f32 :=
  shapeCast S512x512 (extractStridedSlice S1x512x512 ![0, 0, 0] w slices_S3x512x512_S1x512x512_0_0_0) shapeCasts_S1x512x512_S512x512
/-- Relation 1's weight matrix: slab 1. -/
def relW512_1 (w : FVec F S3x512x512 .f32) : FVec F S512x512 .f32 :=
  shapeCast S512x512 (extractStridedSlice S1x512x512 ![1, 0, 0] w slices_S3x512x512_S1x512x512_1_0_0) shapeCasts_S1x512x512_S512x512
/-- Relation 2's weight matrix: slab 2. -/
def relW512_2 (w : FVec F S3x512x512 .f32) : FVec F S512x512 .f32 :=
  shapeCast S512x512 (extractStridedSlice S1x512x512 ![2, 0, 0] w slices_S3x512x512_S1x512x512_2_0_0) shapeCasts_S1x512x512_S512x512

/-- Relation 0's weight matrix of the output layer (512 → 256). -/
def relW256_0 (w : FVec F S3x512x256 .f32) : FVec F S512x256 .f32 :=
  shapeCast S512x256 (extractStridedSlice S1x512x256 ![0, 0, 0] w slices_S3x512x256_S1x512x256_0_0_0) shapeCasts_S1x512x256_S512x256
/-- Relation 1's weight matrix of the output layer. -/
def relW256_1 (w : FVec F S3x512x256 .f32) : FVec F S512x256 .f32 :=
  shapeCast S512x256 (extractStridedSlice S1x512x256 ![1, 0, 0] w slices_S3x512x256_S1x512x256_1_0_0) shapeCasts_S1x512x256_S512x256
/-- Relation 2's weight matrix of the output layer. -/
def relW256_2 (w : FVec F S3x512x256 .f32) : FVec F S512x256 .f32 :=
  shapeCast S512x256 (extractStridedSlice S1x512x256 ![2, 0, 0] w slices_S3x512x256_S1x512x256_2_0_0) shapeCasts_S1x512x256_S512x256

/-- The layer's right operand: the loop weights over the three relations' weights (axis 0). -/
def catW512 (wl w0 w1 w2 : FVec F S512x512 .f32) : FVec F S2048x512 .f32 :=
  concatenate S2048x512 0 [⟨S512x512, wl⟩, ⟨S512x512, w0⟩, ⟨S512x512, w1⟩, ⟨S512x512, w2⟩]
    concatenates_S512x512_S512x512_S512x512_S512x512_S2048x512_d0

/-- The output layer's right operand (2048 × 256). -/
def catW256 (wl w0 w1 w2 : FVec F S512x256 .f32) : FVec F S2048x256 .f32 :=
  concatenate S2048x256 0 [⟨S512x256, wl⟩, ⟨S512x256, w0⟩, ⟨S512x256, w1⟩, ⟨S512x256, w2⟩]
    concatenates_S512x256_S512x256_S512x256_S512x256_S2048x256_d0

/-- The zero row (a layer's bias and its shift). -/
def zeroRow512 : FVec F S1x512 .f32 := broadcastInDim S1x512 ![] bcast_S_S1x512 (constant S_ .f32 0x00000000#32)
/-- The row of ones (a layer's scale). -/
def oneRow512 : FVec F S1x512 .f32 := broadcastInDim S1x512 ![] bcast_S_S1x512 (constant S_ .f32 0x3F800000#32)
/-- The zero row of the output layer. -/
def zeroRow256 : FVec F S1x256 .f32 := broadcastInDim S1x256 ![] bcast_S_S1x256 (constant S_ .f32 0x00000000#32)
/-- The row of ones of the output layer. -/
def oneRow256 : FVec F S1x256 .f32 := broadcastInDim S1x256 ![] bcast_S_S1x256 (constant S_ .f32 0x3F800000#32)

/-! ## Layer normalisation and the residual step -/

/-- Each row's mean over its 512 entries, as a column. -/
def rowMean (h : FVec F S50000x512 .f32) : FVec F S50000x1 .f32 :=
  Host.divf
    (broadcastInDim S50000x1 ![0] bcast_S50000_S50000x1_0
      (Host.reduceAdd h (constant S_ .f32 0x00000000#32) reducesTo_S50000x512_S50000_d1 h_S_))
    (broadcastInDim S50000x1 ![] bcast_S_S50000x1 (constant S_ .f32 0x44000000#32))

/-- Each row's variance, as a column: the mean of the squared deviations from the row's mean, the
    divisor being 512 − 0 (no degrees of freedom removed); the guard for a non-positive divisor, which
    would answer the not-a-number word, is kept as printed. -/
def rowVar (h : FVec F S50000x512 .f32) : FVec F S50000x1 .f32 :=
  select
    (broadcastInDim S50000x1 ![] bcast_S_S50000x1
      (cmpf .ogt (subf (constant (F := F) S_ .f32 0x44000000#32) (sitofp .f32 (constantI S_ 32 0#32))) (constant S_ .f32 0x00000000#32)))
    (Host.divf
      (broadcastInDim S50000x1 ![0] bcast_S50000_S50000x1_0
        (Host.reduceAdd
          (mulf (subf h (broadcastInDim S50000x512 ![0, 1] bcast_S50000x1_S50000x512_0_1 (rowMean h)))
                (subf h (broadcastInDim S50000x512 ![0, 1] bcast_S50000x1_S50000x512_0_1 (rowMean h))))
          (constant S_ .f32 0x00000000#32) reducesTo_S50000x512_S50000_d1 h_S_))
      (broadcastInDim S50000x1 ![] bcast_S_S50000x1
        (subf (constant S_ .f32 0x44000000#32) (sitofp .f32 (constantI S_ 32 0#32)))))
    (broadcastInDim S50000x1 ![] bcast_S_S50000x1 (constant S_ .f32 0x7FC00000#32))

/-- Layer normalisation of each row: (h − mean) · rsqrt(var + 1e-5) · g + b. -/
def lnorm (h : FVec F S50000x512 .f32) (g b : FVec F S512 .f32) : FVec F S50000x512 .f32 :=
  addf
    (mulf
      (mulf (subf h (broadcastInDim S50000x512 ![0, 1] bcast_S50000x1_S50000x512_0_1 (rowMean h)))
        (broadcastInDim S50000x512 ![0, 1] bcast_S50000x1_S50000x512_0_1
          (Host.rsqrt (addf (rowVar h) (broadcastInDim S50000x1 ![] bcast_S_S50000x1 (constant S_ .f32 0x3727C5AC#32))))))
      (broadcastInDim S50000x512 ![0, 1] bcast_S1x512_S50000x512_0_1 (broadcastInDim S1x512 ![1] bcast_S512_S1x512_1 g)))
    (broadcastInDim S50000x512 ![0, 1] bcast_S1x512_S50000x512_0_1 (broadcastInDim S1x512 ![1] bcast_S512_S1x512_1 b))

/-- max(x, 0), entry by entry. -/
def relu512 (x : FVec F S50000x512 .f32) : FVec F S50000x512 .f32 :=
  maximumf x (broadcastInDim S50000x512 ![] bcast_S_S50000x512 (constant S_ .f32 0x00000000#32))

/-- The residual step: x + relu(lnorm h). -/
def residual (x h : FVec F S50000x512 .f32) (g b : FVec F S512 .f32) : FVec F S50000x512 .f32 :=
  addf x (relu512 (lnorm h g b))

/-! ## The scored pairs -/

/-- The pairs' first endpoints (row 0 of the pair table). -/
def pairRow0 (pairs : IVec S2x100000 32) : IVec S100000 32 :=
  shapeCast S100000 (extractStridedSlice S1x100000 ![0, 0] pairs slices_S2x100000_S1x100000_0_0) shapeCasts_S1x100000_S100000
/-- The pairs' second endpoints (row 1). -/
def pairRow1 (pairs : IVec S2x100000 32) : IVec S100000 32 :=
  shapeCast S100000 (extractStridedSlice S1x100000 ![1, 0] pairs slices_S2x100000_S1x100000_1_0) shapeCasts_S1x100000_S100000

/-- The node outputs' rows at the given endpoints. -/
def gatherZ (z : FVec F S50000x256 .f32) (idx : IVec S100000 32) : FVec F S100000x256 .f32 :=
  Host.gather gather_S50000x256_S100000x1_S100000x256_1_0_n_n_0_1_1256 z (wrapP idx)

/-- The endpoints' degrees, clipped below at 1, as floats. -/
def degF (deg : IVec S50000 32) (idx : IVec S100000 32) : FVec F S100000 .f32 :=
  sitofp .f32
    (maxsi (broadcastInDim S100000 ![] bcast_S_S100000 (constantI S_ 32 1#32))
      (Host.gather gather_S50000_S100000x1_S100000_n_0_n_n_0_1_1 deg (wrapP idx)))

/-- A pair's features: the two endpoints' rows and their entrywise product, side by side. -/
def feats (sz dz : FVec F S100000x256 .f32) : FVec F S100000x768 .f32 :=
  concatenate S100000x768 1 [⟨S100000x256, sz⟩, ⟨S100000x256, dz⟩, ⟨S100000x256, mulf sz dz⟩]
    concatenates_S100000x256_S100000x256_S100000x256_S100000x768_d1

/-- The batch norm's scale folded to one factor: g · rsqrt(var + 1e-5). -/
def bnScale (g var : FVec F S256 .f32) : FVec F S256 .f32 :=
  mulf g (Host.rsqrt (addf var (broadcastInDim S256 ![] bcast_S_S256 (constant S_ .f32 0x3727C5AC#32))))
/-- The batch norm's shift folded to one term: b − mean · scale. -/
def bnShift (b mean scale : FVec F S256 .f32) : FVec F S256 .f32 :=
  subf b (mulf mean scale)
/-- A vector of 256 entries as a one-row matrix. -/
def row256 (v : FVec F S256 .f32) : FVec F S1x256 .f32 :=
  shapeCast S1x256 v shapeCasts_S256_S1x256

/-- max(a, 0) of a scalar. -/
def relu0 (a : FVec F S_ .f32) : FVec F S_ .f32 := maximumf a (constant S_ .f32 0x00000000#32)

/-- The second layer of the pair scorer: h1 · w2 + b2, one number per pair. -/
def mlpScore (h1 : FVec F S100000x256 .f32) (w2 : FVec F S256x1 .f32) (b2 : FVec F S1 .f32) : FVec F S100000 .f32 :=
  shapeCast S100000
    (addf (Host.dotGeneral dot_S100000x256_S256x1_S100000x1_1_0_0_1_n_n none h1 w2)
      (broadcastInDim S100000x1 ![0, 1] bcast_S1x1_S100000x1_0_1 (broadcastInDim S1x1 ![1] bcast_S1_S1x1_1 b2)))
    shapeCasts_S100000x1_S100000

/-- The degree-corrected score:
    (score − relu(α)·log sdeg − relu(β)·log ddeg) / (sqrt sdeg · sqrt ddeg + 1e-8). -/
def scoreTail (h1 : FVec F S100000x256 .f32) (w2 : FVec F S256x1 .f32) (b2 : FVec F S1 .f32) (alpha beta : FVec F S_ .f32)
    (sdeg ddeg : FVec F S100000 .f32) : FVec F S100000 .f32 :=
  Host.divf
    (subf
      (subf (mlpScore h1 w2 b2)
        (mulf (broadcastInDim S100000 ![] bcast_S_S100000 (relu0 alpha)) (Host.log sdeg)))
      (mulf (broadcastInDim S100000 ![] bcast_S_S100000 (relu0 beta)) (Host.log ddeg)))
    (addf (mulf (Host.sqrt sdeg) (Host.sqrt ddeg))
      (broadcastInDim S100000 ![] bcast_S_S100000 (constant S_ .f32 0x322BCC77#32)))

/-! ## The reference's arrangement of the same layers

The plain reference multiplies the features and each relation's messages by their own weight matrix
and adds the four products, where the program above stacks them into one product. Its products are
over whole arrays, whose dimension records are stated here. -/

/-- [50000, 512] · [512, 512] → [50000, 512], contracting the left's axis 1 with the right's axis 0. -/
def dot_S50000x512_S512x512_S50000x512 : DotDims S50000x512 S512x512 S50000x512 where
  lhsContracting := [1]
  rhsContracting := [0]
  lhsNonContracting := [0]
  rhsNonContracting := [1]
  lhsBatch := []
  rhsBatch := []
  wf := by decide
/-- [50000, 512] · [512, 256] → [50000, 256]. -/
def dot_S50000x512_S512x256_S50000x256 : DotDims S50000x512 S512x256 S50000x256 where
  lhsContracting := [1]
  rhsContracting := [0]
  lhsNonContracting := [0]
  rhsNonContracting := [1]
  lhsBatch := []
  rhsBatch := []
  wf := by decide
/-- [100000, 768] · [768, 256] → [100000, 256]. -/
def dot_S100000x768_S768x256_S100000x256 : DotDims S100000x768 S768x256 S100000x256 where
  lhsContracting := [1]
  rhsContracting := [0]
  lhsNonContracting := [0]
  rhsNonContracting := [1]
  lhsBatch := []
  rhsBatch := []
  wf := by decide

theorem bcast_S256_S1x256_1 : S256.BroadcastsInDim S1x256 (![1] : Fin 1 → Fin S1x256.rank) := by decide
theorem bcast_S1x256_S100000x256_0_1 : S1x256.BroadcastsInDim S100000x256 (![0, 1] : Fin 2 → Fin S100000x256.rank) := by decide
theorem bcast_S_S100000x256 : S_.BroadcastsInDim S100000x256 (![] : Fin 0 → Fin S100000x256.rank) := by decide

/-- A graph layer in the reference's arrangement: x·W_loop + m0·W_0 + m1·W_1 + m2·W_2. -/
def denseR512 (x m0 m1 m2 : FVec F S50000x512 .f32) (wl : FVec F S512x512 .f32) (w : FVec F S3x512x512 .f32) :
    FVec F S50000x512 .f32 :=
  addf
    (addf
      (addf (Host.dotGeneral dot_S50000x512_S512x512_S50000x512 none x wl)
        (Host.dotGeneral dot_S50000x512_S512x512_S50000x512 none m0 (relW512_0 w)))
      (Host.dotGeneral dot_S50000x512_S512x512_S50000x512 none m1 (relW512_1 w)))
    (Host.dotGeneral dot_S50000x512_S512x512_S50000x512 none m2 (relW512_2 w))

/-- The output layer (512 → 256) in the reference's arrangement. -/
def denseR256 (x m0 m1 m2 : FVec F S50000x512 .f32) (wl : FVec F S512x256 .f32) (w : FVec F S3x512x256 .f32) :
    FVec F S50000x256 .f32 :=
  addf
    (addf
      (addf (Host.dotGeneral dot_S50000x512_S512x256_S50000x256 none x wl)
        (Host.dotGeneral dot_S50000x512_S512x256_S50000x256 none m0 (relW256_0 w)))
      (Host.dotGeneral dot_S50000x512_S512x256_S50000x256 none m1 (relW256_1 w)))
    (Host.dotGeneral dot_S50000x512_S512x256_S50000x256 none m2 (relW256_2 w))

/-- A 256-vector laid along every pair's row. -/
def rows256 (v : FVec F S256 .f32) : FVec F S100000x256 .f32 :=
  broadcastInDim S100000x256 ![0, 1] bcast_S1x256_S100000x256_0_1 (broadcastInDim S1x256 ![1] bcast_S256_S1x256_1 v)

/-- The pair scorer's first layer in the reference's arrangement: relu(feats·w1 + b1), then the batch
    norm unfolded: (· − mean) · rsqrt(var + 1e-5) · g + b. -/
def h1R (ft : FVec F S100000x768 .f32) (w1 : FVec F S768x256 .f32) (b1 g b mean var : FVec F S256 .f32) :
    FVec F S100000x256 .f32 :=
  addf
    (mulf
      (mulf
        (subf
          (maximumf (addf (Host.dotGeneral dot_S100000x768_S768x256_S100000x256 none ft w1) (rows256 b1))
            (broadcastInDim S100000x256 ![] bcast_S_S100000x256 (constant S_ .f32 0x00000000#32)))
          (rows256 mean))
        (rows256 (Host.rsqrt (addf var (broadcastInDim S256 ![] bcast_S_S256 (constant S_ .f32 0x3727C5AC#32))))))
      (rows256 g))
    (rows256 b)

end Cert.Hand.Spec

end
-- ==== Proof.Spec.KRead0.lean ====
/- What the first graph layer's kernel finds in its operand buffers: the host operations before the
   first kernel, read as the vocabulary's functions of the program's arguments. -/
import proofs.«148293_j56684978372941_1_alg».proof.Proof.Spec.Defs
import proofs.«148293_j56684978372941_1_alg».proof.Proof.Gen.KernelIdeal.Regions
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen Cert.Hand.Spec

variable {F : FTy → Type} [FloatOps F]
variable (m : (ℓ : Loc nD τ sig) → Buf (Elt F) ℓ)

/-- The encoded node features x0 = node_emb + type_emb[type ids], a function of the launch memory. -/
abbrev x0 (c : Dev nD) : FVec F S50000x512 .f32 := encode (m ((c : Thread nD τ).loc main_arg9)) (m ((c : Thread nD τ).loc main_arg10)) (m ((c : Thread nD τ).loc main_arg0))

/-- The encoded node features, as the first stretch leaves them. -/
theorem V1_x0 (c : Dev nD) : V1 m c main_v7 = x0 m c := by
  unfold x0 encode wrapT
  after_results_simp

/-- The first layer's left operand: the encoded features beside the three relations' messages. -/
theorem V1_catX (c : Dev nD) :
    V1 m c main_v38 =
      catX (x0 m c) (msg (x0 m c) (m ((c : Thread nD τ).loc main_arg1)) (m ((c : Thread nD τ).loc main_arg2))) (msg (x0 m c) (m ((c : Thread nD τ).loc main_arg3)) (m ((c : Thread nD τ).loc main_arg4))) (msg (x0 m c) (m ((c : Thread nD τ).loc main_arg5)) (m ((c : Thread nD τ).loc main_arg6))) := by
  unfold x0 catX msg zeroX wrapE encode wrapT
  after_results_simp
  rfl

/-- The first layer's right operand: the loop weights over the three relations' weights. -/
theorem V1_catW (c : Dev nD) :
    V1 m c main_v45 =
      catW512 (m ((c : Thread nD τ).loc main_arg11)) (relW512_0 (m ((c : Thread nD τ).loc main_arg12))) (relW512_1 (m ((c : Thread nD τ).loc main_arg12))) (relW512_2 (m ((c : Thread nD τ).loc main_arg12))) := by
  unfold catW512 relW512_0 relW512_1 relW512_2
  after_results_simp
  rfl

/-- The first layer's bias (and shift) row: zero. -/
theorem V1_zeroRow (c : Dev nD) : V1 m c main_v46 = zeroRow512 (F := F) := by
  unfold zeroRow512
  after_results_simp

/-- The first layer's scale row: one. -/
theorem V1_oneRow (c : Dev nD) : V1 m c main_v47 = oneRow512 (F := F) := by
  unfold oneRow512
  after_results_simp

end Cert.KernelIdeal.Hand

end
-- ==== Proof.Spec.Reach.lean ====
/- Reading a buffer through the host stretches and kernels that do not write it: between two writes a
   buffer keeps its contents, so its contents at any later point are those its last writer left — an
   argument's are the launch memory's, a kernel's output buffer holds what the kernel left there. -/
import proofs.«148293_j56684978372941_1_alg».proof.Proof.Gen.KernelIdeal.Regions

namespace Cert.KernelIdeal.Hand

open Cert.KernelIdeal.Gen

/-- Closes `V_J … r = (what r's last writer left)`: steps back over every stretch and kernel that does
    not write `r` (the generated membership facts, decided), down to the launch memory or to the kernel
    output that was put there. -/
syntax "reach" : tactic
macro_rules
  | `(tactic| reach) => `(tactic| first
      | (rw [V21_of] <;> first | decide | reach)
      | (rw [V20_of] <;> first | decide | reach)
      | (rw [V19_of] <;> first | decide | reach)
      | (rw [V18_of] <;> first | decide | reach)
      | (rw [V17_of] <;> first | decide | reach)
      | (rw [V16_of] <;> first | decide | reach)
      | (rw [V15_of] <;> first | decide | reach)
      | (rw [V14_of] <;> first | decide | reach)
      | (rw [V13_of] <;> first | decide | reach)
      | (rw [V12_of] <;> first | decide | reach)
      | (rw [V11_of] <;> first | decide | reach)
      | (rw [V10_of] <;> first | decide | reach)
      | (rw [V9_of] <;> first | decide | reach)
      | (rw [V8_of] <;> first | decide | reach)
      | (rw [V7_of] <;> first | decide | reach)
      | (rw [V6_of] <;> first | decide | reach)
      | (rw [V5_of] <;> first | decide | reach)
      | (rw [V4_of] <;> first | decide | reach)
      | (rw [V3_of] <;> first | decide | reach)
      | (rw [V2_of] <;> first | decide | reach)
      | (rw [V1_of] <;> first | decide | reach)
      | exact Function.update_self ..
      | rfl)

end Cert.KernelIdeal.Hand
-- ==== Proof.Spec.KRead1.lean ====
/- What the second graph layer's kernel finds in its operand buffers, over what the first kernel left
   (the features x1) and the program's arguments. Each buffer the stretch writes is first read over an
   arbitrary valuation of the buffers the stretch finds, then at the valuation the first kernel leaves. -/
import proofs.«148293_j56684978372941_1_alg».proof.Proof.Spec.Defs
import proofs.«148293_j56684978372941_1_alg».proof.Proof.Gen.KernelIdeal.Regions
import Idealize.ShloMosaic.Lib.StableHlo.Run
import proofs.«148293_j56684978372941_1_alg».proof.Proof.Spec.Reach

noncomputable section

namespace Cert.KernelIdeal.Hand

open Idealize.ShloMosaic Idealize.ShloMosaic.TcCoe Idealize.SL.Sem Idealize.ShloMosaic.StableHlo
open Cert.KernelIdeal Cert.KernelIdeal.Gen Cert.Hand.Spec

variable {F : FTy → Type} [FloatOps F]
variable (m : (ℓ : Loc nD τ sig) → Buf (Elt F) ℓ)
variable (outs : Outs (F := F))

/-! ## The stretch over any valuation -/

/-- The stretch's stacked left operand, over any contents of the buffers it finds. -/
theorem read1_catX (U : Valuation τ sig (Elt F)) :
    StableHlo.after hostOps1 U main_v79 =
      catX (U main_v48) (msg (U main_v48) (U main_arg1) (U main_arg2)) (msg (U main_v48) (U main_arg3) (U main_arg4))
        (msg (U main_v48) (U main_arg5) (U main_arg6)) := by
  unfold catX msg zeroX wrapE
  after_results_simp
  rfl

/-- The stretch's stacked right operand, over any contents of the buffers it finds. -/
theorem read1_catW (U : Valuation τ sig (Elt F)) :
    StableHlo.after hostOps1 U main_v86 =
      catW512 (U main_arg13) (relW512_0 (U main_arg14)) (relW512_1 (U main_arg14)) (relW512_2 (U main_arg14)) := by
  unfold catW512 relW512_0 relW512_1 relW512_2
  after_results_simp
  rfl

/-! ## The stretch after the first kernel -/

/-- The features x1 the first kernel leaves (an unknown of the readings). -/
abbrev x1 (c : Dev nD) : FVec F S50000x512 .f32 := outs 2 main_v48 c

theorem V2_x1 (c : Dev nD) : V2 m outs c main_v48 = x1 outs c := by reach
theorem V2_arg1 (c : Dev nD) : V2 m outs c main_arg1 = (m ((c : Thread nD τ).loc main_arg1)) := by reach
theorem V2_arg2 (c : Dev nD) : V2 m outs c main_arg2 = (m ((c : Thread nD τ).loc main_arg2)) := by reach
theorem V2_arg3 (c : Dev nD) : V2 m outs c main_arg3 = (m ((c : Thread nD τ).loc main_arg3)) := by reach
theorem V2_arg4 (c : Dev nD) : V2 m outs c main_arg4 = (m ((c : Thread nD τ).loc main_arg4)) := by reach
theorem V2_arg5 (c : Dev nD) : V2 m outs c main_arg5 = (m ((c : Thread nD τ).loc main_arg5)) := by reach
theorem V2_arg6 (c : Dev nD) : V2 m outs c main_arg6 = (m ((c : Thread nD τ).loc main_arg6)) := by reach
theorem V2_arg13 (c : Dev nD) : V2 m outs c main_arg13 = (m ((c : Thread nD τ).loc main_arg13)) := by reach
theorem V2_arg14 (c : Dev nD) : V2 m outs c main_arg14 = (m ((c : Thread nD τ).loc main_arg14)) := by reach

/-- The second layer's left operand: x1 beside its three relations' messages. -/
theorem V3_catX (c : Dev nD) :
    V3 m outs c main_v79 =
      catX (x1 outs c) (msg (x1 outs c) (m ((c : Thread nD τ).loc main_arg1)) (m ((c : Thread nD τ).loc main_arg2))) (msg (x1 outs c) (m ((c : Thread nD τ).loc main_arg3)) (m ((c : Thread nD τ).loc main_arg4)))
        (msg (x1 outs c) (m ((c : Thread nD τ).loc main_arg5)) (m ((c : Thread nD τ).loc main_arg6))) := by
  show StableHlo.after hostOps1 (V2 m outs c) main_v79 = _
  rw [read1_catX, V2_x1, V2_arg1, V2_arg2, V2_arg3, V2_arg4, V2_arg5, V2_arg6]

/-- The second layer's right operand. -/
theorem V3_catW (c : Dev nD) :
    V3 m outs c main_v86 =
      catW512 (m ((c : Thread nD τ).loc main_arg13)) (relW512_0 (m ((c : Thread nD τ).loc main_arg14))) (relW512_1 (m ((c : Thread nD τ).loc main_arg14))) (relW512_2 (m ((c : Thread nD τ).loc main_arg14))) := by
  show StableHlo.after hostOps1 (V2 m outs c) main_v86 = _
  rw [read1_catW, V2_arg13, V2_arg14]

/-- The second layer's bias (and shift) row: zero. -/
theorem V3_zeroRow (c : Dev nD) : V3 m outs c main_v87 = zeroRow512 (F := F) := by
  unfold zeroRow512
  after_results_simp

/-- The second layer's scale row: one. -/
theorem V3_oneRow (c : Dev nD) : V3 m outs c main_v88 = oneRow512 (F := F) := by
  unfold oneRow512
  after_results_simp

end Cert.KernelIdeal.Hand

end
-- ==== Proof.Spec.KRead2.lean ====
/- What the third graph layer's kernel finds in its operand buffers. Between the second and the third kernel the
   host normalises each row of the second kernel's output h (mean, variance, (h − mean)·rsqrt(var + ε)·g + b),
   clamps the result below at zero and adds it to the features x1 the first kernel left: x2 = x1 + relu(lnorm h).
   The third layer's left operand is x2 beside its three relations' message sums, its right operand the loop
   weights over the three relations' weights, its bias row zero. Each host stretch is first read over an arbitrary
   valuation of the buffers it finds, then the five readings are chained. -/
import proofs.«148293_j56684978372941_1_alg».proof.Proof.Spec.Defs
import proofs.«148293_j56684978372941_1_alg».proof.Proof.Gen.KernelIdeal.Regions
import Idealize.ShloMosaic.Lib.StableHlo.Run
import proofs.«148293_j56684978372941_1_alg».proof.Proof.Spec.Reach
import proofs.«148293_j56684978372941_1_alg».proof.Proof.Spec.KRead1

noncomputable section

namespace Cert.KernelIdeal.Hand

open Idealize.ShloMosaic Idealize.ShloMosaic.TcCoe Idealize.SL.Sem Idealize.ShloMosaic.StableHlo
open Cert.KernelIdeal Cert.KernelIdeal.Gen Cert.Hand.Spec

variable {F : FTy → Type} [FloatOps F]

section Stretches
-- the buffers' contents a stretch finds
variable (U : Valuation τ sig (Elt F))

/-- The first stretch leaves each row's mean of the buffer it reads, -/
theorem read2_mean : StableHlo.after hostOps2 U main_v93 = rowMean (U main_v89) := by
  unfold rowMean
  after_results_simp
/-- and the integer zero the variance's divisor is corrected by. -/
theorem read2_ddof : StableHlo.after hostOps2 U main_c_24 = constantI S_ 32 0#32 := by
  after_results_simp

/-- The second stretch leaves each row's variance (the correction being the integer zero). -/
theorem read2_var (hc : U main_c_24 = constantI S_ 32 0#32) : StableHlo.after hostOps2_1 U main_v94 = rowVar (U main_v89) := by
  unfold rowVar rowMean
  after_results_simp
  rw [hc]
  rfl

/-- The third stretch normalises: (h − mean)·rsqrt(var + ε)·g + b, over the mean and variance it finds. -/
theorem read2_norm : StableHlo.after hostOps2_2 U main_v107 =
    addf
      (mulf
        (mulf (subf (U main_v89) (broadcastInDim S50000x512 ![0, 1] bcast_S50000x1_S50000x512_0_1 (U main_v93)))
          (broadcastInDim S50000x512 ![0, 1] bcast_S50000x1_S50000x512_0_1
            (Host.rsqrt (addf (U main_v94) (broadcastInDim S50000x1 ![] bcast_S_S50000x1 (constant S_ .f32 0x3727C5AC#32))))))
        (broadcastInDim S50000x512 ![0, 1] bcast_S1x512_S50000x512_0_1 (broadcastInDim S1x512 ![1] bcast_S512_S1x512_1 (U main_arg15))))
      (broadcastInDim S50000x512 ![0, 1] bcast_S1x512_S50000x512_0_1 (broadcastInDim S1x512 ![1] bcast_S512_S1x512_1 (U main_arg16))) := by
  after_results_simp

/-- The fourth stretch clamps below at zero. -/
theorem read2_relu : StableHlo.after hostOps2_3 U main_v108 = relu512 (U main_v107) := by
  unfold relu512
  after_results_simp
  rfl

/-- The fifth stretch adds the clamped rows to the features, sums each relation's messages of the result and lays
    the four arrays side by side; -/
theorem read2_catX : StableHlo.after hostOps2_4 U main_v140 =
    catX (addf (U main_v48) (U main_v108))
      (msg (addf (U main_v48) (U main_v108)) (U main_arg1) (U main_arg2))
      (msg (addf (U main_v48) (U main_v108)) (U main_arg3) (U main_arg4))
      (msg (addf (U main_v48) (U main_v108)) (U main_arg5) (U main_arg6)) := by
  unfold catX msg zeroX wrapE
  after_results_simp
  rfl
/-- stacks the loop weights over the three relations' weights; -/
theorem read2_catW : StableHlo.after hostOps2_4 U main_v147 =
    catW256 (U main_arg17) (relW256_0 (U main_arg18)) (relW256_1 (U main_arg18)) (relW256_2 (U main_arg18)) := by
  unfold catW256 relW256_0 relW256_1 relW256_2
  after_results_simp
  rfl
/-- and writes the zero row. -/
theorem read2_zeroRow : StableHlo.after hostOps2_4 U main_v148 = zeroRow256 (F := F) := by
  unfold zeroRow256
  after_results_simp

end Stretches

section Chain
variable (m : (ℓ : Loc nD τ sig) → Buf (Elt F) ℓ) (outs : Outs (F := F))

/-- What the second kernel leaves: the second layer's output h, before normalisation (an unknown of the readings). -/
abbrev hraw (c : Dev nD) : FVec F S50000x512 .f32 := outs 4 main_v89 c

/-- The features after the residual step: x2 = x1 + relu(lnorm h), with the normalisation's gain and offset. -/
abbrev x2 (c : Dev nD) : FVec F S50000x512 .f32 := residual (x1 outs c) (hraw outs c) (m ((c : Thread nD τ).loc main_arg15)) (m ((c : Thread nD τ).loc main_arg16))

/-- The second kernel's output stays in its buffer through the stretches that only read it. -/
theorem V4_h (c : Dev nD) : V4 m outs c main_v89 = hraw outs c := by reach
theorem V5_h (c : Dev nD) : V5 m outs c main_v89 = hraw outs c := by reach
theorem V6_h (c : Dev nD) : V6 m outs c main_v89 = hraw outs c := by reach

/-- After the first stretch: each row's mean of h, and the variance's correction. -/
theorem V5_mean (c : Dev nD) : V5 m outs c main_v93 = rowMean (hraw outs c) := by
  show StableHlo.after hostOps2 (V4 m outs c) main_v93 = _
  rw [read2_mean, V4_h]
theorem V5_ddof (c : Dev nD) : V5 m outs c main_c_24 = constantI S_ 32 0#32 := read2_ddof (V4 m outs c)

/-- After the second stretch: the mean still there, and each row's variance of h. -/
theorem V6_mean (c : Dev nD) : V6 m outs c main_v93 = rowMean (hraw outs c) := by
  rw [V6_of m outs c main_v93 (by decide)]; exact V5_mean m outs c
theorem V6_var (c : Dev nD) : V6 m outs c main_v94 = rowVar (hraw outs c) := by
  show StableHlo.after hostOps2_1 (V5 m outs c) main_v94 = _
  rw [read2_var _ (V5_ddof m outs c), V5_h]
theorem V6_arg15 (c : Dev nD) : V6 m outs c main_arg15 = (m ((c : Thread nD τ).loc main_arg15)) := by reach
theorem V6_arg16 (c : Dev nD) : V6 m outs c main_arg16 = (m ((c : Thread nD τ).loc main_arg16)) := by reach

/-- After the third stretch: the normalised rows. -/
theorem V7_lnorm (c : Dev nD) : V7 m outs c main_v107 = lnorm (hraw outs c) (m ((c : Thread nD τ).loc main_arg15)) (m ((c : Thread nD τ).loc main_arg16)) := by
  show StableHlo.after hostOps2_2 (V6 m outs c) main_v107 = _
  rw [read2_norm, V6_h, V6_mean, V6_var, V6_arg15, V6_arg16]
  rfl

/-- After the fourth: clamped below at zero. -/
theorem V8_relu (c : Dev nD) : V8 m outs c main_v108 = relu512 (lnorm (hraw outs c) (m ((c : Thread nD τ).loc main_arg15)) (m ((c : Thread nD τ).loc main_arg16))) := by
  show StableHlo.after hostOps2_3 (V7 m outs c) main_v108 = _
  rw [read2_relu, V7_lnorm]

/-- What the fifth stretch reads besides: the features the first kernel left and the program's arguments. -/
theorem V8_x1 (c : Dev nD) : V8 m outs c main_v48 = x1 outs c := by reach
theorem V8_arg1 (c : Dev nD) : V8 m outs c main_arg1 = (m ((c : Thread nD τ).loc main_arg1)) := by reach
theorem V8_arg2 (c : Dev nD) : V8 m outs c main_arg2 = (m ((c : Thread nD τ).loc main_arg2)) := by reach
theorem V8_arg3 (c : Dev nD) : V8 m outs c main_arg3 = (m ((c : Thread nD τ).loc main_arg3)) := by reach
theorem V8_arg4 (c : Dev nD) : V8 m outs c main_arg4 = (m ((c : Thread nD τ).loc main_arg4)) := by reach
theorem V8_arg5 (c : Dev nD) : V8 m outs c main_arg5 = (m ((c : Thread nD τ).loc main_arg5)) := by reach
theorem V8_arg6 (c : Dev nD) : V8 m outs c main_arg6 = (m ((c : Thread nD τ).loc main_arg6)) := by reach
theorem V8_arg17 (c : Dev nD) : V8 m outs c main_arg17 = (m ((c : Thread nD τ).loc main_arg17)) := by reach
theorem V8_arg18 (c : Dev nD) : V8 m outs c main_arg18 = (m ((c : Thread nD τ).loc main_arg18)) := by reach

/-- The third layer's left operand: x2 beside its three relations' messages. -/
theorem V9_catX (c : Dev nD) :
    V9 m outs c main_v140 =
      catX (x2 m outs c) (msg (x2 m outs c) (m ((c : Thread nD τ).loc main_arg1)) (m ((c : Thread nD τ).loc main_arg2))) (msg (x2 m outs c) (m ((c : Thread nD τ).loc main_arg3)) (m ((c : Thread nD τ).loc main_arg4)))
        (msg (x2 m outs c) (m ((c : Thread nD τ).loc main_arg5)) (m ((c : Thread nD τ).loc main_arg6))) := by
  show StableHlo.after hostOps2_4 (V8 m outs c) main_v140 = _
  rw [read2_catX, V8_x1, V8_relu, V8_arg1, V8_arg2, V8_arg3, V8_arg4, V8_arg5, V8_arg6]
  rfl

/-- The third layer's right operand: the loop weights over the three relations' weights. -/
theorem V9_catW (c : Dev nD) :
    V9 m outs c main_v147 =
      catW256 (m ((c : Thread nD τ).loc main_arg17)) (relW256_0 (m ((c : Thread nD τ).loc main_arg18))) (relW256_1 (m ((c : Thread nD τ).loc main_arg18))) (relW256_2 (m ((c : Thread nD τ).loc main_arg18))) := by
  show StableHlo.after hostOps2_4 (V8 m outs c) main_v147 = _
  rw [read2_catW, V8_arg17, V8_arg18]

/-- The third layer's bias (and shift) row: zero. -/
theorem V9_zeroRow (c : Dev nD) : V9 m outs c main_v148 = zeroRow256 (F := F) := by
  show StableHlo.after hostOps2_4 (V8 m outs c) main_v148 = _
  exact read2_zeroRow _

end Chain

end Cert.KernelIdeal.Hand

end
-- ==== Proof.Spec.KRead3.lean ====
/- What the pair scorer's kernel finds in its operand buffers: the host operations between the output
   layer's kernel and the scorer's, read over what the output layer's kernel left (the node outputs z) and
   the program's arguments. The pairs' two endpoint rows of z and their product side by side; the scorer's
   first bias and the batch norm folded to one scale and one shift, each as a one-row matrix; and, computed
   here and used only after the scorer's kernel, the two endpoints' clipped degrees. -/
import proofs.«148293_j56684978372941_1_alg».proof.Proof.Spec.Defs
import proofs.«148293_j56684978372941_1_alg».proof.Proof.Gen.KernelIdeal.Regions
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen Cert.Hand.Spec

variable {F : FTy → Type} [FloatOps F]
variable (m : (ℓ : Loc nD τ sig) → Buf (Elt F) ℓ)
variable (outs : Outs (F := F))

/-- The node outputs z the output layer's kernel leaves (an unknown of the readings). -/
abbrev zOut (c : Dev nD) : FVec F S50000x256 .f32 := outs 10 main_v150 c

/-- The five stretches between the two kernels, in a row, from contents `U`. -/
abbrev afterPairs (U : Valuation τ sig (Elt F)) : Valuation τ sig (Elt F) :=
  after hostOps3_4 (after hostOps3_3 (after hostOps3_2 (after hostOps3_1 (after hostOps3 U))))

theorem V15_pairs (c : Dev nD) : V15 m outs c = afterPairs (V10 m outs c) := rfl

/-! ## The stretches over arbitrary contents -/

/-- The pair features: the endpoints' rows of the node outputs and their product. -/
theorem pairs_feats (U : Valuation τ sig (Elt F)) :
    afterPairs U main_v188
      = feats (gatherZ (U main_v150) (pairRow0 (U main_arg7))) (gatherZ (U main_v150) (pairRow1 (U main_arg7))) := by
  unfold feats gatherZ pairRow0 pairRow1 wrapP
  simp (disch := decide) only [after_cons, after_nil,
    nullary_result', unary_result', binary_result', ternary_result', quaternary_result', reshape_result', nary_result',
    unaryIndexed_result', binaryIndexed_result', Matrix.cons_val,
    nullary_result_ne', unary_result_ne', binary_result_ne', ternary_result_ne', quaternary_result_ne', reshape_result_ne',
    nary_result_ne', unaryIndexed_result_ne', binaryIndexed_result_ne']
  all_goals rfl

/-- The first endpoints' degrees, clipped below at one, as floats. -/
theorem pairs_sdeg (U : Valuation τ sig (Elt F)) :
    afterPairs U main_v177 = degF (U main_arg8) (pairRow0 (U main_arg7)) := by
  unfold degF pairRow0 wrapP
  after_results_simp
  all_goals rfl

/-- The second endpoints' degrees, clipped below at one, as floats. -/
theorem pairs_ddeg (U : Valuation τ sig (Elt F)) :
    afterPairs U main_v186 = degF (U main_arg8) (pairRow1 (U main_arg7)) := by
  unfold degF pairRow1 wrapP
  after_results_simp
  all_goals rfl

/-- The scorer's first bias as a one-row matrix. -/
theorem last_b1 (U : Valuation τ sig (Elt F)) : after hostOps3_4 U main_v195 = row256 (U main_arg20) := by
  unfold row256
  after_results_simp
  all_goals rfl

/-- The batch norm's folded scale as a one-row matrix. -/
theorem last_scale (U : Valuation τ sig (Elt F)) :
    after hostOps3_4 U main_v196 = row256 (bnScale (U main_arg21) (U main_arg24)) := by
  unfold row256 bnScale
  after_results_simp
  all_goals rfl

/-- The batch norm's folded shift as a one-row matrix. -/
theorem last_shift (U : Valuation τ sig (Elt F)) :
    after hostOps3_4 U main_v197
      = row256 (bnShift (U main_arg22) (U main_arg23) (bnScale (U main_arg21) (U main_arg24))) := by
  unfold row256 bnShift bnScale
  after_results_simp
  all_goals rfl

/-! ## What the stretches find -/

theorem V10_z (c : Dev nD) : V10 m outs c main_v150 = zOut outs c := Function.update_self ..
theorem V10_arg7 (c : Dev nD) : V10 m outs c main_arg7 = (m ((c : Thread nD τ).loc main_arg7)) :=
  (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide)).trans rfl
theorem V10_arg8 (c : Dev nD) : V10 m outs c main_arg8 = (m ((c : Thread nD τ).loc main_arg8)) :=
  (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide)).trans rfl
theorem V14_arg20 (c : Dev nD) : V14 m outs c main_arg20 = (m ((c : Thread nD τ).loc main_arg20)) :=
  (V14_of m outs c main_arg20 (by decide)).trans <| (V13_of m outs c main_arg20 (by decide)).trans <| (V12_of m outs c main_arg20 (by decide)).trans <| (V11_of m outs c main_arg20 (by decide)).trans <| (V10_of m outs c main_arg20 (by decide)).trans <| (V9_of m outs c main_arg20 (by decide)).trans <| (V8_of m outs c main_arg20 (by decide)).trans <| (V7_of m outs c main_arg20 (by decide)).trans <| (V6_of m outs c main_arg20 (by decide)).trans <| (V5_of m outs c main_arg20 (by decide)).trans <| (V4_of m outs c main_arg20 (by decide)).trans <| (V3_of m outs c main_arg20 (by decide)).trans <| (V2_of m outs c main_arg20 (by decide)).trans <| (V1_of m c main_arg20 (by decide)).trans rfl
theorem V14_arg21 (c : Dev nD) : V14 m outs c main_arg21 = (m ((c : Thread nD τ).loc main_arg21)) :=
  (V14_of m outs c main_arg21 (by decide)).trans <| (V13_of m outs c main_arg21 (by decide)).trans <| (V12_of m outs c main_arg21 (by decide)).trans <| (V11_of m outs c main_arg21 (by decide)).trans <| (V10_of m outs c main_arg21 (by decide)).trans <| (V9_of m outs c main_arg21 (by decide)).trans <| (V8_of m outs c main_arg21 (by decide)).trans <| (V7_of m outs c main_arg21 (by decide)).trans <| (V6_of m outs c main_arg21 (by decide)).trans <| (V5_of m outs c main_arg21 (by decide)).trans <| (V4_of m outs c main_arg21 (by decide)).trans <| (V3_of m outs c main_arg21 (by decide)).trans <| (V2_of m outs c main_arg21 (by decide)).trans <| (V1_of m c main_arg21 (by decide)).trans rfl
theorem V14_arg22 (c : Dev nD) : V14 m outs c main_arg22 = (m ((c : Thread nD τ).loc main_arg22)) :=
  (V14_of m outs c main_arg22 (by decide)).trans <| (V13_of m outs c main_arg22 (by decide)).trans <| (V12_of m outs c main_arg22 (by decide)).trans <| (V11_of m outs c main_arg22 (by decide)).trans <| (V10_of m outs c main_arg22 (by decide)).trans <| (V9_of m outs c main_arg22 (by decide)).trans <| (V8_of m outs c main_arg22 (by decide)).trans <| (V7_of m outs c main_arg22 (by decide)).trans <| (V6_of m outs c main_arg22 (by decide)).trans <| (V5_of m outs c main_arg22 (by decide)).trans <| (V4_of m outs c main_arg22 (by decide)).trans <| (V3_of m outs c main_arg22 (by decide)).trans <| (V2_of m outs c main_arg22 (by decide)).trans <| (V1_of m c main_arg22 (by decide)).trans rfl
theorem V14_arg23 (c : Dev nD) : V14 m outs c main_arg23 = (m ((c : Thread nD τ).loc main_arg23)) :=
  (V14_of m outs c main_arg23 (by decide)).trans <| (V13_of m outs c main_arg23 (by decide)).trans <| (V12_of m outs c main_arg23 (by decide)).trans <| (V11_of m outs c main_arg23 (by decide)).trans <| (V10_of m outs c main_arg23 (by decide)).trans <| (V9_of m outs c main_arg23 (by decide)).trans <| (V8_of m outs c main_arg23 (by decide)).trans <| (V7_of m outs c main_arg23 (by decide)).trans <| (V6_of m outs c main_arg23 (by decide)).trans <| (V5_of m outs c main_arg23 (by decide)).trans <| (V4_of m outs c main_arg23 (by decide)).trans <| (V3_of m outs c main_arg23 (by decide)).trans <| (V2_of m outs c main_arg23 (by decide)).trans <| (V1_of m c main_arg23 (by decide)).trans rfl
theorem V14_arg24 (c : Dev nD) : V14 m outs c main_arg24 = (m ((c : Thread nD τ).loc main_arg24)) :=
  (V14_of m outs c main_arg24 (by decide)).trans <| (V13_of m outs c main_arg24 (by decide)).trans <| (V12_of m outs c main_arg24 (by decide)).trans <| (V11_of m outs c main_arg24 (by decide)).trans <| (V10_of m outs c main_arg24 (by decide)).trans <| (V9_of m outs c main_arg24 (by decide)).trans <| (V8_of m outs c main_arg24 (by decide)).trans <| (V7_of m outs c main_arg24 (by decide)).trans <| (V6_of m outs c main_arg24 (by decide)).trans <| (V5_of m outs c main_arg24 (by decide)).trans <| (V4_of m outs c main_arg24 (by decide)).trans <| (V3_of m outs c main_arg24 (by decide)).trans <| (V2_of m outs c main_arg24 (by decide)).trans <| (V1_of m c main_arg24 (by decide)).trans rfl

/-! ## The scorer's operands -/

/-- The scorer's left operand: the pair features of the node outputs. -/
theorem V15_feats (c : Dev nD) :
    V15 m outs c main_v188
      = feats (gatherZ (zOut outs c) (pairRow0 (m ((c : Thread nD τ).loc main_arg7)))) (gatherZ (zOut outs c) (pairRow1 (m ((c : Thread nD τ).loc main_arg7)))) := by
  rw [V15_pairs, pairs_feats, V10_z, V10_arg7]

/-- The scorer's weights: the argument, untouched. -/
theorem V15_w1 (c : Dev nD) : V15 m outs c main_arg19 = (m ((c : Thread nD τ).loc main_arg19)) :=
  (V15_of m outs c main_arg19 (by decide)).trans <| (V14_of m outs c main_arg19 (by decide)).trans <| (V13_of m outs c main_arg19 (by decide)).trans <| (V12_of m outs c main_arg19 (by decide)).trans <| (V11_of m outs c main_arg19 (by decide)).trans <| (V10_of m outs c main_arg19 (by decide)).trans <| (V9_of m outs c main_arg19 (by decide)).trans <| (V8_of m outs c main_arg19 (by decide)).trans <| (V7_of m outs c main_arg19 (by decide)).trans <| (V6_of m outs c main_arg19 (by decide)).trans <| (V5_of m outs c main_arg19 (by decide)).trans <| (V4_of m outs c main_arg19 (by decide)).trans <| (V3_of m outs c main_arg19 (by decide)).trans <| (V2_of m outs c main_arg19 (by decide)).trans <| (V1_of m c main_arg19 (by decide)).trans rfl

/-- The scorer's first bias row. -/
theorem V15_b1 (c : Dev nD) : V15 m outs c main_v195 = row256 (m ((c : Thread nD τ).loc main_arg20)) := by
  show after hostOps3_4 (V14 m outs c) main_v195 = _
  rw [last_b1, V14_arg20]

/-- The batch norm's scale row. -/
theorem V15_scale (c : Dev nD) : V15 m outs c main_v196 = row256 (bnScale (m ((c : Thread nD τ).loc main_arg21)) (m ((c : Thread nD τ).loc main_arg24))) := by
  show after hostOps3_4 (V14 m outs c) main_v196 = _
  rw [last_scale, V14_arg21, V14_arg24]

/-- The batch norm's shift row. -/
theorem V15_shift (c : Dev nD) :
    V15 m outs c main_v197 = row256 (bnShift (m ((c : Thread nD τ).loc main_arg22)) (m ((c : Thread nD τ).loc main_arg23)) (bnScale (m ((c : Thread nD τ).loc main_arg21)) (m ((c : Thread nD τ).loc main_arg24)))) := by
  show after hostOps3_4 (V14 m outs c) main_v197 = _
  rw [last_shift, V14_arg21, V14_arg22, V14_arg23, V14_arg24]

/-- The first endpoints' clipped degrees, ready before the scorer's kernel. -/
theorem V15_sdeg (c : Dev nD) : V15 m outs c main_v177 = degF (m ((c : Thread nD τ).loc main_arg8)) (pairRow0 (m ((c : Thread nD τ).loc main_arg7))) := by
  rw [V15_pairs, pairs_sdeg, V10_arg8, V10_arg7]

/-- The second endpoints' clipped degrees. -/
theorem V15_ddeg (c : Dev nD) : V15 m outs c main_v186 = degF (m ((c : Thread nD τ).loc main_arg8)) (pairRow1 (m ((c : Thread nD τ).loc main_arg7))) := by
  rw [V15_pairs, pairs_ddeg, V10_arg8, V10_arg7]

end Cert.KernelIdeal.Hand

end
-- ==== Proof.Spec.KRead4.lean ====
/- The result of the program: the host operations after the pair scorer's kernel, read over what that
   kernel left (the scorer's normalised hidden layer h1), the program's arguments, and the two endpoints'
   clipped degrees that were computed before the kernel and that the kernel leaves alone. -/
import proofs.«148293_j56684978372941_1_alg».proof.Proof.Spec.Defs
import proofs.«148293_j56684978372941_1_alg».proof.Proof.Gen.KernelIdeal.Regions
import Idealize.ShloMosaic.Lib.StableHlo.Run
import proofs.«148293_j56684978372941_1_alg».proof.Proof.Spec.KRead3

noncomputable section

namespace Cert.KernelIdeal.Hand

open Idealize.ShloMosaic Idealize.ShloMosaic.TcCoe Idealize.SL.Sem Idealize.ShloMosaic.StableHlo
open Cert.KernelIdeal Cert.KernelIdeal.Gen Cert.Hand.Spec

variable {F : FTy → Type} [FloatOps F]
variable (m : (ℓ : Loc nD τ sig) → Buf (Elt F) ℓ)
variable (outs : Outs (F := F))

/-- The scorer's normalised hidden layer the last kernel leaves (an unknown of the readings). -/
abbrev h1Out (c : Dev nD) : FVec F S100000x256 .f32 := outs 16 main_v198 c

/-- The five stretches after the last kernel, in a row, from contents `U`. -/
abbrev afterScore (U : Valuation τ sig (Elt F)) : Valuation τ sig (Elt F) :=
  after hostOps4_4 (after hostOps4_3 (after hostOps4_2 (after hostOps4_1 (after hostOps4 U))))

theorem V21_tail (c : Dev nD) : V21 m outs c = afterScore (V16 m outs c) := rfl

/-- The degree-corrected score, over arbitrary contents. -/
theorem tail_score (U : Valuation τ sig (Elt F)) :
    afterScore U main_v219
      = scoreTail (U main_v198) (U main_arg25) (U main_arg26) (U main_arg27) (U main_arg28) (U main_v177) (U main_v186) := by
  unfold scoreTail mlpScore relu0
  after_results_simp
  all_goals rfl

theorem V16_h1 (c : Dev nD) : V16 m outs c main_v198 = h1Out outs c := Function.update_self ..
theorem V16_arg25 (c : Dev nD) : V16 m outs c main_arg25 = (m ((c : Thread nD τ).loc main_arg25)) :=
  (V16_of m outs c main_arg25 (by decide)).trans <| (V15_of m outs c main_arg25 (by decide)).trans <| (V14_of m outs c main_arg25 (by decide)).trans <| (V13_of m outs c main_arg25 (by decide)).trans <| (V12_of m outs c main_arg25 (by decide)).trans <| (V11_of m outs c main_arg25 (by decide)).trans <| (V10_of m outs c main_arg25 (by decide)).trans <| (V9_of m outs c main_arg25 (by decide)).trans <| (V8_of m outs c main_arg25 (by decide)).trans <| (V7_of m outs c main_arg25 (by decide)).trans <| (V6_of m outs c main_arg25 (by decide)).trans <| (V5_of m outs c main_arg25 (by decide)).trans <| (V4_of m outs c main_arg25 (by decide)).trans <| (V3_of m outs c main_arg25 (by decide)).trans <| (V2_of m outs c main_arg25 (by decide)).trans <| (V1_of m c main_arg25 (by decide)).trans rfl
theorem V16_arg26 (c : Dev nD) : V16 m outs c main_arg26 = (m ((c : Thread nD τ).loc main_arg26)) :=
  (V16_of m outs c main_arg26 (by decide)).trans <| (V15_of m outs c main_arg26 (by decide)).trans <| (V14_of m outs c main_arg26 (by decide)).trans <| (V13_of m outs c main_arg26 (by decide)).trans <| (V12_of m outs c main_arg26 (by decide)).trans <| (V11_of m outs c main_arg26 (by decide)).trans <| (V10_of m outs c main_arg26 (by decide)).trans <| (V9_of m outs c main_arg26 (by decide)).trans <| (V8_of m outs c main_arg26 (by decide)).trans <| (V7_of m outs c main_arg26 (by decide)).trans <| (V6_of m outs c main_arg26 (by decide)).trans <| (V5_of m outs c main_arg26 (by decide)).trans <| (V4_of m outs c main_arg26 (by decide)).trans <| (V3_of m outs c main_arg26 (by decide)).trans <| (V2_of m outs c main_arg26 (by decide)).trans <| (V1_of m c main_arg26 (by decide)).trans rfl
theorem V16_arg27 (c : Dev nD) : V16 m outs c main_arg27 = (m ((c : Thread nD τ).loc main_arg27)) :=
  (V16_of m outs c main_arg27 (by decide)).trans <| (V15_of m outs c main_arg27 (by decide)).trans <| (V14_of m outs c main_arg27 (by decide)).trans <| (V13_of m outs c main_arg27 (by decide)).trans <| (V12_of m outs c main_arg27 (by decide)).trans <| (V11_of m outs c main_arg27 (by decide)).trans <| (V10_of m outs c main_arg27 (by decide)).trans <| (V9_of m outs c main_arg27 (by decide)).trans <| (V8_of m outs c main_arg27 (by decide)).trans <| (V7_of m outs c main_arg27 (by decide)).trans <| (V6_of m outs c main_arg27 (by decide)).trans <| (V5_of m outs c main_arg27 (by decide)).trans <| (V4_of m outs c main_arg27 (by decide)).trans <| (V3_of m outs c main_arg27 (by decide)).trans <| (V2_of m outs c main_arg27 (by decide)).trans <| (V1_of m c main_arg27 (by decide)).trans rfl
theorem V16_arg28 (c : Dev nD) : V16 m outs c main_arg28 = (m ((c : Thread nD τ).loc main_arg28)) :=
  (V16_of m outs c main_arg28 (by decide)).trans <| (V15_of m outs c main_arg28 (by decide)).trans <| (V14_of m outs c main_arg28 (by decide)).trans <| (V13_of m outs c main_arg28 (by decide)).trans <| (V12_of m outs c main_arg28 (by decide)).trans <| (V11_of m outs c main_arg28 (by decide)).trans <| (V10_of m outs c main_arg28 (by decide)).trans <| (V9_of m outs c main_arg28 (by decide)).trans <| (V8_of m outs c main_arg28 (by decide)).trans <| (V7_of m outs c main_arg28 (by decide)).trans <| (V6_of m outs c main_arg28 (by decide)).trans <| (V5_of m outs c main_arg28 (by decide)).trans <| (V4_of m outs c main_arg28 (by decide)).trans <| (V3_of m outs c main_arg28 (by decide)).trans <| (V2_of m outs c main_arg28 (by decide)).trans <| (V1_of m c main_arg28 (by decide)).trans rfl

/-- The last kernel leaves the first endpoints' degrees as they were. -/
theorem V16_sdeg (c : Dev nD) : V16 m outs c main_v177 = degF (m ((c : Thread nD τ).loc main_arg8)) (pairRow0 (m ((c : Thread nD τ).loc main_arg7))) :=
  (V16_of m outs c main_v177 (by decide)).trans (V15_sdeg m outs c)

/-- The last kernel leaves the second endpoints' degrees as they were. -/
theorem V16_ddeg (c : Dev nD) : V16 m outs c main_v186 = degF (m ((c : Thread nD τ).loc main_arg8)) (pairRow1 (m ((c : Thread nD τ).loc main_arg7))) :=
  (V16_of m outs c main_v186 (by decide)).trans (V15_ddeg m outs c)

/-- The program's result: the degree-corrected score of the scorer's hidden layer. -/
theorem V21_score (c : Dev nD) :
    V21 m outs c main_v219
      = scoreTail (h1Out outs c) (m ((c : Thread nD τ).loc main_arg25)) (m ((c : Thread nD τ).loc main_arg26)) (m ((c : Thread nD τ).loc main_arg27)) (m ((c : Thread nD τ).loc main_arg28))
          (degF (m ((c : Thread nD τ).loc main_arg8)) (pairRow0 (m ((c : Thread nD τ).loc main_arg7)))) (degF (m ((c : Thread nD τ).loc main_arg8)) (pairRow1 (m ((c : Thread nD τ).loc main_arg7)))) := by
  rw [V21_tail, tail_score, V16_h1, V16_arg25, V16_arg26, V16_arg27, V16_arg28, V16_sdeg, V16_ddeg]

end Cert.KernelIdeal.Hand

end
-- ==== Proof.Math.Pre.lean ====
import proofs.«148293_j56684978372941_1_alg».proof.Pre_finite_inputs
import Idealize.ShloMosaic.Lib.ReduceAll
import Idealize.ShloMosaic.PureOps.Ideal.Laws

/-!
# What the precondition says about the batch-normalisation parameters

The precondition is one boolean: the conjunction, over every float input array, of
"every entry has absolute value below `+∞`", and last of all "every entry of the running
variance is at least `0`". Each "every entry" is an all-reduction by `and` of an array of
comparisons, and the conjunction is a left-nested chain of `and`s.

On the extended reals an entry `x` with `max x (-x) < ⊤` is neither `⊤` nor `⊥`, that is, it
is a real number; and `0 ≤ x` for a real `x` is `0 ≤ x` on the real line. Read for the four
parameter vectors of the normalisation (gain, offset, running mean, running variance) the
precondition therefore says: all four have real entries, and the variance's are nonnegative.

The chain is long, so it is peeled from the outside one printed part at a time, and in each
part only the `and`s on the way to the conjuncts wanted here are opened.
-/

namespace Cert.Hand.Math

open Idealize.ShloMosaic Cert.Pre_finite_inputs Cert.Pre_finite_inputs.Facts

/-! ## One comparison, read back -/

theorem ofBool_eq_one_iff {b : Bool} : BitVec.ofBool b = 1#1 ↔ b = true := by
  cases b <;> decide

/-- The pattern of `+∞`. -/
theorem ofBits_pos_inf : Ideal.ofBits .f32 0x7F800000#32 = ⊤ := by
  simp [Ideal.ofBits, Ideal.ieee]

/-- An extended real whose absolute value is below `+∞` is a real number. -/
theorem real_of_abs_lt_inf (x : Ideal .f32)
    (h : FloatOps.cmpf (F := Ideal) .olt (FloatOps.hostAbsf x)
      (FloatOps.ofBits (F := Ideal) .f32 0x7F800000#32) = 1#1) :
    ∃ r : ℝ, x = (r : EReal) := by
  change BitVec.ofBool (decide (max x (-x) < Ideal.ofBits .f32 0x7F800000#32)) = 1#1 at h
  rw [ofBits_pos_inf, ofBool_eq_one_iff, decide_eq_true_eq] at h
  induction x using EReal.rec with
  | bot => exact absurd h (by simp)
  | coe r => exact ⟨r, rfl⟩
  | top => exact absurd h (by simp)

/-- An extended real that compares `≥` against the zero pattern is nonnegative. -/
theorem nonneg_of_oge_zero (x : Ideal .f32)
    (h : FloatOps.cmpf (F := Ideal) .oge x (FloatOps.ofBits (F := Ideal) .f32 0x00000000#32) = 1#1) :
    (0 : EReal) ≤ x := by
  change BitVec.ofBool (decide (Ideal.ofBits .f32 0x00000000#32 ≤ x)) = 1#1 at h
  rwa [Ideal.ofBits_zero_f32, ofBool_eq_one_iff, decide_eq_true_eq] at h

/-- An `and` of two one-bit arrays that is `1` at an index had `1` there in both. -/
theorem andi_apply_eq_one {s : Shape} {x y : IVec s 1} {i : s.Idx} (h : andi x y i = 1#1) :
    x i = 1#1 ∧ y i = 1#1 :=
  IntOp.andi_eq_one.1 h

instance : Subsingleton S_.Idx := ⟨fun a b => funext fun d => d.elim0⟩

variable [Cert.Pre_finite_inputs.Facts]

/-- "Every entry of `x` is finite", as the precondition spells it over the 256-vector shape,
    says every entry of `x` is a real number. -/
theorem real_of_all_finite (x : FVec Ideal S256 .f32) (i : S_.Idx)
    (h : Host.reduce IntOp.andi
        (cmpf .olt (Host.absf x)
          (broadcastInDim S256 ![] bcast_S_S256 (constant (F := Ideal) S_ .f32 0x7F800000#32)))
        (constantI S_ 1 1#1) reducesTo_S256_S_d0 h_S_ i = 1#1) :
    ∀ j : S256.Idx, ∃ r : ℝ, x j = (r : EReal) := fun j =>
  real_of_abs_lt_inf (x j) (Host.reduce_andi_all _ _ _ _ i h j)

/-! ## The printed parts, from the last to the first that matters -/

/-- The last part: it ends in the variance's `≥ 0` test, and carries the conjunction so far. -/
theorem part5_reads {a24 : FVec Ideal S256 .f32} {a27 a28 : FVec Ideal S_ .f32} {acc : IVec S_ 1}
    {w : FVec Ideal S1 .f32} {inf : FVec Ideal S_ .f32} (i : S_.Idx)
    (h : fn_part5 (F := Ideal) a24 a27 a28 acc w inf i = 1#1) :
    acc i = 1#1 ∧ ∀ j : S256.Idx, (0 : EReal) ≤ a24 j := by
  dsimp only [fn_part5] at h
  obtain ⟨h96, h99⟩ := andi_apply_eq_one h
  obtain ⟨h92, -⟩ := andi_apply_eq_one h96
  obtain ⟨h88, -⟩ := andi_apply_eq_one h92
  obtain ⟨h83, -⟩ := andi_apply_eq_one h88
  exact ⟨h83, fun j => nonneg_of_oge_zero (a24 j) (Host.reduce_andi_all _ _ _ _ i h99 j)⟩

/-- The part before it: the finiteness tests of the running mean and the running variance. -/
theorem part4_reads {a23 a24 : FVec Ideal S256 .f32} {a25 : FVec Ideal S256x1 .f32}
    {a26 : FVec Ideal S1 .f32} {a27 a28 : FVec Ideal S_ .f32} {acc last : IVec S_ 1} (i : S_.Idx)
    (h : fn_part4 (F := Ideal) a23 a24 a25 a26 a27 a28 acc last i = 1#1) :
    acc i = 1#1 ∧ last i = 1#1
      ∧ (∀ j : S256.Idx, ∃ r : ℝ, a23 j = (r : EReal))
      ∧ (∀ j : S256.Idx, ∃ r : ℝ, a24 j = (r : EReal))
      ∧ ∀ j : S256.Idx, (0 : EReal) ≤ a24 j := by
  dsimp only [fn_part4] at h
  obtain ⟨h83, hge⟩ := part5_reads i h
  obtain ⟨h78, -⟩ := andi_apply_eq_one h83
  obtain ⟨h73, h77⟩ := andi_apply_eq_one h78
  obtain ⟨h68, h72⟩ := andi_apply_eq_one h73
  obtain ⟨h63, h67⟩ := andi_apply_eq_one h68
  exact ⟨h63, h67, real_of_all_finite a23 i h72, real_of_all_finite a24 i h77, hge⟩

/-- The part before that: the finiteness tests of the gain and the offset. -/
theorem part3_reads {a20 a21 a22 a23 a24 : FVec Ideal S256 .f32} {a25 : FVec Ideal S256x1 .f32}
    {a26 : FVec Ideal S1 .f32} {a27 a28 : FVec Ideal S_ .f32} {acc : IVec S_ 1}
    {w inf : FVec Ideal S768x256 .f32} (i : S_.Idx)
    (h : fn_part3 (F := Ideal) a20 a21 a22 a23 a24 a25 a26 a27 a28 acc w inf i = 1#1) :
    (∀ j : S256.Idx, ∃ r : ℝ, a21 j = (r : EReal))
      ∧ (∀ j : S256.Idx, ∃ r : ℝ, a22 j = (r : EReal))
      ∧ (∀ j : S256.Idx, ∃ r : ℝ, a23 j = (r : EReal))
      ∧ (∀ j : S256.Idx, ∃ r : ℝ, a24 j = (r : EReal))
      ∧ ∀ j : S256.Idx, (0 : EReal) ≤ a24 j := by
  dsimp only [fn_part3] at h
  obtain ⟨h63, h67, hmean, hvar, hge⟩ := part4_reads i h
  obtain ⟨-, h62⟩ := andi_apply_eq_one h63
  exact ⟨real_of_all_finite a21 i h62, real_of_all_finite a22 i h67, hmean, hvar, hge⟩

/-! ## The whole precondition -/

section whole

variable {a0 : IVec S50000 32} {a1 a2 a3 a4 a5 a6 : IVec S200000 32} {a7 : IVec S2x100000 32}
  {a8 : IVec S50000 32} {a9 : FVec Ideal S50000x512 .f32} {a10 : FVec Ideal S16x512 .f32}
  {a11 : FVec Ideal S512x512 .f32} {a12 : FVec Ideal S3x512x512 .f32}
  {a13 : FVec Ideal S512x512 .f32} {a14 : FVec Ideal S3x512x512 .f32}
  {a15 a16 : FVec Ideal S512 .f32} {a17 : FVec Ideal S512x256 .f32}
  {a18 : FVec Ideal S3x512x256 .f32} {a19 : FVec Ideal S768x256 .f32}
  {a20 a21 a22 a23 a24 : FVec Ideal S256 .f32} {a25 : FVec Ideal S256x1 .f32}
  {a26 : FVec Ideal S1 .f32} {a27 a28 : FVec Ideal S_ .f32}

/-- The precondition, all ones: gain (`a21`), offset (`a22`), running mean (`a23`) and running
    variance (`a24`) have real entries, and the variance's entries are nonnegative. The first two
    parts of the chain test other arrays; they are stepped over without being opened. -/
theorem bn_params_read
    (h : fn (F := Ideal) a0 a1 a2 a3 a4 a5 a6 a7 a8 a9 a10 a11 a12 a13 a14 a15 a16 a17 a18 a19 a20
      a21 a22 a23 a24 a25 a26 a27 a28 = fun _ => 1#1) :
    (∀ j : S256.Idx, ∃ r : ℝ, a21 j = (r : EReal))
      ∧ (∀ j : S256.Idx, ∃ r : ℝ, a22 j = (r : EReal))
      ∧ (∀ j : S256.Idx, ∃ r : ℝ, a23 j = (r : EReal))
      ∧ (∀ j : S256.Idx, ∃ r : ℝ, a24 j = (r : EReal))
      ∧ ∀ j : S256.Idx, (0 : EReal) ≤ a24 j := by
  have h0 := congrFun h (fun d => d.elim0)
  dsimp only [fn, fn_part1, fn_part2] at h0
  exact part3_reads _ h0

/-- Every entry of the gain is a real number. -/
theorem bn_gain_real
    (h : fn (F := Ideal) a0 a1 a2 a3 a4 a5 a6 a7 a8 a9 a10 a11 a12 a13 a14 a15 a16 a17 a18 a19 a20
      a21 a22 a23 a24 a25 a26 a27 a28 = fun _ => 1#1) (j : S256.Idx) :
    ∃ r : ℝ, a21 j = (r : EReal) :=
  (bn_params_read h).1 j

/-- Every entry of the offset is a real number. -/
theorem bn_offset_real
    (h : fn (F := Ideal) a0 a1 a2 a3 a4 a5 a6 a7 a8 a9 a10 a11 a12 a13 a14 a15 a16 a17 a18 a19 a20
      a21 a22 a23 a24 a25 a26 a27 a28 = fun _ => 1#1) (j : S256.Idx) :
    ∃ r : ℝ, a22 j = (r : EReal) :=
  (bn_params_read h).2.1 j

/-- Every entry of the running mean is a real number. -/
theorem bn_mean_real
    (h : fn (F := Ideal) a0 a1 a2 a3 a4 a5 a6 a7 a8 a9 a10 a11 a12 a13 a14 a15 a16 a17 a18 a19 a20
      a21 a22 a23 a24 a25 a26 a27 a28 = fun _ => 1#1) (j : S256.Idx) :
    ∃ r : ℝ, a23 j = (r : EReal) :=
  (bn_params_read h).2.2.1 j

/-- Every entry of the running variance is a real number. -/
theorem bn_var_real
    (h : fn (F := Ideal) a0 a1 a2 a3 a4 a5 a6 a7 a8 a9 a10 a11 a12 a13 a14 a15 a16 a17 a18 a19 a20
      a21 a22 a23 a24 a25 a26 a27 a28 = fun _ => 1#1) (j : S256.Idx) :
    ∃ r : ℝ, a24 j = (r : EReal) :=
  (bn_params_read h).2.2.2.1 j

/-- Every entry of the running variance is nonnegative, as an extended real. -/
theorem bn_var_nonneg
    (h : fn (F := Ideal) a0 a1 a2 a3 a4 a5 a6 a7 a8 a9 a10 a11 a12 a13 a14 a15 a16 a17 a18 a19 a20
      a21 a22 a23 a24 a25 a26 a27 a28 = fun _ => 1#1) (j : S256.Idx) :
    (0 : EReal) ≤ a24 j :=
  (bn_params_read h).2.2.2.2 j

/-- Every entry of the running variance is a NONNEGATIVE real number. -/
theorem bn_var_nonneg_real
    (h : fn (F := Ideal) a0 a1 a2 a3 a4 a5 a6 a7 a8 a9 a10 a11 a12 a13 a14 a15 a16 a17 a18 a19 a20
      a21 a22 a23 a24 a25 a26 a27 a28 = fun _ => 1#1) (j : S256.Idx) :
    ∃ v : ℝ, 0 ≤ v ∧ a24 j = (v : EReal) := by
  obtain ⟨v, hv⟩ := bn_var_real h j
  have h0 := bn_var_nonneg h j
  rw [hv] at h0
  exact ⟨v, EReal.coe_nonneg.1 h0, hv⟩

end whole

end Cert.Hand.Math
-- ==== Proof.Math.Contraction.lean ====
import Idealize.ShloMosaic.Lib.ValueIdx
import Idealize.ShloMosaic.PureOps.Ideal.Laws

/-!
# A plain matrix product read at an entry

The dimension numbers "contract the left operand's axis 1 with the right operand's axis 0,
no batch axes" describe the ordinary product of an `M × K` matrix with a `K × N` matrix. The
library states such a product at an output index as a sum over an abstract contraction index
of the operands at two computed operand indices. Here that sum is brought to the textbook
form: entry `(p, q)` is `∑ k, x (p, k) * w (k, q)` with `k` ranging over `Fin K`.

The contraction index set has one axis of extent `K`, so it is in bijection with `Fin K`; along
that bijection the left operand index is `(p, k)` (row from the output, column from the
contraction) and the right operand index is `(k, q)`. Both the kernel's matrix unit product
into a zero accumulator and the host's product are this sum on the extended reals.
-/

namespace Cert.Hand.Math

open Idealize.ShloMosaic Idealize.ShloMosaic.ValueIdx
open scoped BigOperators

section plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
/-- One axis is contracted. -/
theorem plain_contr_rank : D.contr.rank = 1 := by rw [D.rank_contr, hlc]; rfl

include hlc in
/-- Its extent is the inner dimension `K`. -/
theorem plain_contr_size :
    D.contr.size ⟨0, by rw [plain_contr_rank D hlc]; exact Nat.one_pos⟩ = K := by
  simp [DotDims.contr, hlc]

include hlc hln hlb in
/-- At output entry `(p, q)` and contraction position `k` the left operand is read at `(p, k)`. -/
theorem plain_lhsIdx (p : Fin M) (q : Fin N) (k : Fin K) :
    D.lhsIdx (ix2 p q)
        ((contrEquiv1 D K (plain_contr_rank D hlc) (plain_contr_size D hlc)).symm k) = ix2 p k := by
  funext a
  match a with
  | ⟨0, _⟩ =>
    -- a non-contracted axis reads the output index at its position among the output's axes; that
    -- position is a sum of list lengths, which the hypotheses evaluate to `0`
    have key : ∀ (n : ℕ) (hn : n < (⟨2, ![M, N]⟩ : Shape).rank), n = 0 →
        ((ix2 p q ⟨n, hn⟩ : Fin _) : ℕ) = p.val := fun n hn h => by subst h; rfl
    refine Fin.ext ?_
    simp only [DotDims.lhsIdx, hlb, hln, List.not_mem_nil, List.mem_singleton, dite_false, dite_true]
    exact key _ _ (by simp [hlb, hln])
  | ⟨1, _⟩ =>
    exact Fin.ext ((D.lhsIdx_val_of_single (cl := 1) hlc _ _).trans
      (contrEquiv1_symm_val D K (plain_contr_rank D hlc) (plain_contr_size D hlc) k))

include hlc hrc hrn hrb hlb hln in
/-- … and the right operand at `(k, q)`. -/
theorem plain_rhsIdx (p : Fin M) (q : Fin N) (k : Fin K) :
    D.rhsIdx (ix2 p q)
        ((contrEquiv1 D K (plain_contr_rank D hlc) (plain_contr_size D hlc)).symm k) = ix2 k q := by
  funext a
  match a with
  | ⟨0, _⟩ =>
    exact Fin.ext ((D.rhsIdx_val_of_single (cr := 0) hrc _ _).trans
      (contrEquiv1_symm_val D K (plain_contr_rank D hlc) (plain_contr_size D hlc) k))
  | ⟨1, _⟩ =>
    have key : ∀ (n : ℕ) (hn : n < (⟨2, ![M, N]⟩ : Shape).rank), n = 1 →
        ((ix2 p q ⟨n, hn⟩ : Fin _) : ℕ) = q.val := fun n hn h => by subst h; rfl
    refine Fin.ext ?_
    simp only [DotDims.rhsIdx, hrb, hrn, List.not_mem_nil, List.mem_singleton, dite_false, dite_true]
    exact key _ _ (by simp [hlb, hln, hrn])

include hlc hrc hln hrn hlb hrb in
/-- **The contraction as a textbook sum.** -/
theorem plain_contraction (x : (⟨2, ![M, K]⟩ : Shape).Idx → EReal)
    (w : (⟨2, ![K, N]⟩ : Shape).Idx → EReal) (p : Fin M) (q : Fin N) :
    ∑ k : D.contr.Idx, x (D.lhsIdx (ix2 p q) k) * w (D.rhsIdx (ix2 p q) k)
      = ∑ k : Fin K, x (ix2 p k) * w (ix2 k q) := by
  refine (Equiv.sum_comp
    (contrEquiv1 D K (plain_contr_rank D hlc) (plain_contr_size D hlc)).symm _).symm.trans ?_
  refine Finset.sum_congr rfl fun k _ => ?_
  rw [plain_lhsIdx D hlc hln hlb p q k, plain_rhsIdx D hlc hrc hln hrn hlb hrb p q k]

include hlc hrc hln hrn hlb hrb in
/-- The matrix unit's product into a zero accumulator, at entry `(p, q)`. -/
theorem matmul_zero_at {φ₁ φ₂ : FTy} (prec : Option ContractPrecision)
    (x : FVec Ideal ⟨2, ![M, K]⟩ φ₁) (w : FVec Ideal ⟨2, ![K, N]⟩ φ₂) (p : Fin M) (q : Fin N) :
    FloatOps.matmul D prec x w (constant ⟨2, ![M, N]⟩ .f32 0x00000000#32) (ix2 p q)
      = ∑ k : Fin K, x (ix2 p k) * w (ix2 k q) :=
  (Ideal.matmul_constant_zero_apply D prec x w (ix2 p q)).trans
    (plain_contraction D hlc hrc hln hrn hlb hrb x w p q)

include hlc hrc hln hrn hlb hrb in
/-- The host's product, at entry `(p, q)`: the same sum. -/
theorem dotGeneral_at {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral D prec sched x w (ix2 p q) = ∑ k : Fin K, x (ix2 p k) * w (ix2 k q) :=
  (Ideal.dotGeneral_apply D prec sched x w (ix2 p q)).trans
    (plain_contraction D hlc hrc hln hrn hlb hrb x w p q)

end plain

end Cert.Hand.Math
-- ==== Proof.Math.PayAt.lean ====
import proofs.«148293_j56684978372941_1_alg».proof.Proof.Gen.KernelIdeal.Skeleton
import proofs.«148293_j56684978372941_1_alg».proof.Proof.Math.Contraction
import Idealize.ShloMosaic.Lib.ValueLayout

/-!
# What one grid step of each matrix-product kernel computes, entry by entry

Each of the four kernels keeps a running block `acc` of the output and does three things.
At the first contraction tile it clears the block: every entry becomes `0`. At every tile it
adds the product of the current tile of the left operand with the current tile of the right
operand: entry `(p, q)` becomes `acc (p, q) + ∑ k, x (p, k) * w (k, q)`; the operands are
narrowed to half precision on the way, which on the extended reals changes nothing, and the
reshapes to the same shape change nothing either. At the last tile it finishes the block: it
adds the bias row, entry `(p, q)` getting `bias (0, q)`; the first kernel then clamps below at
`0`; the last kernel clamps below at `0`, multiplies by the scale row and adds the shift row.

The steps are proved once over arbitrary extents, then read off for each kernel.
-/

namespace Cert.Hand.Math

open Idealize.ShloMosaic Idealize.ShloMosaic.ValueIdx
open scoped BigOperators

/-! ## The steps, over arbitrary extents -/

section steps

variable {M K N : ℕ}

/-- Clearing: a broadcast of the zero pattern reads `0` everywhere. -/
theorem zero_splat_at {s : Shape} (i : s.Idx) :
    broadcast s (Scalar.ofBits (F := Ideal) .f32 0x00000000#32) i = (0 : EReal) :=
  Ideal.ofBits_zero_f32

/-- Accumulating one tile product into the running block, at entry `(p, q)`. -/
theorem accumulate_at (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (hb : FTy.bits .bf16 < FTy.bits .f32)
    (x : FVec Ideal ⟨2, ![M, K]⟩ .f32) (w : FVec Ideal ⟨2, ![K, N]⟩ .f32)
    (acc : FVec Ideal ⟨2, ![M, N]⟩ .f32) (p : Fin M) (q : Fin N) :
    addf acc (matmul D none (truncf .bf16 x hb) (truncf .bf16 w hb)
        (constant ⟨2, ![M, N]⟩ .f32 0x00000000#32)) (ix2 p q)
      = acc (ix2 p q) + ∑ k : Fin K, x (ix2 p k) * w (ix2 k q) :=
  congrArg (acc (ix2 p q) + ·)
    (matmul_zero_at D hlc hrc hln hrn hlb hrb none (truncf .bf16 x hb) (truncf .bf16 w hb) p q)

/-- Adding a row to every row of a block, at entry `(p, q)`. -/
theorem add_row_at (acc : FVec Ideal ⟨2, ![M, N]⟩ .f32) (row : FVec Ideal ⟨2, ![1, N]⟩ .f32)
    (h : (⟨2, ![1, N]⟩ : Shape).Broadcasts ⟨2, ![M, N]⟩) (p : Fin M) (q : Fin N) :
    addf acc (broadcastTo ⟨2, ![M, N]⟩ row h) (ix2 p q)
      = acc (ix2 p q) + row (ix2 (0 : Fin 1) q) :=
  congrArg (acc (ix2 p q) + ·) (broadcastTo_1b_ab_apply row h p q)

/-- Multiplying every row of a block by a row, at entry `(p, q)`. -/
theorem mul_row_at (v : FVec Ideal ⟨2, ![M, N]⟩ .f32) (row : FVec Ideal ⟨2, ![1, N]⟩ .f32)
    (h : (⟨2, ![1, N]⟩ : Shape).Broadcasts ⟨2, ![M, N]⟩) (p : Fin M) (q : Fin N) :
    mulf v (broadcastTo ⟨2, ![M, N]⟩ row h) (ix2 p q)
      = v (ix2 p q) * row (ix2 (0 : Fin 1) q) :=
  congrArg (v (ix2 p q) * ·) (broadcastTo_1b_ab_apply row h p q)

/-- Clamping below at zero, at any entry. -/
theorem clamp_zero_at {s : Shape} (v : FVec Ideal s .f32) (i : s.Idx) :
    maximumf v (broadcast s (Scalar.ofBits (F := Ideal) .f32 0x00000000#32)) i = max (v i) 0 :=
  congrArg (max (v i) ·) Ideal.ofBits_zero_f32

end steps

/-! ## The four kernels -/

section kernels

open Cert.KernelIdeal Cert.KernelIdeal.Gen

/-! ### First layer, with the clamp (`2000 × 512` blocks, tiles of `512`) -/

theorem k0_pay1_at (p : Fin 2000) (q : Fin 512) : k0_pay1 (F := Ideal) (ix2 p q) = (0 : EReal) := by
  unfold k0_pay1
  simp only [shapeCast_self]
  exact zero_splat_at _

theorem k0_pay2_at (x : Vec Ideal S2000x512 .f32) (w : Vec Ideal S512x512 .f32)
    (acc : Vec Ideal S2000x512 .f32) (p : Fin 2000) (q : Fin 512) :
    k0_pay2 (F := Ideal) x w acc (ix2 p q)
      = acc (ix2 p q) + ∑ k : Fin 512, x (ix2 p k) * w (ix2 k q) := by
  unfold k0_pay2
  simp only [shapeCast_self]
  exact accumulate_at dot_S2000x512_S512x512_S2000x512_1_0_0_1_n_n rfl rfl rfl rfl rfl rfl
    bitsLt_bf16_f32 x w acc p q

theorem k0_pay3_at (acc : Vec Ideal S2000x512 .f32) (bias : Vec Ideal S1x512 .f32)
    (p : Fin 2000) (q : Fin 512) :
    k0_pay3 (F := Ideal) acc bias (ix2 p q)
      = max (acc (ix2 p q) + bias (ix2 (0 : Fin 1) q)) 0 := by
  unfold k0_pay3
  simp only [shapeCast_self]
  rw [clamp_zero_at, add_row_at]

/-! ### Second layer (`2000 × 512` blocks, tiles of `512`) -/

theorem k1_pay1_at (p : Fin 2000) (q : Fin 512) : k1_pay1 (F := Ideal) (ix2 p q) = (0 : EReal) := by
  unfold k1_pay1
  simp only [shapeCast_self]
  exact zero_splat_at _

theorem k1_pay2_at (x : Vec Ideal S2000x512 .f32) (w : Vec Ideal S512x512 .f32)
    (acc : Vec Ideal S2000x512 .f32) (p : Fin 2000) (q : Fin 512) :
    k1_pay2 (F := Ideal) x w acc (ix2 p q)
      = acc (ix2 p q) + ∑ k : Fin 512, x (ix2 p k) * w (ix2 k q) := by
  unfold k1_pay2
  simp only [shapeCast_self]
  exact accumulate_at dot_S2000x512_S512x512_S2000x512_1_0_0_1_n_n rfl rfl rfl rfl rfl rfl
    bitsLt_bf16_f32 x w acc p q

theorem k1_pay3_at (acc : Vec Ideal S2000x512 .f32) (bias : Vec Ideal S1x512 .f32)
    (p : Fin 2000) (q : Fin 512) :
    k1_pay3 (F := Ideal) acc bias (ix2 p q) = acc (ix2 p q) + bias (ix2 (0 : Fin 1) q) := by
  unfold k1_pay3
  simp only [shapeCast_self]
  rw [add_row_at]

/-! ### Third layer (`2000 × 256` blocks, tiles of `512`) -/

theorem k2_pay1_at (p : Fin 2000) (q : Fin 256) : k2_pay1 (F := Ideal) (ix2 p q) = (0 : EReal) := by
  unfold k2_pay1
  simp only [shapeCast_self]
  exact zero_splat_at _

theorem k2_pay2_at (x : Vec Ideal S2000x512 .f32) (w : Vec Ideal S512x256 .f32)
    (acc : Vec Ideal S2000x256 .f32) (p : Fin 2000) (q : Fin 256) :
    k2_pay2 (F := Ideal) x w acc (ix2 p q)
      = acc (ix2 p q) + ∑ k : Fin 512, x (ix2 p k) * w (ix2 k q) := by
  unfold k2_pay2
  simp only [shapeCast_self]
  exact accumulate_at dot_S2000x512_S512x256_S2000x256_1_0_0_1_n_n rfl rfl rfl rfl rfl rfl
    bitsLt_bf16_f32 x w acc p q

theorem k2_pay3_at (acc : Vec Ideal S2000x256 .f32) (bias : Vec Ideal S1x256 .f32)
    (p : Fin 2000) (q : Fin 256) :
    k2_pay3 (F := Ideal) acc bias (ix2 p q) = acc (ix2 p q) + bias (ix2 (0 : Fin 1) q) := by
  unfold k2_pay3
  simp only [shapeCast_self]
  rw [add_row_at]

/-! ### The link-prediction layer, with clamp, scale and shift (`2000 × 256` blocks, tiles of `256`) -/

theorem k3_pay1_at (p : Fin 2000) (q : Fin 256) : k3_pay1 (F := Ideal) (ix2 p q) = (0 : EReal) := by
  unfold k3_pay1
  simp only [shapeCast_self]
  exact zero_splat_at _

theorem k3_pay2_at (x : Vec Ideal S2000x256 .f32) (w : Vec Ideal S256x256 .f32)
    (acc : Vec Ideal S2000x256 .f32) (p : Fin 2000) (q : Fin 256) :
    k3_pay2 (F := Ideal) x w acc (ix2 p q)
      = acc (ix2 p q) + ∑ k : Fin 256, x (ix2 p k) * w (ix2 k q) := by
  unfold k3_pay2
  simp only [shapeCast_self]
  exact accumulate_at dot_S2000x256_S256x256_S2000x256_1_0_0_1_n_n rfl rfl rfl rfl rfl rfl
    bitsLt_bf16_f32 x w acc p q

theorem k3_pay3_at (acc : Vec Ideal S2000x256 .f32) (bias scale shift : Vec Ideal S1x256 .f32)
    (p : Fin 2000) (q : Fin 256) :
    k3_pay3 (F := Ideal) acc bias scale shift (ix2 p q)
      = max (acc (ix2 p q) + bias (ix2 (0 : Fin 1) q)) 0 * scale (ix2 (0 : Fin 1) q)
          + shift (ix2 (0 : Fin 1) q) := by
  unfold k3_pay3
  simp only [shapeCast_self]
  rw [add_row_at, mul_row_at, clamp_zero_at, add_row_at]

end kernels

end Cert.Hand.Math
-- ==== Proof.Math.LayoutAt.lean ====
import Idealize.ShloMosaic.Lib.ValueLayout
import Idealize.ShloMosaic.Lib.KernelVsHost

/-!
# Stacked operands and weight slabs, read entry by entry

A dense layer's operands are built by laying arrays side by side. Laying `n × m_j` arrays side
by side along the columns gives an `n × T` array whose column `pre + k`, with `pre` the total
width of the pieces before piece `j` and `k` a column of piece `j`, is piece `j`'s column `k`.
Laying `m_j × n` arrays one above the other along the rows gives a `T × n` array whose row
`pre + k` is piece `j`'s row `k`. A relation's weight matrix is slab `j` of a stack of matrices:
cut the slab out, drop the unit axis, and entry `(k, q)` is the stack's entry `(j, k, q)`. A
vector viewed as a one-row matrix, or laid along every row of a matrix, reads the vector's
entry at the column.
-/

namespace Cert.Hand.Math

open Idealize.ShloMosaic Idealize.ShloMosaic.ValueIdx

variable {α : Type}

/-- Pieces side by side along the columns: column `kk = pre + k` of the whole is column `k` of
    the piece `j` whose predecessors have total width `pre`. -/
theorem concat_cols_at {n T : ℕ} (xs : List ((s : Shape) × (s.Idx → α)))
    (h : Shape.Concatenates (xs.map (·.1)) ⟨2, ![n, T]⟩ 1)
    (j : ℕ) (hj : j < xs.length) (m : ℕ) (x : (⟨2, ![n, m]⟩ : Shape).Idx → α)
    (hx : xs[j] = ⟨⟨2, ![n, m]⟩, x⟩) (pre : ℕ)
    (hpre : (((xs.take j).map (·.1)).map fun s : Shape =>
      if h : s.rank = (⟨2, ![n, T]⟩ : Shape).rank then s.size ((1 : Fin 2).cast h.symm) else 0).sum = pre)
    (i : Fin n) (k : Fin m) (kk : Fin T) (hkk : kk.val = pre + k.val) :
    concatenate ⟨2, ![n, T]⟩ 1 xs h (ix2 i kk) = x (ix2 i k) :=
  concatenate_apply_piece (1 : Fin 2) xs h (ix2 i kk) j hj
    ⟨2, ![n, m]⟩ x hx rfl pre hpre (ix2 i k)
    (fun b => match b with
      | ⟨0, _⟩ => fun _ => rfl
      | ⟨1, _⟩ => fun hb => absurd rfl hb)
    hkk.symm

/-- Pieces one above the other along the rows: row `kk = pre + k` of the whole is row `k` of the
    piece `j` whose predecessors have total height `pre`. -/
theorem concat_rows_at {n T : ℕ} (xs : List ((s : Shape) × (s.Idx → α)))
    (h : Shape.Concatenates (xs.map (·.1)) ⟨2, ![T, n]⟩ 0)
    (j : ℕ) (hj : j < xs.length) (m : ℕ) (x : (⟨2, ![m, n]⟩ : Shape).Idx → α)
    (hx : xs[j] = ⟨⟨2, ![m, n]⟩, x⟩) (pre : ℕ)
    (hpre : (((xs.take j).map (·.1)).map fun s : Shape =>
      if h : s.rank = (⟨2, ![T, n]⟩ : Shape).rank then s.size ((0 : Fin 2).cast h.symm) else 0).sum = pre)
    (k : Fin m) (q : Fin n) (kk : Fin T) (hkk : kk.val = pre + k.val) :
    concatenate ⟨2, ![T, n]⟩ 0 xs h (ix2 kk q) = x (ix2 k q) :=
  concatenate_apply_piece (0 : Fin 2) xs h (ix2 kk q) j hj
    ⟨2, ![m, n]⟩ x hx rfl pre hpre (ix2 k q)
    (fun b => match b with
      | ⟨0, _⟩ => fun hb => absurd rfl hb
      | ⟨1, _⟩ => fun _ => rfl)
    hkk.symm

/-- Slab `j` of a stack of matrices, cut out and with the unit axis dropped: entry `(k, q)` is the
    stack's entry `(j, k, q)`. -/
theorem slab_at {a b c : ℕ} (j : ℕ) (hj : j < a) (w : (⟨3, ![a, b, c]⟩ : Shape).Idx → α)
    (hs : (⟨3, ![a, b, c]⟩ : Shape).Slices ![j, 0, 0] ⟨3, ![1, b, c]⟩)
    (hc : (⟨3, ![1, b, c]⟩ : Shape).ShapeCasts ⟨2, ![b, c]⟩) (k : Fin b) (q : Fin c) :
    shapeCast ⟨2, ![b, c]⟩ (extractStridedSlice ⟨3, ![1, b, c]⟩ ![j, 0, 0] w hs) hc (ix2 k q)
      = w (ix3 (⟨j, hj⟩ : Fin a) k q) :=
  (shapeCast_1ab_ab_apply _ hc k q).trans
    (extractStridedSlice_apply _ w hs _ (ix3 (⟨j, hj⟩ : Fin a) k q) fun ax => by
      match ax with
      | ⟨0, _⟩ => exact (Nat.add_zero _).symm
      | ⟨1, _⟩ => exact (Nat.zero_add _).symm
      | ⟨2, _⟩ => exact (Nat.zero_add _).symm)

/-- A vector viewed as a one-row matrix (by the broadcast that puts it on axis 1) reads, at
    `(u, c)`, the vector's entry `c`. -/
theorem vec_as_row_at {n : ℕ} (v : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h v (ix2 u c) = v (ix1 c) :=
  broadcastInDim_apply ![1] h v (ix2 u c) (ix1 c) fun a => by
    match a with
    | ⟨0, _⟩ =>
      show c.val = if n = 1 then 0 else c.val
      split
      · have := c.isLt; omega
      · rfl

/-- A vector laid along every row of an `m × n` matrix reads, at `(r, c)`, the vector's entry `c`. -/
theorem vec_along_rows_at {m n : ℕ} (v : (⟨1, ![n]⟩ : Shape).Idx → α)
    (h : (⟨1, ![n]⟩ : Shape).BroadcastsInDim ⟨2, ![1, n]⟩ ![1])
    (hb : (⟨2, ![1, n]⟩ : Shape).BroadcastsInDim ⟨2, ![m, n]⟩ ![0, 1]) (r : Fin m) (c : Fin n) :
    broadcastInDim ⟨2, ![m, n]⟩ ![0, 1] hb (broadcastInDim ⟨2, ![1, n]⟩ ![1] h v) (ix2 r c)
      = v (ix1 c) :=
  (broadcastInDim_oneRow_apply hb _ r c).trans (vec_as_row_at v h 0 c)

end Cert.Hand.Math
-- ==== Proof.Math.SumSplit.lean ====
import Mathlib.Data.EReal.Operations
import Mathlib.Algebra.BigOperators.Fin

/-!
# A sum over a concatenated axis, block by block

A dense layer whose four operand pairs are laid side by side along the contraction axis
contracts over `2048 = 4 * 512` positions; the same layer written as four separate products
added left to right contracts over `512` positions four times. The two are the same sum cut
at `512`, `1024` and `1536`. The extended reals are a commutative additive monoid, so cutting
a finite sum needs no finiteness of the terms. The last layer is the same with
`768 = 3 * 256`.

Each law is stated in the left-nested grouping `((S₀ + S₁) + S₂) + S₃`, and once more with the
leading zero `(((0 + S₀) + S₁) + S₂) + S₃` of a sum accumulated from a zero start.
-/

namespace Cert.Hand.Math

open scoped BigOperators

/-- A sum over `2048` positions is the sum of its four consecutive runs of `512`. -/
theorem sum_fin2048_blocks (f : Fin 2048 → EReal) :
    ∑ k, f k
      = (((∑ k : Fin 512, f ⟨k, by omega⟩) + ∑ k : Fin 512, f ⟨512 + k, by omega⟩)
          + ∑ k : Fin 512, f ⟨1024 + k, by omega⟩)
        + ∑ k : Fin 512, f ⟨1536 + k, by omega⟩ := by
  have e1 := Fin.sum_univ_add (a := 1536) (b := 512) f
  have e2 := Fin.sum_univ_add (a := 1024) (b := 512)
    (fun k : Fin (1024 + 512) => f (Fin.castAdd 512 k))
  have e3 := Fin.sum_univ_add (a := 512) (b := 512)
    (fun k : Fin (512 + 512) => f (Fin.castAdd 512 (Fin.castAdd (n := 1024) 512 k)))
  exact e1.trans (congrArg (· + _) (e2.trans (congrArg (· + _) e3)))

/-- The same with the zero a block-by-block accumulation starts from. -/
theorem sum_fin2048_blocks_from_zero (f : Fin 2048 → EReal) :
    ∑ k, f k
      = ((((0 + ∑ k : Fin 512, f ⟨k, by omega⟩) + ∑ k : Fin 512, f ⟨512 + k, by omega⟩)
          + ∑ k : Fin 512, f ⟨1024 + k, by omega⟩)
        + ∑ k : Fin 512, f ⟨1536 + k, by omega⟩) := by
  rw [zero_add]
  exact sum_fin2048_blocks f

/-- A sum over `768` positions is the sum of its three consecutive runs of `256`. -/
theorem sum_fin768_blocks (f : Fin 768 → EReal) :
    ∑ k, f k
      = ((∑ k : Fin 256, f ⟨k, by omega⟩) + ∑ k : Fin 256, f ⟨256 + k, by omega⟩)
        + ∑ k : Fin 256, f ⟨512 + k, by omega⟩ := by
  have e1 := Fin.sum_univ_add (a := 512) (b := 256) f
  have e2 := Fin.sum_univ_add (a := 256) (b := 256)
    (fun k : Fin (256 + 256) => f (Fin.castAdd 256 k))
  exact e1.trans (congrArg (· + _) e2)

/-- The same with the zero a block-by-block accumulation starts from. -/
theorem sum_fin768_blocks_from_zero (f : Fin 768 → EReal) :
    ∑ k, f k
      = (((0 + ∑ k : Fin 256, f ⟨k, by omega⟩) + ∑ k : Fin 256, f ⟨256 + k, by omega⟩)
        + ∑ k : Fin 256, f ⟨512 + k, by omega⟩) := by
  rw [zero_add]
  exact sum_fin768_blocks f

end Cert.Hand.Math
-- ==== Proof.Math.Affine.lean ====
import Idealize.ShloMosaic.PureOps.Ideal
import Mathlib.Data.EReal.Operations

/-!
# The normalisation law on the extended reals

A batch normalisation applied to an extended real `r` can be written in two ways.
Centre, scale by the inverse standard deviation `s`, scale by the gain `g`, shift by `b`:

  `((r - mean) * s) * g + b`

or fold gain and inverse deviation into ONE scale `g * s` and the rest into ONE shift:

  `r * (g * s) + (b - mean * (g * s))`.

On the real line the two agree by distributivity. Distributivity fails in general on the
extended reals, but here every coefficient (`mean`, `s`, `g`, `b`) is a real number and only
`r` may be infinite, and then the law still holds: with `c = g * s`, an infinite `r` gives
`r - mean = r`, both sides are `r * c` plus a REAL number, and `r * c` is `⊤`, `⊥` or `0`
according to the sign of `c`. An infinity absorbs any real summand; and when `c = 0` both
real summands are `b`.
-/

namespace Cert.Hand.Math

open Idealize.ShloMosaic

/-- The folded form with a single real coefficient `c`: centring then scaling by `c` and
    shifting by `b` is scaling by `c` and shifting by `b - mean * c`, for every extended real. -/
theorem center_scale_shift (r : EReal) (mean c b : ℝ) :
    (r - (mean : EReal)) * (c : EReal) + (b : EReal)
      = r * (c : EReal) + ((b : EReal) - (mean : EReal) * (c : EReal)) := by
  induction r using EReal.rec with
  | bot =>
    rw [EReal.bot_sub]
    rcases lt_trichotomy c 0 with h | h | h
    · rw [EReal.bot_mul_coe_of_neg h, ← EReal.coe_mul, ← EReal.coe_sub, EReal.top_add_coe,
        EReal.top_add_coe]
    · subst h
      rw [EReal.coe_zero, mul_zero, mul_zero, sub_zero]
    · rw [EReal.bot_mul_coe_of_pos h, EReal.bot_add, EReal.bot_add]
  | coe x =>
    rw [← EReal.coe_sub, ← EReal.coe_mul, ← EReal.coe_add, ← EReal.coe_mul, ← EReal.coe_mul,
      ← EReal.coe_sub, ← EReal.coe_add]
    congr 1
    ring
  | top =>
    rw [EReal.top_sub_coe]
    rcases lt_trichotomy c 0 with h | h | h
    · rw [EReal.top_mul_coe_of_neg h, EReal.bot_add, EReal.bot_add]
    · subst h
      rw [EReal.coe_zero, mul_zero, mul_zero, sub_zero]
    · rw [EReal.top_mul_coe_of_pos h, ← EReal.coe_mul, ← EReal.coe_sub, EReal.top_add_coe,
        EReal.top_add_coe]

/-- **The normalisation law.** For every extended real `r` (the infinities included) and real
    `mean`, `s`, `g`, `b`: centre, scale by `s`, scale by `g`, shift by `b` equals one scale by
    `g * s` and one shift by `b - mean * (g * s)`. -/
theorem normalise_eq_scale_shift (r : EReal) (mean s g b : ℝ) :
    (((r - (mean : EReal)) * (s : EReal)) * (g : EReal)) + (b : EReal)
      = r * ((g : EReal) * (s : EReal))
          + ((b : EReal) - (mean : EReal) * ((g : EReal) * (s : EReal))) := by
  rw [mul_assoc, mul_comm (s : EReal) (g : EReal), ← EReal.coe_mul]
  exact center_scale_shift r mean (g * s) b

/-- The same law in the spelling of the float operations at the ideal instance, where
    `addf`, `subf`, `mulf` are the extended reals' `+`, `-`, `*`. -/
theorem normalise_eq_scale_shift_ops {φ : FTy} (r : Ideal φ) (mean s g b : ℝ) :
    FloatOps.addf (F := Ideal) (φ := φ)
        (FloatOps.mulf (FloatOps.mulf (FloatOps.subf r ((mean : EReal) : Ideal φ))
          ((s : EReal) : Ideal φ)) ((g : EReal) : Ideal φ)) ((b : EReal) : Ideal φ)
      = FloatOps.addf (F := Ideal) (φ := φ)
          (FloatOps.mulf r (FloatOps.mulf ((g : EReal) : Ideal φ) ((s : EReal) : Ideal φ)))
          (FloatOps.subf ((b : EReal) : Ideal φ)
            (FloatOps.mulf ((mean : EReal) : Ideal φ)
              (FloatOps.mulf ((g : EReal) : Ideal φ) ((s : EReal) : Ideal φ)))) := by
  simp only [Ideal.addf_def, Ideal.subf_def, Ideal.mulf_def]
  exact normalise_eq_scale_shift r mean s g b

end Cert.Hand.Math
-- ==== Proof.Math.RsqrtReal.lean ====
import Idealize.ShloMosaic.PureOps.Ideal

/-!
# The inverse standard deviation is a real number

A batch normalisation divides by `sqrt (var + eps)`, computed as `rsqrt (var + eps)`. On the
extended reals `rsqrt` has corners: it answers `⊤` at `0` and a junk `⊥` below `0`. The stabiliser
`eps` is the single-precision number nearest `1e-5`, namely `10995116 * 2 ^ (-40)`: a positive
real. So for a variance `v` that is a real number with `0 ≤ v` the argument `v + eps` is a
POSITIVE real, no corner is met, and `rsqrt (v + eps)` is the real number `(sqrt (v + eps))⁻¹`.
That the inverse deviation is real is what lets the normalisation be folded into one scale
and one shift on the extended reals.
-/

noncomputable section

namespace Cert.Hand.Math

open Idealize.ShloMosaic

/-- The real number the stabiliser's pattern denotes: `10995116 * 2 ^ (-40)`, about `1e-5`. -/
def epsReal : ℝ := 10995116 * (2 : ℝ) ^ (-40 : ℤ)

theorem epsReal_pos : 0 < epsReal := by
  unfold epsReal
  positivity

/-- The pattern `0x3727C5AC` (sign `0`, exponent field `110`, fraction `2606508`) denotes
    `(2 ^ 23 + 2606508) * 2 ^ (110 - 127 - 23)`. -/
theorem ofBits_eps : Ideal.ofBits .f32 0x3727C5AC#32 = ((epsReal : ℝ) : EReal) := by
  unfold epsReal
  simp [Ideal.ofBits, Ideal.ieee, -EReal.coe_mul]

/-- For a real `v ≥ 0`, `rsqrt (v + eps)` is the real `(sqrt (v + eps))⁻¹`. -/
theorem rsqrt_add_eps (v : ℝ) (hv : 0 ≤ v) :
    Ideal.rsqrt ((v : EReal) + Ideal.ofBits .f32 0x3727C5AC#32)
      = (((Real.sqrt (v + epsReal))⁻¹ : ℝ) : EReal) := by
  have h : 0 < v + epsReal := add_pos_of_nonneg_of_pos hv epsReal_pos
  rw [ofBits_eps, ← EReal.coe_add, Ideal.rsqrt_coe, if_neg (not_lt.mpr h.le), if_neg h.ne']

/-- That real is positive. -/
theorem inv_sqrt_add_eps_pos (v : ℝ) (hv : 0 ≤ v) : 0 < (Real.sqrt (v + epsReal))⁻¹ :=
  inv_pos.mpr (Real.sqrt_pos.mpr (add_pos_of_nonneg_of_pos hv epsReal_pos))

/-- The same, only asserting that the value is SOME real number. -/
theorem rsqrt_add_eps_real (v : ℝ) (hv : 0 ≤ v) :
    ∃ s : ℝ, Ideal.rsqrt ((v : EReal) + Ideal.ofBits .f32 0x3727C5AC#32) = (s : EReal) :=
  ⟨_, rsqrt_add_eps v hv⟩

/-- In the spelling of the float operations at the ideal instance: the host's `rsqrt` of the sum
    of a nonnegative real and the stabiliser literal. -/
theorem hostUnary_rsqrt_add_eps (v : ℝ) (hv : 0 ≤ v) :
    FloatOps.hostUnary (F := Ideal) (φ := .f32) .rsqrt
        (FloatOps.addf ((v : EReal) : Ideal .f32) (FloatOps.ofBits (F := Ideal) .f32 0x3727C5AC#32))
      = (((Real.sqrt (v + epsReal))⁻¹ : ℝ) : EReal) :=
  rsqrt_add_eps v hv

/-- In the spelling of the vector operations: entry `i` of the host's `rsqrt` of a vector plus the
    broadcast stabiliser, where the vector's entry `i` is a real `v ≥ 0`. -/
theorem host_rsqrt_add_eps_apply {s t : Shape} (dims : Fin s.rank → Fin t.rank)
    (h : s.BroadcastsInDim t dims) (x : FVec Ideal t .f32) (i : t.Idx) (v : ℝ)
    (hx : x i = (v : EReal)) (hv : 0 ≤ v) :
    Host.rsqrt (F := Ideal)
        (addf x (broadcastInDim t dims h (constant (F := Ideal) s .f32 0x3727C5AC#32))) i
      = (((Real.sqrt (v + epsReal))⁻¹ : ℝ) : EReal) := by
  show Ideal.rsqrt (x i + Ideal.ofBits .f32 0x3727C5AC#32) = _
  rw [hx]
  exact rsqrt_add_eps v hv

end Cert.Hand.Math

end
-- ==== Proof.Math.PairLayer.lean ====
import proofs.«148293_j56684978372941_1_alg».proof.Proof.KI.Out3Def
import proofs.«148293_j56684978372941_1_alg».proof.Proof.Spec.Defs
import proofs.«148293_j56684978372941_1_alg».proof.Proof.Math.PayAt
import proofs.«148293_j56684978372941_1_alg».proof.Proof.Math.LayoutAt
import proofs.«148293_j56684978372941_1_alg».proof.Proof.Math.SumSplit
import proofs.«148293_j56684978372941_1_alg».proof.Proof.Math.Affine
import proofs.«148293_j56684978372941_1_alg».proof.Proof.Math.RsqrtReal

/-!
# The pair scorer's first layer: the tiled kernel against the plain reference

The kernel cuts the `100000 × 768` pair features into 50 row tiles of 2000 rows and 3
contraction tiles of 256 columns, adds the three tile products in order from zero, and
finishes each entry with `max (sum + b1) 0 * scale + shift`, where `scale = g * rsqrt (var + eps)`
and `shift = b - mean * scale` were folded beforehand. The reference takes one product over
all 768 columns, `max (sum + b1) 0`, and applies the batch normalisation unfolded:
`((· - mean) * rsqrt (var + eps)) * g + b`.

Entry `(r, c)` of both is a function of the same sum `∑ k < 768, ft (r, k) * w1 (k, c)`: the
kernel's three partial sums are that sum cut at 256 and 512, because row `r` is row `r % 2000`
of tile `r / 2000`. What remains is the normalisation law on the extended reals, which needs the
batch-norm parameters at column `c` to be real numbers and the variance nonnegative, so that
`rsqrt (var + eps)` is real too.
-/

namespace Cert.Hand.Math

open Idealize.ShloMosaic Idealize.ShloMosaic.ValueIdx
open Cert.KernelIdeal Cert.KernelIdeal.Facts₀ Cert.KernelIdeal.Hand Cert.Hand.Spec
open scoped BigOperators

/-- A vector laid along every pair's row, at an entry. -/
theorem rows256_at (v : FVec Ideal S256 .f32) (r : Fin 100000) (c : Fin 256) :
    rows256 (F := Ideal) v (ix2 r c) = v (ix1 c) := by
  unfold rows256
  exact vec_along_rows_at v _ _ r c

/-- A vector as a one-row matrix, at an entry. -/
theorem row256_at (v : FVec Ideal S256 .f32) (c : Fin 256) :
    row256 (F := Ideal) v (ix2 (0 : Fin 1) c) = v (ix1 c) := by
  unfold row256
  exact shapeCast_a_1a_apply v _ 0 c

/-- One product inside a tile is one product of the whole arrays: row `p` of row tile `rt` is row
    `2000 * rt + p`, and column `k` of contraction tile `j` is column `256 * j + k`. -/
theorem tile3_product (ft : FVec Ideal S100000x768 .f32) (w1 : FVec Ideal S768x256 .f32)
    (r : Fin 100000) (rt : Fin 50) (p : Fin 2000) (hrp : 2000 * rt.val + p.val = r.val)
    (q : Fin 256) (j : Fin 3) (k : Fin 256) (kk : Fin 768) (hkk : kk.val = 256 * j.val + k.val) :
    lhsBlk3 (F := Ideal) ft rt j (ix2 p k) * rhsBlk3 (F := Ideal) w1 j (ix2 k q)
      = ft (ix2 r kk) * w1 (ix2 kk q) := by
  unfold lhsBlk3 rhsBlk3
  refine congrArg₂ (· * ·) (congrArg ft ?_) (congrArg w1 ?_)
  · funext a
    match a with
    | ⟨0, _⟩ => exact Fin.ext hrp
    | ⟨1, _⟩ => exact Fin.ext hkk.symm
  · funext a
    match a with
    | ⟨0, _⟩ => exact Fin.ext hkk.symm
    | ⟨1, _⟩ => exact Fin.ext rfl

/-- The completed sum of a row tile, at an entry, is the whole contraction. -/
theorem rowAcc3_at (ft : FVec Ideal S100000x768 .f32) (w1 : FVec Ideal S768x256 .f32)
    (r : Fin 100000) (rt : Fin 50) (p : Fin 2000) (hrp : 2000 * rt.val + p.val = r.val)
    (q : Fin 256) :
    rowAcc3 (F := Ideal) ft w1 rt (ix2 p q) = ∑ k : Fin 768, ft (ix2 r k) * w1 (ix2 k q) := by
  unfold rowAcc3
  rw [k3_pay2_at, k3_pay2_at, k3_pay2_at, k3_pay1_at,
    sum_fin768_blocks_from_zero (fun k => ft (ix2 r k) * w1 (ix2 k q))]
  refine congrArg₂ (· + ·) (congrArg₂ (· + ·) (congrArg (0 + ·) ?_) ?_) ?_
  · exact Finset.sum_congr rfl fun k _ =>
      tile3_product ft w1 r rt p hrp q 0 k _ (by show k.val = 256 * 0 + k.val; omega)
  · exact Finset.sum_congr rfl fun k _ =>
      tile3_product ft w1 r rt p hrp q 1 k _ (by show 256 + k.val = 256 * 1 + k.val; omega)
  · exact Finset.sum_congr rfl fun k _ =>
      tile3_product ft w1 r rt p hrp q 2 k _ (by show 512 + k.val = 256 * 2 + k.val; omega)

/-- The kernel's side at an entry. -/
theorem G3_at (ft : FVec Ideal S100000x768 .f32) (w1 : FVec Ideal S768x256 .f32)
    (bias scale shift : FVec Ideal S1x256 .f32) (r : Fin 100000) (c : Fin 256) :
    G3 (F := Ideal) ft w1 bias scale shift (ix2 r c)
      = max ((∑ k : Fin 768, ft (ix2 r k) * w1 (ix2 k c)) + bias (ix2 (0 : Fin 1) c)) 0
          * scale (ix2 (0 : Fin 1) c) + shift (ix2 (0 : Fin 1) c) := by
  unfold G3
  rw [k3_pay3_at, rowAcc3_at ft w1 r _ _ (Nat.div_add_mod r.val 2000)]

/-- The reference's side at an entry. -/
theorem h1R_at (ft : FVec Ideal S100000x768 .f32) (w1 : FVec Ideal S768x256 .f32)
    (b1 g b mean var : FVec Ideal S256 .f32) (r : Fin 100000) (c : Fin 256) :
    h1R (F := Ideal) ft w1 b1 g b mean var (ix2 r c)
      = (((max ((∑ k : Fin 768, ft (ix2 r k) * w1 (ix2 k c)) + b1 (ix1 c)) 0 - mean (ix1 c))
            * Host.rsqrt (F := Ideal) (addf var (broadcastInDim S256 ![] bcast_S_S256
                (constant (F := Ideal) S_ .f32 0x3727C5AC#32))) (ix1 c))
          * g (ix1 c)) + b (ix1 c) := by
  unfold h1R
  simp only [addf_apply, mulf_apply, subf_apply, maximumf_apply, rows256_at]
  have hd : Host.dotGeneral (F := Ideal) dot_S100000x768_S768x256_S100000x256 none ft w1 (ix2 r c)
      = ∑ k : Fin 768, ft (ix2 r k) * w1 (ix2 k c) :=
    dotGeneral_at dot_S100000x768_S768x256_S100000x256 rfl rfl rfl rfl rfl rfl none .single ft w1 r c
  have hz : broadcastInDim S100000x256 ![] bcast_S_S100000x256
      (constant (F := Ideal) S_ .f32 0x00000000#32) (ix2 r c) = (0 : EReal) := Ideal.ofBits_zero_f32
  rw [hd, hz]

/-- **The pair scorer's first layer.** With the batch-norm parameters real and the variance
    nonnegative, the tiled kernel's output with folded scale and shift is the reference's
    product, clamp and unfolded batch normalisation, entry by entry. -/
theorem pair_layer_law (ft : FVec Ideal S100000x768 .f32) (w1 : FVec Ideal S768x256 .f32)
    (b1 g b mean var : FVec Ideal S256 .f32)
    (hg : ∀ j : S256.Idx, ∃ x : ℝ, g j = (x : EReal))
    (hb : ∀ j : S256.Idx, ∃ x : ℝ, b j = (x : EReal))
    (hmean : ∀ j : S256.Idx, ∃ x : ℝ, mean j = (x : EReal))
    (hvar : ∀ j : S256.Idx, ∃ v : ℝ, 0 ≤ v ∧ var j = (v : EReal)) :
    G3 (F := Ideal) ft w1 (row256 b1) (row256 (bnScale g var))
        (row256 (bnShift b mean (bnScale g var)))
      = h1R ft w1 b1 g b mean var := by
  funext i
  obtain ⟨r, c, rfl⟩ : ∃ (r : Fin 100000) (c : Fin 256), i = ix2 r c := ⟨i 0, i 1, eq_ix2 i⟩
  obtain ⟨gr, hgr⟩ := hg (ix1 c)
  obtain ⟨br, hbr⟩ := hb (ix1 c)
  obtain ⟨mr, hmr⟩ := hmean (ix1 c)
  obtain ⟨v, hv0, hv⟩ := hvar (ix1 c)
  have hs := host_rsqrt_add_eps_apply (s := S_) (t := S256) ![] bcast_S_S256 var (ix1 c) v hv hv0
  rw [G3_at, h1R_at, row256_at, row256_at, row256_at, hs]
  show max _ 0 * (g (ix1 c) * Host.rsqrt (F := Ideal) (addf var (broadcastInDim S256 ![] bcast_S_S256
        (constant (F := Ideal) S_ .f32 0x3727C5AC#32))) (ix1 c))
      + (b (ix1 c) - mean (ix1 c) * (g (ix1 c) * Host.rsqrt (F := Ideal) (addf var
        (broadcastInDim S256 ![] bcast_S_S256 (constant (F := Ideal) S_ .f32 0x3727C5AC#32))) (ix1 c))) = _
  rw [hs, hgr, hbr, hmr]
  exact (normalise_eq_scale_shift _ mr _ gr br).symm

end Cert.Hand.Math
-- ==== Proof.Math.DenseLayer.lean ====
import proofs.«148293_j56684978372941_1_alg».proof.Proof.Spec.Defs
import proofs.«148293_j56684978372941_1_alg».proof.Proof.Math.Contraction
import proofs.«148293_j56684978372941_1_alg».proof.Proof.Math.LayoutAt
import proofs.«148293_j56684978372941_1_alg».proof.Proof.Math.SumSplit

/-!
# One stacked product against four products added

A graph layer multiplies the node features and the three relations' message sums by their own
weight matrices and adds the four products. Stacking does the same with one product: lay the
four left operands side by side, `[x | m0 | m1 | m2]`, an `n × 2048` matrix, lay the four weight
matrices one above the other, a `2048 × N` matrix, and contract over all 2048 positions. Entry
`(r, q)` of the stacked product is `∑ k < 2048, X (r, k) * W (k, q)`; cut at 512, 1024 and 1536 it is
`∑ x (r, k) * wl (k, q) + ∑ m0 (r, k) * w0 (k, q) + ∑ m1 (r, k) * w1 (k, q) + ∑ m2 (r, k) * w2 (k, q)`,
the four products' entries added left to right. Only associativity of the sum is used, so the
law holds for all extended reals.
-/

namespace Cert.Hand.Math

open Idealize.ShloMosaic Idealize.ShloMosaic.ValueIdx
open Cert.KernelIdeal Cert.KernelIdeal.Facts₀ Cert.Hand.Spec
open scoped BigOperators

variable [Cert.KernelIdeal.Facts₀]

/-! ## The stacked operands, run by run -/

/-- The stacked left operand: its four runs of 512 columns are the four operands' columns. -/
theorem catX_at (x m0 m1 m2 : FVec Ideal S50000x512 .f32) (i : Fin 50000) (k : Fin 512)
    (kk : Fin 2048) :
    (kk.val = k.val → catX (F := Ideal) x m0 m1 m2 (ix2 i kk) = x (ix2 i k))
      ∧ (kk.val = 512 + k.val → catX (F := Ideal) x m0 m1 m2 (ix2 i kk) = m0 (ix2 i k))
      ∧ (kk.val = 1024 + k.val → catX (F := Ideal) x m0 m1 m2 (ix2 i kk) = m1 (ix2 i k))
      ∧ (kk.val = 1536 + k.val → catX (F := Ideal) x m0 m1 m2 (ix2 i kk) = m2 (ix2 i k)) := by
  unfold catX
  refine ⟨fun h => ?_, fun h => ?_, fun h => ?_, fun h => ?_⟩
  · exact concat_cols_at _ _ 0 (by show (0 : ℕ) < 4; omega) 512 x rfl 0 rfl i k kk (by omega)
  · exact concat_cols_at _ _ 1 (by show (1 : ℕ) < 4; omega) 512 m0 rfl 512 rfl i k kk h
  · exact concat_cols_at _ _ 2 (by show (2 : ℕ) < 4; omega) 512 m1 rfl 1024 rfl i k kk h
  · exact concat_cols_at _ _ 3 (by show (3 : ℕ) < 4; omega) 512 m2 rfl 1536 rfl i k kk h

/-- The stacked weights of a 512-wide layer: their four runs of 512 rows are the four matrices' rows. -/
theorem catW512_at (wl w0 w1 w2 : FVec Ideal S512x512 .f32) (k : Fin 512) (q : Fin 512)
    (kk : Fin 2048) :
    (kk.val = k.val → catW512 (F := Ideal) wl w0 w1 w2 (ix2 kk q) = wl (ix2 k q))
      ∧ (kk.val = 512 + k.val → catW512 (F := Ideal) wl w0 w1 w2 (ix2 kk q) = w0 (ix2 k q))
      ∧ (kk.val = 1024 + k.val → catW512 (F := Ideal) wl w0 w1 w2 (ix2 kk q) = w1 (ix2 k q))
      ∧ (kk.val = 1536 + k.val → catW512 (F := Ideal) wl w0 w1 w2 (ix2 kk q) = w2 (ix2 k q)) := by
  unfold catW512
  refine ⟨fun h => ?_, fun h => ?_, fun h => ?_, fun h => ?_⟩
  · exact concat_rows_at _ _ 0 (by show (0 : ℕ) < 4; omega) 512 wl rfl 0 rfl k q kk (by omega)
  · exact concat_rows_at _ _ 1 (by show (1 : ℕ) < 4; omega) 512 w0 rfl 512 rfl k q kk h
  · exact concat_rows_at _ _ 2 (by show (2 : ℕ) < 4; omega) 512 w1 rfl 1024 rfl k q kk h
  · exact concat_rows_at _ _ 3 (by show (3 : ℕ) < 4; omega) 512 w2 rfl 1536 rfl k q kk h

/-- The stacked weights of the 256-wide output layer. -/
theorem catW256_at (wl w0 w1 w2 : FVec Ideal S512x256 .f32) (k : Fin 512) (q : Fin 256)
    (kk : Fin 2048) :
    (kk.val = k.val → catW256 (F := Ideal) wl w0 w1 w2 (ix2 kk q) = wl (ix2 k q))
      ∧ (kk.val = 512 + k.val → catW256 (F := Ideal) wl w0 w1 w2 (ix2 kk q) = w0 (ix2 k q))
      ∧ (kk.val = 1024 + k.val → catW256 (F := Ideal) wl w0 w1 w2 (ix2 kk q) = w1 (ix2 k q))
      ∧ (kk.val = 1536 + k.val → catW256 (F := Ideal) wl w0 w1 w2 (ix2 kk q) = w2 (ix2 k q)) := by
  unfold catW256
  refine ⟨fun h => ?_, fun h => ?_, fun h => ?_, fun h => ?_⟩
  · exact concat_rows_at _ _ 0 (by show (0 : ℕ) < 4; omega) 512 wl rfl 0 rfl k q kk (by omega)
  · exact concat_rows_at _ _ 1 (by show (1 : ℕ) < 4; omega) 512 w0 rfl 512 rfl k q kk h
  · exact concat_rows_at _ _ 2 (by show (2 : ℕ) < 4; omega) 512 w1 rfl 1024 rfl k q kk h
  · exact concat_rows_at _ _ 3 (by show (3 : ℕ) < 4; omega) 512 w2 rfl 1536 rfl k q kk h

/-! ## The stacked contraction, cut into the four products -/

/-- A 512-wide layer: the stacked contraction is the four contractions added left to right. -/
theorem stacked_contraction512 (x m0 m1 m2 : FVec Ideal S50000x512 .f32)
    (wl w0 w1 w2 : FVec Ideal S512x512 .f32) (r : Fin 50000) (q : Fin 512) :
    ∑ k : Fin 2048, catX (F := Ideal) x m0 m1 m2 (ix2 r k) * catW512 (F := Ideal) wl w0 w1 w2 (ix2 k q)
      = (((∑ k : Fin 512, x (ix2 r k) * wl (ix2 k q)) + ∑ k : Fin 512, m0 (ix2 r k) * w0 (ix2 k q))
          + ∑ k : Fin 512, m1 (ix2 r k) * w1 (ix2 k q))
        + ∑ k : Fin 512, m2 (ix2 r k) * w2 (ix2 k q) := by
  rw [sum_fin2048_blocks
    (fun k => catX (F := Ideal) x m0 m1 m2 (ix2 r k) * catW512 (F := Ideal) wl w0 w1 w2 (ix2 k q))]
  refine congrArg₂ (· + ·) (congrArg₂ (· + ·) (congrArg₂ (· + ·) ?_ ?_) ?_) ?_
  · exact Finset.sum_congr rfl fun k _ => congrArg₂ (· * ·)
      ((catX_at x m0 m1 m2 r k _).1 rfl) ((catW512_at wl w0 w1 w2 k q _).1 rfl)
  · exact Finset.sum_congr rfl fun k _ => congrArg₂ (· * ·)
      ((catX_at x m0 m1 m2 r k _).2.1 rfl) ((catW512_at wl w0 w1 w2 k q _).2.1 rfl)
  · exact Finset.sum_congr rfl fun k _ => congrArg₂ (· * ·)
      ((catX_at x m0 m1 m2 r k _).2.2.1 rfl) ((catW512_at wl w0 w1 w2 k q _).2.2.1 rfl)
  · exact Finset.sum_congr rfl fun k _ => congrArg₂ (· * ·)
      ((catX_at x m0 m1 m2 r k _).2.2.2 rfl) ((catW512_at wl w0 w1 w2 k q _).2.2.2 rfl)

/-- The 256-wide output layer: the same cut. -/
theorem stacked_contraction256 (x m0 m1 m2 : FVec Ideal S50000x512 .f32)
    (wl w0 w1 w2 : FVec Ideal S512x256 .f32) (r : Fin 50000) (q : Fin 256) :
    ∑ k : Fin 2048, catX (F := Ideal) x m0 m1 m2 (ix2 r k) * catW256 (F := Ideal) wl w0 w1 w2 (ix2 k q)
      = (((∑ k : Fin 512, x (ix2 r k) * wl (ix2 k q)) + ∑ k : Fin 512, m0 (ix2 r k) * w0 (ix2 k q))
          + ∑ k : Fin 512, m1 (ix2 r k) * w1 (ix2 k q))
        + ∑ k : Fin 512, m2 (ix2 r k) * w2 (ix2 k q) := by
  rw [sum_fin2048_blocks
    (fun k => catX (F := Ideal) x m0 m1 m2 (ix2 r k) * catW256 (F := Ideal) wl w0 w1 w2 (ix2 k q))]
  refine congrArg₂ (· + ·) (congrArg₂ (· + ·) (congrArg₂ (· + ·) ?_ ?_) ?_) ?_
  · exact Finset.sum_congr rfl fun k _ => congrArg₂ (· * ·)
      ((catX_at x m0 m1 m2 r k _).1 rfl) ((catW256_at wl w0 w1 w2 k q _).1 rfl)
  · exact Finset.sum_congr rfl fun k _ => congrArg₂ (· * ·)
      ((catX_at x m0 m1 m2 r k _).2.1 rfl) ((catW256_at wl w0 w1 w2 k q _).2.1 rfl)
  · exact Finset.sum_congr rfl fun k _ => congrArg₂ (· * ·)
      ((catX_at x m0 m1 m2 r k _).2.2.1 rfl) ((catW256_at wl w0 w1 w2 k q _).2.2.1 rfl)
  · exact Finset.sum_congr rfl fun k _ => congrArg₂ (· * ·)
      ((catX_at x m0 m1 m2 r k _).2.2.2 rfl) ((catW256_at wl w0 w1 w2 k q _).2.2.2 rfl)

/-! ## The reference's arrangement at an entry -/

/-- The reference's 512-wide layer at an entry: its four products' entries added left to right. -/
theorem denseR512_at (x m0 m1 m2 : FVec Ideal S50000x512 .f32) (wl : FVec Ideal S512x512 .f32)
    (w : FVec Ideal S3x512x512 .f32) (r : Fin 50000) (q : Fin 512) :
    denseR512 (F := Ideal) x m0 m1 m2 wl w (ix2 r q)
      = (((∑ k : Fin 512, x (ix2 r k) * wl (ix2 k q))
            + ∑ k : Fin 512, m0 (ix2 r k) * relW512_0 (F := Ideal) w (ix2 k q))
          + ∑ k : Fin 512, m1 (ix2 r k) * relW512_1 (F := Ideal) w (ix2 k q))
        + ∑ k : Fin 512, m2 (ix2 r k) * relW512_2 (F := Ideal) w (ix2 k q) := by
  have hd : ∀ (a : FVec Ideal S50000x512 .f32) (b : FVec Ideal S512x512 .f32),
      Host.dotGeneral (F := Ideal) dot_S50000x512_S512x512_S50000x512 none a b (ix2 r q)
        = ∑ k : Fin 512, a (ix2 r k) * b (ix2 k q) := fun a b =>
    dotGeneral_at dot_S50000x512_S512x512_S50000x512 rfl rfl rfl rfl rfl rfl none .single a b r q
  unfold denseR512
  simp only [addf_apply, hd]

/-- The reference's 256-wide output layer at an entry. -/
theorem denseR256_at (x m0 m1 m2 : FVec Ideal S50000x512 .f32) (wl : FVec Ideal S512x256 .f32)
    (w : FVec Ideal S3x512x256 .f32) (r : Fin 50000) (q : Fin 256) :
    denseR256 (F := Ideal) x m0 m1 m2 wl w (ix2 r q)
      = (((∑ k : Fin 512, x (ix2 r k) * wl (ix2 k q))
            + ∑ k : Fin 512, m0 (ix2 r k) * relW256_0 (F := Ideal) w (ix2 k q))
          + ∑ k : Fin 512, m1 (ix2 r k) * relW256_1 (F := Ideal) w (ix2 k q))
        + ∑ k : Fin 512, m2 (ix2 r k) * relW256_2 (F := Ideal) w (ix2 k q) := by
  have hd : ∀ (a : FVec Ideal S50000x512 .f32) (b : FVec Ideal S512x256 .f32),
      Host.dotGeneral (F := Ideal) dot_S50000x512_S512x256_S50000x256 none a b (ix2 r q)
        = ∑ k : Fin 512, a (ix2 r k) * b (ix2 k q) := fun a b =>
    dotGeneral_at dot_S50000x512_S512x256_S50000x256 rfl rfl rfl rfl rfl rfl none .single a b r q
  unfold denseR256
  simp only [addf_apply, hd]

/-- **A 512-wide layer, stacked against unstacked**, at an entry. -/
theorem stacked_eq_denseR512 (x m0 m1 m2 : FVec Ideal S50000x512 .f32)
    (wl : FVec Ideal S512x512 .f32) (w : FVec Ideal S3x512x512 .f32) (r : Fin 50000) (q : Fin 512) :
    ∑ k : Fin 2048, catX (F := Ideal) x m0 m1 m2 (ix2 r k)
        * catW512 (F := Ideal) wl (relW512_0 w) (relW512_1 w) (relW512_2 w) (ix2 k q)
      = denseR512 (F := Ideal) x m0 m1 m2 wl w (ix2 r q) :=
  (stacked_contraction512 x m0 m1 m2 wl _ _ _ r q).trans (denseR512_at x m0 m1 m2 wl w r q).symm

/-- **The 256-wide output layer, stacked against unstacked**, at an entry. -/
theorem stacked_eq_denseR256 (x m0 m1 m2 : FVec Ideal S50000x512 .f32)
    (wl : FVec Ideal S512x256 .f32) (w : FVec Ideal S3x512x256 .f32) (r : Fin 50000) (q : Fin 256) :
    ∑ k : Fin 2048, catX (F := Ideal) x m0 m1 m2 (ix2 r k)
        * catW256 (F := Ideal) wl (relW256_0 w) (relW256_1 w) (relW256_2 w) (ix2 k q)
      = denseR256 (F := Ideal) x m0 m1 m2 wl w (ix2 r q) :=
  (stacked_contraction256 x m0 m1 m2 wl _ _ _ r q).trans (denseR256_at x m0 m1 m2 wl w r q).symm

/-! ## The zero rows and the clamp -/

/-- The zero row reads `0`. -/
theorem zeroRow512_at (i : S1x512.Idx) : zeroRow512 (F := Ideal) i = (0 : EReal) :=
  Ideal.ofBits_zero_f32

theorem zeroRow256_at (i : S1x256.Idx) : zeroRow256 (F := Ideal) i = (0 : EReal) :=
  Ideal.ofBits_zero_f32

/-- The reference's clamp at an entry. -/
theorem relu512_at (v : FVec Ideal S50000x512 .f32) (i : S50000x512.Idx) :
    relu512 (F := Ideal) v i = max (v i) 0 :=
  congrArg (max (v i) ·) Ideal.ofBits_zero_f32

end Cert.Hand.Math
-- ==== Proof.Math.GraphLayer.lean ====
import proofs.«148293_j56684978372941_1_alg».proof.Proof.KI.Out1Def
import proofs.«148293_j56684978372941_1_alg».proof.Proof.KI.Out2Def
import proofs.«148293_j56684978372941_1_alg».proof.Proof.Math.PayAt
import proofs.«148293_j56684978372941_1_alg».proof.Proof.Math.DenseLayer

/-!
# The graph layers: the tiled kernel against the plain reference

Each graph-layer kernel cuts the stacked `50000 × 2048` left operand into 25 row tiles of 2000
rows and 4 contraction tiles of 512 columns, and the stacked weights into the 4 matching tiles of
512 rows; for each row tile it adds the four tile products in order, starting from zero, and then
adds the bias row. Row `r` of the array is row `r % 2000` of row tile `r / 2000`, and the four
partial sums are the whole contraction over 2048 positions cut at 512, 1024 and 1536. The whole
contraction of the stacked operands is the reference's four products added left to right; the
bias row is zero; so the two arrays agree entry by entry, for all extended reals.
-/

namespace Cert.Hand.Math

open Idealize.ShloMosaic Idealize.ShloMosaic.ValueIdx
open Cert.KernelIdeal Cert.KernelIdeal.Facts₀ Cert.KernelIdeal.Hand Cert.Hand.Spec
open scoped BigOperators

/-- Four partial sums over tiles of 512, added in order from zero, are the whole sum over 2048
    positions, when term `k` of tile `j` is the whole sum's term `512 * j + k`. -/
theorem four_tile_chain (f : Fin 2048 → EReal) (t : Fin 4 → Fin 512 → EReal)
    (ht : ∀ (j : Fin 4) (k : Fin 512) (kk : Fin 2048), kk.val = 512 * j.val + k.val → t j k = f kk) :
    ((((0 + ∑ k : Fin 512, t 0 k) + ∑ k : Fin 512, t 1 k) + ∑ k : Fin 512, t 2 k)
        + ∑ k : Fin 512, t 3 k) = ∑ k : Fin 2048, f k := by
  rw [sum_fin2048_blocks_from_zero f]
  refine congrArg₂ (· + ·) (congrArg₂ (· + ·) (congrArg₂ (· + ·) (congrArg (0 + ·) ?_) ?_) ?_) ?_
  · exact Finset.sum_congr rfl fun k _ => ht 0 k _ (by show k.val = 512 * 0 + k.val; omega)
  · exact Finset.sum_congr rfl fun k _ => ht 1 k _ (by show 512 + k.val = 512 * 1 + k.val; omega)
  · exact Finset.sum_congr rfl fun k _ => ht 2 k _ (by show 1024 + k.val = 512 * 2 + k.val; omega)
  · exact Finset.sum_congr rfl fun k _ => ht 3 k _ (by show 1536 + k.val = 512 * 3 + k.val; omega)

/-! ## The second graph layer (no clamp) -/

/-- One product inside a tile is one product of the whole arrays. -/
theorem tile1_product (X : FVec Ideal S50000x2048 .f32) (Wt : FVec Ideal S2048x512 .f32)
    (r : Fin 50000) (rt : Fin 25) (p : Fin 2000) (hrp : 2000 * rt.val + p.val = r.val)
    (q : Fin 512) (j : Fin 4) (k : Fin 512) (kk : Fin 2048) (hkk : kk.val = 512 * j.val + k.val) :
    lhsBlk1 (F := Ideal) X rt j (ix2 p k) * rhsBlk1 (F := Ideal) Wt j (ix2 k q)
      = X (ix2 r kk) * Wt (ix2 kk q) := by
  unfold lhsBlk1 rhsBlk1
  refine congrArg₂ (· * ·) (congrArg X ?_) (congrArg Wt ?_)
  · funext a
    match a with
    | ⟨0, _⟩ => exact Fin.ext hrp
    | ⟨1, _⟩ => exact Fin.ext hkk.symm
  · funext a
    match a with
    | ⟨0, _⟩ => exact Fin.ext hkk.symm
    | ⟨1, _⟩ => exact Fin.ext rfl

/-- The completed sum of a row tile, at an entry, is the whole contraction. -/
theorem rowAcc1_at (X : FVec Ideal S50000x2048 .f32) (Wt : FVec Ideal S2048x512 .f32)
    (r : Fin 50000) (rt : Fin 25) (p : Fin 2000) (hrp : 2000 * rt.val + p.val = r.val)
    (q : Fin 512) :
    rowAcc1 (F := Ideal) X Wt rt (ix2 p q) = ∑ k : Fin 2048, X (ix2 r k) * Wt (ix2 k q) := by
  unfold rowAcc1
  rw [k1_pay2_at, k1_pay2_at, k1_pay2_at, k1_pay2_at, k1_pay1_at]
  exact four_tile_chain (fun k => X (ix2 r k) * Wt (ix2 k q))
    (fun j k => lhsBlk1 (F := Ideal) X rt j (ix2 p k) * rhsBlk1 (F := Ideal) Wt j (ix2 k q))
    (fun j k kk h => tile1_product X Wt r rt p hrp q j k kk h)

/-- The kernel's output array at an entry. -/
theorem G1_at (X : FVec Ideal S50000x2048 .f32) (Wt : FVec Ideal S2048x512 .f32)
    (bias : FVec Ideal S1x512 .f32) (r : Fin 50000) (c : Fin 512) :
    G1 (F := Ideal) X Wt bias (ix2 r c)
      = (∑ k : Fin 2048, X (ix2 r k) * Wt (ix2 k c)) + bias (ix2 (0 : Fin 1) c) := by
  unfold G1
  rw [k1_pay3_at, rowAcc1_at X Wt r _ _ (Nat.div_add_mod r.val 2000)]

/-- **The second graph layer.** -/
theorem dense_law1 (x m0 m1 m2 : FVec Ideal S50000x512 .f32) (wl : FVec Ideal S512x512 .f32)
    (w : FVec Ideal S3x512x512 .f32) :
    G1 (F := Ideal) (catX x m0 m1 m2) (catW512 wl (relW512_0 w) (relW512_1 w) (relW512_2 w))
        (zeroRow512 (F := Ideal))
      = denseR512 x m0 m1 m2 wl w := by
  funext i
  obtain ⟨r, c, rfl⟩ : ∃ (r : Fin 50000) (c : Fin 512), i = ix2 r c := ⟨i 0, i 1, eq_ix2 i⟩
  rw [G1_at, stacked_eq_denseR512, zeroRow512_at, add_zero]

/-! ## The output graph layer (512 → 256, no clamp) -/

/-- One product inside a tile is one product of the whole arrays. -/
theorem tile2_product (X : FVec Ideal S50000x2048 .f32) (Wt : FVec Ideal S2048x256 .f32)
    (r : Fin 50000) (rt : Fin 25) (p : Fin 2000) (hrp : 2000 * rt.val + p.val = r.val)
    (q : Fin 256) (j : Fin 4) (k : Fin 512) (kk : Fin 2048) (hkk : kk.val = 512 * j.val + k.val) :
    lhsBlk2 (F := Ideal) X rt j (ix2 p k) * rhsBlk2 (F := Ideal) Wt j (ix2 k q)
      = X (ix2 r kk) * Wt (ix2 kk q) := by
  unfold lhsBlk2 rhsBlk2
  refine congrArg₂ (· * ·) (congrArg X ?_) (congrArg Wt ?_)
  · funext a
    match a with
    | ⟨0, _⟩ => exact Fin.ext hrp
    | ⟨1, _⟩ => exact Fin.ext hkk.symm
  · funext a
    match a with
    | ⟨0, _⟩ => exact Fin.ext hkk.symm
    | ⟨1, _⟩ => exact Fin.ext rfl

/-- The completed sum of a row tile, at an entry, is the whole contraction. -/
theorem rowAcc2_at (X : FVec Ideal S50000x2048 .f32) (Wt : FVec Ideal S2048x256 .f32)
    (r : Fin 50000) (rt : Fin 25) (p : Fin 2000) (hrp : 2000 * rt.val + p.val = r.val)
    (q : Fin 256) :
    rowAcc2 (F := Ideal) X Wt rt (ix2 p q) = ∑ k : Fin 2048, X (ix2 r k) * Wt (ix2 k q) := by
  unfold rowAcc2
  rw [k2_pay2_at, k2_pay2_at, k2_pay2_at, k2_pay2_at, k2_pay1_at]
  exact four_tile_chain (fun k => X (ix2 r k) * Wt (ix2 k q))
    (fun j k => lhsBlk2 (F := Ideal) X rt j (ix2 p k) * rhsBlk2 (F := Ideal) Wt j (ix2 k q))
    (fun j k kk h => tile2_product X Wt r rt p hrp q j k kk h)

/-- The kernel's output array at an entry. -/
theorem G2_at (X : FVec Ideal S50000x2048 .f32) (Wt : FVec Ideal S2048x256 .f32)
    (bias : FVec Ideal S1x256 .f32) (r : Fin 50000) (c : Fin 256) :
    G2 (F := Ideal) X Wt bias (ix2 r c)
      = (∑ k : Fin 2048, X (ix2 r k) * Wt (ix2 k c)) + bias (ix2 (0 : Fin 1) c) := by
  unfold G2
  rw [k2_pay3_at, rowAcc2_at X Wt r _ _ (Nat.div_add_mod r.val 2000)]

/-- **The output graph layer.** -/
theorem dense_law2 (x m0 m1 m2 : FVec Ideal S50000x512 .f32) (wl : FVec Ideal S512x256 .f32)
    (w : FVec Ideal S3x512x256 .f32) :
    G2 (F := Ideal) (catX x m0 m1 m2) (catW256 wl (relW256_0 w) (relW256_1 w) (relW256_2 w))
        (zeroRow256 (F := Ideal))
      = denseR256 x m0 m1 m2 wl w := by
  funext i
  obtain ⟨r, c, rfl⟩ : ∃ (r : Fin 50000) (c : Fin 256), i = ix2 r c := ⟨i 0, i 1, eq_ix2 i⟩
  rw [G2_at, stacked_eq_denseR256, zeroRow256_at, add_zero]

end Cert.Hand.Math
-- ==== Proof.Math.GraphLayer0.lean ====
import proofs.«148293_j56684978372941_1_alg».proof.Proof.KI.Out0Def
import proofs.«148293_j56684978372941_1_alg».proof.Proof.Math.GraphLayer

/-!
# The first graph layer: the tiled kernel with its clamp against the plain reference

The first graph-layer kernel is tiled like the others (25 row tiles of 2000 rows, 4 contraction
tiles of 512, the tile products added in order from zero, then the bias row) and finishes each
entry by clamping it below at zero. The whole contraction of the stacked operands is the
reference's four products added left to right, the bias row is zero, and the reference clamps
its sum in the same way; so the two arrays agree entry by entry, for all extended reals.
-/

namespace Cert.Hand.Math

open Idealize.ShloMosaic Idealize.ShloMosaic.ValueIdx
open Cert.KernelIdeal Cert.KernelIdeal.Facts₀ Cert.KernelIdeal.Hand Cert.Hand.Spec
open scoped BigOperators

/-- One product inside a tile is one product of the whole arrays. -/
theorem tile0_product (X : FVec Ideal S50000x2048 .f32) (Wt : FVec Ideal S2048x512 .f32)
    (r : Fin 50000) (rt : Fin 25) (p : Fin 2000) (hrp : 2000 * rt.val + p.val = r.val)
    (q : Fin 512) (j : Fin 4) (k : Fin 512) (kk : Fin 2048) (hkk : kk.val = 512 * j.val + k.val) :
    lhsBlk0 (F := Ideal) X rt j (ix2 p k) * rhsBlk0 (F := Ideal) Wt j (ix2 k q)
      = X (ix2 r kk) * Wt (ix2 kk q) := by
  unfold lhsBlk0 rhsBlk0
  refine congrArg₂ (· * ·) (congrArg X ?_) (congrArg Wt ?_)
  · funext a
    match a with
    | ⟨0, _⟩ => exact Fin.ext hrp
    | ⟨1, _⟩ => exact Fin.ext hkk.symm
  · funext a
    match a with
    | ⟨0, _⟩ => exact Fin.ext hkk.symm
    | ⟨1, _⟩ => exact Fin.ext rfl

/-- The completed sum of a row tile, at an entry, is the whole contraction. -/
theorem rowAcc0_at (X : FVec Ideal S50000x2048 .f32) (Wt : FVec Ideal S2048x512 .f32)
    (r : Fin 50000) (rt : Fin 25) (p : Fin 2000) (hrp : 2000 * rt.val + p.val = r.val)
    (q : Fin 512) :
    rowAcc0 (F := Ideal) X Wt rt (ix2 p q) = ∑ k : Fin 2048, X (ix2 r k) * Wt (ix2 k q) := by
  unfold rowAcc0
  rw [k0_pay2_at, k0_pay2_at, k0_pay2_at, k0_pay2_at, k0_pay1_at]
  exact four_tile_chain (fun k => X (ix2 r k) * Wt (ix2 k q))
    (fun j k => lhsBlk0 (F := Ideal) X rt j (ix2 p k) * rhsBlk0 (F := Ideal) Wt j (ix2 k q))
    (fun j k kk h => tile0_product X Wt r rt p hrp q j k kk h)

/-- The kernel's output array at an entry. -/
theorem G0_at (X : FVec Ideal S50000x2048 .f32) (Wt : FVec Ideal S2048x512 .f32)
    (bias : FVec Ideal S1x512 .f32) (r : Fin 50000) (c : Fin 512) :
    G0 (F := Ideal) X Wt bias (ix2 r c)
      = max ((∑ k : Fin 2048, X (ix2 r k) * Wt (ix2 k c)) + bias (ix2 (0 : Fin 1) c)) 0 := by
  unfold G0
  rw [k0_pay3_at, rowAcc0_at X Wt r _ _ (Nat.div_add_mod r.val 2000)]

/-- **The first graph layer.** -/
theorem dense_law0 (x m0 m1 m2 : FVec Ideal S50000x512 .f32) (wl : FVec Ideal S512x512 .f32)
    (w : FVec Ideal S3x512x512 .f32) :
    G0 (F := Ideal) (catX x m0 m1 m2) (catW512 wl (relW512_0 w) (relW512_1 w) (relW512_2 w))
        (zeroRow512 (F := Ideal))
      = relu512 (denseR512 x m0 m1 m2 wl w) := by
  funext i
  obtain ⟨r, c, rfl⟩ : ∃ (r : Fin 50000) (c : Fin 512), i = ix2 r c := ⟨i 0, i 1, eq_ix2 i⟩
  rw [G0_at, stacked_eq_denseR512, zeroRow512_at, add_zero, relu512_at]

end Cert.Hand.Math
-- ==== Proof.Layers.lean ====
/- The kernel program's result as one composition of the vocabulary's functions of its arguments. Layer by layer, a
   tiled product's output array (its write-backs' closed form, read at the operands the host stretch before it prepared)
   is the reference's sum of four products of what came before; the head's fused scale-and-shift is the reference's
   normalisation under the precondition; the score tail is applied to the head's hidden layer and the degree terms. -/
import proofs.«148293_j56684978372941_1_alg».proof.Proof.KI.Claims
import proofs.«148293_j56684978372941_1_alg».proof.Proof.KI.Out0
import proofs.«148293_j56684978372941_1_alg».proof.Proof.KI.Out1
import proofs.«148293_j56684978372941_1_alg».proof.Proof.KI.Out2
import proofs.«148293_j56684978372941_1_alg».proof.Proof.KI.Out3
import proofs.«148293_j56684978372941_1_alg».proof.Proof.Spec.KRead0
import proofs.«148293_j56684978372941_1_alg».proof.Proof.Spec.KRead1
import proofs.«148293_j56684978372941_1_alg».proof.Proof.Spec.KRead2
import proofs.«148293_j56684978372941_1_alg».proof.Proof.Spec.KRead3
import proofs.«148293_j56684978372941_1_alg».proof.Proof.Spec.KRead4
import proofs.«148293_j56684978372941_1_alg».proof.Proof.Math.Pre
import proofs.«148293_j56684978372941_1_alg».proof.Proof.Math.PairLayer
import proofs.«148293_j56684978372941_1_alg».proof.Proof.Math.GraphLayer
import proofs.«148293_j56684978372941_1_alg».proof.Proof.Math.GraphLayer0
import proofs.«148293_j56684978372941_1_alg».proof.Defs
import proofs.«148293_j56684978372941_1_alg».proof.Proof.Gen.Pre_finite_inputs

set_option maxRecDepth 16384

noncomputable section

namespace Cert.Hand.Bridge

open Idealize.ShloMosaic Idealize.ShloMosaic.TcCoe Idealize.SL.Sem Idealize.ShloMosaic.StableHlo
open Cert.KernelIdeal Cert.KernelIdeal.Gen Cert.KernelIdeal.Hand Cert.Hand.Spec Cert.Hand.Math

/-! ## The stages, as functions of the arguments and of the stage before -/

/-- First layer of the reference's arrangement: relu of the four products of the features and their messages. -/
def stage1 (x : FVec Ideal S50000x512 .f32) (s0 d0 s1 d1 s2 d2 : IVec S200000 32) (wl : FVec Ideal S512x512 .f32) (w : FVec Ideal S3x512x512 .f32) :
    FVec Ideal S50000x512 .f32 :=
  relu512 (F := Ideal) (denseR512 x (msg x s0 d0) (msg x s1 d1) (msg x s2 d2) wl w)
/-- Second layer: the four products, no relu. -/
def stage2 (x : FVec Ideal S50000x512 .f32) (s0 d0 s1 d1 s2 d2 : IVec S200000 32) (wl : FVec Ideal S512x512 .f32) (w : FVec Ideal S3x512x512 .f32) :
    FVec Ideal S50000x512 .f32 :=
  denseR512 (F := Ideal) x (msg x s0 d0) (msg x s1 d1) (msg x s2 d2) wl w
/-- Third layer: the four products into 256 columns. -/
def stage3 (x : FVec Ideal S50000x512 .f32) (s0 d0 s1 d1 s2 d2 : IVec S200000 32) (wl : FVec Ideal S512x256 .f32) (w : FVec Ideal S3x512x256 .f32) :
    FVec Ideal S50000x256 .f32 :=
  denseR256 (F := Ideal) x (msg x s0 d0) (msg x s1 d1) (msg x s2 d2) wl w
/-- The head's hidden layer on the pair features. -/
def stage4 (z : FVec Ideal S50000x256 .f32) (pairs : IVec S2x100000 32) (w1 : FVec Ideal S768x256 .f32) (b1 g b mean var : FVec Ideal S256 .f32) :
    FVec Ideal S100000x256 .f32 :=
  h1R (F := Ideal) (feats (gatherZ z (pairRow0 pairs)) (gatherZ z (pairRow1 pairs))) w1 b1 g b mean var
/-- The score tail with the two degree terms. -/
def stage5 (h1 : FVec Ideal S100000x256 .f32) (pairs : IVec S2x100000 32) (deg : IVec S50000 32) (w2 : FVec Ideal S256x1 .f32) (b2 : FVec Ideal S1 .f32)
    (alpha beta : FVec Ideal S_ .f32) : FVec Ideal S100000 .f32 :=
  scoreTail (F := Ideal) h1 w2 b2 alpha beta (degF deg (pairRow0 pairs)) (degF deg (pairRow1 pairs))

variable (m : (ℓ : Loc nD τ sig) → Buf (Elt Ideal) ℓ)

/-- The precondition's stated side conditions, as the generated module proves them. -/
local instance : Cert.Pre_finite_inputs.Facts := Cert.Pre_finite_inputs.Gen.facts

/-! ## The kernel's four layers -/

/-- The four layers' output arrays, as arrays of extended reals. -/
abbrev y0 (c : Dev nD) : FVec Ideal S50000x512 .f32 := out0 m c
abbrev y1 (c : Dev nD) : FVec Ideal S50000x512 .f32 := out1 m c
abbrev y2 (c : Dev nD) : FVec Ideal S50000x256 .f32 := out2 m c
abbrev y3 (c : Dev nD) : FVec Ideal S100000x256 .f32 := out3 m c

theorem layer0 (c : Dev nD) : y0 m c = stage1 (encode (m ((c : Thread nD τ).loc main_arg9)) (m ((c : Thread nD τ).loc main_arg10)) (m ((c : Thread nD τ).loc main_arg0)))
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  show out0 m c = _
  unfold out0 stage1
  rw [out0_eq (E0 m) c]
  show G0 (Gen.V1 m c main_v38) (Gen.V1 m c main_v45) (Gen.V1 m c main_v46) = _
  rw [V1_catX, V1_catW, V1_zeroRow]
  exact dense_law0 _ _ _ _ _ _

theorem layer1 (c : Dev nD) : y1 m c = stage2 (y0 m c)
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) := by
  show out1 m c = _
  unfold out1 stage2
  rw [out1_eq (E1 m) c]
  show G1 (W3 m c main_v79) (W3 m c main_v86) (W3 m c main_v87) = _
  rw [← V3_eq m c, V3_catX, V3_catW, V3_zeroRow]
  rw [show x1 (outs m) c = y0 m c from outs_at0 m c]
  exact dense_law1 _ _ _ _ _ _

theorem layer2 (c : Dev nD) : y2 m c = stage3 (residual (F := Ideal) (y0 m c) (y1 m c) (m ((c : Thread nD τ).loc main_arg15)) (m ((c : Thread nD τ).loc main_arg16)))
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) := by
  show out2 m c = _
  unfold out2 stage3
  rw [out2_eq (E2 m) c]
  show G2 (W9 m c main_v140) (W9 m c main_v147) (W9 m c main_v148) = _
  rw [← V9_eq m c, V9_catX, V9_catW, V9_zeroRow]
  have h0 : x1 (outs m) c = y0 m c := outs_at0 m c
  have h1 : hraw (outs m) c = y1 m c := outs_at1 m c
  have hx2 : x2 m (outs m) c = residual (F := Ideal) (y0 m c) (y1 m c) (m ((c : Thread nD τ).loc main_arg15)) (m ((c : Thread nD τ).loc main_arg16)) := by unfold x2; rw [h0, h1]
  rw [hx2]
  exact dense_law2 _ _ _ _ _ _

theorem layer3 (hpre : Cert.Pre_KernelIdeal (hPre_finite_inputs := Cert.Pre_finite_inputs.Gen.facts) m) (c : Dev nD) :
    y3 m c = stage4 (y2 m c) (m ((c : Thread nD τ).loc main_arg7)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show out3 m c = _
  unfold out3 stage4
  rw [out3_eq (E3 m) c]
  show G3 (W15 m c main_v188) (W15 m c main_arg19) (W15 m c main_v195) (W15 m c main_v196) (W15 m c main_v197) = _
  rw [← V15_eq m c, V15_feats, V15_w1, V15_b1, V15_scale, V15_shift]
  rw [show zOut (outs m) c = y2 m c from outs_at2 m c]
  exact pair_layer_law _ _ _ _ _ _ _ (fun j => bn_gain_real (hpre c) j) (fun j => bn_offset_real (hpre c) j)
    (fun j => bn_mean_real (hpre c) j) (fun j => bn_var_nonneg_real (hpre c) j)

theorem kernel_result (c : Dev nD) : W21 m c main_v219 =
    stage5 (y3 m c) (m ((c : Thread nD τ).loc main_arg7)) (m ((c : Thread nD τ).loc main_arg8)) (m ((c : Thread nD τ).loc main_arg25)) (m ((c : Thread nD τ).loc main_arg26)) (m ((c : Thread nD τ).loc main_arg27)) (m ((c : Thread nD τ).loc main_arg28)) := by
  unfold stage5
  rw [← V21_eq m c, V21_score]
  rw [show h1Out (outs m) c = y3 m c from outs_at3 m c]

/-- The kernel program's result as ONE composition of the stages over its arguments. -/
theorem kernel_closed (hpre : Cert.Pre_KernelIdeal (hPre_finite_inputs := Cert.Pre_finite_inputs.Gen.facts) m) (c : Dev nD) :
    W21 m c main_v219 =
      stage5 (stage4 (stage3 (residual (F := Ideal)
            (stage1 (encode (m ((c : Thread nD τ).loc main_arg9)) (m ((c : Thread nD τ).loc main_arg10)) (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)))
            (stage2 (stage1 (encode (m ((c : Thread nD τ).loc main_arg9)) (m ((c : Thread nD τ).loc main_arg10)) (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)))
              (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)))
            (m ((c : Thread nD τ).loc main_arg15)) (m ((c : Thread nD τ).loc main_arg16)))
          (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)))
        (m ((c : Thread nD τ).loc main_arg7)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)))
      (m ((c : Thread nD τ).loc main_arg7)) (m ((c : Thread nD τ).loc main_arg8)) (m ((c : Thread nD τ).loc main_arg25)) (m ((c : Thread nD τ).loc main_arg26)) (m ((c : Thread nD τ).loc main_arg27)) (m ((c : Thread nD τ).loc main_arg28)) := by
  rw [kernel_result, layer3 m hpre, layer2, layer1, layer0]

end Cert.Hand.Bridge

end
-- ==== Proof.Ref.Read0.lean ====
import proofs.«148293_j56684978372941_1_alg».proof.Proof.Ref.Ops
import proofs.«148293_j56684978372941_1_alg».proof.Proof.Spec.Defs
import proofs.«148293_j56684978372941_1_alg».proof.Proof.Gen.KernelIdeal

/-!
# The reference's first layer, read at its boundary

The operations up to the first layer's rectifier, as one list; after them the rectifier's buffer holds
the rectified first graph layer of the encoded node features, in the vocabulary shared with the kernel's
side: a function of the arguments' buffers alone.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Hand

variable {F : FTy → Type} [FloatOps F]

/-- The 65 operations from the node encoding to the first layer's rectifier (writing `main_v51`). -/
abbrev seg0 : List (HloOp τ sig (Elt F)) :=
  ( StableHlo.nullary main_c (constantI S_ 32 0#32)
  :: StableHlo.unary main_c main_v0 (broadcastInDim S50000 ![] bcast_S_S50000 : (⟨S_, .i32⟩ : BufTy).Contents (Elt F) → (⟨S50000, .i32⟩ : BufTy).Contents (Elt F))
  :: StableHlo.binary main_arg0 main_v0 main_v1 (cmpi .slt : (⟨S50000, .i32⟩ : BufTy).Contents (Elt F) → (⟨S50000, .i32⟩ : BufTy).Contents (Elt F) → (⟨S50000, .i1⟩ : BufTy).Contents (Elt F))
  :: StableHlo.nullary main_c_0 (constantI S_ 32 16#32)
  :: StableHlo.unary main_c_0 main_v2 (broadcastInDim S50000 ![] bcast_S_S50000 : (⟨S_, .i32⟩ : BufTy).Contents (Elt F) → (⟨S50000, .i32⟩ : BufTy).Contents (Elt F))
  :: StableHlo.binary main_arg0 main_v2 main_v3 (addi : (⟨S50000, .i32⟩ : BufTy).Contents (Elt F) → (⟨S50000, .i32⟩ : BufTy).Contents (Elt F) → (⟨S50000, .i32⟩ : BufTy).Contents (Elt F))
  :: StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v4 main_v5 (broadcastInDim S50000x1 ![0] bcast_S50000_S50000x1_0 : (⟨S50000, .i32⟩ : BufTy).Contents (Elt F) → (⟨S50000x1, .i32⟩ : BufTy).Contents (Elt F))
  :: StableHlo.binary main_arg10 main_v5 main_v6 ((fun x i => Host.gather gather_S16x512_S50000x1_S50000x512_1_0_n_n_0_1_1512 x i) : (⟨S16x512, .f32⟩ : BufTy).Contents (Elt F) → (⟨S50000x1, .i32⟩ : BufTy).Contents (Elt F) → (⟨S50000x512, .f32⟩ : BufTy).Contents (Elt F))
  :: StableHlo.binary main_arg9 main_v6 main_v7 (addf : (⟨S50000x512, .f32⟩ : BufTy).Contents (Elt F) → (⟨S50000x512, .f32⟩ : BufTy).Contents (Elt F) → (⟨S50000x512, .f32⟩ : BufTy).Contents (Elt F))
  :: StableHlo.binary main_v7 main_arg11 main_v8 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.nullary main_c_1 (constantI S_ 32 0#32)
  :: StableHlo.unary main_c_1 main_v9 (broadcastInDim S200000 ![] bcast_S_S200000 : (⟨S_, .i32⟩ : BufTy).Contents (Elt F) → (⟨S200000, .i32⟩ : BufTy).Contents (Elt F))
  :: StableHlo.binary main_arg1 main_v9 main_v10 (cmpi .slt : (⟨S200000, .i32⟩ : BufTy).Contents (Elt F) → (⟨S200000, .i32⟩ : BufTy).Contents (Elt F) → (⟨S200000, .i1⟩ : BufTy).Contents (Elt F))
  :: StableHlo.nullary main_c_2 (constantI S_ 32 50000#32)
  :: StableHlo.unary main_c_2 main_v11 (broadcastInDim S200000 ![] bcast_S_S200000 : (⟨S_, .i32⟩ : BufTy).Contents (Elt F) → (⟨S200000, .i32⟩ : BufTy).Contents (Elt F))
  :: StableHlo.binary main_arg1 main_v11 main_v12 (addi : (⟨S200000, .i32⟩ : BufTy).Contents (Elt F) → (⟨S200000, .i32⟩ : BufTy).Contents (Elt F) → (⟨S200000, .i32⟩ : BufTy).Contents (Elt F))
  :: StableHlo.ternary main_v10 main_v12 main_arg1 main_v13 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v13 main_v14 (broadcastInDim S200000x1 ![0] bcast_S200000_S200000x1_0 : (⟨S200000, .i32⟩ : BufTy).Contents (Elt F) → (⟨S200000x1, .i32⟩ : BufTy).Contents (Elt F))
  :: StableHlo.binary main_v7 main_v14 main_v15 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst (constant S_ .f32 0x00000000#32)
  :: StableHlo.unary main_cst main_v16 (broadcastInDim S50000x512 ![] bcast_S_S50000x512 : (⟨S_, .f32⟩ : BufTy).Contents (Elt F) → (⟨S50000x512, .f32⟩ : BufTy).Contents (Elt F))
  :: StableHlo.unary main_arg2 main_v17 (broadcastInDim S200000x1 ![0] bcast_S200000_S200000x1_0 : (⟨S200000, .i32⟩ : BufTy).Contents (Elt F) → (⟨S200000x1, .i32⟩ : BufTy).Contents (Elt F))
  :: StableHlo.ternary main_v16 main_v17 main_v15 main_v18 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg12 main_v19 ((extractStridedSlice S1x512x512 ![0, 0, 0] · slices_S3x512x512_S1x512x512_0_0_0) : (⟨S3x512x512, .f32⟩ : BufTy).Contents (Elt F) → (⟨S1x512x512, .f32⟩ : BufTy).Contents (Elt F))
  :: StableHlo.reshape main_v19 main_v20 rfl shapeCasts_S1x512x512_S512x512
  :: StableHlo.binary main_v18 main_v20 main_v21 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v8 main_v21 main_v22 (addf : (⟨S50000x512, .f32⟩ : BufTy).Contents (Elt F) → (⟨S50000x512, .f32⟩ : BufTy).Contents (Elt F) → (⟨S50000x512, .f32⟩ : BufTy).Contents (Elt F))
  :: StableHlo.nullary main_c_3 (constantI S_ 32 0#32)
  :: StableHlo.unary main_c_3 main_v23 (broadcastInDim S200000 ![] bcast_S_S200000 : (⟨S_, .i32⟩ : BufTy).Contents (Elt F) → (⟨S200000, .i32⟩ : BufTy).Contents (Elt F))
  :: StableHlo.binary main_arg3 main_v23 main_v24 (cmpi .slt : (⟨S200000, .i32⟩ : BufTy).Contents (Elt F) → (⟨S200000, .i32⟩ : BufTy).Contents (Elt F) → (⟨S200000, .i1⟩ : BufTy).Contents (Elt F))
  :: StableHlo.nullary main_c_4 (constantI S_ 32 50000#32)
  :: StableHlo.unary main_c_4 main_v25 (broadcastInDim S200000 ![] bcast_S_S200000 : (⟨S_, .i32⟩ : BufTy).Contents (Elt F) → (⟨S200000, .i32⟩ : BufTy).Contents (Elt F))
  :: StableHlo.binary main_arg3 main_v25 main_v26 (addi : (⟨S200000, .i32⟩ : BufTy).Contents (Elt F) → (⟨S200000, .i32⟩ : BufTy).Contents (Elt F) → (⟨S200000, .i32⟩ : BufTy).Contents (Elt F))
  :: StableHlo.ternary main_v24 main_v26 main_arg3 main_v27 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v27 main_v28 (broadcastInDim S200000x1 ![0] bcast_S200000_S200000x1_0 : (⟨S200000, .i32⟩ : BufTy).Contents (Elt F) → (⟨S200000x1, .i32⟩ : BufTy).Contents (Elt F))
  :: StableHlo.binary main_v7 main_v28 main_v29 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_5 (constant S_ .f32 0x00000000#32)
  :: StableHlo.unary main_cst_5 main_v30 (broadcastInDim S50000x512 ![] bcast_S_S50000x512 : (⟨S_, .f32⟩ : BufTy).Contents (Elt F) → (⟨S50000x512, .f32⟩ : BufTy).Contents (Elt F))
  :: StableHlo.unary main_arg4 main_v31 (broadcastInDim S200000x1 ![0] bcast_S200000_S200000x1_0 : (⟨S200000, .i32⟩ : BufTy).Contents (Elt F) → (⟨S200000x1, .i32⟩ : BufTy).Contents (Elt F))
  :: StableHlo.ternary main_v30 main_v31 main_v29 main_v32 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg12 main_v33 ((extractStridedSlice S1x512x512 ![1, 0, 0] · slices_S3x512x512_S1x512x512_1_0_0) : (⟨S3x512x512, .f32⟩ : BufTy).Contents (Elt F) → (⟨S1x512x512, .f32⟩ : BufTy).Contents (Elt F))
  :: StableHlo.reshape main_v33 main_v34 rfl shapeCasts_S1x512x512_S512x512
  :: StableHlo.binary main_v32 main_v34 main_v35 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v22 main_v35 main_v36 (addf : (⟨S50000x512, .f32⟩ : BufTy).Contents (Elt F) → (⟨S50000x512, .f32⟩ : BufTy).Contents (Elt F) → (⟨S50000x512, .f32⟩ : BufTy).Contents (Elt F))
  :: StableHlo.nullary main_c_6 (constantI S_ 32 0#32)
  :: StableHlo.unary main_c_6 main_v37 (broadcastInDim S200000 ![] bcast_S_S200000 : (⟨S_, .i32⟩ : BufTy).Contents (Elt F) → (⟨S200000, .i32⟩ : BufTy).Contents (Elt F))
  :: StableHlo.binary main_arg5 main_v37 main_v38 (cmpi .slt : (⟨S200000, .i32⟩ : BufTy).Contents (Elt F) → (⟨S200000, .i32⟩ : BufTy).Contents (Elt F) → (⟨S200000, .i1⟩ : BufTy).Contents (Elt F))
  :: StableHlo.nullary main_c_7 (constantI S_ 32 50000#32)
  :: StableHlo.unary main_c_7 main_v39 (broadcastInDim S200000 ![] bcast_S_S200000 : (⟨S_, .i32⟩ : BufTy).Contents (Elt F) → (⟨S200000, .i32⟩ : BufTy).Contents (Elt F))
  :: StableHlo.binary main_arg5 main_v39 main_v40 (addi : (⟨S200000, .i32⟩ : BufTy).Contents (Elt F) → (⟨S200000, .i32⟩ : BufTy).Contents (Elt F) → (⟨S200000, .i32⟩ : BufTy).Contents (Elt F))
  :: StableHlo.ternary main_v38 main_v40 main_arg5 main_v41 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v41 main_v42 (broadcastInDim S200000x1 ![0] bcast_S200000_S200000x1_0 : (⟨S200000, .i32⟩ : BufTy).Contents (Elt F) → (⟨S200000x1, .i32⟩ : BufTy).Contents (Elt F))
  :: StableHlo.binary main_v7 main_v42 main_v43 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_8 (constant S_ .f32 0x00000000#32)
  :: StableHlo.unary main_cst_8 main_v44 (broadcastInDim S50000x512 ![] bcast_S_S50000x512 : (⟨S_, .f32⟩ : BufTy).Contents (Elt F) → (⟨S50000x512, .f32⟩ : BufTy).Contents (Elt F))
  :: StableHlo.unary main_arg6 main_v45 (broadcastInDim S200000x1 ![0] bcast_S200000_S200000x1_0 : (⟨S200000, .i32⟩ : BufTy).Contents (Elt F) → (⟨S200000x1, .i32⟩ : BufTy).Contents (Elt F))
  :: StableHlo.ternary main_v44 main_v45 main_v43 main_v46 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg12 main_v47 ((extractStridedSlice S1x512x512 ![2, 0, 0] · slices_S3x512x512_S1x512x512_2_0_0) : (⟨S3x512x512, .f32⟩ : BufTy).Contents (Elt F) → (⟨S1x512x512, .f32⟩ : BufTy).Contents (Elt F))
  :: StableHlo.reshape main_v47 main_v48 rfl shapeCasts_S1x512x512_S512x512
  :: StableHlo.binary main_v46 main_v48 main_v49 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v36 main_v49 main_v50 (addf : (⟨S50000x512, .f32⟩ : BufTy).Contents (Elt F) → (⟨S50000x512, .f32⟩ : BufTy).Contents (Elt F) → (⟨S50000x512, .f32⟩ : BufTy).Contents (Elt F))
  :: StableHlo.TRef.nullary main_call0.cst (constant S_ .f32 0x00000000#32)
  :: StableHlo.TRef.unary main_call0.cst main_call0.v0 (broadcastInDim S50000x512 ![] bcast_S_S50000x512)
  :: StableHlo.TRef.binary (.of main_v50 : StableHlo.TRef sig ⟨S50000x512, .f32⟩) main_call0.v0 main_call0.v1 maximumf
  :: [] )

/-- The buffer each of them writes, in order. -/
abbrev seg0W : List (Ref sig .tc) :=
  [main_c, main_v0, main_v1, main_c_0, main_v2, main_v3, main_v4, main_v5, main_v6, main_v7, main_v8, main_c_1, main_v9, main_v10, main_c_2, main_v11, main_v12, main_v13, main_v14, main_v15, main_cst, main_v16, main_v17, main_v18, main_v19, main_v20, main_v21, main_v22, main_c_3, main_v23, main_v24, main_c_4, main_v25, main_v26, main_v27, main_v28, main_v29, main_cst_5, main_v30, main_v31, main_v32, main_v33, main_v34, main_v35, main_v36, main_c_6, main_v37, main_v38, main_c_7, main_v39, main_v40, main_v41, main_v42, main_v43, main_cst_8, main_v44, main_v45, main_v46, main_v47, main_v48, main_v49, main_v50, main_call0_cst, main_call0_v0, main_v51]

theorem seg0_writes : WritesAt (seg0 : List (HloOp τ sig (Elt F))) seg0W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))))))))))))))))))))))))))))))))))))))))

/-- A buffer none of them writes holds afterwards what it held before. -/
theorem seg0_kept {a : Ref sig .tc} (h : a ∉ (seg0W : List (Ref sig .tc))) (U : Valuation τ sig (Elt F)) :
    after seg0 U (a : DevRef τ sig) = U (a : DevRef τ sig) :=
  after_eq_take seg0_writes 0 h U

/-- The encoded node features, from the arguments' buffers. -/
abbrev rx0 (U : Valuation τ sig (Elt F)) : FVec F Cert.KernelIdeal.S50000x512 .f32 :=
  Spec.encode (U (main_arg9 : DevRef τ sig)) (U (main_arg10 : DevRef τ sig)) (U (main_arg0 : DevRef τ sig))

/-- After the first stretch the rectifier's buffer holds the rectified first layer of the encoded features. -/
theorem read_x1 (U : Valuation τ sig (Elt F)) :
    after seg0 U (main_v51 : DevRef τ sig)
      = Spec.relu512 (Spec.denseR512 (rx0 U)
          (Spec.msg (rx0 U) (U (main_arg1 : DevRef τ sig)) (U (main_arg2 : DevRef τ sig)))
          (Spec.msg (rx0 U) (U (main_arg3 : DevRef τ sig)) (U (main_arg4 : DevRef τ sig)))
          (Spec.msg (rx0 U) (U (main_arg5 : DevRef τ sig)) (U (main_arg6 : DevRef τ sig)))
          (U (main_arg11 : DevRef τ sig)) (U (main_arg12 : DevRef τ sig))) := by
  unfold Spec.relu512 Spec.denseR512 Spec.msg rx0 Spec.encode Spec.wrapT Spec.wrapE Spec.zeroX Spec.relW512_0 Spec.relW512_1 Spec.relW512_2
  after_results_simp
  rfl

end Cert.ReferenceIdeal.Hand

end
-- ==== Proof.Ref.Read1.lean ====
import proofs.«148293_j56684978372941_1_alg».proof.Proof.Ref.Ops
import proofs.«148293_j56684978372941_1_alg».proof.Proof.Spec.Defs
import proofs.«148293_j56684978372941_1_alg».proof.Proof.Gen.KernelIdeal

/-!
# The reference's second layer, read at its boundary

The operations of the second graph layer, from the first layer's rectified output to the layer's sum: the
sum's buffer ends holding the layer applied to what the rectifier's buffer held.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Hand

variable {F : FTy → Type} [FloatOps F]

/-- The 52 operations of the second graph layer (the last writing `main_v94`). -/
abbrev seg1 : List (HloOp τ sig (Elt F)) :=
  ( StableHlo.binary main_v51 main_arg13 main_v52 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.nullary main_c_9 (constantI S_ 32 0#32)
  :: StableHlo.unary main_c_9 main_v53 (broadcastInDim S200000 ![] bcast_S_S200000 : (⟨S_, .i32⟩ : BufTy).Contents (Elt F) → (⟨S200000, .i32⟩ : BufTy).Contents (Elt F))
  :: StableHlo.binary main_arg1 main_v53 main_v54 (cmpi .slt : (⟨S200000, .i32⟩ : BufTy).Contents (Elt F) → (⟨S200000, .i32⟩ : BufTy).Contents (Elt F) → (⟨S200000, .i1⟩ : BufTy).Contents (Elt F))
  :: StableHlo.nullary main_c_10 (constantI S_ 32 50000#32)
  :: StableHlo.unary main_c_10 main_v55 (broadcastInDim S200000 ![] bcast_S_S200000 : (⟨S_, .i32⟩ : BufTy).Contents (Elt F) → (⟨S200000, .i32⟩ : BufTy).Contents (Elt F))
  :: StableHlo.binary main_arg1 main_v55 main_v56 (addi : (⟨S200000, .i32⟩ : BufTy).Contents (Elt F) → (⟨S200000, .i32⟩ : BufTy).Contents (Elt F) → (⟨S200000, .i32⟩ : BufTy).Contents (Elt F))
  :: StableHlo.ternary main_v54 main_v56 main_arg1 main_v57 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v57 main_v58 (broadcastInDim S200000x1 ![0] bcast_S200000_S200000x1_0 : (⟨S200000, .i32⟩ : BufTy).Contents (Elt F) → (⟨S200000x1, .i32⟩ : BufTy).Contents (Elt F))
  :: StableHlo.binary main_v51 main_v58 main_v59 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_11 (constant S_ .f32 0x00000000#32)
  :: StableHlo.unary main_cst_11 main_v60 (broadcastInDim S50000x512 ![] bcast_S_S50000x512 : (⟨S_, .f32⟩ : BufTy).Contents (Elt F) → (⟨S50000x512, .f32⟩ : BufTy).Contents (Elt F))
  :: StableHlo.unary main_arg2 main_v61 (broadcastInDim S200000x1 ![0] bcast_S200000_S200000x1_0 : (⟨S200000, .i32⟩ : BufTy).Contents (Elt F) → (⟨S200000x1, .i32⟩ : BufTy).Contents (Elt F))
  :: StableHlo.ternary main_v60 main_v61 main_v59 main_v62 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg14 main_v63 ((extractStridedSlice S1x512x512 ![0, 0, 0] · slices_S3x512x512_S1x512x512_0_0_0) : (⟨S3x512x512, .f32⟩ : BufTy).Contents (Elt F) → (⟨S1x512x512, .f32⟩ : BufTy).Contents (Elt F))
  :: StableHlo.reshape main_v63 main_v64 rfl shapeCasts_S1x512x512_S512x512
  :: StableHlo.binary main_v62 main_v64 main_v65 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v52 main_v65 main_v66 (addf : (⟨S50000x512, .f32⟩ : BufTy).Contents (Elt F) → (⟨S50000x512, .f32⟩ : BufTy).Contents (Elt F) → (⟨S50000x512, .f32⟩ : BufTy).Contents (Elt F))
  :: StableHlo.nullary main_c_12 (constantI S_ 32 0#32)
  :: StableHlo.unary main_c_12 main_v67 (broadcastInDim S200000 ![] bcast_S_S200000 : (⟨S_, .i32⟩ : BufTy).Contents (Elt F) → (⟨S200000, .i32⟩ : BufTy).Contents (Elt F))
  :: StableHlo.binary main_arg3 main_v67 main_v68 (cmpi .slt : (⟨S200000, .i32⟩ : BufTy).Contents (Elt F) → (⟨S200000, .i32⟩ : BufTy).Contents (Elt F) → (⟨S200000, .i1⟩ : BufTy).Contents (Elt F))
  :: StableHlo.nullary main_c_13 (constantI S_ 32 50000#32)
  :: StableHlo.unary main_c_13 main_v69 (broadcastInDim S200000 ![] bcast_S_S200000 : (⟨S_, .i32⟩ : BufTy).Contents (Elt F) → (⟨S200000, .i32⟩ : BufTy).Contents (Elt F))
  :: StableHlo.binary main_arg3 main_v69 main_v70 (addi : (⟨S200000, .i32⟩ : BufTy).Contents (Elt F) → (⟨S200000, .i32⟩ : BufTy).Contents (Elt F) → (⟨S200000, .i32⟩ : BufTy).Contents (Elt F))
  :: StableHlo.ternary main_v68 main_v70 main_arg3 main_v71 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v71 main_v72 (broadcastInDim S200000x1 ![0] bcast_S200000_S200000x1_0 : (⟨S200000, .i32⟩ : BufTy).Contents (Elt F) → (⟨S200000x1, .i32⟩ : BufTy).Contents (Elt F))
  :: StableHlo.binary main_v51 main_v72 main_v73 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_14 (constant S_ .f32 0x00000000#32)
  :: StableHlo.unary main_cst_14 main_v74 (broadcastInDim S50000x512 ![] bcast_S_S50000x512 : (⟨S_, .f32⟩ : BufTy).Contents (Elt F) → (⟨S50000x512, .f32⟩ : BufTy).Contents (Elt F))
  :: StableHlo.unary main_arg4 main_v75 (broadcastInDim S200000x1 ![0] bcast_S200000_S200000x1_0 : (⟨S200000, .i32⟩ : BufTy).Contents (Elt F) → (⟨S200000x1, .i32⟩ : BufTy).Contents (Elt F))
  :: StableHlo.ternary main_v74 main_v75 main_v73 main_v76 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg14 main_v77 ((extractStridedSlice S1x512x512 ![1, 0, 0] · slices_S3x512x512_S1x512x512_1_0_0) : (⟨S3x512x512, .f32⟩ : BufTy).Contents (Elt F) → (⟨S1x512x512, .f32⟩ : BufTy).Contents (Elt F))
  :: StableHlo.reshape main_v77 main_v78 rfl shapeCasts_S1x512x512_S512x512
  :: StableHlo.binary main_v76 main_v78 main_v79 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v66 main_v79 main_v80 (addf : (⟨S50000x512, .f32⟩ : BufTy).Contents (Elt F) → (⟨S50000x512, .f32⟩ : BufTy).Contents (Elt F) → (⟨S50000x512, .f32⟩ : BufTy).Contents (Elt F))
  :: StableHlo.nullary main_c_15 (constantI S_ 32 0#32)
  :: StableHlo.unary main_c_15 main_v81 (broadcastInDim S200000 ![] bcast_S_S200000 : (⟨S_, .i32⟩ : BufTy).Contents (Elt F) → (⟨S200000, .i32⟩ : BufTy).Contents (Elt F))
  :: StableHlo.binary main_arg5 main_v81 main_v82 (cmpi .slt : (⟨S200000, .i32⟩ : BufTy).Contents (Elt F) → (⟨S200000, .i32⟩ : BufTy).Contents (Elt F) → (⟨S200000, .i1⟩ : BufTy).Contents (Elt F))
  :: StableHlo.nullary main_c_16 (constantI S_ 32 50000#32)
  :: StableHlo.unary main_c_16 main_v83 (broadcastInDim S200000 ![] bcast_S_S200000 : (⟨S_, .i32⟩ : BufTy).Contents (Elt F) → (⟨S200000, .i32⟩ : BufTy).Contents (Elt F))
  :: StableHlo.binary main_arg5 main_v83 main_v84 (addi : (⟨S200000, .i32⟩ : BufTy).Contents (Elt F) → (⟨S200000, .i32⟩ : BufTy).Contents (Elt F) → (⟨S200000, .i32⟩ : BufTy).Contents (Elt F))
  :: StableHlo.ternary main_v82 main_v84 main_arg5 main_v85 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v85 main_v86 (broadcastInDim S200000x1 ![0] bcast_S200000_S200000x1_0 : (⟨S200000, .i32⟩ : BufTy).Contents (Elt F) → (⟨S200000x1, .i32⟩ : BufTy).Contents (Elt F))
  :: StableHlo.binary main_v51 main_v86 main_v87 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_17 (constant S_ .f32 0x00000000#32)
  :: StableHlo.unary main_cst_17 main_v88 (broadcastInDim S50000x512 ![] bcast_S_S50000x512 : (⟨S_, .f32⟩ : BufTy).Contents (Elt F) → (⟨S50000x512, .f32⟩ : BufTy).Contents (Elt F))
  :: StableHlo.unary main_arg6 main_v89 (broadcastInDim S200000x1 ![0] bcast_S200000_S200000x1_0 : (⟨S200000, .i32⟩ : BufTy).Contents (Elt F) → (⟨S200000x1, .i32⟩ : BufTy).Contents (Elt F))
  :: StableHlo.ternary main_v88 main_v89 main_v87 main_v90 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg14 main_v91 ((extractStridedSlice S1x512x512 ![2, 0, 0] · slices_S3x512x512_S1x512x512_2_0_0) : (⟨S3x512x512, .f32⟩ : BufTy).Contents (Elt F) → (⟨S1x512x512, .f32⟩ : BufTy).Contents (Elt F))
  :: StableHlo.reshape main_v91 main_v92 rfl shapeCasts_S1x512x512_S512x512
  :: StableHlo.binary main_v90 main_v92 main_v93 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
  :: StableHlo.binary main_v80 main_v93 main_v94 (addf : (⟨S50000x512, .f32⟩ : BufTy).Contents (Elt F) → (⟨S50000x512, .f32⟩ : BufTy).Contents (Elt F) → (⟨S50000x512, .f32⟩ : BufTy).Contents (Elt F))
  :: [] )

/-- The buffer each of them writes, in order. -/
abbrev seg1W : List (Ref sig .tc) :=
  [main_v52, main_c_9, main_v53, main_v54, main_c_10, main_v55, main_v56, main_v57, main_v58, main_v59, main_cst_11, main_v60, main_v61, main_v62, main_v63, main_v64, main_v65, main_v66, main_c_12, main_v67, main_v68, main_c_13, main_v69, main_v70, main_v71, main_v72, main_v73, main_cst_14, main_v74, main_v75, main_v76, main_v77, main_v78, main_v79, main_v80, main_c_15, main_v81, main_v82, main_c_16, main_v83, main_v84, main_v85, main_v86, main_v87, main_cst_17, main_v88, main_v89, main_v90, main_v91, main_v92, main_v93, main_v94]

theorem seg1_writes : WritesAt (seg1 : List (HloOp τ sig (Elt F))) seg1W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))))))))))))))))))))))))

/-- A buffer none of them writes holds afterwards what it held before. -/
theorem seg1_kept {a : Ref sig .tc} (h : a ∉ (seg1W : List (Ref sig .tc))) (U : Valuation τ sig (Elt F)) :
    after seg1 U (a : DevRef τ sig) = U (a : DevRef τ sig) :=
  after_eq_take seg1_writes 0 h U

/-- After the second stretch the sum's buffer holds the second layer of the first layer's output. -/
theorem read_h (U : Valuation τ sig (Elt F)) :
    after seg1 U (main_v94 : DevRef τ sig)
      = Spec.denseR512 (U (main_v51 : DevRef τ sig))
          (Spec.msg (U (main_v51 : DevRef τ sig)) (U (main_arg1 : DevRef τ sig)) (U (main_arg2 : DevRef τ sig)))
          (Spec.msg (U (main_v51 : DevRef τ sig)) (U (main_arg3 : DevRef τ sig)) (U (main_arg4 : DevRef τ sig)))
          (Spec.msg (U (main_v51 : DevRef τ sig)) (U (main_arg5 : DevRef τ sig)) (U (main_arg6 : DevRef τ sig)))
          (U (main_arg13 : DevRef τ sig)) (U (main_arg14 : DevRef τ sig)) := by
  unfold Spec.denseR512 Spec.msg Spec.wrapE Spec.zeroX Spec.relW512_0 Spec.relW512_1 Spec.relW512_2
  after_results_simp
  rfl

end Cert.ReferenceIdeal.Hand

end
-- ==== Proof.Ref.Read2a.lean ====
import proofs.«148293_j56684978372941_1_alg».proof.Proof.Ref.Ops
import proofs.«148293_j56684978372941_1_alg».proof.Proof.Spec.Defs
import proofs.«148293_j56684978372941_1_alg».proof.Proof.Gen.KernelIdeal

/-!
# The reference's normalisation and residual step, read at the residual sum

From the second layer's sum: each row's mean and variance, the normalised rows scaled and shifted, rectified,
and added to the first layer's output.  The sum's buffer ends holding the residual step of the two earlier
boundary buffers.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Hand

variable {F : FTy → Type} [FloatOps F]

/-- The 48 operations from the row statistics of the second layer's sum to the residual sum (writing `main_v114`). -/
abbrev seg2a : List (HloOp τ sig (Elt F)) :=
  ( StableHlo.nullary main_cst_18 (constant S_ .f32 0x00000000#32)
  :: StableHlo.binary main_v94 main_cst_18 main_v95 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F))
  :: StableHlo.unary main_v95 main_v96 (broadcastInDim S50000x1 ![0] bcast_S50000_S50000x1_0 : (⟨S50000, .f32⟩ : BufTy).Contents (Elt F) → (⟨S50000x1, .f32⟩ : BufTy).Contents (Elt F))
  :: StableHlo.nullary main_cst_19 (constant S_ .f32 0x44000000#32)
  :: StableHlo.unary main_cst_19 main_v97 (broadcastInDim S50000x1 ![] bcast_S_S50000x1 : (⟨S_, .f32⟩ : BufTy).Contents (Elt F) → (⟨S50000x1, .f32⟩ : BufTy).Contents (Elt F))
  :: StableHlo.binary main_v96 main_v97 main_v98 (Host.divf : (⟨S50000x1, .f32⟩ : BufTy).Contents (Elt F) → (⟨S50000x1, .f32⟩ : BufTy).Contents (Elt F) → (⟨S50000x1, .f32⟩ : BufTy).Contents (Elt F))
  :: StableHlo.nullary main_c_20 (constantI S_ 32 0#32)
  :: StableHlo.TRef.nullary main_call1.cst (constant S_ .f32 0x00000000#32)
  :: StableHlo.TRef.binary (.of main_v94 : StableHlo.TRef sig ⟨S50000x512, .f32⟩) main_call1.cst main_call1.v0 (fun x v => Host.reduceAdd x v reducesTo_S50000x512_S50000_d1 h_S_)
  :: StableHlo.TRef.unary main_call1.v0 main_call1.v1 (broadcastInDim S50000x1 ![0] bcast_S50000_S50000x1_0)
  :: StableHlo.TRef.nullary main_call1.cst_0 (constant S_ .f32 0x44000000#32)
  :: StableHlo.TRef.unary main_call1.cst_0 main_call1.v2 (broadcastInDim S50000x1 ![] bcast_S_S50000x1)
  :: StableHlo.TRef.binary main_call1.v1 main_call1.v2 main_call1.v3 Host.divf
  :: StableHlo.TRef.unary main_call1.v3 main_call1.v4 (broadcastInDim S50000x512 ![0, 1] bcast_S50000x1_S50000x512_0_1)
  :: StableHlo.TRef.binary (.of main_v94 : StableHlo.TRef sig ⟨S50000x512, .f32⟩) main_call1.v4 main_call1.v5 subf
  :: StableHlo.TRef.binary main_call1.v5 main_call1.v5 main_call1.v6 mulf
  :: StableHlo.TRef.unary (.of main_c_20 : StableHlo.TRef sig ⟨S_, .i32⟩) main_call1.v7 (sitofp .f32)
  :: StableHlo.TRef.nullary main_call1.cst_1 (constant S_ .f32 0x44000000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S50000x512_S50000_d1 h_S_)
  :: StableHlo.TRef.unary main_call1.v9 main_call1.v10 (broadcastInDim S50000x1 ![0] bcast_S50000_S50000x1_0)
  :: StableHlo.TRef.unary main_call1.v8 main_call1.v11 (broadcastInDim S50000x1 ![] bcast_S_S50000x1)
  :: StableHlo.TRef.binary main_call1.v10 main_call1.v11 main_call1.v12 Host.divf
  :: StableHlo.TRef.nullary main_call1.cst_3 (constant S_ .f32 0x00000000#32)
  :: StableHlo.TRef.binary main_call1.v8 main_call1.cst_3 main_call1.v13 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S50000x1 ![] bcast_S_S50000x1)
  :: StableHlo.TRef.ternary main_call1.v13 main_call1.v12 main_call1.call0.v1 main_call1.call0.v2 (fun p a b => select (broadcastInDim S50000x1 ![] bcast_S_S50000x1 p) a b)
  :: StableHlo.unary main_v98 main_v100 (broadcastInDim S50000x512 ![0, 1] bcast_S50000x1_S50000x512_0_1 : (⟨S50000x1, .f32⟩ : BufTy).Contents (Elt F) → (⟨S50000x512, .f32⟩ : BufTy).Contents (Elt F))
  :: StableHlo.binary main_v94 main_v100 main_v101 (subf : (⟨S50000x512, .f32⟩ : BufTy).Contents (Elt F) → (⟨S50000x512, .f32⟩ : BufTy).Contents (Elt F) → (⟨S50000x512, .f32⟩ : BufTy).Contents (Elt F))
  :: StableHlo.nullary main_cst_21 (constant S_ .f32 0x3727C5AC#32)
  :: StableHlo.unary main_cst_21 main_v102 (broadcastInDim S50000x1 ![] bcast_S_S50000x1 : (⟨S_, .f32⟩ : BufTy).Contents (Elt F) → (⟨S50000x1, .f32⟩ : BufTy).Contents (Elt F))
  :: StableHlo.binary main_v99 main_v102 main_v103 (addf : (⟨S50000x1, .f32⟩ : BufTy).Contents (Elt F) → (⟨S50000x1, .f32⟩ : BufTy).Contents (Elt F) → (⟨S50000x1, .f32⟩ : BufTy).Contents (Elt F))
  :: StableHlo.unary main_v103 main_v104 (Host.rsqrt : (⟨S50000x1, .f32⟩ : BufTy).Contents (Elt F) → (⟨S50000x1, .f32⟩ : BufTy).Contents (Elt F))
  :: StableHlo.unary main_v104 main_v105 (broadcastInDim S50000x512 ![0, 1] bcast_S50000x1_S50000x512_0_1 : (⟨S50000x1, .f32⟩ : BufTy).Contents (Elt F) → (⟨S50000x512, .f32⟩ : BufTy).Contents (Elt F))
  :: StableHlo.binary main_v101 main_v105 main_v106 (mulf : (⟨S50000x512, .f32⟩ : BufTy).Contents (Elt F) → (⟨S50000x512, .f32⟩ : BufTy).Contents (Elt F) → (⟨S50000x512, .f32⟩ : BufTy).Contents (Elt F))
  :: StableHlo.unary main_arg15 main_v107 (broadcastInDim S1x512 ![1] bcast_S512_S1x512_1 : (⟨S512, .f32⟩ : BufTy).Contents (Elt F) → (⟨S1x512, .f32⟩ : BufTy).Contents (Elt F))
  :: StableHlo.unary main_v107 main_v108 (broadcastInDim S50000x512 ![0, 1] bcast_S1x512_S50000x512_0_1 : (⟨S1x512, .f32⟩ : BufTy).Contents (Elt F) → (⟨S50000x512, .f32⟩ : BufTy).Contents (Elt F))
  :: StableHlo.binary main_v106 main_v108 main_v109 (mulf : (⟨S50000x512, .f32⟩ : BufTy).Contents (Elt F) → (⟨S50000x512, .f32⟩ : BufTy).Contents (Elt F) → (⟨S50000x512, .f32⟩ : BufTy).Contents (Elt F))
  :: StableHlo.unary main_arg16 main_v110 (broadcastInDim S1x512 ![1] bcast_S512_S1x512_1 : (⟨S512, .f32⟩ : BufTy).Contents (Elt F) → (⟨S1x512, .f32⟩ : BufTy).Contents (Elt F))
  :: StableHlo.unary main_v110 main_v111 (broadcastInDim S50000x512 ![0, 1] bcast_S1x512_S50000x512_0_1 : (⟨S1x512, .f32⟩ : BufTy).Contents (Elt F) → (⟨S50000x512, .f32⟩ : BufTy).Contents (Elt F))
  :: StableHlo.binary main_v109 main_v111 main_v112 (addf : (⟨S50000x512, .f32⟩ : BufTy).Contents (Elt F) → (⟨S50000x512, .f32⟩ : BufTy).Contents (Elt F) → (⟨S50000x512, .f32⟩ : BufTy).Contents (Elt F))
  :: StableHlo.TRef.nullary main_call2.cst (constant S_ .f32 0x00000000#32)
  :: StableHlo.TRef.unary main_call2.cst main_call2.v0 (broadcastInDim S50000x512 ![] bcast_S_S50000x512)
  :: StableHlo.TRef.binary (.of main_v112 : StableHlo.TRef sig ⟨S50000x512, .f32⟩) main_call2.v0 main_call2.v1 maximumf
  :: StableHlo.binary main_v51 main_v113 main_v114 (addf : (⟨S50000x512, .f32⟩ : BufTy).Contents (Elt F) → (⟨S50000x512, .f32⟩ : BufTy).Contents (Elt F) → (⟨S50000x512, .f32⟩ : BufTy).Contents (Elt F))
  :: [] )

/-- The buffer each of them writes, in order. -/
abbrev seg2aW : List (Ref sig .tc) :=
  [main_cst_18, main_v95, main_v96, main_cst_19, main_v97, main_v98, main_c_20, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v99, main_v100, main_v101, main_cst_21, main_v102, main_v103, main_v104, main_v105, main_v106, main_v107, main_v108, main_v109, main_v110, main_v111, main_v112, main_call2_cst, main_call2_v0, main_v113, main_v114]

theorem seg2a_writes : WritesAt (seg2a : List (HloOp τ sig (Elt F))) seg2aW :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))))))))))))))))))))

/-- A buffer none of them writes holds afterwards what it held before. -/
theorem seg2a_kept {a : Ref sig .tc} (h : a ∉ (seg2aW : List (Ref sig .tc))) (U : Valuation τ sig (Elt F)) :
    after seg2a U (a : DevRef τ sig) = U (a : DevRef τ sig) :=
  after_eq_take seg2a_writes 0 h U

/-- The node features entering the output layer: the first layer's output plus the rectified, normalised second layer. -/
abbrev rx2 (U : Valuation τ sig (Elt F)) : FVec F Cert.KernelIdeal.S50000x512 .f32 :=
  Spec.residual (U (main_v51 : DevRef τ sig)) (U (main_v94 : DevRef τ sig)) (U (main_arg15 : DevRef τ sig)) (U (main_arg16 : DevRef τ sig))

/-- After the normalisation stretch the residual sum's buffer holds the residual step. -/
theorem read_x2 (U : Valuation τ sig (Elt F)) :
    after seg2a U (main_v114 : DevRef τ sig) = rx2 U := by
  unfold rx2 Spec.residual Spec.relu512 Spec.lnorm Spec.rowVar Spec.rowMean
  after_results_simp
  rfl

end Cert.ReferenceIdeal.Hand

end
-- ==== Proof.Ref.Read2b.lean ====
import proofs.«148293_j56684978372941_1_alg».proof.Proof.Ref.Ops
import proofs.«148293_j56684978372941_1_alg».proof.Proof.Spec.Defs
import proofs.«148293_j56684978372941_1_alg».proof.Proof.Gen.KernelIdeal

/-!
# The reference's output layer, read at its sum

The operations of the output graph layer (512 to 256), from the residual sum to the layer's sum: the sum's
buffer ends holding the layer applied to what the residual sum's buffer held.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Hand

variable {F : FTy → Type} [FloatOps F]

/-- The 52 operations of the output graph layer (the last writing `main_v157`). -/
abbrev seg2b : List (HloOp τ sig (Elt F)) :=
  ( StableHlo.binary main_v114 main_arg17 main_v115 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
  :: StableHlo.nullary main_c_22 (constantI S_ 32 0#32)
  :: StableHlo.unary main_c_22 main_v116 (broadcastInDim S200000 ![] bcast_S_S200000 : (⟨S_, .i32⟩ : BufTy).Contents (Elt F) → (⟨S200000, .i32⟩ : BufTy).Contents (Elt F))
  :: StableHlo.binary main_arg1 main_v116 main_v117 (cmpi .slt : (⟨S200000, .i32⟩ : BufTy).Contents (Elt F) → (⟨S200000, .i32⟩ : BufTy).Contents (Elt F) → (⟨S200000, .i1⟩ : BufTy).Contents (Elt F))
  :: StableHlo.nullary main_c_23 (constantI S_ 32 50000#32)
  :: StableHlo.unary main_c_23 main_v118 (broadcastInDim S200000 ![] bcast_S_S200000 : (⟨S_, .i32⟩ : BufTy).Contents (Elt F) → (⟨S200000, .i32⟩ : BufTy).Contents (Elt F))
  :: StableHlo.binary main_arg1 main_v118 main_v119 (addi : (⟨S200000, .i32⟩ : BufTy).Contents (Elt F) → (⟨S200000, .i32⟩ : BufTy).Contents (Elt F) → (⟨S200000, .i32⟩ : BufTy).Contents (Elt F))
  :: StableHlo.ternary main_v117 main_v119 main_arg1 main_v120 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v120 main_v121 (broadcastInDim S200000x1 ![0] bcast_S200000_S200000x1_0 : (⟨S200000, .i32⟩ : BufTy).Contents (Elt F) → (⟨S200000x1, .i32⟩ : BufTy).Contents (Elt F))
  :: StableHlo.binary main_v114 main_v121 main_v122 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_24 (constant S_ .f32 0x00000000#32)
  :: StableHlo.unary main_cst_24 main_v123 (broadcastInDim S50000x512 ![] bcast_S_S50000x512 : (⟨S_, .f32⟩ : BufTy).Contents (Elt F) → (⟨S50000x512, .f32⟩ : BufTy).Contents (Elt F))
  :: StableHlo.unary main_arg2 main_v124 (broadcastInDim S200000x1 ![0] bcast_S200000_S200000x1_0 : (⟨S200000, .i32⟩ : BufTy).Contents (Elt F) → (⟨S200000x1, .i32⟩ : BufTy).Contents (Elt F))
  :: StableHlo.ternary main_v123 main_v124 main_v122 main_v125 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg18 main_v126 ((extractStridedSlice S1x512x256 ![0, 0, 0] · slices_S3x512x256_S1x512x256_0_0_0) : (⟨S3x512x256, .f32⟩ : BufTy).Contents (Elt F) → (⟨S1x512x256, .f32⟩ : BufTy).Contents (Elt F))
  :: StableHlo.reshape main_v126 main_v127 rfl shapeCasts_S1x512x256_S512x256
  :: StableHlo.binary main_v125 main_v127 main_v128 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
  :: StableHlo.binary main_v115 main_v128 main_v129 (addf : (⟨S50000x256, .f32⟩ : BufTy).Contents (Elt F) → (⟨S50000x256, .f32⟩ : BufTy).Contents (Elt F) → (⟨S50000x256, .f32⟩ : BufTy).Contents (Elt F))
  :: StableHlo.nullary main_c_25 (constantI S_ 32 0#32)
  :: StableHlo.unary main_c_25 main_v130 (broadcastInDim S200000 ![] bcast_S_S200000 : (⟨S_, .i32⟩ : BufTy).Contents (Elt F) → (⟨S200000, .i32⟩ : BufTy).Contents (Elt F))
  :: StableHlo.binary main_arg3 main_v130 main_v131 (cmpi .slt : (⟨S200000, .i32⟩ : BufTy).Contents (Elt F) → (⟨S200000, .i32⟩ : BufTy).Contents (Elt F) → (⟨S200000, .i1⟩ : BufTy).Contents (Elt F))
  :: StableHlo.nullary main_c_26 (constantI S_ 32 50000#32)
  :: StableHlo.unary main_c_26 main_v132 (broadcastInDim S200000 ![] bcast_S_S200000 : (⟨S_, .i32⟩ : BufTy).Contents (Elt F) → (⟨S200000, .i32⟩ : BufTy).Contents (Elt F))
  :: StableHlo.binary main_arg3 main_v132 main_v133 (addi : (⟨S200000, .i32⟩ : BufTy).Contents (Elt F) → (⟨S200000, .i32⟩ : BufTy).Contents (Elt F) → (⟨S200000, .i32⟩ : BufTy).Contents (Elt F))
  :: StableHlo.ternary main_v131 main_v133 main_arg3 main_v134 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v134 main_v135 (broadcastInDim S200000x1 ![0] bcast_S200000_S200000x1_0 : (⟨S200000, .i32⟩ : BufTy).Contents (Elt F) → (⟨S200000x1, .i32⟩ : BufTy).Contents (Elt F))
  :: StableHlo.binary main_v114 main_v135 main_v136 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_27 (constant S_ .f32 0x00000000#32)
  :: StableHlo.unary main_cst_27 main_v137 (broadcastInDim S50000x512 ![] bcast_S_S50000x512 : (⟨S_, .f32⟩ : BufTy).Contents (Elt F) → (⟨S50000x512, .f32⟩ : BufTy).Contents (Elt F))
  :: StableHlo.unary main_arg4 main_v138 (broadcastInDim S200000x1 ![0] bcast_S200000_S200000x1_0 : (⟨S200000, .i32⟩ : BufTy).Contents (Elt F) → (⟨S200000x1, .i32⟩ : BufTy).Contents (Elt F))
  :: StableHlo.ternary main_v137 main_v138 main_v136 main_v139 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg18 main_v140 ((extractStridedSlice S1x512x256 ![1, 0, 0] · slices_S3x512x256_S1x512x256_1_0_0) : (⟨S3x512x256, .f32⟩ : BufTy).Contents (Elt F) → (⟨S1x512x256, .f32⟩ : BufTy).Contents (Elt F))
  :: StableHlo.reshape main_v140 main_v141 rfl shapeCasts_S1x512x256_S512x256
  :: StableHlo.binary main_v139 main_v141 main_v142 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
  :: StableHlo.binary main_v129 main_v142 main_v143 (addf : (⟨S50000x256, .f32⟩ : BufTy).Contents (Elt F) → (⟨S50000x256, .f32⟩ : BufTy).Contents (Elt F) → (⟨S50000x256, .f32⟩ : BufTy).Contents (Elt F))
  :: StableHlo.nullary main_c_28 (constantI S_ 32 0#32)
  :: StableHlo.unary main_c_28 main_v144 (broadcastInDim S200000 ![] bcast_S_S200000 : (⟨S_, .i32⟩ : BufTy).Contents (Elt F) → (⟨S200000, .i32⟩ : BufTy).Contents (Elt F))
  :: StableHlo.binary main_arg5 main_v144 main_v145 (cmpi .slt : (⟨S200000, .i32⟩ : BufTy).Contents (Elt F) → (⟨S200000, .i32⟩ : BufTy).Contents (Elt F) → (⟨S200000, .i1⟩ : BufTy).Contents (Elt F))
  :: StableHlo.nullary main_c_29 (constantI S_ 32 50000#32)
  :: StableHlo.unary main_c_29 main_v146 (broadcastInDim S200000 ![] bcast_S_S200000 : (⟨S_, .i32⟩ : BufTy).Contents (Elt F) → (⟨S200000, .i32⟩ : BufTy).Contents (Elt F))
  :: StableHlo.binary main_arg5 main_v146 main_v147 (addi : (⟨S200000, .i32⟩ : BufTy).Contents (Elt F) → (⟨S200000, .i32⟩ : BufTy).Contents (Elt F) → (⟨S200000, .i32⟩ : BufTy).Contents (Elt F))
  :: StableHlo.ternary main_v145 main_v147 main_arg5 main_v148 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v148 main_v149 (broadcastInDim S200000x1 ![0] bcast_S200000_S200000x1_0 : (⟨S200000, .i32⟩ : BufTy).Contents (Elt F) → (⟨S200000x1, .i32⟩ : BufTy).Contents (Elt F))
  :: StableHlo.binary main_v114 main_v149 main_v150 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F))
  :: StableHlo.nullary main_cst_30 (constant S_ .f32 0x00000000#32)
  :: StableHlo.unary main_cst_30 main_v151 (broadcastInDim S50000x512 ![] bcast_S_S50000x512 : (⟨S_, .f32⟩ : BufTy).Contents (Elt F) → (⟨S50000x512, .f32⟩ : BufTy).Contents (Elt F))
  :: StableHlo.unary main_arg6 main_v152 (broadcastInDim S200000x1 ![0] bcast_S200000_S200000x1_0 : (⟨S200000, .i32⟩ : BufTy).Contents (Elt F) → (⟨S200000x1, .i32⟩ : BufTy).Contents (Elt F))
  :: StableHlo.ternary main_v151 main_v152 main_v150 main_v153 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F))
  :: StableHlo.unary main_arg18 main_v154 ((extractStridedSlice S1x512x256 ![2, 0, 0] · slices_S3x512x256_S1x512x256_2_0_0) : (⟨S3x512x256, .f32⟩ : BufTy).Contents (Elt F) → (⟨S1x512x256, .f32⟩ : BufTy).Contents (Elt F))
  :: StableHlo.reshape main_v154 main_v155 rfl shapeCasts_S1x512x256_S512x256
  :: StableHlo.binary main_v153 main_v155 main_v156 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
  :: StableHlo.binary main_v143 main_v156 main_v157 (addf : (⟨S50000x256, .f32⟩ : BufTy).Contents (Elt F) → (⟨S50000x256, .f32⟩ : BufTy).Contents (Elt F) → (⟨S50000x256, .f32⟩ : BufTy).Contents (Elt F))
  :: [] )

/-- The buffer each of them writes, in order. -/
abbrev seg2bW : List (Ref sig .tc) :=
  [main_v115, main_c_22, main_v116, main_v117, main_c_23, main_v118, main_v119, main_v120, main_v121, main_v122, main_cst_24, main_v123, main_v124, main_v125, main_v126, main_v127, main_v128, main_v129, main_c_25, main_v130, main_v131, main_c_26, main_v132, main_v133, main_v134, main_v135, main_v136, main_cst_27, main_v137, main_v138, main_v139, main_v140, main_v141, main_v142, main_v143, main_c_28, main_v144, main_v145, main_c_29, main_v146, main_v147, main_v148, main_v149, main_v150, main_cst_30, main_v151, main_v152, main_v153, main_v154, main_v155, main_v156, main_v157]

theorem seg2b_writes : WritesAt (seg2b : List (HloOp τ sig (Elt F))) seg2bW :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))))))))))))))))))))))))))))))

/-- A buffer none of them writes holds afterwards what it held before. -/
theorem seg2b_kept {a : Ref sig .tc} (h : a ∉ (seg2bW : List (Ref sig .tc))) (U : Valuation τ sig (Elt F)) :
    after seg2b U (a : DevRef τ sig) = U (a : DevRef τ sig) :=
  after_eq_take seg2b_writes 0 h U

/-- After the output layer's stretch its sum's buffer holds the output layer of the residual sum. -/
theorem read_zb (U : Valuation τ sig (Elt F)) :
    after seg2b U (main_v157 : DevRef τ sig)
      = Spec.denseR256 (U (main_v114 : DevRef τ sig))
          (Spec.msg (U (main_v114 : DevRef τ sig)) (U (main_arg1 : DevRef τ sig)) (U (main_arg2 : DevRef τ sig)))
          (Spec.msg (U (main_v114 : DevRef τ sig)) (U (main_arg3 : DevRef τ sig)) (U (main_arg4 : DevRef τ sig)))
          (Spec.msg (U (main_v114 : DevRef τ sig)) (U (main_arg5 : DevRef τ sig)) (U (main_arg6 : DevRef τ sig)))
          (U (main_arg17 : DevRef τ sig)) (U (main_arg18 : DevRef τ sig)) := by
  unfold Spec.denseR256 Spec.msg Spec.wrapE Spec.zeroX Spec.relW256_0 Spec.relW256_1 Spec.relW256_2
  after_results_simp
  rfl

end Cert.ReferenceIdeal.Hand

end
-- ==== Proof.Ref.Read2.lean ====
import proofs.«148293_j56684978372941_1_alg».proof.Proof.Ref.Read2a
import proofs.«148293_j56684978372941_1_alg».proof.Proof.Ref.Read2b

/-!
# The reference's third stretch: normalisation, residual step and output layer

The normalisation stretch and the output layer's stretch in a row.  The output layer's stretch reads the
arguments and the residual sum, which the normalisation stretch leaves and writes; so the output layer's
buffer ends holding the output layer of the residual step of the two earlier boundary buffers.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Hand

variable {F : FTy → Type} [FloatOps F]

/-- The 100 operations from the row statistics of the second layer's sum to the output layer's sum (writing `main_v157`). -/
abbrev seg2 : List (HloOp τ sig (Elt F)) := seg2a ++ seg2b

/-- The buffer each of them writes, in order. -/
abbrev seg2W : List (Ref sig .tc) := seg2aW ++ seg2bW

theorem seg2_writes : WritesAt (seg2 : List (HloOp τ sig (Elt F))) seg2W :=
  WritesAt.append seg2a_writes seg2b_writes

/-- A buffer none of them writes holds afterwards what it held before. -/
theorem seg2_kept {a : Ref sig .tc} (h : a ∉ (seg2W : List (Ref sig .tc))) (U : Valuation τ sig (Elt F)) :
    after seg2 U (a : DevRef τ sig) = U (a : DevRef τ sig) :=
  after_eq_take seg2_writes 0 h U

/-- After the third stretch the output layer's buffer holds the output layer of the residual step. -/
theorem read_z (U : Valuation τ sig (Elt F)) :
    after seg2 U (main_v157 : DevRef τ sig)
      = Spec.denseR256 (rx2 U)
          (Spec.msg (rx2 U) (U (main_arg1 : DevRef τ sig)) (U (main_arg2 : DevRef τ sig)))
          (Spec.msg (rx2 U) (U (main_arg3 : DevRef τ sig)) (U (main_arg4 : DevRef τ sig)))
          (Spec.msg (rx2 U) (U (main_arg5 : DevRef τ sig)) (U (main_arg6 : DevRef τ sig)))
          (U (main_arg17 : DevRef τ sig)) (U (main_arg18 : DevRef τ sig)) := by
  show after (seg2a ++ seg2b) U _ = _
  rw [after_append, read_zb (after seg2a U), read_x2 U,
    seg2a_kept (a := main_arg1) (by decide +kernel) U,
    seg2a_kept (a := main_arg2) (by decide +kernel) U,
    seg2a_kept (a := main_arg3) (by decide +kernel) U,
    seg2a_kept (a := main_arg4) (by decide +kernel) U,
    seg2a_kept (a := main_arg5) (by decide +kernel) U,
    seg2a_kept (a := main_arg6) (by decide +kernel) U,
    seg2a_kept (a := main_arg17) (by decide +kernel) U,
    seg2a_kept (a := main_arg18) (by decide +kernel) U]

end Cert.ReferenceIdeal.Hand

end
-- ==== Proof.Ref.Read3.lean ====
import proofs.«148293_j56684978372941_1_alg».proof.Proof.Ref.Ops
import proofs.«148293_j56684978372941_1_alg».proof.Proof.Spec.Defs
import proofs.«148293_j56684978372941_1_alg».proof.Proof.Gen.KernelIdeal

/-!
# The pair scorer's first layer and the endpoint degrees, read at the boundary

From the node outputs: the two endpoints' rows of every pair, their features, the scorer's rectified first
layer under its batch norm; and beside them the endpoints' clipped degrees as floats.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Hand

variable {F : FTy → Type} [FloatOps F]

/-- The 79 operations from the pair table's rows to the normalised first layer of the scorer (writing `main_v219`). -/
abbrev seg3 : List (HloOp τ sig (Elt F)) :=
  ( StableHlo.unary main_arg7 main_v158 ((extractStridedSlice S1x100000 ![0, 0] · slices_S2x100000_S1x100000_0_0) : (⟨S2x100000, .i32⟩ : BufTy).Contents (Elt F) → (⟨S1x100000, .i32⟩ : BufTy).Contents (Elt F))
  :: StableHlo.reshape main_v158 main_v159 rfl shapeCasts_S1x100000_S100000
  :: StableHlo.nullary main_c_31 (constantI S_ 32 0#32)
  :: StableHlo.unary main_c_31 main_v160 (broadcastInDim S100000 ![] bcast_S_S100000 : (⟨S_, .i32⟩ : BufTy).Contents (Elt F) → (⟨S100000, .i32⟩ : BufTy).Contents (Elt F))
  :: StableHlo.binary main_v159 main_v160 main_v161 (cmpi .slt : (⟨S100000, .i32⟩ : BufTy).Contents (Elt F) → (⟨S100000, .i32⟩ : BufTy).Contents (Elt F) → (⟨S100000, .i1⟩ : BufTy).Contents (Elt F))
  :: StableHlo.nullary main_c_32 (constantI S_ 32 50000#32)
  :: StableHlo.unary main_c_32 main_v162 (broadcastInDim S100000 ![] bcast_S_S100000 : (⟨S_, .i32⟩ : BufTy).Contents (Elt F) → (⟨S100000, .i32⟩ : BufTy).Contents (Elt F))
  :: StableHlo.binary main_v159 main_v162 main_v163 (addi : (⟨S100000, .i32⟩ : BufTy).Contents (Elt F) → (⟨S100000, .i32⟩ : BufTy).Contents (Elt F) → (⟨S100000, .i32⟩ : BufTy).Contents (Elt F))
  :: StableHlo.ternary main_v161 main_v163 main_v159 main_v164 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v164 main_v165 (broadcastInDim S100000x1 ![0] bcast_S100000_S100000x1_0 : (⟨S100000, .i32⟩ : BufTy).Contents (Elt F) → (⟨S100000x1, .i32⟩ : BufTy).Contents (Elt F))
  :: StableHlo.binary main_v157 main_v165 main_v166 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F))
  :: StableHlo.unary main_arg7 main_v167 ((extractStridedSlice S1x100000 ![1, 0] · slices_S2x100000_S1x100000_1_0) : (⟨S2x100000, .i32⟩ : BufTy).Contents (Elt F) → (⟨S1x100000, .i32⟩ : BufTy).Contents (Elt F))
  :: StableHlo.reshape main_v167 main_v168 rfl shapeCasts_S1x100000_S100000
  :: StableHlo.nullary main_c_33 (constantI S_ 32 0#32)
  :: StableHlo.unary main_c_33 main_v169 (broadcastInDim S100000 ![] bcast_S_S100000 : (⟨S_, .i32⟩ : BufTy).Contents (Elt F) → (⟨S100000, .i32⟩ : BufTy).Contents (Elt F))
  :: StableHlo.binary main_v168 main_v169 main_v170 (cmpi .slt : (⟨S100000, .i32⟩ : BufTy).Contents (Elt F) → (⟨S100000, .i32⟩ : BufTy).Contents (Elt F) → (⟨S100000, .i1⟩ : BufTy).Contents (Elt F))
  :: StableHlo.nullary main_c_34 (constantI S_ 32 50000#32)
  :: StableHlo.unary main_c_34 main_v171 (broadcastInDim S100000 ![] bcast_S_S100000 : (⟨S_, .i32⟩ : BufTy).Contents (Elt F) → (⟨S100000, .i32⟩ : BufTy).Contents (Elt F))
  :: StableHlo.binary main_v168 main_v171 main_v172 (addi : (⟨S100000, .i32⟩ : BufTy).Contents (Elt F) → (⟨S100000, .i32⟩ : BufTy).Contents (Elt F) → (⟨S100000, .i32⟩ : BufTy).Contents (Elt F))
  :: StableHlo.ternary main_v170 main_v172 main_v168 main_v173 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v173 main_v174 (broadcastInDim S100000x1 ![0] bcast_S100000_S100000x1_0 : (⟨S100000, .i32⟩ : BufTy).Contents (Elt F) → (⟨S100000x1, .i32⟩ : BufTy).Contents (Elt F))
  :: StableHlo.binary main_v157 main_v174 main_v175 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F))
  :: StableHlo.unary main_arg7 main_v176 ((extractStridedSlice S1x100000 ![0, 0] · slices_S2x100000_S1x100000_0_0) : (⟨S2x100000, .i32⟩ : BufTy).Contents (Elt F) → (⟨S1x100000, .i32⟩ : BufTy).Contents (Elt F))
  :: StableHlo.reshape main_v176 main_v177 rfl shapeCasts_S1x100000_S100000
  :: StableHlo.nullary main_c_35 (constantI S_ 32 0#32)
  :: StableHlo.unary main_c_35 main_v178 (broadcastInDim S100000 ![] bcast_S_S100000 : (⟨S_, .i32⟩ : BufTy).Contents (Elt F) → (⟨S100000, .i32⟩ : BufTy).Contents (Elt F))
  :: StableHlo.binary main_v177 main_v178 main_v179 (cmpi .slt : (⟨S100000, .i32⟩ : BufTy).Contents (Elt F) → (⟨S100000, .i32⟩ : BufTy).Contents (Elt F) → (⟨S100000, .i1⟩ : BufTy).Contents (Elt F))
  :: StableHlo.nullary main_c_36 (constantI S_ 32 50000#32)
  :: StableHlo.unary main_c_36 main_v180 (broadcastInDim S100000 ![] bcast_S_S100000 : (⟨S_, .i32⟩ : BufTy).Contents (Elt F) → (⟨S100000, .i32⟩ : BufTy).Contents (Elt F))
  :: StableHlo.binary main_v177 main_v180 main_v181 (addi : (⟨S100000, .i32⟩ : BufTy).Contents (Elt F) → (⟨S100000, .i32⟩ : BufTy).Contents (Elt F) → (⟨S100000, .i32⟩ : BufTy).Contents (Elt F))
  :: StableHlo.ternary main_v179 main_v181 main_v177 main_v182 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v182 main_v183 (broadcastInDim S100000x1 ![0] bcast_S100000_S100000x1_0 : (⟨S100000, .i32⟩ : BufTy).Contents (Elt F) → (⟨S100000x1, .i32⟩ : BufTy).Contents (Elt F))
  :: StableHlo.binary main_arg8 main_v183 main_v184 ((fun x i => Host.gather gather_S50000_S100000x1_S100000_n_0_n_n_0_1_1 x i) : (⟨S50000, .i32⟩ : BufTy).Contents (Elt F) → (⟨S100000x1, .i32⟩ : BufTy).Contents (Elt F) → (⟨S100000, .i32⟩ : BufTy).Contents (Elt F))
  :: StableHlo.nullary main_c_37 (constantI S_ 32 1#32)
  :: StableHlo.TRef.unary (.of main_c_37 : StableHlo.TRef sig ⟨S_, .i32⟩) main_call3.v0 id
  :: StableHlo.TRef.unary main_call3.v0 main_call3.v1 (broadcastInDim S100000 ![] bcast_S_S100000)
  :: StableHlo.TRef.binary main_call3.v1 (.of main_v184 : StableHlo.TRef sig ⟨S100000, .i32⟩) main_call3.v2 maxsi
  :: StableHlo.unary main_v185 main_v186 (sitofp .f32 : (⟨S100000, .i32⟩ : BufTy).Contents (Elt F) → (⟨S100000, .f32⟩ : BufTy).Contents (Elt F))
  :: StableHlo.unary main_arg7 main_v187 ((extractStridedSlice S1x100000 ![1, 0] · slices_S2x100000_S1x100000_1_0) : (⟨S2x100000, .i32⟩ : BufTy).Contents (Elt F) → (⟨S1x100000, .i32⟩ : BufTy).Contents (Elt F))
  :: StableHlo.reshape main_v187 main_v188 rfl shapeCasts_S1x100000_S100000
  :: StableHlo.nullary main_c_38 (constantI S_ 32 0#32)
  :: StableHlo.unary main_c_38 main_v189 (broadcastInDim S100000 ![] bcast_S_S100000 : (⟨S_, .i32⟩ : BufTy).Contents (Elt F) → (⟨S100000, .i32⟩ : BufTy).Contents (Elt F))
  :: StableHlo.binary main_v188 main_v189 main_v190 (cmpi .slt : (⟨S100000, .i32⟩ : BufTy).Contents (Elt F) → (⟨S100000, .i32⟩ : BufTy).Contents (Elt F) → (⟨S100000, .i1⟩ : BufTy).Contents (Elt F))
  :: StableHlo.nullary main_c_39 (constantI S_ 32 50000#32)
  :: StableHlo.unary main_c_39 main_v191 (broadcastInDim S100000 ![] bcast_S_S100000 : (⟨S_, .i32⟩ : BufTy).Contents (Elt F) → (⟨S100000, .i32⟩ : BufTy).Contents (Elt F))
  :: StableHlo.binary main_v188 main_v191 main_v192 (addi : (⟨S100000, .i32⟩ : BufTy).Contents (Elt F) → (⟨S100000, .i32⟩ : BufTy).Contents (Elt F) → (⟨S100000, .i32⟩ : BufTy).Contents (Elt F))
  :: StableHlo.ternary main_v190 main_v192 main_v188 main_v193 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v193 main_v194 (broadcastInDim S100000x1 ![0] bcast_S100000_S100000x1_0 : (⟨S100000, .i32⟩ : BufTy).Contents (Elt F) → (⟨S100000x1, .i32⟩ : BufTy).Contents (Elt F))
  :: StableHlo.binary main_arg8 main_v194 main_v195 ((fun x i => Host.gather gather_S50000_S100000x1_S100000_n_0_n_n_0_1_1 x i) : (⟨S50000, .i32⟩ : BufTy).Contents (Elt F) → (⟨S100000x1, .i32⟩ : BufTy).Contents (Elt F) → (⟨S100000, .i32⟩ : BufTy).Contents (Elt F))
  :: StableHlo.nullary main_c_40 (constantI S_ 32 1#32)
  :: StableHlo.TRef.unary (.of main_c_40 : StableHlo.TRef sig ⟨S_, .i32⟩) main_call4.v0 id
  :: StableHlo.TRef.unary main_call4.v0 main_call4.v1 (broadcastInDim S100000 ![] bcast_S_S100000)
  :: StableHlo.TRef.binary main_call4.v1 (.of main_v195 : StableHlo.TRef sig ⟨S100000, .i32⟩) main_call4.v2 maxsi
  :: StableHlo.unary main_v196 main_v197 (sitofp .f32 : (⟨S100000, .i32⟩ : BufTy).Contents (Elt F) → (⟨S100000, .f32⟩ : BufTy).Contents (Elt F))
  :: StableHlo.binary main_v166 main_v175 main_v198 (mulf : (⟨S100000x256, .f32⟩ : BufTy).Contents (Elt F) → (⟨S100000x256, .f32⟩ : BufTy).Contents (Elt F) → (⟨S100000x256, .f32⟩ : BufTy).Contents (Elt F))
  :: StableHlo.nary ![main_v166, main_v175, main_v198] main_v199 (fun u => concatenate S100000x768 1 [⟨S100000x256, u 0⟩, ⟨S100000x256, u 1⟩, ⟨S100000x256, u 2⟩] concatenates_S100000x256_S100000x256_S100000x256_S100000x768_d1)
  :: StableHlo.binary main_v199 main_arg19 main_v200 ((fun l r => Host.dotGeneral dot_S100000x768_S768x256_S100000x256_1_0_0_1_n_n none l r) : (⟨S100000x768, .f32⟩ : BufTy).Contents (Elt F) → (⟨S768x256, .f32⟩ : BufTy).Contents (Elt F) → (⟨S100000x256, .f32⟩ : BufTy).Contents (Elt F))
  :: StableHlo.unary main_arg20 main_v201 (broadcastInDim S1x256 ![1] bcast_S256_S1x256_1 : (⟨S256, .f32⟩ : BufTy).Contents (Elt F) → (⟨S1x256, .f32⟩ : BufTy).Contents (Elt F))
  :: StableHlo.unary main_v201 main_v202 (broadcastInDim S100000x256 ![0, 1] bcast_S1x256_S100000x256_0_1 : (⟨S1x256, .f32⟩ : BufTy).Contents (Elt F) → (⟨S100000x256, .f32⟩ : BufTy).Contents (Elt F))
  :: StableHlo.binary main_v200 main_v202 main_v203 (addf : (⟨S100000x256, .f32⟩ : BufTy).Contents (Elt F) → (⟨S100000x256, .f32⟩ : BufTy).Contents (Elt F) → (⟨S100000x256, .f32⟩ : BufTy).Contents (Elt F))
  :: StableHlo.TRef.nullary main_call5.cst (constant S_ .f32 0x00000000#32)
  :: StableHlo.TRef.unary main_call5.cst main_call5.v0 (broadcastInDim S100000x256 ![] bcast_S_S100000x256)
  :: StableHlo.TRef.binary (.of main_v203 : StableHlo.TRef sig ⟨S100000x256, .f32⟩) main_call5.v0 main_call5.v1 maximumf
  :: StableHlo.unary main_arg23 main_v205 (broadcastInDim S1x256 ![1] bcast_S256_S1x256_1 : (⟨S256, .f32⟩ : BufTy).Contents (Elt F) → (⟨S1x256, .f32⟩ : BufTy).Contents (Elt F))
  :: StableHlo.unary main_v205 main_v206 (broadcastInDim S100000x256 ![0, 1] bcast_S1x256_S100000x256_0_1 : (⟨S1x256, .f32⟩ : BufTy).Contents (Elt F) → (⟨S100000x256, .f32⟩ : BufTy).Contents (Elt F))
  :: StableHlo.binary main_v204 main_v206 main_v207 (subf : (⟨S100000x256, .f32⟩ : BufTy).Contents (Elt F) → (⟨S100000x256, .f32⟩ : BufTy).Contents (Elt F) → (⟨S100000x256, .f32⟩ : BufTy).Contents (Elt F))
  :: StableHlo.nullary main_cst_41 (constant S_ .f32 0x3727C5AC#32)
  :: StableHlo.unary main_cst_41 main_v208 (broadcastInDim S256 ![] bcast_S_S256 : (⟨S_, .f32⟩ : BufTy).Contents (Elt F) → (⟨S256, .f32⟩ : BufTy).Contents (Elt F))
  :: StableHlo.binary main_arg24 main_v208 main_v209 (addf : (⟨S256, .f32⟩ : BufTy).Contents (Elt F) → (⟨S256, .f32⟩ : BufTy).Contents (Elt F) → (⟨S256, .f32⟩ : BufTy).Contents (Elt F))
  :: StableHlo.unary main_v209 main_v210 (Host.rsqrt : (⟨S256, .f32⟩ : BufTy).Contents (Elt F) → (⟨S256, .f32⟩ : BufTy).Contents (Elt F))
  :: StableHlo.unary main_v210 main_v211 (broadcastInDim S1x256 ![1] bcast_S256_S1x256_1 : (⟨S256, .f32⟩ : BufTy).Contents (Elt F) → (⟨S1x256, .f32⟩ : BufTy).Contents (Elt F))
  :: StableHlo.unary main_v211 main_v212 (broadcastInDim S100000x256 ![0, 1] bcast_S1x256_S100000x256_0_1 : (⟨S1x256, .f32⟩ : BufTy).Contents (Elt F) → (⟨S100000x256, .f32⟩ : BufTy).Contents (Elt F))
  :: StableHlo.binary main_v207 main_v212 main_v213 (mulf : (⟨S100000x256, .f32⟩ : BufTy).Contents (Elt F) → (⟨S100000x256, .f32⟩ : BufTy).Contents (Elt F) → (⟨S100000x256, .f32⟩ : BufTy).Contents (Elt F))
  :: StableHlo.unary main_arg21 main_v214 (broadcastInDim S1x256 ![1] bcast_S256_S1x256_1 : (⟨S256, .f32⟩ : BufTy).Contents (Elt F) → (⟨S1x256, .f32⟩ : BufTy).Contents (Elt F))
  :: StableHlo.unary main_v214 main_v215 (broadcastInDim S100000x256 ![0, 1] bcast_S1x256_S100000x256_0_1 : (⟨S1x256, .f32⟩ : BufTy).Contents (Elt F) → (⟨S100000x256, .f32⟩ : BufTy).Contents (Elt F))
  :: StableHlo.binary main_v213 main_v215 main_v216 (mulf : (⟨S100000x256, .f32⟩ : BufTy).Contents (Elt F) → (⟨S100000x256, .f32⟩ : BufTy).Contents (Elt F) → (⟨S100000x256, .f32⟩ : BufTy).Contents (Elt F))
  :: StableHlo.unary main_arg22 main_v217 (broadcastInDim S1x256 ![1] bcast_S256_S1x256_1 : (⟨S256, .f32⟩ : BufTy).Contents (Elt F) → (⟨S1x256, .f32⟩ : BufTy).Contents (Elt F))
  :: StableHlo.unary main_v217 main_v218 (broadcastInDim S100000x256 ![0, 1] bcast_S1x256_S100000x256_0_1 : (⟨S1x256, .f32⟩ : BufTy).Contents (Elt F) → (⟨S100000x256, .f32⟩ : BufTy).Contents (Elt F))
  :: StableHlo.binary main_v216 main_v218 main_v219 (addf : (⟨S100000x256, .f32⟩ : BufTy).Contents (Elt F) → (⟨S100000x256, .f32⟩ : BufTy).Contents (Elt F) → (⟨S100000x256, .f32⟩ : BufTy).Contents (Elt F))
  :: [] )

/-- The buffer each of them writes, in order. -/
abbrev seg3W : List (Ref sig .tc) :=
  [main_v158, main_v159, main_c_31, main_v160, main_v161, main_c_32, main_v162, main_v163, main_v164, main_v165, main_v166, main_v167, main_v168, main_c_33, main_v169, main_v170, main_c_34, main_v171, main_v172, main_v173, main_v174, main_v175, main_v176, main_v177, main_c_35, main_v178, main_v179, main_c_36, main_v180, main_v181, main_v182, main_v183, main_v184, main_c_37, main_call3_v0, main_call3_v1, main_v185, main_v186, main_v187, main_v188, main_c_38, main_v189, main_v190, main_c_39, main_v191, main_v192, main_v193, main_v194, main_v195, main_c_40, main_call4_v0, main_call4_v1, main_v196, main_v197, main_v198, main_v199, main_v200, main_v201, main_v202, main_v203, main_call5_cst, main_call5_v0, main_v204, main_v205, main_v206, main_v207, main_cst_41, main_v208, main_v209, main_v210, main_v211, main_v212, main_v213, main_v214, main_v215, main_v216, main_v217, main_v218, main_v219]

theorem seg3_writes : WritesAt (seg3 : List (HloOp τ sig (Elt F))) seg3W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil)))))))))))))))))))))))))))))))))))))))))))))))))))))))))))))))))))))))))))))))

/-- A buffer none of them writes holds afterwards what it held before. -/
theorem seg3_kept {a : Ref sig .tc} (h : a ∉ (seg3W : List (Ref sig .tc))) (U : Valuation τ sig (Elt F)) :
    after seg3 U (a : DevRef τ sig) = U (a : DevRef τ sig) :=
  after_eq_take seg3_writes 0 h U

/-- After the fourth stretch the normalised hidden layer's buffer holds the scorer's first layer of the pair features. -/
theorem read_h1 (U : Valuation τ sig (Elt F)) :
    after seg3 U (main_v219 : DevRef τ sig)
      = Spec.h1R (Spec.feats (Spec.gatherZ (U (main_v157 : DevRef τ sig)) (Spec.pairRow0 (U (main_arg7 : DevRef τ sig))))
                            (Spec.gatherZ (U (main_v157 : DevRef τ sig)) (Spec.pairRow1 (U (main_arg7 : DevRef τ sig)))))
          (U (main_arg19 : DevRef τ sig)) (U (main_arg20 : DevRef τ sig)) (U (main_arg21 : DevRef τ sig)) (U (main_arg22 : DevRef τ sig)) (U (main_arg23 : DevRef τ sig)) (U (main_arg24 : DevRef τ sig)) := by
  unfold Spec.h1R Spec.rows256 Spec.feats Spec.gatherZ Spec.pairRow0 Spec.pairRow1 Spec.wrapP
  after_results_simp
  rfl

/-- The first endpoints' degrees, clipped below at one, as floats. -/
theorem read_sdeg (U : Valuation τ sig (Elt F)) :
    after seg3 U (main_v186 : DevRef τ sig) = Spec.degF (U (main_arg8 : DevRef τ sig)) (Spec.pairRow0 (U (main_arg7 : DevRef τ sig))) := by
  unfold Spec.degF Spec.pairRow0 Spec.wrapP
  after_results_simp
  rfl

/-- The second endpoints' degrees, clipped below at one, as floats. -/
theorem read_ddeg (U : Valuation τ sig (Elt F)) :
    after seg3 U (main_v197 : DevRef τ sig) = Spec.degF (U (main_arg8 : DevRef τ sig)) (Spec.pairRow1 (U (main_arg7 : DevRef τ sig))) := by
  unfold Spec.degF Spec.pairRow1 Spec.wrapP
  after_results_simp
  rfl

end Cert.ReferenceIdeal.Hand

end
-- ==== Proof.Ref.Read4.lean ====
import proofs.«148293_j56684978372941_1_alg».proof.Proof.Ref.Ops
import proofs.«148293_j56684978372941_1_alg».proof.Proof.Spec.Defs
import proofs.«148293_j56684978372941_1_alg».proof.Proof.Gen.KernelIdeal

/-!
# The degree-corrected score, read at the end

From the scorer's normalised hidden layer and the two endpoints' degrees: the second layer's score, less the
rectified coefficients times the degrees' logarithms, over the product of the degrees' square roots.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Hand

variable {F : FTy → Type} [FloatOps F]

/-- The 24 operations of the score's tail (the last writing the result `main_v240`). -/
abbrev seg4 : List (HloOp τ sig (Elt F)) :=
  ( StableHlo.binary main_v219 main_arg25 main_v220 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F))
  :: StableHlo.unary main_arg26 main_v221 (broadcastInDim S1x1 ![1] bcast_S1_S1x1_1 : (⟨S1, .f32⟩ : BufTy).Contents (Elt F) → (⟨S1x1, .f32⟩ : BufTy).Contents (Elt F))
  :: StableHlo.unary main_v221 main_v222 (broadcastInDim S100000x1 ![0, 1] bcast_S1x1_S100000x1_0_1 : (⟨S1x1, .f32⟩ : BufTy).Contents (Elt F) → (⟨S100000x1, .f32⟩ : BufTy).Contents (Elt F))
  :: StableHlo.binary main_v220 main_v222 main_v223 (addf : (⟨S100000x1, .f32⟩ : BufTy).Contents (Elt F) → (⟨S100000x1, .f32⟩ : BufTy).Contents (Elt F) → (⟨S100000x1, .f32⟩ : BufTy).Contents (Elt F))
  :: StableHlo.reshape main_v223 main_v224 rfl shapeCasts_S100000x1_S100000
  :: StableHlo.TRef.nullary main_call6.cst (constant S_ .f32 0x00000000#32)
  :: StableHlo.TRef.binary (.of main_arg27 : StableHlo.TRef sig ⟨S_, .f32⟩) main_call6.cst main_call6.v0 maximumf
  :: StableHlo.unary main_v186 main_v226 (Host.log : (⟨S100000, .f32⟩ : BufTy).Contents (Elt F) → (⟨S100000, .f32⟩ : BufTy).Contents (Elt F))
  :: StableHlo.unary main_v225 main_v227 (broadcastInDim S100000 ![] bcast_S_S100000 : (⟨S_, .f32⟩ : BufTy).Contents (Elt F) → (⟨S100000, .f32⟩ : BufTy).Contents (Elt F))
  :: StableHlo.binary main_v227 main_v226 main_v228 (mulf : (⟨S100000, .f32⟩ : BufTy).Contents (Elt F) → (⟨S100000, .f32⟩ : BufTy).Contents (Elt F) → (⟨S100000, .f32⟩ : BufTy).Contents (Elt F))
  :: StableHlo.binary main_v224 main_v228 main_v229 (subf : (⟨S100000, .f32⟩ : BufTy).Contents (Elt F) → (⟨S100000, .f32⟩ : BufTy).Contents (Elt F) → (⟨S100000, .f32⟩ : BufTy).Contents (Elt F))
  :: StableHlo.TRef.nullary main_call7.cst (constant S_ .f32 0x00000000#32)
  :: StableHlo.TRef.binary (.of main_arg28 : StableHlo.TRef sig ⟨S_, .f32⟩) main_call7.cst main_call7.v0 maximumf
  :: StableHlo.unary main_v197 main_v231 (Host.log : (⟨S100000, .f32⟩ : BufTy).Contents (Elt F) → (⟨S100000, .f32⟩ : BufTy).Contents (Elt F))
  :: StableHlo.unary main_v230 main_v232 (broadcastInDim S100000 ![] bcast_S_S100000 : (⟨S_, .f32⟩ : BufTy).Contents (Elt F) → (⟨S100000, .f32⟩ : BufTy).Contents (Elt F))
  :: StableHlo.binary main_v232 main_v231 main_v233 (mulf : (⟨S100000, .f32⟩ : BufTy).Contents (Elt F) → (⟨S100000, .f32⟩ : BufTy).Contents (Elt F) → (⟨S100000, .f32⟩ : BufTy).Contents (Elt F))
  :: StableHlo.binary main_v229 main_v233 main_v234 (subf : (⟨S100000, .f32⟩ : BufTy).Contents (Elt F) → (⟨S100000, .f32⟩ : BufTy).Contents (Elt F) → (⟨S100000, .f32⟩ : BufTy).Contents (Elt F))
  :: StableHlo.unary main_v186 main_v235 (Host.sqrt : (⟨S100000, .f32⟩ : BufTy).Contents (Elt F) → (⟨S100000, .f32⟩ : BufTy).Contents (Elt F))
  :: StableHlo.unary main_v197 main_v236 (Host.sqrt : (⟨S100000, .f32⟩ : BufTy).Contents (Elt F) → (⟨S100000, .f32⟩ : BufTy).Contents (Elt F))
  :: StableHlo.binary main_v235 main_v236 main_v237 (mulf : (⟨S100000, .f32⟩ : BufTy).Contents (Elt F) → (⟨S100000, .f32⟩ : BufTy).Contents (Elt F) → (⟨S100000, .f32⟩ : BufTy).Contents (Elt F))
  :: StableHlo.nullary main_cst_42 (constant S_ .f32 0x322BCC77#32)
  :: StableHlo.unary main_cst_42 main_v238 (broadcastInDim S100000 ![] bcast_S_S100000 : (⟨S_, .f32⟩ : BufTy).Contents (Elt F) → (⟨S100000, .f32⟩ : BufTy).Contents (Elt F))
  :: StableHlo.binary main_v237 main_v238 main_v239 (addf : (⟨S100000, .f32⟩ : BufTy).Contents (Elt F) → (⟨S100000, .f32⟩ : BufTy).Contents (Elt F) → (⟨S100000, .f32⟩ : BufTy).Contents (Elt F))
  :: StableHlo.binary main_v234 main_v239 main_v240 (Host.divf : (⟨S100000, .f32⟩ : BufTy).Contents (Elt F) → (⟨S100000, .f32⟩ : BufTy).Contents (Elt F) → (⟨S100000, .f32⟩ : BufTy).Contents (Elt F))
  :: [] )

/-- The buffer each of them writes, in order. -/
abbrev seg4W : List (Ref sig .tc) :=
  [main_v220, main_v221, main_v222, main_v223, main_v224, main_call6_cst, main_v225, main_v226, main_v227, main_v228, main_v229, main_call7_cst, main_v230, main_v231, main_v232, main_v233, main_v234, main_v235, main_v236, main_v237, main_cst_42, main_v238, main_v239, main_v240]

theorem seg4_writes : WritesAt (seg4 : List (HloOp τ sig (Elt F))) seg4W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (List.Forall₂.nil))))))))))))))))))))))))

/-- A buffer none of them writes holds afterwards what it held before. -/
theorem seg4_kept {a : Ref sig .tc} (h : a ∉ (seg4W : List (Ref sig .tc))) (U : Valuation τ sig (Elt F)) :
    after seg4 U (a : DevRef τ sig) = U (a : DevRef τ sig) :=
  after_eq_take seg4_writes 0 h U

/-- After the last stretch the result buffer holds the degree-corrected score. -/
theorem read_score (U : Valuation τ sig (Elt F)) :
    after seg4 U (main_v240 : DevRef τ sig)
      = Spec.scoreTail (U (main_v219 : DevRef τ sig)) (U (main_arg25 : DevRef τ sig)) (U (main_arg26 : DevRef τ sig)) (U (main_arg27 : DevRef τ sig)) (U (main_arg28 : DevRef τ sig)) (U (main_v186 : DevRef τ sig)) (U (main_v197 : DevRef τ sig)) := by
  unfold Spec.scoreTail Spec.mlpScore Spec.relu0
  after_results_simp
  rfl

end Cert.ReferenceIdeal.Hand

end
-- ==== Proof.Ref.Read.lean ====
import proofs.«148293_j56684978372941_1_alg».proof.Proof.Ref.Read0
import proofs.«148293_j56684978372941_1_alg».proof.Proof.Ref.Read1
import proofs.«148293_j56684978372941_1_alg».proof.Proof.Ref.Read2
import proofs.«148293_j56684978372941_1_alg».proof.Proof.Ref.Read3
import proofs.«148293_j56684978372941_1_alg».proof.Proof.Ref.Read4

/-!
# The reference read layer by layer

The line of operations cut at the five layer boundaries; the buffers after each cut, `RW1 … RW5`, the last
being the buffers after the whole line.  An argument is never written, so every cut finds the arguments as
launched; each boundary buffer is then the next layer, in the shared vocabulary, of the previous boundary
buffer and the arguments.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Hand

variable {F : FTy → Type} [FloatOps F]

/-- The line is its five stretches in a row: the same operations, cut at the layer boundaries instead of the windows. -/
theorem ops_eq_segs : (ops : List (HloOp τ sig (Elt F))) = seg0 ++ (seg1 ++ (seg2 ++ (seg3 ++ seg4))) := by
  chain_rfl

/-- The buffers as launched. -/
def RW0 (V : Valuation τ sig (Elt F)) : Valuation τ sig (Elt F) := V
/-- The buffers after the first layer. -/
def RW1 (V : Valuation τ sig (Elt F)) : Valuation τ sig (Elt F) := after seg0 V
/-- The buffers after the second layer. -/
def RW2 (V : Valuation τ sig (Elt F)) : Valuation τ sig (Elt F) := after seg1 (RW1 V)
/-- The buffers after the output layer. -/
def RW3 (V : Valuation τ sig (Elt F)) : Valuation τ sig (Elt F) := after seg2 (RW2 V)
/-- The buffers after the scorer's first layer. -/
def RW4 (V : Valuation τ sig (Elt F)) : Valuation τ sig (Elt F) := after seg3 (RW3 V)
/-- The buffers after the score's tail: after the whole line. -/
def RW5 (V : Valuation τ sig (Elt F)) : Valuation τ sig (Elt F) := after seg4 (RW4 V)

theorem RW1_eq (V : Valuation τ sig (Elt F)) : RW1 V = after seg0 V := rfl
theorem RW2_eq (V : Valuation τ sig (Elt F)) : RW2 V = after seg1 (RW1 V) := rfl
theorem RW3_eq (V : Valuation τ sig (Elt F)) : RW3 V = after seg2 (RW2 V) := rfl
theorem RW4_eq (V : Valuation τ sig (Elt F)) : RW4 V = after seg3 (RW3 V) := rfl
theorem RW5_eq (V : Valuation τ sig (Elt F)) : RW5 V = after seg4 (RW4 V) := rfl

/-- The buffers after the whole line are the buffers after the last cut. -/
theorem after_ops (V : Valuation τ sig (Elt F)) : after ops V = RW5 V := by
  rw [ops_eq_segs, after_append, after_append, after_append, after_append]
  rfl

/-! ## What no stretch so far has written is as launched -/

theorem RW1_kept {a : Ref sig .tc} (h0 : a ∉ (seg0W : List (Ref sig .tc))) (V : Valuation τ sig (Elt F)) :
    RW1 V (a : DevRef τ sig) = V (a : DevRef τ sig) := seg0_kept h0 V
theorem RW2_kept {a : Ref sig .tc} (h0 : a ∉ (seg0W : List (Ref sig .tc))) (h1 : a ∉ (seg1W : List (Ref sig .tc)))
    (V : Valuation τ sig (Elt F)) : RW2 V (a : DevRef τ sig) = V (a : DevRef τ sig) :=
  (seg1_kept h1 (RW1 V)).trans (RW1_kept h0 V)
theorem RW3_kept {a : Ref sig .tc} (h0 : a ∉ (seg0W : List (Ref sig .tc))) (h1 : a ∉ (seg1W : List (Ref sig .tc)))
    (h2 : a ∉ (seg2W : List (Ref sig .tc))) (V : Valuation τ sig (Elt F)) : RW3 V (a : DevRef τ sig) = V (a : DevRef τ sig) :=
  (seg2_kept h2 (RW2 V)).trans (RW2_kept h0 h1 V)
theorem RW4_kept {a : Ref sig .tc} (h0 : a ∉ (seg0W : List (Ref sig .tc))) (h1 : a ∉ (seg1W : List (Ref sig .tc)))
    (h2 : a ∉ (seg2W : List (Ref sig .tc))) (h3 : a ∉ (seg3W : List (Ref sig .tc))) (V : Valuation τ sig (Elt F)) :
    RW4 V (a : DevRef τ sig) = V (a : DevRef τ sig) :=
  (seg3_kept h3 (RW3 V)).trans (RW3_kept h0 h1 h2 V)

/-- The second stretch does not write the first layer's output. -/
theorem RW2_x1 (V : Valuation τ sig (Elt F)) : RW2 V (main_v51 : DevRef τ sig) = RW1 V (main_v51 : DevRef τ sig) :=
  seg1_kept (by decide +kernel) (RW1 V)

/-! ## The boundary buffers -/

/-- The encoded node features of the launch. -/
abbrev x0 (V : Valuation τ sig (Elt F)) : FVec F Cert.KernelIdeal.S50000x512 .f32 :=
  Spec.encode (V (main_arg9 : DevRef τ sig)) (V (main_arg10 : DevRef τ sig)) (V (main_arg0 : DevRef τ sig))

/-- After the first cut: the rectified first layer of the encoded features. -/
theorem RW1_x1 (V : Valuation τ sig (Elt F)) :
    RW1 V (main_v51 : DevRef τ sig)
      = Spec.relu512 (Spec.denseR512 (x0 V)
          (Spec.msg (x0 V) (V (main_arg1 : DevRef τ sig)) (V (main_arg2 : DevRef τ sig)))
          (Spec.msg (x0 V) (V (main_arg3 : DevRef τ sig)) (V (main_arg4 : DevRef τ sig)))
          (Spec.msg (x0 V) (V (main_arg5 : DevRef τ sig)) (V (main_arg6 : DevRef τ sig)))
          (V (main_arg11 : DevRef τ sig)) (V (main_arg12 : DevRef τ sig))) :=
  read_x1 V

/-- After the second cut: the second layer of the first layer's output. -/
theorem RW2_h (V : Valuation τ sig (Elt F)) :
    RW2 V (main_v94 : DevRef τ sig)
      = Spec.denseR512 (RW1 V (main_v51 : DevRef τ sig))
          (Spec.msg (RW1 V (main_v51 : DevRef τ sig)) (V (main_arg1 : DevRef τ sig)) (V (main_arg2 : DevRef τ sig)))
          (Spec.msg (RW1 V (main_v51 : DevRef τ sig)) (V (main_arg3 : DevRef τ sig)) (V (main_arg4 : DevRef τ sig)))
          (Spec.msg (RW1 V (main_v51 : DevRef τ sig)) (V (main_arg5 : DevRef τ sig)) (V (main_arg6 : DevRef τ sig)))
          (V (main_arg13 : DevRef τ sig)) (V (main_arg14 : DevRef τ sig)) := by
  rw [RW2_eq, read_h (RW1 V), RW1_kept (a := main_arg1) (by decide +kernel) V,
    RW1_kept (a := main_arg2) (by decide +kernel) V,
    RW1_kept (a := main_arg3) (by decide +kernel) V,
    RW1_kept (a := main_arg4) (by decide +kernel) V,
    RW1_kept (a := main_arg5) (by decide +kernel) V,
    RW1_kept (a := main_arg6) (by decide +kernel) V,
    RW1_kept (a := main_arg13) (by decide +kernel) V,
    RW1_kept (a := main_arg14) (by decide +kernel) V]

/-- The node features entering the output layer. -/
abbrev x2 (V : Valuation τ sig (Elt F)) : FVec F Cert.KernelIdeal.S50000x512 .f32 :=
  Spec.residual (RW1 V (main_v51 : DevRef τ sig)) (RW2 V (main_v94 : DevRef τ sig)) (V (main_arg15 : DevRef τ sig)) (V (main_arg16 : DevRef τ sig))

/-- After the third cut: the output layer of the residual step. -/
theorem RW3_z (V : Valuation τ sig (Elt F)) :
    RW3 V (main_v157 : DevRef τ sig)
      = Spec.denseR256 (x2 V)
          (Spec.msg (x2 V) (V (main_arg1 : DevRef τ sig)) (V (main_arg2 : DevRef τ sig)))
          (Spec.msg (x2 V) (V (main_arg3 : DevRef τ sig)) (V (main_arg4 : DevRef τ sig)))
          (Spec.msg (x2 V) (V (main_arg5 : DevRef τ sig)) (V (main_arg6 : DevRef τ sig)))
          (V (main_arg17 : DevRef τ sig)) (V (main_arg18 : DevRef τ sig)) := by
  rw [RW3_eq, read_z (RW2 V)]
  unfold rx2 x2
  rw [RW2_x1, RW2_kept (a := main_arg1) (by decide +kernel) (by decide +kernel) V,
    RW2_kept (a := main_arg2) (by decide +kernel) (by decide +kernel) V,
    RW2_kept (a := main_arg3) (by decide +kernel) (by decide +kernel) V,
    RW2_kept (a := main_arg4) (by decide +kernel) (by decide +kernel) V,
    RW2_kept (a := main_arg5) (by decide +kernel) (by decide +kernel) V,
    RW2_kept (a := main_arg6) (by decide +kernel) (by decide +kernel) V,
    RW2_kept (a := main_arg15) (by decide +kernel) (by decide +kernel) V,
    RW2_kept (a := main_arg16) (by decide +kernel) (by decide +kernel) V,
    RW2_kept (a := main_arg17) (by decide +kernel) (by decide +kernel) V,
    RW2_kept (a := main_arg18) (by decide +kernel) (by decide +kernel) V]

/-- After the fourth cut: the scorer's first layer of the pair features of the node outputs. -/
theorem RW4_h1 (V : Valuation τ sig (Elt F)) :
    RW4 V (main_v219 : DevRef τ sig)
      = Spec.h1R (Spec.feats (Spec.gatherZ (RW3 V (main_v157 : DevRef τ sig)) (Spec.pairRow0 (V (main_arg7 : DevRef τ sig))))
                            (Spec.gatherZ (RW3 V (main_v157 : DevRef τ sig)) (Spec.pairRow1 (V (main_arg7 : DevRef τ sig)))))
          (V (main_arg19 : DevRef τ sig)) (V (main_arg20 : DevRef τ sig)) (V (main_arg21 : DevRef τ sig)) (V (main_arg22 : DevRef τ sig)) (V (main_arg23 : DevRef τ sig)) (V (main_arg24 : DevRef τ sig)) := by
  rw [RW4_eq, read_h1 (RW3 V), RW3_kept (a := main_arg7) (by decide +kernel) (by decide +kernel) (by decide +kernel) V,
    RW3_kept (a := main_arg19) (by decide +kernel) (by decide +kernel) (by decide +kernel) V,
    RW3_kept (a := main_arg20) (by decide +kernel) (by decide +kernel) (by decide +kernel) V,
    RW3_kept (a := main_arg21) (by decide +kernel) (by decide +kernel) (by decide +kernel) V,
    RW3_kept (a := main_arg22) (by decide +kernel) (by decide +kernel) (by decide +kernel) V,
    RW3_kept (a := main_arg23) (by decide +kernel) (by decide +kernel) (by decide +kernel) V,
    RW3_kept (a := main_arg24) (by decide +kernel) (by decide +kernel) (by decide +kernel) V]

/-- After the fourth cut: the first endpoints' clipped degrees. -/
theorem RW4_sdeg (V : Valuation τ sig (Elt F)) :
    RW4 V (main_v186 : DevRef τ sig) = Spec.degF (V (main_arg8 : DevRef τ sig)) (Spec.pairRow0 (V (main_arg7 : DevRef τ sig))) := by
  rw [RW4_eq, read_sdeg (RW3 V), RW3_kept (a := main_arg7) (by decide +kernel) (by decide +kernel) (by decide +kernel) V,
    RW3_kept (a := main_arg8) (by decide +kernel) (by decide +kernel) (by decide +kernel) V]

/-- After the fourth cut: the second endpoints' clipped degrees. -/
theorem RW4_ddeg (V : Valuation τ sig (Elt F)) :
    RW4 V (main_v197 : DevRef τ sig) = Spec.degF (V (main_arg8 : DevRef τ sig)) (Spec.pairRow1 (V (main_arg7 : DevRef τ sig))) := by
  rw [RW4_eq, read_ddeg (RW3 V), RW3_kept (a := main_arg7) (by decide +kernel) (by decide +kernel) (by decide +kernel) V,
    RW3_kept (a := main_arg8) (by decide +kernel) (by decide +kernel) (by decide +kernel) V]

/-- After the last cut: the degree-corrected score of the scorer's first layer. -/
theorem RW5_score (V : Valuation τ sig (Elt F)) :
    RW5 V (main_v240 : DevRef τ sig)
      = Spec.scoreTail (RW4 V (main_v219 : DevRef τ sig)) (V (main_arg25 : DevRef τ sig)) (V (main_arg26 : DevRef τ sig)) (V (main_arg27 : DevRef τ sig)) (V (main_arg28 : DevRef τ sig))
          (Spec.degF (V (main_arg8 : DevRef τ sig)) (Spec.pairRow0 (V (main_arg7 : DevRef τ sig)))) (Spec.degF (V (main_arg8 : DevRef τ sig)) (Spec.pairRow1 (V (main_arg7 : DevRef τ sig)))) := by
  rw [RW5_eq, read_score (RW4 V), RW4_sdeg, RW4_ddeg, RW4_kept (a := main_arg25) (by decide +kernel) (by decide +kernel) (by decide +kernel) (by decide +kernel) V,
    RW4_kept (a := main_arg26) (by decide +kernel) (by decide +kernel) (by decide +kernel) (by decide +kernel) V,
    RW4_kept (a := main_arg27) (by decide +kernel) (by decide +kernel) (by decide +kernel) (by decide +kernel) V,
    RW4_kept (a := main_arg28) (by decide +kernel) (by decide +kernel) (by decide +kernel) (by decide +kernel) V]

/-- The result of the whole line, read through the five cuts. -/
theorem after_ops_result (V : Valuation τ sig (Elt F)) :
    after ops V (main_v240 : DevRef τ sig) = RW5 V (main_v240 : DevRef τ sig) := by
  rw [after_ops]

end Cert.ReferenceIdeal.Hand

end
-- ==== Proof.Bridge.lean ====
/- The value bridge. The reference's fold, read at its five layer boundaries over ANY contents of its buffers, is the same
   composition of the stages that the kernel program's result is; from memories that agree on the arguments the two
   results are therefore equal. -/
import proofs.«148293_j56684978372941_1_alg».proof.Proof.Layers
import proofs.«148293_j56684978372941_1_alg».proof.Proof.Ref.Read

set_option maxRecDepth 16384

noncomputable section

namespace Cert.Hand.Bridge

open Idealize.ShloMosaic Idealize.ShloMosaic.TcCoe Idealize.SL.Sem Idealize.ShloMosaic.StableHlo
open Cert.KernelIdeal Cert.KernelIdeal.Gen Cert.KernelIdeal.Hand Cert.Hand.Spec Cert.Hand.Math

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The two launch memories hold the same arguments. -/
def Agree : Prop := ∀ c : Dev nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)

/-- The reference's result over any contents `V` of its buffers whose argument buffers hold `x₀ … x₂₈`: the stages composed
    over those values. -/
theorem ref_closed (V : Valuation Cert.ReferenceIdeal.τ Cert.ReferenceIdeal.sig (Elt Ideal))
    (x0 : IVec S50000 32) (x1 : IVec S200000 32) (x2 : IVec S200000 32) (x3 : IVec S200000 32) (x4 : IVec S200000 32) (x5 : IVec S200000 32) (x6 : IVec S200000 32) (x7 : IVec S2x100000 32) (x8 : IVec S50000 32) (x9 : FVec Ideal S50000x512 .f32) (x10 : FVec Ideal S16x512 .f32) (x11 : FVec Ideal S512x512 .f32) (x12 : FVec Ideal S3x512x512 .f32) (x13 : FVec Ideal S512x512 .f32) (x14 : FVec Ideal S3x512x512 .f32) (x15 : FVec Ideal S512 .f32) (x16 : FVec Ideal S512 .f32) (x17 : FVec Ideal S512x256 .f32) (x18 : FVec Ideal S3x512x256 .f32) (x19 : FVec Ideal S768x256 .f32) (x20 : FVec Ideal S256 .f32) (x21 : FVec Ideal S256 .f32) (x22 : FVec Ideal S256 .f32) (x23 : FVec Ideal S256 .f32) (x24 : FVec Ideal S256 .f32) (x25 : FVec Ideal S256x1 .f32) (x26 : FVec Ideal S1 .f32) (x27 : FVec Ideal S_ .f32) (x28 : FVec Ideal S_ .f32)
    (h0 : V Cert.ReferenceIdeal.main_arg0 = x0)
    (h1 : V Cert.ReferenceIdeal.main_arg1 = x1)
    (h2 : V Cert.ReferenceIdeal.main_arg2 = x2)
    (h3 : V Cert.ReferenceIdeal.main_arg3 = x3)
    (h4 : V Cert.ReferenceIdeal.main_arg4 = x4)
    (h5 : V Cert.ReferenceIdeal.main_arg5 = x5)
    (h6 : V Cert.ReferenceIdeal.main_arg6 = x6)
    (h7 : V Cert.ReferenceIdeal.main_arg7 = x7)
    (h8 : V Cert.ReferenceIdeal.main_arg8 = x8)
    (h9 : V Cert.ReferenceIdeal.main_arg9 = x9)
    (h10 : V Cert.ReferenceIdeal.main_arg10 = x10)
    (h11 : V Cert.ReferenceIdeal.main_arg11 = x11)
    (h12 : V Cert.ReferenceIdeal.main_arg12 = x12)
    (h13 : V Cert.ReferenceIdeal.main_arg13 = x13)
    (h14 : V Cert.ReferenceIdeal.main_arg14 = x14)
    (h15 : V Cert.ReferenceIdeal.main_arg15 = x15)
    (h16 : V Cert.ReferenceIdeal.main_arg16 = x16)
    (h17 : V Cert.ReferenceIdeal.main_arg17 = x17)
    (h18 : V Cert.ReferenceIdeal.main_arg18 = x18)
    (h19 : V Cert.ReferenceIdeal.main_arg19 = x19)
    (h20 : V Cert.ReferenceIdeal.main_arg20 = x20)
    (h21 : V Cert.ReferenceIdeal.main_arg21 = x21)
    (h22 : V Cert.ReferenceIdeal.main_arg22 = x22)
    (h23 : V Cert.ReferenceIdeal.main_arg23 = x23)
    (h24 : V Cert.ReferenceIdeal.main_arg24 = x24)
    (h25 : V Cert.ReferenceIdeal.main_arg25 = x25)
    (h26 : V Cert.ReferenceIdeal.main_arg26 = x26)
    (h27 : V Cert.ReferenceIdeal.main_arg27 = x27)
    (h28 : V Cert.ReferenceIdeal.main_arg28 = x28) :
    Cert.ReferenceIdeal.Hand.RW5 V Cert.ReferenceIdeal.main_v240 =
      stage5 (stage4 (stage3 (residual (F := Ideal)
            (stage1 (encode x9 x10 x0) x1 x2 x3 x4 x5 x6 x11 x12)
            (stage2 (stage1 (encode x9 x10 x0) x1 x2 x3 x4 x5 x6 x11 x12)
              x1 x2 x3 x4 x5 x6 x13 x14)
            x15 x16)
          x1 x2 x3 x4 x5 x6 x17 x18)
        x7 x19 x20 x21 x22 x23 x24)
      x7 x8 x25 x26 x27 x28 := by
  subst h0; subst h1; subst h2; subst h3; subst h4; subst h5; subst h6; subst h7; subst h8; subst h9; subst h10; subst h11; subst h12; subst h13; subst h14; subst h15; subst h16; subst h17; subst h18; subst h19; subst h20; subst h21; subst h22; subst h23; subst h24; subst h25; subst h26; subst h27; subst h28
  rw [Cert.ReferenceIdeal.Hand.RW5_score, Cert.ReferenceIdeal.Hand.RW4_h1, Cert.ReferenceIdeal.Hand.RW3_z]
  unfold Cert.ReferenceIdeal.Hand.x2
  rw [Cert.ReferenceIdeal.Hand.RW2_h, Cert.ReferenceIdeal.Hand.RW1_x1]
  rfl

/-- From memories that agree on the arguments, the reference's fold ends where the kernel program does. -/
theorem result_eq (hpre : Cert.Pre_KernelIdeal (hPre_finite_inputs := Cert.Pre_finite_inputs.Gen.facts) m) (hagree : Agree m m') (c : Dev nD) :
    StableHlo.after (Cert.ReferenceIdeal.Hand.ops (F := Ideal)) (fun b => m' (c, b)) (Cert.ReferenceIdeal.main_v240 : DevRef Cert.ReferenceIdeal.τ Cert.ReferenceIdeal.sig)
      = W21 m c main_v219 :=
  (Cert.ReferenceIdeal.Hand.after_ops_result _).trans
    ((ref_closed (fun b => m' (c, b)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2.1 (hagree c).2.2.2.2.2.2.2.2.2.2.2.2.2.2.2.2.2.2.2.2.2.2.2.2.2.2.2.1 (hagree c).2.2.2.2.2.2.2.2.2.2.2.2.2.2.2.2.2.2.2.2.2.2.2.2.2.2.2.2).trans
      (kernel_closed m hpre c).symm)

end Cert.Hand.Bridge

end
-- ==== Proof.lean ====
/- The certificate of the tiled-matmul graph network against its reference.

   The kernel program computes three relational graph layers and a link-prediction head; each dense transform is ONE matrix
   product over the concatenated inputs [x | m₀ | m₁ | m₂] against the stacked weights [W_loop ; W₀ ; W₁ ; W₂], tiled over
   row blocks and accumulated over the four contraction blocks into a scratch sum that restarts at the first block, and the
   head's product (three contraction blocks) is followed by relu(· + b₁)·scale + shift with scale = g·rsqrt(var + ε),
   shift = b − mean·scale. The reference adds four products left to right and normalises as ((relu(·) − mean)·rsqrt(var + ε))·g + b.

   Over the extended reals the two agree entry by entry: a sum over 2048 (768) columns of a concatenation is the sum of the
   blocks' sums, zero is neutral, and the two normalisations are one function of any extended real as soon as mean, g, b
   and rsqrt(var + ε) are real numbers — which finite inputs with var ≥ 0 give. Everything else (gathers, segment sums, the
   layer norm, the degree terms) is the same host computation on both sides, applied to equal values.

   Frames: the kernel programs' run is the list of @main's segments, every host stretch folding its operations over the
   buffers' contents and every product replacing only its output array; the arguments are written by nothing. The
   reference's run is its operations in order. -/
import proofs.«148293_j56684978372941_1_alg».proof.Defs
import proofs.«148293_j56684978372941_1_alg».proof.Proof.Gen.Kernel
import proofs.«148293_j56684978372941_1_alg».proof.Proof.Gen.KernelIdeal
import proofs.«148293_j56684978372941_1_alg».proof.Proof.Gen.ReferenceIdeal
import proofs.«148293_j56684978372941_1_alg».proof.Proof.Gen.Pre_finite_inputs
import proofs.«148293_j56684978372941_1_alg».proof.Proof.K.Claims
import proofs.«148293_j56684978372941_1_alg».proof.Proof.K.Reg0
import proofs.«148293_j56684978372941_1_alg».proof.Proof.K.Reg1
import proofs.«148293_j56684978372941_1_alg».proof.Proof.K.Reg2
import proofs.«148293_j56684978372941_1_alg».proof.Proof.K.Reg3
import proofs.«148293_j56684978372941_1_alg».proof.Proof.KI.Claims
import proofs.«148293_j56684978372941_1_alg».proof.Proof.KI.Reg0
import proofs.«148293_j56684978372941_1_alg».proof.Proof.KI.Reg1
import proofs.«148293_j56684978372941_1_alg».proof.Proof.KI.Reg2
import proofs.«148293_j56684978372941_1_alg».proof.Proof.KI.Reg3
import proofs.«148293_j56684978372941_1_alg».proof.Proof.Ref.Run
import proofs.«148293_j56684978372941_1_alg».proof.Proof.Bridge

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m g _ => Cert.Kernel.Hand.frame_of (F := Bits) m g (Cert.Kernel.Hand.reg0 m) (Cert.Kernel.Hand.hpre0 m) (Cert.Kernel.Hand.hpost0 m) (Cert.Kernel.Hand.reg1 m) (Cert.Kernel.Hand.hpre1 m) (Cert.Kernel.Hand.hpost1 m) (Cert.Kernel.Hand.reg2 m) (Cert.Kernel.Hand.hpre2 m) (Cert.Kernel.Hand.hpost2 m) (Cert.Kernel.Hand.reg3 m) (Cert.Kernel.Hand.hpre3 m) (Cert.Kernel.Hand.hpost3 m)

/-- So does its idealization. -/
theorem frame_ki : Cert.frame_KernelIdeal (hKernelIdeal := Cert.KernelIdeal.Gen.facts) (hPre_finite_inputs := Cert.Pre_finite_inputs.Gen.facts) :=
  fun m g _ => Cert.KernelIdeal.Hand.frame_of (F := Ideal) m g (Cert.KernelIdeal.Hand.reg0 m) (Cert.KernelIdeal.Hand.hpre0 m) (Cert.KernelIdeal.Hand.hpost0 m) (Cert.KernelIdeal.Hand.reg1 m) (Cert.KernelIdeal.Hand.hpre1 m) (Cert.KernelIdeal.Hand.hpost1 m) (Cert.KernelIdeal.Hand.reg2 m) (Cert.KernelIdeal.Hand.hpre2 m) (Cert.KernelIdeal.Hand.hpost2 m) (Cert.KernelIdeal.Hand.reg3 m) (Cert.KernelIdeal.Hand.hpre3 m) (Cert.KernelIdeal.Hand.hpost3 m)

/-- And the reference. -/
theorem frame_ri : Cert.frame_ReferenceIdeal (hReferenceIdeal := Cert.ReferenceIdeal.Gen.facts) (hPre_finite_inputs := Cert.Pre_finite_inputs.Gen.facts) :=
  fun m g _ => Cert.ReferenceIdeal.Hand.frame m g

/-- Over the extended reals both programs end with the same scores: the kernel's result buffer holds the last boundary's
    contents, the reference's its operations' fold, and the two are one function of the (equal) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W21 m c Cert.KernelIdeal.main_v219,
    Cert.KernelIdeal.Hand.full_of (F := Ideal) m g (Cert.KernelIdeal.Hand.reg0 m) (Cert.KernelIdeal.Hand.hpre0 m) (Cert.KernelIdeal.Hand.hpost0 m) (Cert.KernelIdeal.Hand.reg1 m) (Cert.KernelIdeal.Hand.hpre1 m) (Cert.KernelIdeal.Hand.hpost1 m) (Cert.KernelIdeal.Hand.reg2 m) (Cert.KernelIdeal.Hand.hpre2 m) (Cert.KernelIdeal.Hand.hpost2 m) (Cert.KernelIdeal.Hand.reg3 m) (Cert.KernelIdeal.Hand.hpre3 m) (Cert.KernelIdeal.Hand.hpost3 m), ?_⟩
  refine (θ_run Cert.ReferenceIdeal.defs _ _).mono (fun r h c => ⟨(h c Cert.ReferenceIdeal.main_v240).trans ?_,
        (h c Cert.ReferenceIdeal.main_arg0).trans (Cert.ReferenceIdeal.Hand.arg0_kept _),
        (h c Cert.ReferenceIdeal.main_arg1).trans (Cert.ReferenceIdeal.Hand.arg1_kept _),
        (h c Cert.ReferenceIdeal.main_arg2).trans (Cert.ReferenceIdeal.Hand.arg2_kept _),
        (h c Cert.ReferenceIdeal.main_arg3).trans (Cert.ReferenceIdeal.Hand.arg3_kept _),
        (h c Cert.ReferenceIdeal.main_arg4).trans (Cert.ReferenceIdeal.Hand.arg4_kept _),
        (h c Cert.ReferenceIdeal.main_arg5).trans (Cert.ReferenceIdeal.Hand.arg5_kept _),
        (h c Cert.ReferenceIdeal.main_arg6).trans (Cert.ReferenceIdeal.Hand.arg6_kept _),
        (h c Cert.ReferenceIdeal.main_arg7).trans (Cert.ReferenceIdeal.Hand.arg7_kept _),
        (h c Cert.ReferenceIdeal.main_arg8).trans (Cert.ReferenceIdeal.Hand.arg8_kept _),
        (h c Cert.ReferenceIdeal.main_arg9).trans (Cert.ReferenceIdeal.Hand.arg9_kept _),
        (h c Cert.ReferenceIdeal.main_arg10).trans (Cert.ReferenceIdeal.Hand.arg10_kept _),
        (h c Cert.ReferenceIdeal.main_arg11).trans (Cert.ReferenceIdeal.Hand.arg11_kept _),
        (h c Cert.ReferenceIdeal.main_arg12).trans (Cert.ReferenceIdeal.Hand.arg12_kept _),
        (h c Cert.ReferenceIdeal.main_arg13).trans (Cert.ReferenceIdeal.Hand.arg13_kept _),
        (h c Cert.ReferenceIdeal.main_arg14).trans (Cert.ReferenceIdeal.Hand.arg14_kept _),
        (h c Cert.ReferenceIdeal.main_arg15).trans (Cert.ReferenceIdeal.Hand.arg15_kept _),
        (h c Cert.ReferenceIdeal.main_arg16).trans (Cert.ReferenceIdeal.Hand.arg16_kept _),
        (h c Cert.ReferenceIdeal.main_arg17).trans (Cert.ReferenceIdeal.Hand.arg17_kept _),
        (h c Cert.ReferenceIdeal.main_arg18).trans (Cert.ReferenceIdeal.Hand.arg18_kept _),
        (h c Cert.ReferenceIdeal.main_arg19).trans (Cert.ReferenceIdeal.Hand.arg19_kept _),
        (h c Cert.ReferenceIdeal.main_arg20).trans (Cert.ReferenceIdeal.Hand.arg20_kept _),
        (h c Cert.ReferenceIdeal.main_arg21).trans (Cert.ReferenceIdeal.Hand.arg21_kept _),
        (h c Cert.ReferenceIdeal.main_arg22).trans (Cert.ReferenceIdeal.Hand.arg22_kept _),
        (h c Cert.ReferenceIdeal.main_arg23).trans (Cert.ReferenceIdeal.Hand.arg23_kept _),
        (h c Cert.ReferenceIdeal.main_arg24).trans (Cert.ReferenceIdeal.Hand.arg24_kept _),
        (h c Cert.ReferenceIdeal.main_arg25).trans (Cert.ReferenceIdeal.Hand.arg25_kept _),
        (h c Cert.ReferenceIdeal.main_arg26).trans (Cert.ReferenceIdeal.Hand.arg26_kept _),
        (h c Cert.ReferenceIdeal.main_arg27).trans (Cert.ReferenceIdeal.Hand.arg27_kept _),
        (h c Cert.ReferenceIdeal.main_arg28).trans (Cert.ReferenceIdeal.Hand.arg28_kept _)⟩) (Cert.ReferenceIdeal.Hand.run (F := Ideal) m' g')
  exact Cert.Hand.Bridge.result_eq m m' hpre hagree c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
